-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v154)) (v1 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_v161) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S2x32x131072 : Shape := ⟨3, ![2, 32, 131072]⟩
abbrev S2048x2048 : Shape := ⟨2, ![2048, 2048]⟩
abbrev S325x128 : Shape := ⟨2, ![325, 128]⟩
abbrev S128 : Shape := ⟨1, ![128]⟩
abbrev S325x64 : Shape := ⟨2, ![325, 64]⟩
abbrev S64 : Shape := ⟨1, ![64]⟩
abbrev S640x128 : Shape := ⟨2, ![640, 128]⟩
abbrev S640x64 : Shape := ⟨2, ![640, 64]⟩
abbrev S64x1 : Shape := ⟨2, ![64, 1]⟩
abbrev S1 : Shape := ⟨1, ![1]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2x32x131072 : S_.BroadcastsInDim S2x32x131072 (![] : Fin 0 → Fin S2x32x131072.rank)
  reducesTo_S2x32x131072_S_d0_1_2 : S2x32x131072.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S325x128 : S_.BroadcastsInDim S325x128 (![] : Fin 0 → Fin S325x128.rank)
  reducesTo_S325x128_S_d0_1 : S325x128.ReducesTo [0, 1] S_
  bcast_S_S128 : S_.BroadcastsInDim S128 (![] : Fin 0 → Fin S128.rank)
  reducesTo_S128_S_d0 : S128.ReducesTo [0] S_
  bcast_S_S325x64 : S_.BroadcastsInDim S325x64 (![] : Fin 0 → Fin S325x64.rank)
  reducesTo_S325x64_S_d0_1 : S325x64.ReducesTo [0, 1] S_
  bcast_S_S64 : S_.BroadcastsInDim S64 (![] : Fin 0 → Fin S64.rank)
  reducesTo_S64_S_d0 : S64.ReducesTo [0] S_
  bcast_S_S640x128 : S_.BroadcastsInDim S640x128 (![] : Fin 0 → Fin S640x128.rank)
  reducesTo_S640x128_S_d0_1 : S640x128.ReducesTo [0, 1] S_
  bcast_S_S640x64 : S_.BroadcastsInDim S640x64 (![] : Fin 0 → Fin S640x64.rank)
  reducesTo_S640x64_S_d0_1 : S640x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S640x128 .f32) (main_arg8 : FVec F S128 .f32) (main_arg9 : FVec F S640x64 .f32) (main_arg10 : FVec F S64 .f32) (main_arg11 : FVec F S64x1 .f32) (main_arg12 : FVec F S1 .f32) (main_v33 : IVec S_ 1) : IVec S_ 1 :=
  let main_v34 : FVec F S640x128 .f32 := Host.absf main_arg7
  let main_cst_12 : FVec F S_ .f32 := constant S_ .f32 0x7F800000#32
  let main_v35 : FVec F S640x128 .f32 := broadcastInDim S640x128 ![] bcast_S_S640x128 main_cst_12
  let main_v36 : IVec S640x128 1 := cmpf .olt main_v34 main_v35
  let main_c_13 : IVec S_ 1 := constantI S_ 1 1#1
  let main_v37 : IVec S_ 1 := (fun x v => Host.reduce IntOp.andi x v reducesTo_S640x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S640x64 .f32 := Host.absf main_arg9
  let main_cst_16 : FVec F S_ .f32 := constant S_ .f32 0x7F800000#32
  let main_v45 : FVec F S640x64 .f32 := broadcastInDim S640x64 ![] bcast_S_S640x64 main_cst_16
  let main_v46 : IVec S640x64 1 := cmpf .olt main_v44 main_v45
  let main_c_17 : IVec S_ 1 := constantI S_ 1 1#1
  let main_v47 : IVec S_ 1 := (fun x v => Host.reduce IntOp.andi x v reducesTo_S640x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S325x64 .f32) (main_arg6 : FVec F S64 .f32) (main_arg7 : FVec F S640x128 .f32) (main_arg8 : FVec F S128 .f32) (main_arg9 : FVec F S640x64 .f32) (main_arg10 : FVec F S64 .f32) (main_arg11 : FVec F S64x1 .f32) (main_arg12 : FVec F S1 .f32) (main_v13 : IVec S_ 1) (main_v16 : IVec S325x128 1) : IVec S_ 1 :=
  let main_c_5 : IVec S_ 1 := constantI S_ 1 1#1
  let main_v17 : IVec S_ 1 := (fun x v => Host.reduce IntOp.andi x v reducesTo_S325x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S325x64 .f32 := Host.absf main_arg5
  let main_cst_8 : FVec F S_ .f32 := constant S_ .f32 0x7F800000#32
  let main_v25 : FVec F S325x64 .f32 := broadcastInDim S325x64 ![] bcast_S_S325x64 main_cst_8
  let main_v26 : IVec S325x64 1 := cmpf .olt main_v24 main_v25
  let main_c_9 : IVec S_ 1 := constantI S_ 1 1#1
  let main_v27 : IVec S_ 1 := (fun x v => Host.reduce IntOp.andi x v reducesTo_S325x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x2048 .f32) (main_arg1 : FVec F S2x32x131072 .f32) (main_arg2 : FVec F S2048x2048 .f32) (main_arg3 : FVec F S325x128 .f32) (main_arg4 : FVec F S128 .f32) (main_arg5 : FVec F S325x64 .f32) (main_arg6 : FVec F S64 .f32) (main_arg7 : FVec F S640x128 .f32) (main_arg8 : FVec F S128 .f32) (main_arg9 : FVec F S640x64 .f32) (main_arg10 : FVec F S64 .f32) (main_arg11 : FVec F S64x1 .f32) (main_arg12 : FVec F S1 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S2x32x131072 .f32 := Host.absf main_arg1
  let main_cst_0 : FVec F S_ .f32 := constant S_ .f32 0x7F800000#32
  let main_v5 : FVec F S2x32x131072 .f32 := broadcastInDim S2x32x131072 ![] bcast_S_S2x32x131072 main_cst_0
  let main_v6 : IVec S2x32x131072 1 := cmpf .olt main_v4 main_v5
  let main_c_1 : IVec S_ 1 := constantI S_ 1 1#1
  let main_v7 : IVec S_ 1 := (fun x v => Host.reduce IntOp.andi x v reducesTo_S2x32x131072_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S325x128 .f32 := Host.absf main_arg3
  let main_cst_4 : FVec F S_ .f32 := constant S_ .f32 0x7F800000#32
  let main_v15 : FVec F S325x128 .f32 := broadcastInDim S325x128 ![] bcast_S_S325x128 main_cst_4
  let main_v16 : IVec S325x128 1 := cmpf .olt main_v14 main_v15
  fn_part1 (F := F) main_arg4 main_arg5 main_arg6 main_arg7 main_arg8 main_arg9 main_arg10 main_arg11 main_arg12 main_v13 main_v16
-- ==== Kernel.lean ====
abbrev S32x2048 : Shape := ⟨2, ![32, 2048]⟩
abbrev S2x32x131072 : Shape := ⟨3, ![2, 32, 131072]⟩
abbrev S2048x2048 : Shape := ⟨2, ![2048, 2048]⟩
abbrev S325x128 : Shape := ⟨2, ![325, 128]⟩
abbrev S128 : Shape := ⟨1, ![128]⟩
abbrev S325x64 : Shape := ⟨2, ![325, 64]⟩
abbrev S64 : Shape := ⟨1, ![64]⟩
abbrev S640x128 : Shape := ⟨2, ![640, 128]⟩
abbrev S640x64 : Shape := ⟨2, ![640, 64]⟩
abbrev S64x1 : Shape := ⟨2, ![64, 1]⟩
abbrev S1 : Shape := ⟨1, ![1]⟩
abbrev S_ : Shape := ⟨0, ![]⟩
abbrev S2048 : Shape := ⟨1, ![2048]⟩
abbrev S2048x1 : Shape := ⟨2, ![2048, 1]⟩
abbrev S32x2048x1 : Shape := ⟨3, ![32, 2048, 1]⟩
abbrev S2048x32x1 : Shape := ⟨3, ![2048, 32, 1]⟩
abbrev S1x32x131072 : Shape := ⟨3, ![1, 32, 131072]⟩
abbrev S32x131072 : Shape := ⟨2, ![32, 131072]⟩
abbrev S32x2048x64 : Shape := ⟨3, ![32, 2048, 64]⟩
abbrev S2048x32x64 : Shape := ⟨3, ![2048, 32, 64]⟩
abbrev S2048x32x65 : Shape := ⟨3, ![2048, 32, 65]⟩
abbrev S2048x2080 : Shape := ⟨2, ![2048, 2080]⟩
abbrev S128x2048 : Shape := ⟨2, ![128, 2048]⟩
abbrev S128x2080 : Shape := ⟨2, ![128, 2080]⟩
abbrev S65x5x128 : Shape := ⟨3, ![65, 5, 128]⟩
abbrev S65x1x128 : Shape := ⟨3, ![65, 1, 128]⟩
abbrev S65x128 : Shape := ⟨2, ![65, 128]⟩
abbrev S65536x65 : Shape := ⟨2, ![65536, 65]⟩
abbrev S1x128 : Shape := ⟨2, ![1, 128]⟩
abbrev S65536x128 : Shape := ⟨2, ![65536, 128]⟩
abbrev S4096x65 : Shape := ⟨2, ![4096, 65]⟩
abbrev S4096x128 : Shape := ⟨2, ![4096, 128]⟩
abbrev S2048x32x128 : Shape := ⟨3, ![2048, 32, 128]⟩
abbrev S65x5x64 : Shape := ⟨3, ![65, 5, 64]⟩
abbrev S65x1x64 : Shape := ⟨3, ![65, 1, 64]⟩
abbrev S65x64 : Shape := ⟨2, ![65, 64]⟩
abbrev S1x64 : Shape := ⟨2, ![1, 64]⟩
abbrev S65536x64 : Shape := ⟨2, ![65536, 64]⟩
abbrev S4096x64 : Shape := ⟨2, ![4096, 64]⟩
abbrev S2048x4096 : Shape := ⟨2, ![2048, 4096]⟩
abbrev S128x4096 : Shape := ⟨2, ![128, 4096]⟩
abbrev S128x5x128 : Shape := ⟨3, ![128, 5, 128]⟩
abbrev S128x1x128 : Shape := ⟨3, ![128, 1, 128]⟩
abbrev S128x128 : Shape := ⟨2, ![128, 128]⟩
abbrev S128x5x64 : Shape := ⟨3, ![128, 5, 64]⟩
abbrev S128x1x64 : Shape := ⟨3, ![128, 1, 64]⟩
abbrev S128x64 : Shape := ⟨2, ![128, 64]⟩
abbrev S65536x1 : Shape := ⟨2, ![65536, 1]⟩
abbrev S1x1 : Shape := ⟨2, ![1, 1]⟩
abbrev S2048x32 : Shape := ⟨2, ![2048, 32]⟩

abbrev nBuf : Space → Nat
  | .hbm => 189
  | .vmem => 184
  | .smem => 0
  | _ => 0

abbrev hbmTy0_0 (i : Nat) : BufTy := match i % 128 with
  | 0 => ⟨S32x2048, .f32⟩
  | 1 => ⟨S2x32x131072, .f32⟩
  | 2 => ⟨S2048x2048, .f32⟩
  | 3 => ⟨S325x128, .f32⟩
  | 4 => ⟨S128, .f32⟩
  | 5 => ⟨S325x64, .f32⟩
  | 6 => ⟨S64, .f32⟩
  | 7 => ⟨S640x128, .f32⟩
  | 8 => ⟨S128, .f32⟩
  | 9 => ⟨S640x64, .f32⟩
  | 10 => ⟨S64, .f32⟩
  | 11 => ⟨S64x1, .f32⟩
  | 12 => ⟨S1, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S2048x2048, .f32⟩
  | 20 => ⟨S2048x2048, .f32⟩
  | 21 => ⟨S2048x2048, .f32⟩
  | 22 => ⟨S2048x2048, .f32⟩
  | 23 => ⟨S_, .f32⟩
  | 24 => ⟨S2048, .f32⟩
  | 25 => ⟨S2048x1, .f32⟩
  | 26 => ⟨S_, .f32⟩
  | 27 => ⟨S2048x1, .f32⟩
  | 28 => ⟨S2048x1, .f32⟩
  | 29 => ⟨S2048x2048, .f32⟩
  | 30 => ⟨S2048x2048, .f32⟩
  | 31 => ⟨S2048x2048, .f32⟩
  | 32 => ⟨S2048x2048, .bf16⟩
  | 33 => ⟨S2048x2048, .bf16⟩
  | 34 => ⟨S32x2048x1, .f32⟩
  | 35 => ⟨S2048x32x1, .f32⟩
  | 36 => ⟨S1x32x131072, .f32⟩
  | 37 => ⟨S32x131072, .f32⟩
  | 38 => ⟨S32x2048x64, .f32⟩
  | 39 => ⟨S2048x32x64, .f32⟩
  | 40 => ⟨S2048x32x65, .f32⟩
  | 41 => ⟨S2048x2080, .f32⟩
  | 42 => ⟨S2048x2080, .bf16⟩
  | 43 => ⟨S2048x2080, .f32⟩
  | 44 => ⟨S2048x2080, .bf16⟩
  | 45 => ⟨S2048x2080, .f32⟩
  | 46 => ⟨S2048x2080, .f32⟩
  | 47 => ⟨S2048x2080, .bf16⟩
  | 48 => ⟨S2048x2080, .f32⟩
  | 49 => ⟨S65x5x128, .f32⟩
  | 50 => ⟨S65x1x128, .f32⟩
  | 51 => ⟨S65x128, .f32⟩
  | 52 => ⟨S65x1x128, .f32⟩
  | 53 => ⟨S65x128, .f32⟩
  | 54 => ⟨S65x1x128, .f32⟩
  | 55 => ⟨S65x128, .f32⟩
  | 56 => ⟨S65x1x128, .f32⟩
  | 57 => ⟨S65x128, .f32⟩
  | 58 => ⟨S65x1x128, .f32⟩
  | 59 => ⟨S65x128, .f32⟩
  | 60 => ⟨S65536x65, .f32⟩
  | 61 => ⟨S65536x65, .f32⟩
  | 62 => ⟨S65536x65, .f32⟩
  | 63 => ⟨S65536x65, .f32⟩
  | 64 => ⟨S65536x65, .f32⟩
  | 65 => ⟨S1x128, .f32⟩
  | 66 => ⟨S65536x128, .f32⟩
  | 67 => ⟨S2048x32x128, .f32⟩
  | 68 => ⟨S2048x32x64, .f32⟩
  | 69 => ⟨S2048x32x64, .f32⟩
  | 70 => ⟨S2048x32x64, .f32⟩
  | 71 => ⟨S2048x32x65, .f32⟩
  | 72 => ⟨S2048x2080, .f32⟩
  | 73 => ⟨S2048x2080, .bf16⟩
  | 74 => ⟨S2048x2080, .f32⟩
  | 75 => ⟨S2048x2080, .bf16⟩
  | 76 => ⟨S2048x2080, .f32⟩
  | 77 => ⟨S2048x2080, .f32⟩
  | 78 => ⟨S2048x2080, .bf16⟩
  | 79 => ⟨S2048x2080, .f32⟩
  | 80 => ⟨S65x5x64, .f32⟩
  | 81 => ⟨S65x1x64, .f32⟩
  | 82 => ⟨S65x64, .f32⟩
  | 83 => ⟨S65x1x64, .f32⟩
  | 84 => ⟨S65x64, .f32⟩
  | 85 => ⟨S65x1x64, .f32⟩
  | 86 => ⟨S65x64, .f32⟩
  | 87 => ⟨S65x1x64, .f32⟩
  | 88 => ⟨S65x64, .f32⟩
  | 89 => ⟨S65x1x64, .f32⟩
  | 90 => ⟨S65x64, .f32⟩
  | 91 => ⟨S65536x65, .f32⟩
  | 92 => ⟨S65536x65, .f32⟩
  | 93 => ⟨S65536x65, .f32⟩
  | 94 => ⟨S65536x65, .f32⟩
  | 95 => ⟨S65536x65, .f32⟩
  | 96 => ⟨S1x64, .f32⟩
  | 97 => ⟨S65536x64, .f32⟩
  | 98 => ⟨S2048x32x64, .f32⟩
  | 99 => ⟨S2048x32x64, .f32⟩
  | 100 => ⟨S_, .f32⟩
  | 101 => ⟨S2048x32x64, .f32⟩
  | 102 => ⟨S2048x32x64, .f32⟩
  | 103 => ⟨S2048x32x64, .f32⟩
  | 104 => ⟨S2048x32x64, .f32⟩
  | 105 => ⟨S1x32x131072, .f32⟩
  | 106 => ⟨S32x131072, .f32⟩
  | 107 => ⟨S32x2048x64, .f32⟩
  | 108 => ⟨S2048x32x64, .f32⟩
  | 109 => ⟨S2048x32x128, .f32⟩
  | 110 => ⟨S2048x4096, .f32⟩
  | 111 => ⟨S2048x4096, .bf16⟩
  | 112 => ⟨S2048x4096, .f32⟩
  | 113 => ⟨S2048x4096, .bf16⟩
  | 114 => ⟨S2048x4096, .f32⟩
  | 115 => ⟨S2048x4096, .f32⟩
  | 116 => ⟨S2048x4096, .bf16⟩
  | 117 => ⟨S2048x4096, .f32⟩
  | 118 => ⟨S128x5x128, .f32⟩
  | 119 => ⟨S128x1x128, .f32⟩
  | 120 => ⟨S128x128, .f32⟩
  | 121 => ⟨S128x1x128, .f32⟩
  | 122 => ⟨S128x128, .f32⟩
  | 123 => ⟨S128x1x128, .f32⟩
  | 124 => ⟨S128x128, .f32⟩
  | 125 => ⟨S128x1x128, .f32⟩
  | 126 => ⟨S128x128, .f32⟩
  | 127 => ⟨S128x1x128, .f32⟩
  | _ => ⟨S32x2048, .f32⟩

abbrev hbmTy0_1 (i : Nat) : BufTy := match i % 128 with
  | 0 => ⟨S128x128, .f32⟩
  | 1 => ⟨S65536x128, .f32⟩
  | 2 => ⟨S65536x128, .f32⟩
  | 3 => ⟨S65536x128, .f32⟩
  | 4 => ⟨S65536x128, .f32⟩
  | 5 => ⟨S65536x128, .f32⟩
  | 6 => ⟨S1x128, .f32⟩
  | 7 => ⟨S65536x128, .f32⟩
  | 8 => ⟨S2048x32x128, .f32⟩
  | 9 => ⟨S2048x32x64, .f32⟩
  | 10 => ⟨S2048x32x64, .f32⟩
  | 11 => ⟨S2048x32x64, .f32⟩
  | 12 => ⟨S2048x32x128, .f32⟩
  | 13 => ⟨S2048x4096, .f32⟩
  | 14 => ⟨S2048x4096, .bf16⟩
  | 15 => ⟨S2048x4096, .f32⟩
  | 16 => ⟨S2048x4096, .bf16⟩
  | 17 => ⟨S2048x4096, .f32⟩
  | 18 => ⟨S2048x4096, .f32⟩
  | 19 => ⟨S2048x4096, .bf16⟩
  | 20 => ⟨S2048x4096, .f32⟩
  | 21 => ⟨S128x5x64, .f32⟩
  | 22 => ⟨S128x1x64, .f32⟩
  | 23 => ⟨S128x64, .f32⟩
  | 24 => ⟨S128x1x64, .f32⟩
  | 25 => ⟨S128x64, .f32⟩
  | 26 => ⟨S128x1x64, .f32⟩
  | 27 => ⟨S128x64, .f32⟩
  | 28 => ⟨S128x1x64, .f32⟩
  | 29 => ⟨S128x64, .f32⟩
  | 30 => ⟨S128x1x64, .f32⟩
  | 31 => ⟨S128x64, .f32⟩
  | 32 => ⟨S65536x128, .f32⟩
  | 33 => ⟨S65536x128, .f32⟩
  | 34 => ⟨S65536x128, .f32⟩
  | 35 => ⟨S65536x128, .f32⟩
  | 36 => ⟨S65536x128, .f32⟩
  | 37 => ⟨S1x64, .f32⟩
  | 38 => ⟨S65536x64, .f32⟩
  | 39 => ⟨S2048x32x64, .f32⟩
  | 40 => ⟨S2048x32x64, .f32⟩
  | 41 => ⟨S_, .f32⟩
  | 42 => ⟨S2048x32x64, .f32⟩
  | 43 => ⟨S2048x32x64, .f32⟩
  | 44 => ⟨S2048x32x64, .f32⟩
  | 45 => ⟨S2048x32x64, .f32⟩
  | 46 => ⟨S65536x64, .f32⟩
  | 47 => ⟨S65536x1, .f32⟩
  | 48 => ⟨S1x1, .f32⟩
  | 49 => ⟨S65536x1, .f32⟩
  | 50 => ⟨S65536x1, .f32⟩
  | 51 => ⟨S2048x32x1, .f32⟩
  | 52 => ⟨S2048x32, .f32⟩
  | 53 => ⟨S32x2048, .f32⟩
  | 54 => ⟨S32x2048x64, .f32⟩
  | 55 => ⟨S32x131072, .f32⟩
  | 56 => ⟨S32x2048x64, .f32⟩
  | 57 => ⟨S32x131072, .f32⟩
  | 58 => ⟨S1x32x131072, .f32⟩
  | 59 => ⟨S1x32x131072, .f32⟩
  | 60 => ⟨S2x32x131072, .f32⟩
  | _ => ⟨S32x2048, .f32⟩

abbrev hbmTy (i : Nat) : BufTy := match i / 128 with
  | 0 => hbmTy0_0 i
  | 1 => hbmTy0_1 i
  | _ => ⟨S32x2048, .f32⟩

abbrev vmemTy0_0 (i : Nat) : BufTy := match i % 128 with
  | 0 => ⟨S128x2048, .bf16⟩
  | 1 => ⟨S128x2048, .bf16⟩
  | 2 => ⟨S2048x2080, .bf16⟩
  | 3 => ⟨S128x2080, .f32⟩
  | 4 => ⟨S128x2080, .f32⟩
  | 5 => ⟨S128x2080, .bf16⟩
  | 6 => ⟨S128x2080, .bf16⟩
  | 7 => ⟨S128x2048, .bf16⟩
  | 8 => ⟨S128x2048, .bf16⟩
  | 9 => ⟨S2048x2080, .bf16⟩
  | 10 => ⟨S128x2080, .f32⟩
  | 11 => ⟨S128x2080, .f32⟩
  | 12 => ⟨S128x2080, .f32⟩
  | 13 => ⟨S128x2080, .f32⟩
  | 14 => ⟨S128x2048, .bf16⟩
  | 15 => ⟨S128x2048, .bf16⟩
  | 16 => ⟨S2048x2080, .bf16⟩
  | 17 => ⟨S128x2080, .f32⟩
  | 18 => ⟨S128x2080, .f32⟩
  | 19 => ⟨S128x2080, .bf16⟩
  | 20 => ⟨S128x2080, .bf16⟩
  | 21 => ⟨S128x2048, .bf16⟩
  | 22 => ⟨S128x2048, .bf16⟩
  | 23 => ⟨S2048x2080, .bf16⟩
  | 24 => ⟨S128x2080, .f32⟩
  | 25 => ⟨S128x2080, .f32⟩
  | 26 => ⟨S128x2080, .f32⟩
  | 27 => ⟨S128x2080, .f32⟩
  | 28 => ⟨S4096x65, .f32⟩
  | 29 => ⟨S4096x65, .f32⟩
  | 30 => ⟨S4096x65, .f32⟩
  | 31 => ⟨S4096x65, .f32⟩
  | 32 => ⟨S4096x65, .f32⟩
  | 33 => ⟨S4096x65, .f32⟩
  | 34 => ⟨S4096x65, .f32⟩
  | 35 => ⟨S4096x65, .f32⟩
  | 36 => ⟨S4096x65, .f32⟩
  | 37 => ⟨S4096x65, .f32⟩
  | 38 => ⟨S65x128, .f32⟩
  | 39 => ⟨S65x128, .f32⟩
  | 40 => ⟨S65x128, .f32⟩
  | 41 => ⟨S65x128, .f32⟩
  | 42 => ⟨S65x128, .f32⟩
  | 43 => ⟨S1x128, .f32⟩
  | 44 => ⟨S4096x128, .f32⟩
  | 45 => ⟨S4096x128, .f32⟩
  | 46 => ⟨S128x2048, .bf16⟩
  | 47 => ⟨S128x2048, .bf16⟩
  | 48 => ⟨S2048x2080, .bf16⟩
  | 49 => ⟨S128x2080, .f32⟩
  | 50 => ⟨S128x2080, .f32⟩
  | 51 => ⟨S128x2080, .bf16⟩
  | 52 => ⟨S128x2080, .bf16⟩
  | 53 => ⟨S128x2048, .bf16⟩
  | 54 => ⟨S128x2048, .bf16⟩
  | 55 => ⟨S2048x2080, .bf16⟩
  | 56 => ⟨S128x2080, .f32⟩
  | 57 => ⟨S128x2080, .f32⟩
  | 58 => ⟨S128x2080, .f32⟩
  | 59 => ⟨S128x2080, .f32⟩
  | 60 => ⟨S128x2048, .bf16⟩
  | 61 => ⟨S128x2048, .bf16⟩
  | 62 => ⟨S2048x2080, .bf16⟩
  | 63 => ⟨S128x2080, .f32⟩
  | 64 => ⟨S128x2080, .f32⟩
  | 65 => ⟨S128x2080, .bf16⟩
  | 66 => ⟨S128x2080, .bf16⟩
  | 67 => ⟨S128x2048, .bf16⟩
  | 68 => ⟨S128x2048, .bf16⟩
  | 69 => ⟨S2048x2080, .bf16⟩
  | 70 => ⟨S128x2080, .f32⟩
  | 71 => ⟨S128x2080, .f32⟩
  | 72 => ⟨S128x2080, .f32⟩
  | 73 => ⟨S128x2080, .f32⟩
  | 74 => ⟨S4096x65, .f32⟩
  | 75 => ⟨S4096x65, .f32⟩
  | 76 => ⟨S4096x65, .f32⟩
  | 77 => ⟨S4096x65, .f32⟩
  | 78 => ⟨S4096x65, .f32⟩
  | 79 => ⟨S4096x65, .f32⟩
  | 80 => ⟨S4096x65, .f32⟩
  | 81 => ⟨S4096x65, .f32⟩
  | 82 => ⟨S4096x65, .f32⟩
  | 83 => ⟨S4096x65, .f32⟩
  | 84 => ⟨S65x64, .f32⟩
  | 85 => ⟨S65x64, .f32⟩
  | 86 => ⟨S65x64, .f32⟩
  | 87 => ⟨S65x64, .f32⟩
  | 88 => ⟨S65x64, .f32⟩
  | 89 => ⟨S1x64, .f32⟩
  | 90 => ⟨S4096x64, .f32⟩
  | 91 => ⟨S4096x64, .f32⟩
  | 92 => ⟨S128x2048, .bf16⟩
  | 93 => ⟨S128x2048, .bf16⟩
  | 94 => ⟨S2048x4096, .bf16⟩
  | 95 => ⟨S128x4096, .f32⟩
  | 96 => ⟨S128x4096, .f32⟩
  | 97 => ⟨S128x4096, .bf16⟩
  | 98 => ⟨S128x4096, .bf16⟩
  | 99 => ⟨S128x2048, .bf16⟩
  | 100 => ⟨S128x2048, .bf16⟩
  | 101 => ⟨S2048x4096, .bf16⟩
  | 102 => ⟨S128x4096, .f32⟩
  | 103 => ⟨S128x4096, .f32⟩
  | 104 => ⟨S128x4096, .f32⟩
  | 105 => ⟨S128x4096, .f32⟩
  | 106 => ⟨S128x2048, .bf16⟩
  | 107 => ⟨S128x2048, .bf16⟩
  | 108 => ⟨S2048x4096, .bf16⟩
  | 109 => ⟨S128x4096, .f32⟩
  | 110 => ⟨S128x4096, .f32⟩
  | 111 => ⟨S128x4096, .bf16⟩
  | 112 => ⟨S128x4096, .bf16⟩
  | 113 => ⟨S128x2048, .bf16⟩
  | 114 => ⟨S128x2048, .bf16⟩
  | 115 => ⟨S2048x4096, .bf16⟩
  | 116 => ⟨S128x4096, .f32⟩
  | 117 => ⟨S128x4096, .f32⟩
  | 118 => ⟨S128x4096, .f32⟩
  | 119 => ⟨S128x4096, .f32⟩
  | 120 => ⟨S4096x128, .f32⟩
  | 121 => ⟨S4096x128, .f32⟩
  | 122 => ⟨S4096x128, .f32⟩
  | 123 => ⟨S4096x128, .f32⟩
  | 124 => ⟨S4096x128, .f32⟩
  | 125 => ⟨S4096x128, .f32⟩
  | 126 => ⟨S4096x128, .f32⟩
  | 127 => ⟨S4096x128, .f32⟩
  | _ => ⟨S32x2048, .f32⟩

abbrev vmemTy0_1 (i : Nat) : BufTy := match i % 128 with
  | 0 => ⟨S4096x128, .f32⟩
  | 1 => ⟨S4096x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S1x128, .f32⟩
  | 8 => ⟨S4096x128, .f32⟩
  | 9 => ⟨S4096x128, .f32⟩
  | 10 => ⟨S128x2048, .bf16⟩
  | 11 => ⟨S128x2048, .bf16⟩
  | 12 => ⟨S2048x4096, .bf16⟩
  | 13 => ⟨S128x4096, .f32⟩
  | 14 => ⟨S128x4096, .f32⟩
  | 15 => ⟨S128x4096, .bf16⟩
  | 16 => ⟨S128x4096, .bf16⟩
  | 17 => ⟨S128x2048, .bf16⟩
  | 18 => ⟨S128x2048, .bf16⟩
  | 19 => ⟨S2048x4096, .bf16⟩
  | 20 => ⟨S128x4096, .f32⟩
  | 21 => ⟨S128x4096, .f32⟩
  | 22 => ⟨S128x4096, .f32⟩
  | 23 => ⟨S128x4096, .f32⟩
  | 24 => ⟨S128x2048, .bf16⟩
  | 25 => ⟨S128x2048, .bf16⟩
  | 26 => ⟨S2048x4096, .bf16⟩
  | 27 => ⟨S128x4096, .f32⟩
  | 28 => ⟨S128x4096, .f32⟩
  | 29 => ⟨S128x4096, .bf16⟩
  | 30 => ⟨S128x4096, .bf16⟩
  | 31 => ⟨S128x2048, .bf16⟩
  | 32 => ⟨S128x2048, .bf16⟩
  | 33 => ⟨S2048x4096, .bf16⟩
  | 34 => ⟨S128x4096, .f32⟩
  | 35 => ⟨S128x4096, .f32⟩
  | 36 => ⟨S128x4096, .f32⟩
  | 37 => ⟨S128x4096, .f32⟩
  | 38 => ⟨S4096x128, .f32⟩
  | 39 => ⟨S4096x128, .f32⟩
  | 40 => ⟨S4096x128, .f32⟩
  | 41 => ⟨S4096x128, .f32⟩
  | 42 => ⟨S4096x128, .f32⟩
  | 43 => ⟨S4096x128, .f32⟩
  | 44 => ⟨S4096x128, .f32⟩
  | 45 => ⟨S4096x128, .f32⟩
  | 46 => ⟨S4096x128, .f32⟩
  | 47 => ⟨S4096x128, .f32⟩
  | 48 => ⟨S128x64, .f32⟩
  | 49 => ⟨S128x64, .f32⟩
  | 50 => ⟨S128x64, .f32⟩
  | 51 => ⟨S128x64, .f32⟩
  | 52 => ⟨S128x64, .f32⟩
  | 53 => ⟨S1x64, .f32⟩
  | 54 => ⟨S4096x64, .f32⟩
  | 55 => ⟨S4096x64, .f32⟩
  | _ => ⟨S32x2048, .f32⟩

abbrev vmemTy (i : Nat) : BufTy := match i / 128 with
  | 0 => vmemTy0_0 i
  | 1 => vmemTy0_1 i
  | _ => ⟨S32x2048, .f32⟩

abbrev bufTy : (tb : Table) → Fin (tcTables nBuf tb) → BufTy
  | .hbm, ⟨i, _⟩ => hbmTy i
  | .local _ .vmem, ⟨i, _⟩ => vmemTy i
  | _, _ => ⟨S32x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 184 → Bool
  | ⟨i, _⟩ => dmaSemScopedAt i

abbrev sig : RefSig :=
  ofTc nBuf bufTy 0 184 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26_0 : Ref sig .tc := ⟨.hbm, 43, rfl⟩
abbrev main_v26_1 : Ref sig .tc := ⟨.hbm, 44, rfl⟩
abbrev main_v27 : Ref sig .tc := ⟨.hbm, 45, rfl⟩
abbrev main_v28_0 : Ref sig .tc := ⟨.hbm, 46, rfl⟩
abbrev main_v28_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55_0 : Ref sig .tc := ⟨.hbm, 74, rfl⟩
abbrev main_v55_1 : Ref sig .tc := ⟨.hbm, 75, rfl⟩
abbrev main_v56 : Ref sig .tc := ⟨.hbm, 76, rfl⟩
abbrev main_v57_0 : Ref sig .tc := ⟨.hbm, 77, rfl⟩
abbrev main_v57_1 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_3 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90_0 : Ref sig .tc := ⟨.hbm, 112, rfl⟩
abbrev main_v90_1 : Ref sig .tc := ⟨.hbm, 113, rfl⟩
abbrev main_v91 : Ref sig .tc := ⟨.hbm, 114, rfl⟩
abbrev main_v92_0 : Ref sig .tc := ⟨.hbm, 115, rfl⟩
abbrev main_v92_1 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119_0 : Ref sig .tc := ⟨.hbm, 143, rfl⟩
abbrev main_v119_1 : Ref sig .tc := ⟨.hbm, 144, rfl⟩
abbrev main_v120 : Ref sig .tc := ⟨.hbm, 145, rfl⟩
abbrev main_v121_0 : Ref sig .tc := ⟨.hbm, 146, rfl⟩
abbrev main_v121_1 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_4 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc4_stg8_0 : Ref sig .tc := ⟨.vmem, 41, rfl⟩
abbrev cc4_stg9_0 : Ref sig .tc := ⟨.vmem, 42, rfl⟩
abbrev cc4_stg10_0 : Ref sig .tc := ⟨.vmem, 43, rfl⟩
abbrev cc4_stg11_0 : Ref sig .tc := ⟨.vmem, 44, rfl⟩
abbrev cc4_stg11_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg3_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg3_1 : Ref sig .tc := ⟨.vmem, 66, rfl⟩
abbrev cc8_stg0_0 : Ref sig .tc := ⟨.vmem, 67, rfl⟩
abbrev cc8_stg0_1 : Ref sig .tc := ⟨.vmem, 68, rfl⟩
abbrev cc8_stg1_0 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg3_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc9_stg3_0 : Ref sig .tc := ⟨.vmem, 80, rfl⟩
abbrev cc9_stg3_1 : Ref sig .tc := ⟨.vmem, 81, rfl⟩
abbrev cc9_stg4_0 : Ref sig .tc := ⟨.vmem, 82, rfl⟩
abbrev cc9_stg4_1 : Ref sig .tc := ⟨.vmem, 83, rfl⟩
abbrev cc9_stg5_0 : Ref sig .tc := ⟨.vmem, 84, rfl⟩
abbrev cc9_stg6_0 : Ref sig .tc := ⟨.vmem, 85, rfl⟩
abbrev cc9_stg7_0 : Ref sig .tc := ⟨.vmem, 86, rfl⟩
abbrev cc9_stg8_0 : Ref sig .tc := ⟨.vmem, 87, rfl⟩
abbrev cc9_stg9_0 : Ref sig .tc := ⟨.vmem, 88, rfl⟩
abbrev cc9_stg10_0 : Ref sig .tc := ⟨.vmem, 89, rfl⟩
abbrev cc9_stg11_0 : Ref sig .tc := ⟨.vmem, 90, rfl⟩
abbrev cc9_stg11_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg2_0 : Ref sig .tc := ⟨.vmem, 95, rfl⟩
abbrev cc10_stg2_1 : Ref sig .tc := ⟨.vmem, 96, rfl⟩
abbrev cc10_stg3_0 : Ref sig .tc := ⟨.vmem, 97, rfl⟩
abbrev cc10_stg3_1 : Ref sig .tc := ⟨.vmem, 98, rfl⟩
abbrev cc11_stg0_0 : Ref sig .tc := ⟨.vmem, 99, rfl⟩
abbrev cc11_stg0_1 : Ref sig .tc := ⟨.vmem, 100, rfl⟩
abbrev cc11_stg1_0 : Ref sig .tc := ⟨.vmem, 101, rfl⟩
abbrev cc11_stg2_0 : Ref sig .tc := ⟨.vmem, 102, rfl⟩
abbrev cc11_stg2_1 : Ref sig .tc := ⟨.vmem, 103, rfl⟩
abbrev cc11_stg3_0 : Ref sig .tc := ⟨.vmem, 104, rfl⟩
abbrev cc11_stg3_1 : Ref sig .tc := ⟨.vmem, 105, rfl⟩
abbrev cc12_stg0_0 : Ref sig .tc := ⟨.vmem, 106, rfl⟩
abbrev cc12_stg0_1 : Ref sig .tc := ⟨.vmem, 107, rfl⟩
abbrev cc12_stg1_0 : Ref sig .tc := ⟨.vmem, 108, rfl⟩
abbrev cc12_stg2_0 : Ref sig .tc := ⟨.vmem, 109, rfl⟩
abbrev cc12_stg2_1 : Ref sig .tc := ⟨.vmem, 110, rfl⟩
abbrev cc12_stg3_0 : Ref sig .tc := ⟨.vmem, 111, rfl⟩
abbrev cc12_stg3_1 : Ref sig .tc := ⟨.vmem, 112, rfl⟩
abbrev cc13_stg0_0 : Ref sig .tc := ⟨.vmem, 113, rfl⟩
abbrev cc13_stg0_1 : Ref sig .tc := ⟨.vmem, 114, rfl⟩
abbrev cc13_stg1_0 : Ref sig .tc := ⟨.vmem, 115, rfl⟩
abbrev cc13_stg2_0 : Ref sig .tc := ⟨.vmem, 116, rfl⟩
abbrev cc13_stg2_1 : Ref sig .tc := ⟨.vmem, 117, rfl⟩
abbrev cc13_stg3_0 : Ref sig .tc := ⟨.vmem, 118, rfl⟩
abbrev cc13_stg3_1 : Ref sig .tc := ⟨.vmem, 119, rfl⟩
abbrev cc14_stg0_0 : Ref sig .tc := ⟨.vmem, 120, rfl⟩
abbrev cc14_stg0_1 : Ref sig .tc := ⟨.vmem, 121, rfl⟩
abbrev cc14_stg1_0 : Ref sig .tc := ⟨.vmem, 122, rfl⟩
abbrev cc14_stg1_1 : Ref sig .tc := ⟨.vmem, 123, rfl⟩
abbrev cc14_stg2_0 : Ref sig .tc := ⟨.vmem, 124, rfl⟩
abbrev cc14_stg2_1 : Ref sig .tc := ⟨.vmem, 125, rfl⟩
abbrev cc14_stg3_0 : Ref sig .tc := ⟨.vmem, 126, rfl⟩
abbrev cc14_stg3_1 : Ref sig .tc := ⟨.vmem, 127, rfl⟩
abbrev cc14_stg4_0 : Ref sig .tc := ⟨.vmem, 128, rfl⟩
abbrev cc14_stg4_1 : Ref sig .tc := ⟨.vmem, 129, rfl⟩
abbrev cc14_stg5_0 : Ref sig .tc := ⟨.vmem, 130, rfl⟩
abbrev cc14_stg6_0 : Ref sig .tc := ⟨.vmem, 131, rfl⟩
abbrev cc14_stg7_0 : Ref sig .tc := ⟨.vmem, 132, rfl⟩
abbrev cc14_stg8_0 : Ref sig .tc := ⟨.vmem, 133, rfl⟩
abbrev cc14_stg9_0 : Ref sig .tc := ⟨.vmem, 134, rfl⟩
abbrev cc14_stg10_0 : Ref sig .tc := ⟨.vmem, 135, rfl⟩
abbrev cc14_stg11_0 : Ref sig .tc := ⟨.vmem, 136, rfl⟩
abbrev cc14_stg11_1 : Ref sig .tc := ⟨.vmem, 137, rfl⟩
abbrev cc15_stg0_0 : Ref sig .tc := ⟨.vmem, 138, rfl⟩
abbrev cc15_stg0_1 : Ref sig .tc := ⟨.vmem, 139, rfl⟩
abbrev cc15_stg1_0 : Ref sig .tc := ⟨.vmem, 140, rfl⟩
abbrev cc15_stg2_0 : Ref sig .tc := ⟨.vmem, 141, rfl⟩
abbrev cc15_stg2_1 : Ref sig .tc := ⟨.vmem, 142, rfl⟩
abbrev cc15_stg3_0 : Ref sig .tc := ⟨.vmem, 143, rfl⟩
abbrev cc15_stg3_1 : Ref sig .tc := ⟨.vmem, 144, rfl⟩
abbrev cc16_stg0_0 : Ref sig .tc := ⟨.vmem, 145, rfl⟩
abbrev cc16_stg0_1 : Ref sig .tc := ⟨.vmem, 146, rfl⟩
abbrev cc16_stg1_0 : Ref sig .tc := ⟨.vmem, 147, rfl⟩
abbrev cc16_stg2_0 : Ref sig .tc := ⟨.vmem, 148, rfl⟩
abbrev cc16_stg2_1 : Ref sig .tc := ⟨.vmem, 149, rfl⟩
abbrev cc16_stg3_0 : Ref sig .tc := ⟨.vmem, 150, rfl⟩
abbrev cc16_stg3_1 : Ref sig .tc := ⟨.vmem, 151, rfl⟩
abbrev cc17_stg0_0 : Ref sig .tc := ⟨.vmem, 152, rfl⟩
abbrev cc17_stg0_1 : Ref sig .tc := ⟨.vmem, 153, rfl⟩
abbrev cc17_stg1_0 : Ref sig .tc := ⟨.vmem, 154, rfl⟩
abbrev cc17_stg2_0 : Ref sig .tc := ⟨.vmem, 155, rfl⟩
abbrev cc17_stg2_1 : Ref sig .tc := ⟨.vmem, 156, rfl⟩
abbrev cc17_stg3_0 : Ref sig .tc := ⟨.vmem, 157, rfl⟩
abbrev cc17_stg3_1 : Ref sig .tc := ⟨.vmem, 158, rfl⟩
abbrev cc18_stg0_0 : Ref sig .tc := ⟨.vmem, 159, rfl⟩
abbrev cc18_stg0_1 : Ref sig .tc := ⟨.vmem, 160, rfl⟩
abbrev cc18_stg1_0 : Ref sig .tc := ⟨.vmem, 161, rfl⟩
abbrev cc18_stg2_0 : Ref sig .tc := ⟨.vmem, 162, rfl⟩
abbrev cc18_stg2_1 : Ref sig .tc := ⟨.vmem, 163, rfl⟩
abbrev cc18_stg3_0 : Ref sig .tc := ⟨.vmem, 164, rfl⟩
abbrev cc18_stg3_1 : Ref sig .tc := ⟨.vmem, 165, rfl⟩
abbrev cc19_stg0_0 : Ref sig .tc := ⟨.vmem, 166, rfl⟩
abbrev cc19_stg0_1 : Ref sig .tc := ⟨.vmem, 167, rfl⟩
abbrev cc19_stg1_0 : Ref sig .tc := ⟨.vmem, 168, rfl⟩
abbrev cc19_stg1_1 : Ref sig .tc := ⟨.vmem, 169, rfl⟩
abbrev cc19_stg2_0 : Ref sig .tc := ⟨.vmem, 170, rfl⟩
abbrev cc19_stg2_1 : Ref sig .tc := ⟨.vmem, 171, rfl⟩
abbrev cc19_stg3_0 : Ref sig .tc := ⟨.vmem, 172, rfl⟩
abbrev cc19_stg3_1 : Ref sig .tc := ⟨.vmem, 173, rfl⟩
abbrev cc19_stg4_0 : Ref sig .tc := ⟨.vmem, 174, rfl⟩
abbrev cc19_stg4_1 : Ref sig .tc := ⟨.vmem, 175, rfl⟩
abbrev cc19_stg5_0 : Ref sig .tc := ⟨.vmem, 176, rfl⟩
abbrev cc19_stg6_0 : Ref sig .tc := ⟨.vmem, 177, rfl⟩
abbrev cc19_stg7_0 : Ref sig .tc := ⟨.vmem, 178, rfl⟩
abbrev cc19_stg8_0 : Ref sig .tc := ⟨.vmem, 179, rfl⟩
abbrev cc19_stg9_0 : Ref sig .tc := ⟨.vmem, 180, rfl⟩
abbrev cc19_stg10_0 : Ref sig .tc := ⟨.vmem, 181, rfl⟩
abbrev cc19_stg11_0 : Ref sig .tc := ⟨.vmem, 182, rfl⟩
abbrev cc19_stg11_1 : Ref sig .tc := ⟨.vmem, 183, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem6_0 : DmaSem sig := 39
abbrev cc4_sem7_0 : DmaSem sig := 40
abbrev cc4_sem8_0 : DmaSem sig := 41
abbrev cc4_sem9_0 : DmaSem sig := 42
abbrev cc4_sem10_0 : DmaSem sig := 43
abbrev cc4_sem11_0 : DmaSem sig := 44
abbrev cc4_sem11_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem2_1 : DmaSem sig := 50
abbrev cc5_sem3_0 : DmaSem sig := 51
abbrev cc5_sem3_1 : DmaSem sig := 52
abbrev cc6_sem0_0 : DmaSem sig := 53
abbrev cc6_sem0_1 : DmaSem sig := 54
abbrev cc6_sem1_0 : DmaSem sig := 55
abbrev cc6_sem2_0 : DmaSem sig := 56
abbrev cc6_sem2_1 : DmaSem sig := 57
abbrev cc6_sem3_0 : DmaSem sig := 58
abbrev cc6_sem3_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem2_1 : DmaSem sig := 64
abbrev cc7_sem3_0 : DmaSem sig := 65
abbrev cc7_sem3_1 : DmaSem sig := 66
abbrev cc8_sem0_0 : DmaSem sig := 67
abbrev cc8_sem0_1 : DmaSem sig := 68
abbrev cc8_sem1_0 : DmaSem sig := 69
abbrev cc8_sem2_0 : DmaSem sig := 70
abbrev cc8_sem2_1 : DmaSem sig := 71
abbrev cc8_sem3_0 : DmaSem sig := 72
abbrev cc8_sem3_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc9_sem3_0 : DmaSem sig := 80
abbrev cc9_sem3_1 : DmaSem sig := 81
abbrev cc9_sem4_0 : DmaSem sig := 82
abbrev cc9_sem4_1 : DmaSem sig := 83
abbrev cc9_sem5_0 : DmaSem sig := 84
abbrev cc9_sem6_0 : DmaSem sig := 85
abbrev cc9_sem7_0 : DmaSem sig := 86
abbrev cc9_sem8_0 : DmaSem sig := 87
abbrev cc9_sem9_0 : DmaSem sig := 88
abbrev cc9_sem10_0 : DmaSem sig := 89
abbrev cc9_sem11_0 : DmaSem sig := 90
abbrev cc9_sem11_1 : DmaSem sig := 91
abbrev cc10_sem0_0 : DmaSem sig := 92
abbrev cc10_sem0_1 : DmaSem sig := 93
abbrev cc10_sem1_0 : DmaSem sig := 94
abbrev cc10_sem2_0 : DmaSem sig := 95
abbrev cc10_sem2_1 : DmaSem sig := 96
abbrev cc10_sem3_0 : DmaSem sig := 97
abbrev cc10_sem3_1 : DmaSem sig := 98
abbrev cc11_sem0_0 : DmaSem sig := 99
abbrev cc11_sem0_1 : DmaSem sig := 100
abbrev cc11_sem1_0 : DmaSem sig := 101
abbrev cc11_sem2_0 : DmaSem sig := 102
abbrev cc11_sem2_1 : DmaSem sig := 103
abbrev cc11_sem3_0 : DmaSem sig := 104
abbrev cc11_sem3_1 : DmaSem sig := 105
abbrev cc12_sem0_0 : DmaSem sig := 106
abbrev cc12_sem0_1 : DmaSem sig := 107
abbrev cc12_sem1_0 : DmaSem sig := 108
abbrev cc12_sem2_0 : DmaSem sig := 109
abbrev cc12_sem2_1 : DmaSem sig := 110
abbrev cc12_sem3_0 : DmaSem sig := 111
abbrev cc12_sem3_1 : DmaSem sig := 112
abbrev cc13_sem0_0 : DmaSem sig := 113
abbrev cc13_sem0_1 : DmaSem sig := 114
abbrev cc13_sem1_0 : DmaSem sig := 115
abbrev cc13_sem2_0 : DmaSem sig := 116
abbrev cc13_sem2_1 : DmaSem sig := 117
abbrev cc13_sem3_0 : DmaSem sig := 118
abbrev cc13_sem3_1 : DmaSem sig := 119
abbrev cc14_sem0_0 : DmaSem sig := 120
abbrev cc14_sem0_1 : DmaSem sig := 121
abbrev cc14_sem1_0 : DmaSem sig := 122
abbrev cc14_sem1_1 : DmaSem sig := 123
abbrev cc14_sem2_0 : DmaSem sig := 124
abbrev cc14_sem2_1 : DmaSem sig := 125
abbrev cc14_sem3_0 : DmaSem sig := 126
abbrev cc14_sem3_1 : DmaSem sig := 127
abbrev cc14_sem4_0 : DmaSem sig := 128
abbrev cc14_sem4_1 : DmaSem sig := 129
abbrev cc14_sem5_0 : DmaSem sig := 130
abbrev cc14_sem6_0 : DmaSem sig := 131
abbrev cc14_sem7_0 : DmaSem sig := 132
abbrev cc14_sem8_0 : DmaSem sig := 133
abbrev cc14_sem9_0 : DmaSem sig := 134
abbrev cc14_sem10_0 : DmaSem sig := 135
abbrev cc14_sem11_0 : DmaSem sig := 136
abbrev cc14_sem11_1 : DmaSem sig := 137
abbrev cc15_sem0_0 : DmaSem sig := 138
abbrev cc15_sem0_1 : DmaSem sig := 139
abbrev cc15_sem1_0 : DmaSem sig := 140
abbrev cc15_sem2_0 : DmaSem sig := 141
abbrev cc15_sem2_1 : DmaSem sig := 142
abbrev cc15_sem3_0 : DmaSem sig := 143
abbrev cc15_sem3_1 : DmaSem sig := 144
abbrev cc16_sem0_0 : DmaSem sig := 145
abbrev cc16_sem0_1 : DmaSem sig := 146
abbrev cc16_sem1_0 : DmaSem sig := 147
abbrev cc16_sem2_0 : DmaSem sig := 148
abbrev cc16_sem2_1 : DmaSem sig := 149
abbrev cc16_sem3_0 : DmaSem sig := 150
abbrev cc16_sem3_1 : DmaSem sig := 151
abbrev cc17_sem0_0 : DmaSem sig := 152
abbrev cc17_sem0_1 : DmaSem sig := 153
abbrev cc17_sem1_0 : DmaSem sig := 154
abbrev cc17_sem2_0 : DmaSem sig := 155
abbrev cc17_sem2_1 : DmaSem sig := 156
abbrev cc17_sem3_0 : DmaSem sig := 157
abbrev cc17_sem3_1 : DmaSem sig := 158
abbrev cc18_sem0_0 : DmaSem sig := 159
abbrev cc18_sem0_1 : DmaSem sig := 160
abbrev cc18_sem1_0 : DmaSem sig := 161
abbrev cc18_sem2_0 : DmaSem sig := 162
abbrev cc18_sem2_1 : DmaSem sig := 163
abbrev cc18_sem3_0 : DmaSem sig := 164
abbrev cc18_sem3_1 : DmaSem sig := 165
abbrev cc19_sem0_0 : DmaSem sig := 166
abbrev cc19_sem0_1 : DmaSem sig := 167
abbrev cc19_sem1_0 : DmaSem sig := 168
abbrev cc19_sem1_1 : DmaSem sig := 169
abbrev cc19_sem2_0 : DmaSem sig := 170
abbrev cc19_sem2_1 : DmaSem sig := 171
abbrev cc19_sem3_0 : DmaSem sig := 172
abbrev cc19_sem3_1 : DmaSem sig := 173
abbrev cc19_sem4_0 : DmaSem sig := 174
abbrev cc19_sem4_1 : DmaSem sig := 175
abbrev cc19_sem5_0 : DmaSem sig := 176
abbrev cc19_sem6_0 : DmaSem sig := 177
abbrev cc19_sem7_0 : DmaSem sig := 178
abbrev cc19_sem8_0 : DmaSem sig := 179
abbrev cc19_sem9_0 : DmaSem sig := 180
abbrev cc19_sem10_0 : DmaSem sig := 181
abbrev cc19_sem11_0 : DmaSem sig := 182
abbrev cc19_sem11_1 : DmaSem sig := 183

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2080 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2080 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2080 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2080 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x2080 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2080 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2080 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x2080 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x2080 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2080 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S128x2080 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x2080 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x65 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x65 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x65 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4096x65 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4096x65 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S65x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S65x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S65x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S65x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S65x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 2 → Memref sig .tc .vmem S4096x128 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S128x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2080 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S128x2080 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S128x2080 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S2048x2080 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S128x2080 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S128x2080 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S128x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x2080 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S128x2080 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S128x2080 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S128x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S2048x2080 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S128x2080 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S128x2080 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![16], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x65 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4096x65 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4096x65 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S4096x65 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4096x65 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S65x64 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S65x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S65x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S65x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S65x64 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x64 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 2 → Memref sig .tc .vmem S4096x64 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S128x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S2048x4096 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S128x4096 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S128x4096 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S128x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S2048x4096 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S128x4096 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S128x4096 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![16], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S128x2048 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S2048x4096 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S128x4096 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S128x4096 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![16], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S128x2048 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S2048x4096 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S128x4096 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S128x4096 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![16], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_8 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_9 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_10 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_11 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4096x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S4096x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S4096x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 2 → Memref sig .tc .vmem S4096x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 2 → Memref sig .tc .vmem S4096x128 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true]

abbrev stage14_5 : Fin 1 → Memref sig .tc .vmem S128x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S128x128 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 1 → Memref sig .tc .vmem S128x128 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))
abbrev reads14_7 : Fin grid14.rank → Bool := ![false]

abbrev stage14_8 : Fin 1 → Memref sig .tc .vmem S128x128 .f32 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))
abbrev reads14_8 : Fin grid14.rank → Bool := ![false]

abbrev stage14_9 : Fin 1 → Memref sig .tc .vmem S128x128 .f32 := fun | 0 => Memref.whole cc14_stg9_0 | ⟨_ + 1, h⟩ => absurd h (Nat.not_lt.2 (Nat.le_add_left _ _))
abbrev sem14_9 : Fin 1 → DmaSem sig := fun | 0 => cc14_sem9_0 | ⟨_ + 1, h⟩ => absurd h (Nat.not_lt.2 (Nat.le_add_left _ _))
abbrev reads14_9 : Fin grid14.rank → Bool := ![false]

abbrev stage14_10 : Fin 1 → Memref sig .tc .vmem S1x128 .f32 := fun | 0 => Memref.whole cc14_stg10_0 | ⟨_ + 1, h⟩ => absurd h (Nat.not_lt.2 (Nat.le_add_left _ _))
abbrev sem14_10 : Fin 1 → DmaSem sig := fun | 0 => cc14_sem10_0 | ⟨_ + 1, h⟩ => absurd h (Nat.not_lt.2 (Nat.le_add_left _ _))
abbrev reads14_10 : Fin grid14.rank → Bool := ![false]

abbrev stage14_11 : Fin 2 → Memref sig .tc .vmem S4096x128 .f32 := fun | 0 => Memref.whole cc14_stg11_0 | 1 => Memref.whole cc14_stg11_1 | ⟨_ + 2, h⟩ => absurd h (Nat.not_lt.2 (Nat.le_add_left _ _))
abbrev sem14_11 : Fin 2 → DmaSem sig := fun | 0 => cc14_sem11_0 | 1 => cc14_sem11_1 | ⟨_ + 2, h⟩ => absurd h (Nat.not_lt.2 (Nat.le_add_left _ _))
abbrev reads14_11 : Fin grid14.rank → Bool := ![true]

abbrev grid15 : Pipeline.Grid := ⟨1, ![16], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S128x2048 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S2048x4096 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S128x4096 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev stage15_3 : Fin 2 → Memref sig .tc .vmem S128x4096 .bf16 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![16], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S128x2048 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S2048x4096 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S128x4096 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S128x4096 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![16], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S128x2048 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S2048x4096 .bf16 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S128x4096 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S128x4096 .bf16 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![16], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S128x2048 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S2048x4096 .bf16 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S128x4096 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 2 → Memref sig .tc .vmem S128x4096 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![16], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_5 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_6 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_7 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_8 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_9 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_10 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_11 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4096x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S4096x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S4096x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev stage19_3 : Fin 2 → Memref sig .tc .vmem S4096x128 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev stage19_4 : Fin 2 → Memref sig .tc .vmem S4096x128 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev stage19_5 : Fin 1 → Memref sig .tc .vmem S128x64 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![false]

abbrev stage19_6 : Fin 1 → Memref sig .tc .vmem S128x64 .f32 := fun | 0 => Memref.whole cc19_stg6_0 | ⟨_ + 1, h⟩ => absurd h (Nat.not_lt.2 (Nat.le_add_left _ _))
abbrev sem19_6 : Fin 1 → DmaSem sig := fun | 0 => cc19_sem6_0 | ⟨_ + 1, h⟩ => absurd h (Nat.not_lt.2 (Nat.le_add_left _ _))
abbrev reads19_6 : Fin grid19.rank → Bool := ![false]

abbrev stage19_7 : Fin 1 → Memref sig .tc .vmem S128x64 .f32 := fun | 0 => Memref.whole cc19_stg7_0 | ⟨_ + 1, h⟩ => absurd h (Nat.not_lt.2 (Nat.le_add_left _ _))
abbrev sem19_7 : Fin 1 → DmaSem sig := fun | 0 => cc19_sem7_0 | ⟨_ + 1, h⟩ => absurd h (Nat.not_lt.2 (Nat.le_add_left _ _))
abbrev reads19_7 : Fin grid19.rank → Bool := ![false]

abbrev stage19_8 : Fin 1 → Memref sig .tc .vmem S128x64 .f32 := fun | 0 => Memref.whole cc19_stg8_0 | ⟨_ + 1, h⟩ => absurd h (Nat.not_lt.2 (Nat.le_add_left _ _))
abbrev sem19_8 : Fin 1 → DmaSem sig := fun | 0 => cc19_sem8_0 | ⟨_ + 1, h⟩ => absurd h (Nat.not_lt.2 (Nat.le_add_left _ _))
abbrev reads19_8 : Fin grid19.rank → Bool := ![false]

abbrev stage19_9 : Fin 1 → Memref sig .tc .vmem S128x64 .f32 := fun | 0 => Memref.whole cc19_stg9_0 | ⟨_ + 1, h⟩ => absurd h (Nat.not_lt.2 (Nat.le_add_left _ _))
abbrev sem19_9 : Fin 1 → DmaSem sig := fun | 0 => cc19_sem9_0 | ⟨_ + 1, h⟩ => absurd h (Nat.not_lt.2 (Nat.le_add_left _ _))
abbrev reads19_9 : Fin grid19.rank → Bool := ![false]

abbrev stage19_10 : Fin 1 → Memref sig .tc .vmem S1x64 .f32 := fun | 0 => Memref.whole cc19_stg10_0 | ⟨_ + 1, h⟩ => absurd h (Nat.not_lt.2 (Nat.le_add_left _ _))
abbrev sem19_10 : Fin 1 → DmaSem sig := fun | 0 => cc19_sem10_0 | ⟨_ + 1, h⟩ => absurd h (Nat.not_lt.2 (Nat.le_add_left _ _))
abbrev reads19_10 : Fin grid19.rank → Bool := ![false]

abbrev stage19_11 : Fin 2 → Memref sig .tc .vmem S4096x64 .f32 := fun | 0 => Memref.whole cc19_stg11_0 | 1 => Memref.whole cc19_stg11_1 | ⟨_ + 2, h⟩ => absurd h (Nat.not_lt.2 (Nat.le_add_left _ _))
abbrev sem19_11 : Fin 2 → DmaSem sig := fun | 0 => cc19_sem11_0 | 1 => cc19_sem11_1 | ⟨_ + 2, h⟩ => absurd h (Nat.not_lt.2 (Nat.le_add_left _ _))
abbrev reads19_11 : Fin grid19.rank → Bool := ![true]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  transposes_S2048x2048_S2048x2048_1_0 : S2048x2048.Transposes [1, 0] S2048x2048
  bitsLt_bf16_f32 : FTy.bits .bf16 < FTy.bits .f32
  shapeCasts_S32x2048_S32x2048x1 : S32x2048.ShapeCasts S32x2048x1
  transposes_S32x2048x1_S2048x32x1_1_0_2 : S32x2048x1.Transposes [1, 0, 2] S2048x32x1
  slices_S2x32x131072_S1x32x131072_0_0_0 : S2x32x131072.Slices ![0, 0, 0] S1x32x131072
  shapeCasts_S1x32x131072_S32x131072 : S1x32x131072.ShapeCasts S32x131072
  shapeCasts_S32x131072_S32x2048x64 : S32x131072.ShapeCasts S32x2048x64
  transposes_S32x2048x64_S2048x32x64_1_0_2 : S32x2048x64.Transposes [1, 0, 2] S2048x32x64
  concatenates_S2048x32x1_S2048x32x64_S2048x32x65_d2 : Shape.Concatenates [S2048x32x1, S2048x32x64] S2048x32x65 2
  shapeCasts_S2048x32x65_S2048x2080 : S2048x32x65.ShapeCasts S2048x2080
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x2080_S2048x2080_0_0 : ∀ a, (![0, 0] : Fin 2 → Nat) a + S2048x2080.size a ≤ S2048x2080.size a
  h_S2048x2080 : 0 < S2048x2080.numel
  shapeCasts_S2048x2080_S2048x2080 : S2048x2080.ShapeCasts S2048x2080
  inb_S128x2080_S128x2080_0_0 : ∀ a, (![0, 0] : Fin 2 → Nat) a + S128x2080.size a ≤ S128x2080.size a
  h_S128x2080 : 0 < S128x2080.numel
  packedbf16_S128x2080_S128x2080_0_0 : (Rect.unit (s := S128x2080) ![0, 0] S128x2080.size inb_S128x2080_S128x2080_0_0).PackedRows (EltTy.packing .bf16)
  shapeCasts_S128x2080_S128x2080 : S128x2080.ShapeCasts S128x2080
  shapeCasts_S325x128_S65x5x128 : S325x128.ShapeCasts S65x5x128
  slices_S65x5x128_S65x1x128_0_0_0 : S65x5x128.Slices ![0, 0, 0] S65x1x128
  shapeCasts_S65x1x128_S65x128 : S65x1x128.ShapeCasts S65x128
  slices_S65x5x128_S65x1x128_0_1_0 : S65x5x128.Slices ![0, 1, 0] S65x1x128
  slices_S65x5x128_S65x1x128_0_2_0 : S65x5x128.Slices ![0, 2, 0] S65x1x128
  slices_S65x5x128_S65x1x128_0_3_0 : S65x5x128.Slices ![0, 3, 0] S65x1x128
  slices_S65x5x128_S65x1x128_0_4_0 : S65x5x128.Slices ![0, 4, 0] S65x1x128
  shapeCasts_S2048x2080_S65536x65 : S2048x2080.ShapeCasts S65536x65
  shapeCasts_S128_S1x128 : S128.ShapeCasts S1x128
  inb_S4096x65_S4096x65_0_0 : ∀ a, (![0, 0] : Fin 2 → Nat) a + S4096x65.size a ≤ S4096x65.size a
  h_S4096x65 : 0 < S4096x65.numel
  shapeCasts_S4096x65_S4096x65 : S4096x65.ShapeCasts S4096x65
  inb_S65x128_S65x128_0_0 : ∀ a, (![0, 0] : Fin 2 → Nat) a + S65x128.size a ≤ S65x128.size a
  h_S65x128 : 0 < S65x128.numel
  shapeCasts_S65x128_S65x128 : S65x128.ShapeCasts S65x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S65536x128_S2048x32x128 : S65536x128.ShapeCasts S2048x32x128
  slices_S2048x32x128_S2048x32x64_0_0_0 : S2048x32x128.Slices ![0, 0, 0] S2048x32x64
  slices_S2048x32x128_S2048x32x64_0_0_64 : S2048x32x128.Slices ![0, 0, 64] S2048x32x64
  shapeCasts_S325x64_S65x5x64 : S325x64.ShapeCasts S65x5x64
  slices_S65x5x64_S65x1x64_0_0_0 : S65x5x64.Slices ![0, 0, 0] S65x1x64
  shapeCasts_S65x1x64_S65x64 : S65x1x64.ShapeCasts S65x64
  slices_S65x5x64_S65x1x64_0_1_0 : S65x5x64.Slices ![0, 1, 0] S65x1x64
  slices_S65x5x64_S65x1x64_0_2_0 : S65x5x64.Slices ![0, 2, 0] S65x1x64
  slices_S65x5x64_S65x1x64_0_3_0 : S65x5x64.Slices ![0, 3, 0] S65x1x64
  slices_S65x5x64_S65x1x64_0_4_0 : S65x5x64.Slices ![0, 4, 0] S65x1x64
  shapeCasts_S64_S1x64 : S64.ShapeCasts S1x64
  inb_S65x64_S65x64_0_0 : ∀ a, (![0, 0] : Fin 2 → Nat) a + S65x64.size a ≤ S65x64.size a
  h_S65x64 : 0 < S65x64.numel
  shapeCasts_S65x64_S65x64 : S65x64.ShapeCasts S65x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S65536x64_S2048x32x64 : S65536x64.ShapeCasts S2048x32x64
  bcast_S_S2048x32x64 : S_.BroadcastsInDim S2048x32x64 (![] : Fin 0 → Fin S2048x32x64.rank)
  slices_S2x32x131072_S1x32x131072_1_0_0 : S2x32x131072.Slices ![1, 0, 0] S1x32x131072
  concatenates_S2048x32x64_S2048x32x64_S2048x32x128_d2 : Shape.Concatenates [S2048x32x64, S2048x32x64] S2048x32x128 2
  shapeCasts_S2048x32x128_S2048x4096 : S2048x32x128.ShapeCasts S2048x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  shapeCasts_S128x4096_S128x4096 : S128x4096.ShapeCasts S128x4096
  shapeCasts_S640x128_S128x5x128 : S640x128.ShapeCasts S128x5x128
  slices_S128x5x128_S128x1x128_0_0_0 : S128x5x128.Slices ![0, 0, 0] S128x1x128
  shapeCasts_S128x1x128_S128x128 : S128x1x128.ShapeCasts S128x128
  slices_S128x5x128_S128x1x128_0_1_0 : S128x5x128.Slices ![0, 1, 0] S128x1x128
  slices_S128x5x128_S128x1x128_0_2_0 : S128x5x128.Slices ![0, 2, 0] S128x1x128
  slices_S128x5x128_S128x1x128_0_3_0 : S128x5x128.Slices ![0, 3, 0] S128x1x128
  slices_S128x5x128_S128x1x128_0_4_0 : S128x5x128.Slices ![0, 4, 0] S128x1x128
  shapeCasts_S2048x4096_S65536x128 : S2048x4096.ShapeCasts S65536x128
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S640x64_S128x5x64 : S640x64.ShapeCasts S128x5x64
  slices_S128x5x64_S128x1x64_0_0_0 : S128x5x64.Slices ![0, 0, 0] S128x1x64
  shapeCasts_S128x1x64_S128x64 : S128x1x64.ShapeCasts S128x64
  slices_S128x5x64_S128x1x64_0_1_0 : S128x5x64.Slices ![0, 1, 0] S128x1x64
  slices_S128x5x64_S128x1x64_0_2_0 : S128x5x64.Slices ![0, 2, 0] S128x1x64
  slices_S128x5x64_S128x1x64_0_3_0 : S128x5x64.Slices ![0, 3, 0] S128x1x64
  slices_S128x5x64_S128x1x64_0_4_0 : S128x5x64.Slices ![0, 4, 0] S128x1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S2048x32x64_S65536x64 : S2048x32x64.ShapeCasts S65536x64
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S2048x32x1 : S65536x1.ShapeCasts S2048x32x1
  shapeCasts_S2048x32x1_S2048x32 : S2048x32x1.ShapeCasts S2048x32
  transposes_S2048x32_S32x2048_1_0 : S2048x32.Transposes [1, 0] S32x2048
  transposes_S2048x32x64_S32x2048x64_1_0_2 : S2048x32x64.Transposes [1, 0, 2] S32x2048x64
  shapeCasts_S32x2048x64_S32x131072 : S32x2048x64.ShapeCasts S32x131072
  bcast_S32x131072_S1x32x131072_1_2 : S32x131072.BroadcastsInDim S1x32x131072 (![1, 2] : Fin 2 → Fin S1x32x131072.rank)
  concatenates_S1x32x131072_S1x32x131072_S2x32x131072_d0 : Shape.Concatenates [S1x32x131072, S1x32x131072] S2x32x131072 0
  dot_S128x2048_S2048x2080_S128x2080_1_0_0_1_n_n_wf : DotDims.WF S128x2048 S2048x2080 S128x2080 [1] [0] [0] [1] [] []
  dot_S4096x65_S65x128_S4096x128_1_0_0_1_n_n_wf : DotDims.WF S4096x65 S65x128 S4096x128 [1] [0] [0] [1] [] []
  dot_S4096x65_S65x64_S4096x64_1_0_0_1_n_n_wf : DotDims.WF S4096x65 S65x64 S4096x64 [1] [0] [0] [1] [] []
  dot_S128x2048_S2048x4096_S128x4096_1_0_0_1_n_n_wf : DotDims.WF S128x2048 S2048x4096 S128x4096 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S65536x64_S64x1_S65536x1_1_0_0_1_n_n_wf : DotDims.WF S65536x64 S64x1 S65536x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .bf16 = 32 ∨ (Rect.block (s := S2048x2048) S128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2080.size a ≤ S2048x2080.size a
  hwx0_1 : ∀ i : grid0.Coords, EltTy.bits .bf16 = 32 ∨ (Rect.block (s := S2048x2080) S2048x2080.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2080.size a ≤ S2048x2080.size a
  hwx0_2 : ∀ i : grid0.Coords, EltTy.bits .f32 = 32 ∨ (Rect.block (s := S2048x2080) S128x2080.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2080.size a ≤ S2048x2080.size a
  hwx0_3 : ∀ i : grid0.Coords, EltTy.bits .bf16 = 32 ∨ (Rect.block (s := S2048x2080) S128x2080.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2048.size a ≤ S2048x2048.size a
  hwx1_0 : ∀ i : grid1.Coords, EltTy.bits .bf16 = 32 ∨ (Rect.block (s := S2048x2048) S128x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2080.size a ≤ S2048x2080.size a
  hwx1_1 : ∀ i : grid1.Coords, EltTy.bits .bf16 = 32 ∨ (Rect.block (s := S2048x2080) S2048x2080.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2080.size a ≤ S2048x2080.size a
  hwx1_2 : ∀ i : grid1.Coords, EltTy.bits .f32 = 32 ∨ (Rect.block (s := S2048x2080) S128x2080.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x2080.size a ≤ S2048x2080.size a
  hwx1_3 : ∀ i : grid1.Coords, EltTy.bits .f32 = 32 ∨ (Rect.block (s := S2048x2080) S128x2080.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x2048.size a ≤ S2048x2048.size a
  hwx2_0 : ∀ i : grid2.Coords, EltTy.bits .bf16 = 32 ∨ (Rect.block (s := S2048x2048) S128x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2080.size a ≤ S2048x2080.size a
  hwx2_1 : ∀ i : grid2.Coords, EltTy.bits .bf16 = 32 ∨ (Rect.block (s := S2048x2080) S2048x2080.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x2080.size a ≤ S2048x2080.size a
  hwx2_2 : ∀ i : grid2.Coords, EltTy.bits .f32 = 32 ∨ (Rect.block (s := S2048x2080) S128x2080.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x2080.size a ≤ S2048x2080.size a
  hwx2_3 : ∀ i : grid2.Coords, EltTy.bits .bf16 = 32 ∨ (Rect.block (s := S2048x2080) S128x2080.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S128x2048.size a ≤ S2048x2048.size a
  hwx3_0 : ∀ i : grid3.Coords, EltTy.bits .bf16 = 32 ∨ (Rect.block (s := S2048x2048) S128x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2080.size a ≤ S2048x2080.size a
  hwx3_1 : ∀ i : grid3.Coords, EltTy.bits .bf16 = 32 ∨ (Rect.block (s := S2048x2080) S2048x2080.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S128x2080.size a ≤ S2048x2080.size a
  hwx3_2 : ∀ i : grid3.Coords, EltTy.bits .f32 = 32 ∨ (Rect.block (s := S2048x2080) S128x2080.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S128x2080.size a ≤ S2048x2080.size a
  hwx3_3 : ∀ i : grid3.Coords, EltTy.bits .f32 = 32 ∨ (Rect.block (s := S2048x2080) S128x2080.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x65.size a ≤ S65536x65.size a
  hwx4_0 : ∀ i : grid4.Coords, EltTy.bits .f32 = 32 ∨ (Rect.block (s := S65536x65) S4096x65.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x65.size a ≤ S65536x65.size a
  hwx4_1 : ∀ i : grid4.Coords, EltTy.bits .f32 = 32 ∨ (Rect.block (s := S65536x65) S4096x65.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x65.size a ≤ S65536x65.size a
  hwx4_2 : ∀ i : grid4.Coords, EltTy.bits .f32 = 32 ∨ (Rect.block (s := S65536x65) S4096x65.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x65.size a ≤ S65536x65.size a
  hwx4_3 : ∀ i : grid4.Coords, EltTy.bits .f32 = 32 ∨ (Rect.block (s := S65536x65) S4096x65.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x65.size a ≤ S65536x65.size a
  hwx4_4 : ∀ i : grid4.Coords, EltTy.bits .f32 = 32 ∨ (Rect.block (s := S65536x65) S4096x65.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S65x128.size a ≤ S65x128.size a
  hwx4_5 : ∀ i : grid4.Coords, EltTy.bits .f32 = 32 ∨ (Rect.block (s := S65x128) S65x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S65x128.size a ≤ S65x128.size a
  hwx4_6 : ∀ i : grid4.Coords, EltTy.bits .f32 = 32 ∨ (Rect.block (s := S65x128) S65x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S65x128.size a ≤ S65x128.size a
  hwx4_7 : ∀ i : grid4.Coords, EltTy.bits .f32 = 32 ∨ (Rect.block (s := S65x128) S65x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S65x128.size a ≤ S65x128.size a
  hwx4_8 : ∀ i : grid4.Coords, EltTy.bits .f32 = 32 ∨ (Rect.block (s := S65x128) S65x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S65x128.size a ≤ S65x128.size a
  hwx4_9 : ∀ i : grid4.Coords, EltTy.bits .f32 = 32 ∨ (Rect.block (s := S65x128) S65x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S4096x128.size a ≤ S65536x128.size a
  hwx4_11 : ∀ i : grid4.Coords, EltTy.bits .f32 = 32 ∨ (Rect.block (s := S65536x128) S4096x128.size (cc4_transform_11 i) (hinb4_11 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x2048.size a ≤ S2048x2048.size a
  hwx5_0 : ∀ i : grid5.Coords, EltTy.bits .bf16 = 32 ∨ (Rect.block (s := S2048x2048) S128x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x2080.size a ≤ S2048x2080.size a
  hwx5_1 : ∀ i : grid5.Coords, EltTy.bits .bf16 = 32 ∨ (Rect.block (s := S2048x2080) S2048x2080.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S128x2080.size a ≤ S2048x2080.size a
  hwx5_2 : ∀ i : grid5.Coords, EltTy.bits .f32 = 32 ∨ (Rect.block (s := S2048x2080) S128x2080.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S128x2080.size a ≤ S2048x2080.size a
  hwx5_3 : ∀ i : grid5.Coords, EltTy.bits .bf16 = 32 ∨ (Rect.block (s := S2048x2080) S128x2080.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S128x2048.size a ≤ S2048x2048.size a
  hwx6_0 : ∀ i : grid6.Coords, EltTy.bits .bf16 = 32 ∨ (Rect.block (s := S2048x2048) S128x2048.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S2048x2080.size a ≤ S2048x2080.size a
  hwx6_1 : ∀ i : grid6.Coords, EltTy.bits .bf16 = 32 ∨ (Rect.block (s := S2048x2080) S2048x2080.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S128x2080.size a ≤ S2048x2080.size a
  hwx6_2 : ∀ i : grid6.Coords, EltTy.bits .f32 = 32 ∨ (Rect.block (s := S2048x2080) S128x2080.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S128x2080.size a ≤ S2048x2080.size a
  hwx6_3 : ∀ i : grid6.Coords, EltTy.bits .f32 = 32 ∨ (Rect.block (s := S2048x2080) S128x2080.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x2048.size a ≤ S2048x2048.size a
  hwx7_0 : ∀ i : grid7.Coords, EltTy.bits .bf16 = 32 ∨ (Rect.block (s := S2048x2048) S128x2048.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x2080.size a ≤ S2048x2080.size a
  hwx7_1 : ∀ i : grid7.Coords, EltTy.bits .bf16 = 32 ∨ (Rect.block (s := S2048x2080) S2048x2080.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S128x2080.size a ≤ S2048x2080.size a
  hwx7_2 : ∀ i : grid7.Coords, EltTy.bits .f32 = 32 ∨ (Rect.block (s := S2048x2080) S128x2080.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S128x2080.size a ≤ S2048x2080.size a
  hwx7_3 : ∀ i : grid7.Coords, EltTy.bits .bf16 = 32 ∨ (Rect.block (s := S2048x2080) S128x2080.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S128x2048.size a ≤ S2048x2048.size a
  hwx8_0 : ∀ i : grid8.Coords, EltTy.bits .bf16 = 32 ∨ (Rect.block (s := S2048x2048) S128x2048.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S2048x2080.size a ≤ S2048x2080.size a
  hwx8_1 : ∀ i : grid8.Coords, EltTy.bits .bf16 = 32 ∨ (Rect.block (s := S2048x2080) S2048x2080.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S128x2080.size a ≤ S2048x2080.size a
  hwx8_2 : ∀ i : grid8.Coords, EltTy.bits .f32 = 32 ∨ (Rect.block (s := S2048x2080) S128x2080.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S128x2080.size a ≤ S2048x2080.size a
  hwx8_3 : ∀ i : grid8.Coords, EltTy.bits .f32 = 32 ∨ (Rect.block (s := S2048x2080) S128x2080.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x65.size a ≤ S65536x65.size a
  hwx9_0 : ∀ i : grid9.Coords, EltTy.bits .f32 = 32 ∨ (Rect.block (s := S65536x65) S4096x65.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x65.size a ≤ S65536x65.size a
  hwx9_1 : ∀ i : grid9.Coords, EltTy.bits .f32 = 32 ∨ (Rect.block (s := S65536x65) S4096x65.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4096x65.size a ≤ S65536x65.size a
  hwx9_2 : ∀ i : grid9.Coords, EltTy.bits .f32 = 32 ∨ (Rect.block (s := S65536x65) S4096x65.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4096x65.size a ≤ S65536x65.size a
  hwx9_3 : ∀ i : grid9.Coords, EltTy.bits .f32 = 32 ∨ (Rect.block (s := S65536x65) S4096x65.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4096x65.size a ≤ S65536x65.size a
  hwx9_4 : ∀ i : grid9.Coords, EltTy.bits .f32 = 32 ∨ (Rect.block (s := S65536x65) S4096x65.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S65x64.size a ≤ S65x64.size a
  hwx9_5 : ∀ i : grid9.Coords, EltTy.bits .f32 = 32 ∨ (Rect.block (s := S65x64) S65x64.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S65x64.size a ≤ S65x64.size a
  hwx9_6 : ∀ i : grid9.Coords, EltTy.bits .f32 = 32 ∨ (Rect.block (s := S65x64) S65x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S65x64.size a ≤ S65x64.size a
  hwx9_7 : ∀ i : grid9.Coords, EltTy.bits .f32 = 32 ∨ (Rect.block (s := S65x64) S65x64.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S65x64.size a ≤ S65x64.size a
  hwx9_8 : ∀ i : grid9.Coords, EltTy.bits .f32 = 32 ∨ (Rect.block (s := S65x64) S65x64.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S65x64.size a ≤ S65x64.size a
  hwx9_9 : ∀ i : grid9.Coords, EltTy.bits .f32 = 32 ∨ (Rect.block (s := S65x64) S65x64.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x64.size a ≤ S1x64.size a
  hwx9_10 : ∀ i : grid9.Coords, EltTy.bits .f32 = 32 ∨ (Rect.block (s := S1x64) S1x64.size (cc9_transform_10 i) (hinb9_10 i)).WholeWords (EltTy.packing .f32)
  hstage9_11 : ∀ j, (stage9_11 j).IsWhole
  nbuf9_11 : grid9.bufCount reads9_11 false = 2
  hreads9_11 : ∀ i i' : grid9.Coords, (∀ a, reads9_11 a = true → i a = i' a) → cc9_transform_11 i = cc9_transform_11 i'
  hinb9_11 : ∀ (i : grid9.Coords) a, (cc9_transform_11 i a + 1) * S4096x64.size a ≤ S65536x64.size a
  hwx9_11 : ∀ i : grid9.Coords, EltTy.bits .f32 = 32 ∨ (Rect.block (s := S65536x64) S4096x64.size (cc9_transform_11 i) (hinb9_11 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S128x2048.size a ≤ S2048x2048.size a
  hwx10_0 : ∀ i : grid10.Coords, EltTy.bits .bf16 = 32 ∨ (Rect.block (s := S2048x2048) S128x2048.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S2048x4096.size a ≤ S2048x4096.size a
  hwx10_1 : ∀ i : grid10.Coords, EltTy.bits .bf16 = 32 ∨ (Rect.block (s := S2048x4096) S2048x4096.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S128x4096.size a ≤ S2048x4096.size a
  hwx10_2 : ∀ i : grid10.Coords, EltTy.bits .f32 = 32 ∨ (Rect.block (s := S2048x4096) S128x4096.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S128x4096.size a ≤ S2048x4096.size a
  hwx10_3 : ∀ i : grid10.Coords, EltTy.bits .bf16 = 32 ∨ (Rect.block (s := S2048x4096) S128x4096.size (cc10_transform_3 i) (hinb10_3 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S128x2048.size a ≤ S2048x2048.size a
  hwx11_0 : ∀ i : grid11.Coords, EltTy.bits .bf16 = 32 ∨ (Rect.block (s := S2048x2048) S128x2048.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S2048x4096.size a ≤ S2048x4096.size a
  hwx11_1 : ∀ i : grid11.Coords, EltTy.bits .bf16 = 32 ∨ (Rect.block (s := S2048x4096) S2048x4096.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S128x4096.size a ≤ S2048x4096.size a
  hwx11_2 : ∀ i : grid11.Coords, EltTy.bits .f32 = 32 ∨ (Rect.block (s := S2048x4096) S128x4096.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S128x4096.size a ≤ S2048x4096.size a
  hwx11_3 : ∀ i : grid11.Coords, EltTy.bits .f32 = 32 ∨ (Rect.block (s := S2048x4096) S128x4096.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S128x2048.size a ≤ S2048x2048.size a
  hwx12_0 : ∀ i : grid12.Coords, EltTy.bits .bf16 = 32 ∨ (Rect.block (s := S2048x2048) S128x2048.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S2048x4096.size a ≤ S2048x4096.size a
  hwx12_1 : ∀ i : grid12.Coords, EltTy.bits .bf16 = 32 ∨ (Rect.block (s := S2048x4096) S2048x4096.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S128x4096.size a ≤ S2048x4096.size a
  hwx12_2 : ∀ i : grid12.Coords, EltTy.bits .f32 = 32 ∨ (Rect.block (s := S2048x4096) S128x4096.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S128x4096.size a ≤ S2048x4096.size a
  hwx12_3 : ∀ i : grid12.Coords, EltTy.bits .bf16 = 32 ∨ (Rect.block (s := S2048x4096) S128x4096.size (cc12_transform_3 i) (hinb12_3 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S128x2048.size a ≤ S2048x2048.size a
  hwx13_0 : ∀ i : grid13.Coords, EltTy.bits .bf16 = 32 ∨ (Rect.block (s := S2048x2048) S128x2048.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S2048x4096.size a ≤ S2048x4096.size a
  hwx13_1 : ∀ i : grid13.Coords, EltTy.bits .bf16 = 32 ∨ (Rect.block (s := S2048x4096) S2048x4096.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S128x4096.size a ≤ S2048x4096.size a
  hwx13_2 : ∀ i : grid13.Coords, EltTy.bits .f32 = 32 ∨ (Rect.block (s := S2048x4096) S128x4096.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S128x4096.size a ≤ S2048x4096.size a
  hwx13_3 : ∀ i : grid13.Coords, EltTy.bits .f32 = 32 ∨ (Rect.block (s := S2048x4096) S128x4096.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4096x128.size a ≤ S65536x128.size a
  hwx14_0 : ∀ i : grid14.Coords, EltTy.bits .f32 = 32 ∨ (Rect.block (s := S65536x128) S4096x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S4096x128.size a ≤ S65536x128.size a
  hwx14_1 : ∀ i : grid14.Coords, EltTy.bits .f32 = 32 ∨ (Rect.block (s := S65536x128) S4096x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S4096x128.size a ≤ S65536x128.size a
  hwx14_2 : ∀ i : grid14.Coords, EltTy.bits .f32 = 32 ∨ (Rect.block (s := S65536x128) S4096x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S4096x128.size a ≤ S65536x128.size a
  hwx14_3 : ∀ i : grid14.Coords, EltTy.bits .f32 = 32 ∨ (Rect.block (s := S65536x128) S4096x128.size (cc14_transform_3 i) (hinb14_3 i)).WholeWords (EltTy.packing .f32)
  hstage14_4 : ∀ j, (stage14_4 j).IsWhole
  nbuf14_4 : grid14.bufCount reads14_4 false = 2
  hreads14_4 : ∀ i i' : grid14.Coords, (∀ a, reads14_4 a = true → i a = i' a) → cc14_transform_4 i = cc14_transform_4 i'
  hinb14_4 : ∀ (i : grid14.Coords) a, (cc14_transform_4 i a + 1) * S4096x128.size a ≤ S65536x128.size a
  hwx14_4 : ∀ i : grid14.Coords, EltTy.bits .f32 = 32 ∨ (Rect.block (s := S65536x128) S4096x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S128x128.size a ≤ S128x128.size a
  hwx14_5 : ∀ i : grid14.Coords, EltTy.bits .f32 = 32 ∨ (Rect.block (s := S128x128) S128x128.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S128x128.size a ≤ S128x128.size a
  hwx14_6 : ∀ i : grid14.Coords, EltTy.bits .f32 = 32 ∨ (Rect.block (s := S128x128) S128x128.size (cc14_transform_6 i) (hinb14_6 i)).WholeWords (EltTy.packing .f32)
  hstage14_7 : ∀ j, (stage14_7 j).IsWhole
  nbuf14_7 : grid14.bufCount reads14_7 true = 1
  hreads14_7 : ∀ i i' : grid14.Coords, (∀ a, reads14_7 a = true → i a = i' a) → cc14_transform_7 i = cc14_transform_7 i'
  hinb14_7 : ∀ (i : grid14.Coords) a, (cc14_transform_7 i a + 1) * S128x128.size a ≤ S128x128.size a
  hwx14_7 : ∀ i : grid14.Coords, EltTy.bits .f32 = 32 ∨ (Rect.block (s := S128x128) S128x128.size (cc14_transform_7 i) (hinb14_7 i)).WholeWords (EltTy.packing .f32)
  hstage14_8 : ∀ j, (stage14_8 j).IsWhole
  nbuf14_8 : grid14.bufCount reads14_8 true = 1
  hreads14_8 : ∀ i i' : grid14.Coords, (∀ a, reads14_8 a = true → i a = i' a) → cc14_transform_8 i = cc14_transform_8 i'
  hinb14_8 : ∀ (i : grid14.Coords) a, (cc14_transform_8 i a + 1) * S128x128.size a ≤ S128x128.size a
  hwx14_8 : ∀ i : grid14.Coords, EltTy.bits .f32 = 32 ∨ (Rect.block (s := S128x128) S128x128.size (cc14_transform_8 i) (hinb14_8 i)).WholeWords (EltTy.packing .f32)
  hstage14_9 : ∀ j, (stage14_9 j).IsWhole
  nbuf14_9 : grid14.bufCount reads14_9 true = 1
  hreads14_9 : ∀ i i' : grid14.Coords, (∀ a, reads14_9 a = true → i a = i' a) → cc14_transform_9 i = cc14_transform_9 i'
  hinb14_9 : ∀ (i : grid14.Coords) a, (cc14_transform_9 i a + 1) * S128x128.size a ≤ S128x128.size a
  hwx14_9 : ∀ i : grid14.Coords, EltTy.bits .f32 = 32 ∨ (Rect.block (s := S128x128) S128x128.size (cc14_transform_9 i) (hinb14_9 i)).WholeWords (EltTy.packing .f32)
  hstage14_10 : ∀ j, (stage14_10 j).IsWhole
  nbuf14_10 : grid14.bufCount reads14_10 true = 1
  hreads14_10 : ∀ i i' : grid14.Coords, (∀ a, reads14_10 a = true → i a = i' a) → cc14_transform_10 i = cc14_transform_10 i'
  hinb14_10 : ∀ (i : grid14.Coords) a, (cc14_transform_10 i a + 1) * S1x128.size a ≤ S1x128.size a
  hwx14_10 : ∀ i : grid14.Coords, EltTy.bits .f32 = 32 ∨ (Rect.block (s := S1x128) S1x128.size (cc14_transform_10 i) (hinb14_10 i)).WholeWords (EltTy.packing .f32)
  hstage14_11 : ∀ j, (stage14_11 j).IsWhole
  nbuf14_11 : grid14.bufCount reads14_11 false = 2
  hreads14_11 : ∀ i i' : grid14.Coords, (∀ a, reads14_11 a = true → i a = i' a) → cc14_transform_11 i = cc14_transform_11 i'
  hinb14_11 : ∀ (i : grid14.Coords) a, (cc14_transform_11 i a + 1) * S4096x128.size a ≤ S65536x128.size a
  hwx14_11 : ∀ i : grid14.Coords, EltTy.bits .f32 = 32 ∨ (Rect.block (s := S65536x128) S4096x128.size (cc14_transform_11 i) (hinb14_11 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S128x2048.size a ≤ S2048x2048.size a
  hwx15_0 : ∀ i : grid15.Coords, EltTy.bits .bf16 = 32 ∨ (Rect.block (s := S2048x2048) S128x2048.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S2048x4096.size a ≤ S2048x4096.size a
  hwx15_1 : ∀ i : grid15.Coords, EltTy.bits .bf16 = 32 ∨ (Rect.block (s := S2048x4096) S2048x4096.size (cc15_transform_1 i) (hinb15_1 i)).WholeWords (EltTy.packing .bf16)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S128x4096.size a ≤ S2048x4096.size a
  hwx15_2 : ∀ i : grid15.Coords, EltTy.bits .f32 = 32 ∨ (Rect.block (s := S2048x4096) S128x4096.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S128x4096.size a ≤ S2048x4096.size a
  hwx15_3 : ∀ i : grid15.Coords, EltTy.bits .bf16 = 32 ∨ (Rect.block (s := S2048x4096) S128x4096.size (cc15_transform_3 i) (hinb15_3 i)).WholeWords (EltTy.packing .bf16)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S128x2048.size a ≤ S2048x2048.size a
  hwx16_0 : ∀ i : grid16.Coords, EltTy.bits .bf16 = 32 ∨ (Rect.block (s := S2048x2048) S128x2048.size (cc16_transform_0 i) (hinb16_0 i)).WholeWords (EltTy.packing .bf16)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S2048x4096.size a ≤ S2048x4096.size a
  hwx16_1 : ∀ i : grid16.Coords, EltTy.bits .bf16 = 32 ∨ (Rect.block (s := S2048x4096) S2048x4096.size (cc16_transform_1 i) (hinb16_1 i)).WholeWords (EltTy.packing .bf16)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S128x4096.size a ≤ S2048x4096.size a
  hwx16_2 : ∀ i : grid16.Coords, EltTy.bits .f32 = 32 ∨ (Rect.block (s := S2048x4096) S128x4096.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S128x4096.size a ≤ S2048x4096.size a
  hwx16_3 : ∀ i : grid16.Coords, EltTy.bits .f32 = 32 ∨ (Rect.block (s := S2048x4096) S128x4096.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S128x2048.size a ≤ S2048x2048.size a
  hwx17_0 : ∀ i : grid17.Coords, EltTy.bits .bf16 = 32 ∨ (Rect.block (s := S2048x2048) S128x2048.size (cc17_transform_0 i) (hinb17_0 i)).WholeWords (EltTy.packing .bf16)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S2048x4096.size a ≤ S2048x4096.size a
  hwx17_1 : ∀ i : grid17.Coords, EltTy.bits .bf16 = 32 ∨ (Rect.block (s := S2048x4096) S2048x4096.size (cc17_transform_1 i) (hinb17_1 i)).WholeWords (EltTy.packing .bf16)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S128x4096.size a ≤ S2048x4096.size a
  hwx17_2 : ∀ i : grid17.Coords, EltTy.bits .f32 = 32 ∨ (Rect.block (s := S2048x4096) S128x4096.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S128x4096.size a ≤ S2048x4096.size a
  hwx17_3 : ∀ i : grid17.Coords, EltTy.bits .bf16 = 32 ∨ (Rect.block (s := S2048x4096) S128x4096.size (cc17_transform_3 i) (hinb17_3 i)).WholeWords (EltTy.packing .bf16)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S128x2048.size a ≤ S2048x2048.size a
  hwx18_0 : ∀ i : grid18.Coords, EltTy.bits .bf16 = 32 ∨ (Rect.block (s := S2048x2048) S128x2048.size (cc18_transform_0 i) (hinb18_0 i)).WholeWords (EltTy.packing .bf16)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S2048x4096.size a ≤ S2048x4096.size a
  hwx18_1 : ∀ i : grid18.Coords, EltTy.bits .bf16 = 32 ∨ (Rect.block (s := S2048x4096) S2048x4096.size (cc18_transform_1 i) (hinb18_1 i)).WholeWords (EltTy.packing .bf16)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S128x4096.size a ≤ S2048x4096.size a
  hwx18_2 : ∀ i : grid18.Coords, EltTy.bits .f32 = 32 ∨ (Rect.block (s := S2048x4096) S128x4096.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S128x4096.size a ≤ S2048x4096.size a
  hwx18_3 : ∀ i : grid18.Coords, EltTy.bits .f32 = 32 ∨ (Rect.block (s := S2048x4096) S128x4096.size (cc18_transform_3 i) (hinb18_3 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4096x128.size a ≤ S65536x128.size a
  hwx19_0 : ∀ i : grid19.Coords, EltTy.bits .f32 = 32 ∨ (Rect.block (s := S65536x128) S4096x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S4096x128.size a ≤ S65536x128.size a
  hwx19_1 : ∀ i : grid19.Coords, EltTy.bits .f32 = 32 ∨ (Rect.block (s := S65536x128) S4096x128.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S4096x128.size a ≤ S65536x128.size a
  hwx19_2 : ∀ i : grid19.Coords, EltTy.bits .f32 = 32 ∨ (Rect.block (s := S65536x128) S4096x128.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S4096x128.size a ≤ S65536x128.size a
  hwx19_3 : ∀ i : grid19.Coords, EltTy.bits .f32 = 32 ∨ (Rect.block (s := S65536x128) S4096x128.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S4096x128.size a ≤ S65536x128.size a
  hwx19_4 : ∀ i : grid19.Coords, EltTy.bits .f32 = 32 ∨ (Rect.block (s := S65536x128) S4096x128.size (cc19_transform_4 i) (hinb19_4 i)).WholeWords (EltTy.packing .f32)
  hstage19_5 : ∀ j, (stage19_5 j).IsWhole
  nbuf19_5 : grid19.bufCount reads19_5 true = 1
  hreads19_5 : ∀ i i' : grid19.Coords, (∀ a, reads19_5 a = true → i a = i' a) → cc19_transform_5 i = cc19_transform_5 i'
  hinb19_5 : ∀ (i : grid19.Coords) a, (cc19_transform_5 i a + 1) * S128x64.size a ≤ S128x64.size a
  hwx19_5 : ∀ i : grid19.Coords, EltTy.bits .f32 = 32 ∨ (Rect.block (s := S128x64) S128x64.size (cc19_transform_5 i) (hinb19_5 i)).WholeWords (EltTy.packing .f32)
  hstage19_6 : ∀ j, (stage19_6 j).IsWhole
  nbuf19_6 : grid19.bufCount reads19_6 true = 1
  hreads19_6 : ∀ i i' : grid19.Coords, (∀ a, reads19_6 a = true → i a = i' a) → cc19_transform_6 i = cc19_transform_6 i'
  hinb19_6 : ∀ (i : grid19.Coords) a, (cc19_transform_6 i a + 1) * S128x64.size a ≤ S128x64.size a
  hwx19_6 : ∀ i : grid19.Coords, EltTy.bits .f32 = 32 ∨ (Rect.block (s := S128x64) S128x64.size (cc19_transform_6 i) (hinb19_6 i)).WholeWords (EltTy.packing .f32)
  hstage19_7 : ∀ j, (stage19_7 j).IsWhole
  nbuf19_7 : grid19.bufCount reads19_7 true = 1
  hreads19_7 : ∀ i i' : grid19.Coords, (∀ a, reads19_7 a = true → i a = i' a) → cc19_transform_7 i = cc19_transform_7 i'
  hinb19_7 : ∀ (i : grid19.Coords) a, (cc19_transform_7 i a + 1) * S128x64.size a ≤ S128x64.size a
  hwx19_7 : ∀ i : grid19.Coords, EltTy.bits .f32 = 32 ∨ (Rect.block (s := S128x64) S128x64.size (cc19_transform_7 i) (hinb19_7 i)).WholeWords (EltTy.packing .f32)
  hstage19_8 : ∀ j, (stage19_8 j).IsWhole
  nbuf19_8 : grid19.bufCount reads19_8 true = 1
  hreads19_8 : ∀ i i' : grid19.Coords, (∀ a, reads19_8 a = true → i a = i' a) → cc19_transform_8 i = cc19_transform_8 i'
  hinb19_8 : ∀ (i : grid19.Coords) a, (cc19_transform_8 i a + 1) * S128x64.size a ≤ S128x64.size a
  hwx19_8 : ∀ i : grid19.Coords, EltTy.bits .f32 = 32 ∨ (Rect.block (s := S128x64) S128x64.size (cc19_transform_8 i) (hinb19_8 i)).WholeWords (EltTy.packing .f32)
  hstage19_9 : ∀ j, (stage19_9 j).IsWhole
  nbuf19_9 : grid19.bufCount reads19_9 true = 1
  hreads19_9 : ∀ i i' : grid19.Coords, (∀ a, reads19_9 a = true → i a = i' a) → cc19_transform_9 i = cc19_transform_9 i'
  hinb19_9 : ∀ (i : grid19.Coords) a, (cc19_transform_9 i a + 1) * S128x64.size a ≤ S128x64.size a
  hwx19_9 : ∀ i : grid19.Coords, EltTy.bits .f32 = 32 ∨ (Rect.block (s := S128x64) S128x64.size (cc19_transform_9 i) (hinb19_9 i)).WholeWords (EltTy.packing .f32)
  hstage19_10 : ∀ j, (stage19_10 j).IsWhole
  nbuf19_10 : grid19.bufCount reads19_10 true = 1
  hreads19_10 : ∀ i i' : grid19.Coords, (∀ a, reads19_10 a = true → i a = i' a) → cc19_transform_10 i = cc19_transform_10 i'
  hinb19_10 : ∀ (i : grid19.Coords) a, (cc19_transform_10 i a + 1) * S1x64.size a ≤ S1x64.size a
  hwx19_10 : ∀ i : grid19.Coords, EltTy.bits .f32 = 32 ∨ (Rect.block (s := S1x64) S1x64.size (cc19_transform_10 i) (hinb19_10 i)).WholeWords (EltTy.packing .f32)
  hstage19_11 : ∀ j, (stage19_11 j).IsWhole
  nbuf19_11 : grid19.bufCount reads19_11 false = 2
  hreads19_11 : ∀ i i' : grid19.Coords, (∀ a, reads19_11 a = true → i a = i' a) → cc19_transform_11 i = cc19_transform_11 i'
  hinb19_11 : ∀ (i : grid19.Coords) a, (cc19_transform_11 i a + 1) * S4096x64.size a ≤ S65536x64.size a
  hwx19_11 : ∀ i : grid19.Coords, EltTy.bits .f32 = 32 ∨ (Rect.block (s := S65536x64) S4096x64.size (cc19_transform_11 i) (hinb19_11 i)).WholeWords (EltTy.packing .f32)

variable [Facts₀]

def dot_S128x2048_S2048x2080_S128x2080_1_0_0_1_n_n : DotDims S128x2048 S2048x2080 S128x2080 where
  lhsContracting := [1]
  rhsContracting := [0]
  lhsNonContracting := [0]
  rhsNonContracting := [1]
  lhsBatch := []
  rhsBatch := []
  wf := dot_S128x2048_S2048x2080_S128x2080_1_0_0_1_n_n_wf
def dot_S4096x65_S65x128_S4096x128_1_0_0_1_n_n : DotDims S4096x65 S65x128 S4096x128 where
  lhsContracting := [1]
  rhsContracting := [0]
  lhsNonContracting := [0]
  rhsNonContracting := [1]
  lhsBatch := []
  rhsBatch := []
  wf := dot_S4096x65_S65x128_S4096x128_1_0_0_1_n_n_wf
def dot_S4096x65_S65x64_S4096x64_1_0_0_1_n_n : DotDims S4096x65 S65x64 S4096x64 where
  lhsContracting := [1]
  rhsContracting := [0]
  lhsNonContracting := [0]
  rhsNonContracting := [1]
  lhsBatch := []
  rhsBatch := []
  wf := dot_S4096x65_S65x64_S4096x64_1_0_0_1_n_n_wf
def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

abbrev win0_0 : Pipeline.Window sig grid0 :=
  Pipeline.Window.ofSpec (Memref.whole main_v15) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x2080.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26_0) S128x2080.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26_1) S128x2080.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_1) S2048x2080.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x2080.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x2080.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_1) S2048x2080.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28_0) S128x2080.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28_1) S128x2080.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S128x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28_1) S2048x2080.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26_0) S128x2080.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S128x2080.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v41) S4096x65.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v42) S4096x65.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S4096x65.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S4096x65.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v45) S4096x65.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v32) S65x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v34) S65x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v36) S65x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v38) S65x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v40) S65x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v46) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v47) S4096x128.size cc4_transform_11 reads4_11 true false 2 stage4_11 sem4_11
    hrank4 hreads4_11 hinb4_11 nbuf4_11 (Memref.isWhole_whole _) hwx4_11 hstage4_11

abbrev win4 : Fin 12 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | ⟨_ + 12, h⟩ => absurd h (Nat.not_lt.2 (Nat.le_add_left _ _))
abbrev spec4 : Fin 12 → Pipeline.WinSpec sig grid4.rank := fun w => (win4 w).toWinSpec

abbrev win5_0 : Pipeline.Window sig grid5 :=
  Pipeline.Window.ofSpec (Memref.whole main_v15) S128x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S2048x2080.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55_0) S128x2080.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v55_1) S128x2080.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v15) S128x2048.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v55_1) S2048x2080.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v53) S128x2080.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v56) S128x2080.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v16) S128x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v55_1) S2048x2080.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v57_0) S128x2080.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v57_1) S128x2080.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v16) S128x2048.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v57_1) S2048x2080.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v55_0) S128x2080.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v58) S128x2080.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v70) S4096x65.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v71) S4096x65.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v72) S4096x65.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v73) S4096x65.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v74) S4096x65.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v61) S65x64.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v63) S65x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v65) S65x64.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v67) S65x64.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v69) S65x64.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v75) S1x64.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v76) S4096x64.size cc9_transform_11 reads9_11 true false 2 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

abbrev win10_0 : Pipeline.Window sig grid10 :=
  Pipeline.Window.ofSpec (Memref.whole main_v15) S128x2048.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v89) S2048x4096.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v90_0) S128x4096.size cc10_transform_2 reads10_2 true false 2 stage10_2 sem10_2
    hrank10 hreads10_2 hinb10_2 nbuf10_2 (Memref.isWhole_whole _) hwx10_2 hstage10_2

abbrev win10_3 : Pipeline.Window sig grid10 :=
  Pipeline.Window.ofSpec (Memref.whole main_v90_1) S128x4096.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v15) S128x2048.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v90_1) S2048x4096.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v88) S128x4096.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v91) S128x4096.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v16) S128x2048.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v90_1) S2048x4096.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v92_0) S128x4096.size cc12_transform_2 reads12_2 true false 2 stage12_2 sem12_2
    hrank12 hreads12_2 hinb12_2 nbuf12_2 (Memref.isWhole_whole _) hwx12_2 hstage12_2

abbrev win12_3 : Pipeline.Window sig grid12 :=
  Pipeline.Window.ofSpec (Memref.whole main_v92_1) S128x4096.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v16) S128x2048.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v92_1) S2048x4096.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v90_0) S128x4096.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v93) S128x4096.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v105) S4096x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v106) S4096x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v107) S4096x128.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v108) S4096x128.size cc14_transform_3 reads14_3 false false 2 stage14_3 sem14_3
    hrank14 hreads14_3 hinb14_3 nbuf14_3 (Memref.isWhole_whole _) hwx14_3 hstage14_3

abbrev win14_4 : Pipeline.Window sig grid14 :=
  Pipeline.Window.ofSpec (Memref.whole main_v109) S4096x128.size cc14_transform_4 reads14_4 false false 2 stage14_4 sem14_4
    hrank14 hreads14_4 hinb14_4 nbuf14_4 (Memref.isWhole_whole _) hwx14_4 hstage14_4

abbrev win14_5 : Pipeline.Window sig grid14 :=
  Pipeline.Window.ofSpec (Memref.whole main_v96) S128x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v98) S128x128.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v100) S128x128.size cc14_transform_7 reads14_7 false true 1 stage14_7 sem14_7
    hrank14 hreads14_7 hinb14_7 nbuf14_7 (Memref.isWhole_whole _) hwx14_7 hstage14_7

abbrev win14_8 : Pipeline.Window sig grid14 :=
  Pipeline.Window.ofSpec (Memref.whole main_v102) S128x128.size cc14_transform_8 reads14_8 false true 1 stage14_8 sem14_8
    hrank14 hreads14_8 hinb14_8 nbuf14_8 (Memref.isWhole_whole _) hwx14_8 hstage14_8

abbrev win14_9 : Pipeline.Window sig grid14 :=
  Pipeline.Window.ofSpec (Memref.whole main_v104) S128x128.size cc14_transform_9 reads14_9 false true 1 stage14_9 sem14_9
    hrank14 hreads14_9 hinb14_9 nbuf14_9 (Memref.isWhole_whole _) hwx14_9 hstage14_9

abbrev win14_10 : Pipeline.Window sig grid14 :=
  Pipeline.Window.ofSpec (Memref.whole main_v110) S1x128.size cc14_transform_10 reads14_10 false true 1 stage14_10 sem14_10
    hrank14 hreads14_10 hinb14_10 nbuf14_10 (Memref.isWhole_whole _) hwx14_10 hstage14_10

abbrev win14_11 : Pipeline.Window sig grid14 :=
  Pipeline.Window.ofSpec (Memref.whole main_v111) S4096x128.size cc14_transform_11 reads14_11 true false 2 stage14_11 sem14_11
    hrank14 hreads14_11 hinb14_11 nbuf14_11 (Memref.isWhole_whole _) hwx14_11 hstage14_11

abbrev win14 : Fin 12 → Pipeline.Window sig grid14 := fun | 0 => win14_0 | 1 => win14_1 | 2 => win14_2 | 3 => win14_3 | 4 => win14_4 | 5 => win14_5 | 6 => win14_6 | 7 => win14_7 | 8 => win14_8 | 9 => win14_9 | 10 => win14_10 | 11 => win14_11 | ⟨_ + 12, h⟩ => absurd h (Nat.not_lt.2 (Nat.le_add_left _ _))
abbrev spec14 : Fin 12 → Pipeline.WinSpec sig grid14.rank := fun w => (win14 w).toWinSpec

abbrev win15_0 : Pipeline.Window sig grid15 :=
  Pipeline.Window.ofSpec (Memref.whole main_v15) S128x2048.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v118) S2048x4096.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v119_0) S128x4096.size cc15_transform_2 reads15_2 true false 2 stage15_2 sem15_2
    hrank15 hreads15_2 hinb15_2 nbuf15_2 (Memref.isWhole_whole _) hwx15_2 hstage15_2

abbrev win15_3 : Pipeline.Window sig grid15 :=
  Pipeline.Window.ofSpec (Memref.whole main_v119_1) S128x4096.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v15) S128x2048.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v119_1) S2048x4096.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v117) S128x4096.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v120) S128x4096.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v16) S128x2048.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v119_1) S2048x4096.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v121_0) S128x4096.size cc17_transform_2 reads17_2 true false 2 stage17_2 sem17_2
    hrank17 hreads17_2 hinb17_2 nbuf17_2 (Memref.isWhole_whole _) hwx17_2 hstage17_2

abbrev win17_3 : Pipeline.Window sig grid17 :=
  Pipeline.Window.ofSpec (Memref.whole main_v121_1) S128x4096.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v16) S128x2048.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v121_1) S2048x4096.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v119_0) S128x4096.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v122) S128x4096.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v134) S4096x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v135) S4096x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v136) S4096x128.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_v137) S4096x128.size cc19_transform_3 reads19_3 false false 2 stage19_3 sem19_3
    hrank19 hreads19_3 hinb19_3 nbuf19_3 (Memref.isWhole_whole _) hwx19_3 hstage19_3

abbrev win19_4 : Pipeline.Window sig grid19 :=
  Pipeline.Window.ofSpec (Memref.whole main_v138) S4096x128.size cc19_transform_4 reads19_4 false false 2 stage19_4 sem19_4
    hrank19 hreads19_4 hinb19_4 nbuf19_4 (Memref.isWhole_whole _) hwx19_4 hstage19_4

abbrev win19_5 : Pipeline.Window sig grid19 :=
  Pipeline.Window.ofSpec (Memref.whole main_v125) S128x64.size cc19_transform_5 reads19_5 false true 1 stage19_5 sem19_5
    hrank19 hreads19_5 hinb19_5 nbuf19_5 (Memref.isWhole_whole _) hwx19_5 hstage19_5

abbrev win19_6 : Pipeline.Window sig grid19 :=
  Pipeline.Window.ofSpec (Memref.whole main_v127) S128x64.size cc19_transform_6 reads19_6 false true 1 stage19_6 sem19_6
    hrank19 hreads19_6 hinb19_6 nbuf19_6 (Memref.isWhole_whole _) hwx19_6 hstage19_6

abbrev win19_7 : Pipeline.Window sig grid19 :=
  Pipeline.Window.ofSpec (Memref.whole main_v129) S128x64.size cc19_transform_7 reads19_7 false true 1 stage19_7 sem19_7
    hrank19 hreads19_7 hinb19_7 nbuf19_7 (Memref.isWhole_whole _) hwx19_7 hstage19_7

abbrev win19_8 : Pipeline.Window sig grid19 :=
  Pipeline.Window.ofSpec (Memref.whole main_v131) S128x64.size cc19_transform_8 reads19_8 false true 1 stage19_8 sem19_8
    hrank19 hreads19_8 hinb19_8 nbuf19_8 (Memref.isWhole_whole _) hwx19_8 hstage19_8

abbrev win19_9 : Pipeline.Window sig grid19 :=
  Pipeline.Window.ofSpec (Memref.whole main_v133) S128x64.size cc19_transform_9 reads19_9 false true 1 stage19_9 sem19_9
    hrank19 hreads19_9 hinb19_9 nbuf19_9 (Memref.isWhole_whole _) hwx19_9 hstage19_9

abbrev win19_10 : Pipeline.Window sig grid19 :=
  Pipeline.Window.ofSpec (Memref.whole main_v139) S1x64.size cc19_transform_10 reads19_10 false true 1 stage19_10 sem19_10
    hrank19 hreads19_10 hinb19_10 nbuf19_10 (Memref.isWhole_whole _) hwx19_10 hstage19_10

abbrev win19_11 : Pipeline.Window sig grid19 :=
  Pipeline.Window.ofSpec (Memref.whole main_v140) S4096x64.size cc19_transform_11 reads19_11 true false 2 stage19_11 sem19_11
    hrank19 hreads19_11 hinb19_11 nbuf19_11 (Memref.isWhole_whole _) hwx19_11 hstage19_11

abbrev win19 : Fin 12 → Pipeline.Window sig grid19 := fun | 0 => win19_0 | 1 => win19_1 | 2 => win19_2 | 3 => win19_3 | 4 => win19_4 | 5 => win19_5 | 6 => win19_6 | 7 => win19_7 | 8 => win19_8 | 9 => win19_9 | 10 => win19_10 | 11 => win19_11 | ⟨_ + 12, h⟩ => absurd h (Nat.not_lt.2 (Nat.le_add_left _ _))
abbrev spec19 : Fin 12 → Pipeline.WinSpec sig grid19.rank := fun w => (win19 w).toWinSpec

class Facts : Prop extends Facts₀ where

variable [Facts]
-- ==== ReferenceIdeal.lean ====
abbrev S32x2048 : Shape := ⟨2, ![32, 2048]⟩
abbrev S2x32x131072 : Shape := ⟨3, ![2, 32, 131072]⟩
abbrev S2048x2048 : Shape := ⟨2, ![2048, 2048]⟩
abbrev S325x128 : Shape := ⟨2, ![325, 128]⟩
abbrev S128 : Shape := ⟨1, ![128]⟩
abbrev S325x64 : Shape := ⟨2, ![325, 64]⟩
abbrev S64 : Shape := ⟨1, ![64]⟩
abbrev S640x128 : Shape := ⟨2, ![640, 128]⟩
abbrev S640x64 : Shape := ⟨2, ![640, 64]⟩
abbrev S64x1 : Shape := ⟨2, ![64, 1]⟩
abbrev S1 : Shape := ⟨1, ![1]⟩
abbrev S_ : Shape := ⟨0, ![]⟩
abbrev S2048 : Shape := ⟨1, ![2048]⟩
abbrev S2048x1 : Shape := ⟨2, ![2048, 1]⟩
abbrev S1x32x131072 : Shape := ⟨3, ![1, 32, 131072]⟩
abbrev S32x131072 : Shape := ⟨2, ![32, 131072]⟩
abbrev S32x2048x1 : Shape := ⟨3, ![32, 2048, 1]⟩
abbrev S32x2048x64 : Shape := ⟨3, ![32, 2048, 64]⟩
abbrev S32x2048x65 : Shape := ⟨3, ![32, 2048, 65]⟩
abbrev S2048x65x32 : Shape := ⟨3, ![2048, 65, 32]⟩
abbrev S2048x2080 : Shape := ⟨2, ![2048, 2080]⟩
abbrev S1x2048x2080 : Shape := ⟨3, ![1, 2048, 2080]⟩
abbrev S5x2048x2080 : Shape := ⟨3, ![5, 2048, 2080]⟩
abbrev S5x2048x65x32 : Shape := ⟨4, ![5, 2048, 65, 32]⟩
abbrev S32x2048x65x5 : Shape := ⟨4, ![32, 2048, 65, 5]⟩
abbrev S65536x325 : Shape := ⟨2, ![65536, 325]⟩
abbrev S65536x128 : Shape := ⟨2, ![65536, 128]⟩
abbrev S1x128 : Shape := ⟨2, ![1, 128]⟩
abbrev S32x2048x128 : Shape := ⟨3, ![32, 2048, 128]⟩
abbrev S65536x64 : Shape := ⟨2, ![65536, 64]⟩
abbrev S1x64 : Shape := ⟨2, ![1, 64]⟩
abbrev S2048x128x32 : Shape := ⟨3, ![2048, 128, 32]⟩
abbrev S2048x4096 : Shape := ⟨2, ![2048, 4096]⟩
abbrev S1x2048x4096 : Shape := ⟨3, ![1, 2048, 4096]⟩
abbrev S5x2048x4096 : Shape := ⟨3, ![5, 2048, 4096]⟩
abbrev S5x2048x128x32 : Shape := ⟨4, ![5, 2048, 128, 32]⟩
abbrev S32x2048x128x5 : Shape := ⟨4, ![32, 2048, 128, 5]⟩
abbrev S65536x640 : Shape := ⟨2, ![65536, 640]⟩
abbrev S65536x1 : Shape := ⟨2, ![65536, 1]⟩
abbrev S1x1 : Shape := ⟨2, ![1, 1]⟩

abbrev nBuf : Space → Nat
  | .hbm => 203
  | .vmem => 0
  | .smem => 0
  | _ => 0

abbrev hbmTy0_0 (i : Nat) : BufTy := match i % 128 with
  | 0 => ⟨S32x2048, .f32⟩
  | 1 => ⟨S2x32x131072, .f32⟩
  | 2 => ⟨S2048x2048, .f32⟩
  | 3 => ⟨S325x128, .f32⟩
  | 4 => ⟨S128, .f32⟩
  | 5 => ⟨S325x64, .f32⟩
  | 6 => ⟨S64, .f32⟩
  | 7 => ⟨S640x128, .f32⟩
  | 8 => ⟨S128, .f32⟩
  | 9 => ⟨S640x64, .f32⟩
  | 10 => ⟨S64, .f32⟩
  | 11 => ⟨S64x1, .f32⟩
  | 12 => ⟨S1, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S2048x2048, .f32⟩
  | 20 => ⟨S2048x2048, .f32⟩
  | 21 => ⟨S2048x2048, .f32⟩
  | 22 => ⟨S2048x2048, .f32⟩
  | 23 => ⟨S_, .f32⟩
  | 24 => ⟨S2048, .f32⟩
  | 25 => ⟨S2048x1, .f32⟩
  | 26 => ⟨S_, .f32⟩
  | 27 => ⟨S2048x1, .f32⟩
  | 28 => ⟨S2048x1, .f32⟩
  | 29 => ⟨S2048x2048, .f32⟩
  | 30 => ⟨S2048x2048, .f32⟩
  | 31 => ⟨S2048x2048, .f32⟩
  | 32 => ⟨S1x32x131072, .f32⟩
  | 33 => ⟨S32x131072, .f32⟩
  | 34 => ⟨S32x2048x1, .f32⟩
  | 35 => ⟨S32x2048x64, .f32⟩
  | 36 => ⟨S32x2048x65, .f32⟩
  | 37 => ⟨S2048x65x32, .f32⟩
  | 38 => ⟨S2048x2080, .f32⟩
  | 39 => ⟨S2048x2080, .f32⟩
  | 40 => ⟨S2048x2080, .f32⟩
  | 41 => ⟨S_, .f32⟩
  | 42 => ⟨S2048x2080, .f32⟩
  | 43 => ⟨S2048x2080, .f32⟩
  | 44 => ⟨S2048x2080, .f32⟩
  | 45 => ⟨S2048x2080, .f32⟩
  | 46 => ⟨S2048x2080, .f32⟩
  | 47 => ⟨S_, .f32⟩
  | 48 => ⟨S2048x2080, .f32⟩
  | 49 => ⟨S2048x2080, .f32⟩
  | 50 => ⟨S2048x2080, .f32⟩
  | 51 => ⟨S1x2048x2080, .f32⟩
  | 52 => ⟨S1x2048x2080, .f32⟩
  | 53 => ⟨S1x2048x2080, .f32⟩
  | 54 => ⟨S1x2048x2080, .f32⟩
  | 55 => ⟨S1x2048x2080, .f32⟩
  | 56 => ⟨S5x2048x2080, .f32⟩
  | 57 => ⟨S5x2048x65x32, .f32⟩
  | 58 => ⟨S32x2048x65x5, .f32⟩
  | 59 => ⟨S65536x325, .f32⟩
  | 60 => ⟨S65536x128, .f32⟩
  | 61 => ⟨S1x128, .f32⟩
  | 62 => ⟨S65536x128, .f32⟩
  | 63 => ⟨S65536x128, .f32⟩
  | 64 => ⟨S65536x128, .f32⟩
  | 65 => ⟨S65536x128, .f32⟩
  | 66 => ⟨S_, .f32⟩
  | 67 => ⟨S65536x128, .f32⟩
  | 68 => ⟨S65536x128, .f32⟩
  | 69 => ⟨S_, .f32⟩
  | 70 => ⟨S65536x128, .f32⟩
  | 71 => ⟨S65536x128, .f32⟩
  | 72 => ⟨S32x2048x128, .f32⟩
  | 73 => ⟨S32x2048x64, .f32⟩
  | 74 => ⟨S32x2048x64, .f32⟩
  | 75 => ⟨S32x2048x64, .f32⟩
  | 76 => ⟨S32x2048x65, .f32⟩
  | 77 => ⟨S2048x65x32, .f32⟩
  | 78 => ⟨S2048x2080, .f32⟩
  | 79 => ⟨S2048x2080, .f32⟩
  | 80 => ⟨S2048x2080, .f32⟩
  | 81 => ⟨S_, .f32⟩
  | 82 => ⟨S2048x2080, .f32⟩
  | 83 => ⟨S2048x2080, .f32⟩
  | 84 => ⟨S2048x2080, .f32⟩
  | 85 => ⟨S2048x2080, .f32⟩
  | 86 => ⟨S2048x2080, .f32⟩
  | 87 => ⟨S_, .f32⟩
  | 88 => ⟨S2048x2080, .f32⟩
  | 89 => ⟨S2048x2080, .f32⟩
  | 90 => ⟨S2048x2080, .f32⟩
  | 91 => ⟨S1x2048x2080, .f32⟩
  | 92 => ⟨S1x2048x2080, .f32⟩
  | 93 => ⟨S1x2048x2080, .f32⟩
  | 94 => ⟨S1x2048x2080, .f32⟩
  | 95 => ⟨S1x2048x2080, .f32⟩
  | 96 => ⟨S5x2048x2080, .f32⟩
  | 97 => ⟨S5x2048x65x32, .f32⟩
  | 98 => ⟨S32x2048x65x5, .f32⟩
  | 99 => ⟨S65536x325, .f32⟩
  | 100 => ⟨S65536x64, .f32⟩
  | 101 => ⟨S1x64, .f32⟩
  | 102 => ⟨S65536x64, .f32⟩
  | 103 => ⟨S65536x64, .f32⟩
  | 104 => ⟨S32x2048x64, .f32⟩
  | 105 => ⟨S32x2048x64, .f32⟩
  | 106 => ⟨S32x2048x64, .f32⟩
  | 107 => ⟨S_, .f32⟩
  | 108 => ⟨S32x2048x64, .f32⟩
  | 109 => ⟨S32x2048x64, .f32⟩
  | 110 => ⟨S32x2048x64, .f32⟩
  | 111 => ⟨S32x2048x64, .f32⟩
  | 112 => ⟨S32x131072, .f32⟩
  | 113 => ⟨S1x32x131072, .f32⟩
  | 114 => ⟨S32x131072, .f32⟩
  | 115 => ⟨S32x2048x64, .f32⟩
  | 116 => ⟨S32x2048x64, .f32⟩
  | 117 => ⟨S32x2048x128, .f32⟩
  | 118 => ⟨S2048x128x32, .f32⟩
  | 119 => ⟨S2048x4096, .f32⟩
  | 120 => ⟨S2048x4096, .f32⟩
  | 121 => ⟨S2048x4096, .f32⟩
  | 122 => ⟨S_, .f32⟩
  | 123 => ⟨S2048x4096, .f32⟩
  | 124 => ⟨S2048x4096, .f32⟩
  | 125 => ⟨S2048x4096, .f32⟩
  | 126 => ⟨S2048x4096, .f32⟩
  | 127 => ⟨S2048x4096, .f32⟩
  | _ => ⟨S32x2048, .f32⟩

abbrev hbmTy0_1 (i : Nat) : BufTy := match i % 128 with
  | 0 => ⟨S_, .f32⟩
  | 1 => ⟨S2048x4096, .f32⟩
  | 2 => ⟨S2048x4096, .f32⟩
  | 3 => ⟨S2048x4096, .f32⟩
  | 4 => ⟨S1x2048x4096, .f32⟩
  | 5 => ⟨S1x2048x4096, .f32⟩
  | 6 => ⟨S1x2048x4096, .f32⟩
  | 7 => ⟨S1x2048x4096, .f32⟩
  | 8 => ⟨S1x2048x4096, .f32⟩
  | 9 => ⟨S5x2048x4096, .f32⟩
  | 10 => ⟨S5x2048x128x32, .f32⟩
  | 11 => ⟨S32x2048x128x5, .f32⟩
  | 12 => ⟨S65536x640, .f32⟩
  | 13 => ⟨S65536x128, .f32⟩
  | 14 => ⟨S1x128, .f32⟩
  | 15 => ⟨S65536x128, .f32⟩
  | 16 => ⟨S65536x128, .f32⟩
  | 17 => ⟨S65536x128, .f32⟩
  | 18 => ⟨S65536x128, .f32⟩
  | 19 => ⟨S_, .f32⟩
  | 20 => ⟨S65536x128, .f32⟩
  | 21 => ⟨S65536x128, .f32⟩
  | 22 => ⟨S_, .f32⟩
  | 23 => ⟨S65536x128, .f32⟩
  | 24 => ⟨S65536x128, .f32⟩
  | 25 => ⟨S32x2048x128, .f32⟩
  | 26 => ⟨S32x2048x64, .f32⟩
  | 27 => ⟨S32x2048x64, .f32⟩
  | 28 => ⟨S32x2048x64, .f32⟩
  | 29 => ⟨S32x2048x128, .f32⟩
  | 30 => ⟨S2048x128x32, .f32⟩
  | 31 => ⟨S2048x4096, .f32⟩
  | 32 => ⟨S2048x4096, .f32⟩
  | 33 => ⟨S2048x4096, .f32⟩
  | 34 => ⟨S_, .f32⟩
  | 35 => ⟨S2048x4096, .f32⟩
  | 36 => ⟨S2048x4096, .f32⟩
  | 37 => ⟨S2048x4096, .f32⟩
  | 38 => ⟨S2048x4096, .f32⟩
  | 39 => ⟨S2048x4096, .f32⟩
  | 40 => ⟨S_, .f32⟩
  | 41 => ⟨S2048x4096, .f32⟩
  | 42 => ⟨S2048x4096, .f32⟩
  | 43 => ⟨S2048x4096, .f32⟩
  | 44 => ⟨S1x2048x4096, .f32⟩
  | 45 => ⟨S1x2048x4096, .f32⟩
  | 46 => ⟨S1x2048x4096, .f32⟩
  | 47 => ⟨S1x2048x4096, .f32⟩
  | 48 => ⟨S1x2048x4096, .f32⟩
  | 49 => ⟨S5x2048x4096, .f32⟩
  | 50 => ⟨S5x2048x128x32, .f32⟩
  | 51 => ⟨S32x2048x128x5, .f32⟩
  | 52 => ⟨S65536x640, .f32⟩
  | 53 => ⟨S65536x64, .f32⟩
  | 54 => ⟨S1x64, .f32⟩
  | 55 => ⟨S65536x64, .f32⟩
  | 56 => ⟨S65536x64, .f32⟩
  | 57 => ⟨S32x2048x64, .f32⟩
  | 58 => ⟨S32x2048x64, .f32⟩
  | 59 => ⟨S32x2048x64, .f32⟩
  | 60 => ⟨S_, .f32⟩
  | 61 => ⟨S32x2048x64, .f32⟩
  | 62 => ⟨S32x2048x64, .f32⟩
  | 63 => ⟨S32x2048x64, .f32⟩
  | 64 => ⟨S32x2048x64, .f32⟩
  | 65 => ⟨S32x131072, .f32⟩
  | 66 => ⟨S65536x64, .f32⟩
  | 67 => ⟨S65536x1, .f32⟩
  | 68 => ⟨S1x1, .f32⟩
  | 69 => ⟨S65536x1, .f32⟩
  | 70 => ⟨S65536x1, .f32⟩
  | 71 => ⟨S32x2048, .f32⟩
  | 72 => ⟨S1x32x131072, .f32⟩
  | 73 => ⟨S1x32x131072, .f32⟩
  | 74 => ⟨S2x32x131072, .f32⟩
  | _ => ⟨S32x2048, .f32⟩

abbrev hbmTy (i : Nat) : BufTy := match i / 128 with
  | 0 => hbmTy0_0 i
  | 1 => hbmTy0_1 i
  | _ => ⟨S32x2048, .f32⟩

abbrev bufTy : (tb : Table) → Fin (tcTables nBuf tb) → BufTy
  | .hbm, ⟨i, _⟩ => hbmTy i
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_8 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_9 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_10 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_11 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_12 : Ref sig .tc := ⟨.hbm, 147, rfl⟩
abbrev main_v121 : Ref sig .tc := ⟨.hbm, 148, rfl⟩
abbrev main_v122 : Ref sig .tc := ⟨.hbm, 149, rfl⟩
abbrev main_cst_13 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_14 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_15 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_cst_16 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  transposes_S2048x2048_S2048x2048_1_0 : S2048x2048.Transposes [1, 0] S2048x2048
  slices_S2x32x131072_S1x32x131072_0_0_0 : S2x32x131072.Slices ![0, 0, 0] S1x32x131072
  shapeCasts_S1x32x131072_S32x131072 : S1x32x131072.ShapeCasts S32x131072
  shapeCasts_S32x2048_S32x2048x1 : S32x2048.ShapeCasts S32x2048x1
  shapeCasts_S32x131072_S32x2048x64 : S32x131072.ShapeCasts S32x2048x64
  concatenates_S32x2048x1_S32x2048x64_S32x2048x65_d2 : Shape.Concatenates [S32x2048x1, S32x2048x64] S32x2048x65 2
  transposes_S32x2048x65_S2048x65x32_1_2_0 : S32x2048x65.Transposes [1, 2, 0] S2048x65x32
  shapeCasts_S2048x65x32_S2048x2080 : S2048x65x32.ShapeCasts S2048x2080
  bcast_S_S2048x2080 : S_.BroadcastsInDim S2048x2080 (![] : Fin 0 → Fin S2048x2080.rank)
  bcast_S2048x2080_S1x2048x2080_1_2 : S2048x2080.BroadcastsInDim S1x2048x2080 (![1, 2] : Fin 2 → Fin S1x2048x2080.rank)
  concatenates_S1x2048x2080_S1x2048x2080_S1x2048x2080_S1x2048x2080_S1x2048x2080_S5x2048x2080_d0 : Shape.Concatenates [S1x2048x2080, S1x2048x2080, S1x2048x2080, S1x2048x2080, S1x2048x2080] S5x2048x2080 0
  shapeCasts_S5x2048x2080_S5x2048x65x32 : S5x2048x2080.ShapeCasts S5x2048x65x32
  transposes_S5x2048x65x32_S32x2048x65x5_3_1_2_0 : S5x2048x65x32.Transposes [3, 1, 2, 0] S32x2048x65x5
  shapeCasts_S32x2048x65x5_S65536x325 : S32x2048x65x5.ShapeCasts S65536x325
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  shapeCasts_S65536x128_S32x2048x128 : S65536x128.ShapeCasts S32x2048x128
  slices_S32x2048x128_S32x2048x64_0_0_0 : S32x2048x128.Slices ![0, 0, 0] S32x2048x64
  slices_S32x2048x128_S32x2048x64_0_0_64 : S32x2048x128.Slices ![0, 0, 64] S32x2048x64
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  shapeCasts_S65536x64_S32x2048x64 : S65536x64.ShapeCasts S32x2048x64
  bcast_S_S32x2048x64 : S_.BroadcastsInDim S32x2048x64 (![] : Fin 0 → Fin S32x2048x64.rank)
  shapeCasts_S32x2048x64_S32x131072 : S32x2048x64.ShapeCasts S32x131072
  slices_S2x32x131072_S1x32x131072_1_0_0 : S2x32x131072.Slices ![1, 0, 0] S1x32x131072
  concatenates_S32x2048x64_S32x2048x64_S32x2048x128_d2 : Shape.Concatenates [S32x2048x64, S32x2048x64] S32x2048x128 2
  transposes_S32x2048x128_S2048x128x32_1_2_0 : S32x2048x128.Transposes [1, 2, 0] S2048x128x32
  shapeCasts_S2048x128x32_S2048x4096 : S2048x128x32.ShapeCasts S2048x4096
  bcast_S_S2048x4096 : S_.BroadcastsInDim S2048x4096 (![] : Fin 0 → Fin S2048x4096.rank)
  bcast_S2048x4096_S1x2048x4096_1_2 : S2048x4096.BroadcastsInDim S1x2048x4096 (![1, 2] : Fin 2 → Fin S1x2048x4096.rank)
  concatenates_S1x2048x4096_S1x2048x4096_S1x2048x4096_S1x2048x4096_S1x2048x4096_S5x2048x4096_d0 : Shape.Concatenates [S1x2048x4096, S1x2048x4096, S1x2048x4096, S1x2048x4096, S1x2048x4096] S5x2048x4096 0
  shapeCasts_S5x2048x4096_S5x2048x128x32 : S5x2048x4096.ShapeCasts S5x2048x128x32
  transposes_S5x2048x128x32_S32x2048x128x5_3_1_2_0 : S5x2048x128x32.Transposes [3, 1, 2, 0] S32x2048x128x5
  shapeCasts_S32x2048x128x5_S65536x640 : S32x2048x128x5.ShapeCasts S65536x640
  shapeCasts_S32x131072_S65536x64 : S32x131072.ShapeCasts S65536x64
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S32x2048 : S65536x1.ShapeCasts S32x2048
  bcast_S32x131072_S1x32x131072_1_2 : S32x131072.BroadcastsInDim S1x32x131072 (![1, 2] : Fin 2 → Fin S1x32x131072.rank)
  concatenates_S1x32x131072_S1x32x131072_S2x32x131072_d0 : Shape.Concatenates [S1x32x131072, S1x32x131072] S2x32x131072 0
  dot_S2048x2048_S2048x2080_S2048x2080_1_0_0_1_n_n_wf : DotDims.WF S2048x2048 S2048x2080 S2048x2080 [1] [0] [0] [1] [] []
  dot_S65536x325_S325x128_S65536x128_1_0_0_1_n_n_wf : DotDims.WF S65536x325 S325x128 S65536x128 [1] [0] [0] [1] [] []
  dot_S65536x325_S325x64_S65536x64_1_0_0_1_n_n_wf : DotDims.WF S65536x325 S325x64 S65536x64 [1] [0] [0] [1] [] []
  dot_S2048x2048_S2048x4096_S2048x4096_1_0_0_1_n_n_wf : DotDims.WF S2048x2048 S2048x4096 S2048x4096 [1] [0] [0] [1] [] []
  dot_S65536x640_S640x128_S65536x128_1_0_0_1_n_n_wf : DotDims.WF S65536x640 S640x128 S65536x128 [1] [0] [0] [1] [] []
  dot_S65536x640_S640x64_S65536x64_1_0_0_1_n_n_wf : DotDims.WF S65536x640 S640x64 S65536x64 [1] [0] [0] [1] [] []
  dot_S65536x64_S64x1_S65536x1_1_0_0_1_n_n_wf : DotDims.WF S65536x64 S64x1 S65536x1 [1] [0] [0] [1] [] []

variable [Facts₀]

def dot_S2048x2048_S2048x2080_S2048x2080_1_0_0_1_n_n : DotDims S2048x2048 S2048x2080 S2048x2080 where
  lhsContracting := [1]
  rhsContracting := [0]
  lhsNonContracting := [0]
  rhsNonContracting := [1]
  lhsBatch := []
  rhsBatch := []
  wf := dot_S2048x2048_S2048x2080_S2048x2080_1_0_0_1_n_n_wf
def dot_S65536x325_S325x128_S65536x128_1_0_0_1_n_n : DotDims S65536x325 S325x128 S65536x128 where
  lhsContracting := [1]
  rhsContracting := [0]
  lhsNonContracting := [0]
  rhsNonContracting := [1]
  lhsBatch := []
  rhsBatch := []
  wf := dot_S65536x325_S325x128_S65536x128_1_0_0_1_n_n_wf
def dot_S65536x325_S325x64_S65536x64_1_0_0_1_n_n : DotDims S65536x325 S325x64 S65536x64 where
  lhsContracting := [1]
  rhsContracting := [0]
  lhsNonContracting := [0]
  rhsNonContracting := [1]
  lhsBatch := []
  rhsBatch := []
  wf := dot_S65536x325_S325x64_S65536x64_1_0_0_1_n_n_wf
def dot_S2048x2048_S2048x4096_S2048x4096_1_0_0_1_n_n : DotDims S2048x2048 S2048x4096 S2048x4096 where
  lhsContracting := [1]
  rhsContracting := [0]
  lhsNonContracting := [0]
  rhsNonContracting := [1]
  lhsBatch := []
  rhsBatch := []
  wf := dot_S2048x2048_S2048x4096_S2048x4096_1_0_0_1_n_n_wf
def dot_S65536x640_S640x128_S65536x128_1_0_0_1_n_n : DotDims S65536x640 S640x128 S65536x128 where
  lhsContracting := [1]
  rhsContracting := [0]
  lhsNonContracting := [0]
  rhsNonContracting := [1]
  lhsBatch := []
  rhsBatch := []
  wf := dot_S65536x640_S640x128_S65536x128_1_0_0_1_n_n_wf
def dot_S65536x640_S640x64_S65536x64_1_0_0_1_n_n : DotDims S65536x640 S640x64 S65536x64 where
  lhsContracting := [1]
  rhsContracting := [0]
  lhsNonContracting := [0]
  rhsNonContracting := [1]
  lhsBatch := []
  rhsBatch := []
  wf := dot_S65536x640_S640x64_S65536x64_1_0_0_1_n_n_wf
def dot_S65536x64_S64x1_S65536x1_1_0_0_1_n_n : DotDims S65536x64 S64x1 S65536x1 where
  lhsContracting := [1]
  rhsContracting := [0]
  lhsNonContracting := [0]
  rhsNonContracting := [1]
  lhsBatch := []
  rhsBatch := []
  wf := dot_S65536x64_S64x1_S65536x1_1_0_0_1_n_n_wf

class Facts : Prop extends Facts₀ where

variable [Facts]
-- ==== Proof.KernelRun.lean ====
/-
  The idealized kernel program's run with its two results named. The program is a list of segments — nine host
  stretches and twenty launched regions — and the contents of core c's buffers at each boundary are a fold through
  that list. Every weakly fair execution from a memory with zero counters ends, nothing faulting, with each
  argument array as launched and each result buffer at the last boundary's contents of its reference. What those
  contents are, as functions of the arguments, is read off the fold by the modules that import this one.
-/
import proofs.«132349_j60696477827149_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The state core c's thread starts the first segment from: its unscoped buffers held at the launch contents,
    the generator register and an empty debt beside them. -/
abbrev Tstart (c : Dev nD) : sProp 𝕄 :=
  iprop(StableHlo.held (c : Thread nD τ) (Pipeline.ucRefs τ sig) (W0 m ρ c) ∗ R c)

/-- What a final memory says of core c: every unscoped buffer holds the last boundary's contents. -/
def EndsAt (c : Dev nD) (s : MemSt nD τ sig (Elt F)) : Prop :=
  ∀ b ∈ Pipeline.ucRefs τ sig, s.mem (((c : Thread nD τ)).1, b) = W29 m ρ c b

/-- Each segment ends in the state the next one starts from; after the last host stretch the held buffers and the
    register are set apart from the debt. -/
theorem segs_chain : Pipeline.Seg.Chains (Tstart m ρ) (segs m ρ)
    (fun c => iprop(Tₙ m ρ c ∗ ∃ W, owes (c : Thread nD τ) (0 : CellTallies nD τ sig Unit) W)) := by
  iterate 29 refine ⟨fun _ => .rfl, ?_⟩
  intro c
  dsimp only [Pipeline.Seg.post, hseg, Pipeline.HostSeg.ofOps]
  iintro ⟨Hheld, Hreg, Hdebt⟩
  isplitl [Hheld Hreg]
  · isplitl [Hheld]
    · iexact Hheld
    · iexact Hreg
  · iexact Hdebt

/-- Nothing is set aside per core at launch. -/
theorem emp_each : (BI.emp : sProp 𝕄) ⊢ bigSep Finset.univ (fun _ : Dev nD => (BI.emp : sProp 𝕄)) := by
  rw [BI.bigSep_emp_const]

/-- The launch's user-algebra element is owned through the one embedding. -/
theorem tokens_own : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

set_option backward.isDefEq.respectTransparency.types false in
/-- The run: the regions kit over the program's segments, the last thread state read against the final memory. -/
theorem run_named : θ_run defs (onTc (τ := τ) (main (F := F))) ⟨m, fun _ => 0, ρ⟩ (fun r => ∀ c : Dev nD,
      r.2.mem ((c.tc : Thread nD τ).loc main_v154) = W29 m ρ c (Proc.devRef .tc main_v154)
      ∧ r.2.mem ((c.tc : Thread nD τ).loc main_v161) = W29 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?tokens) (T₀ := Tstart m ρ) (Tₙ := Tₙ m ρ) (hch := segs_chain m ρ) (hinit := ?initial)
    (QY := EndsAt m ρ) (hfin := ?final)
    (hQ := fun s h c =>
      ⟨h c _ (mem_uc main_v154 (by decide)),
       h c _ (mem_uc main_v161 (by decide)),
       (h c _ (mem_uc main_arg0 (by decide))).trans (W29_main_arg0 m ρ c),
       (h c _ (mem_uc main_arg1 (by decide))).trans (W29_main_arg1 m ρ c),
       (h c _ (mem_uc main_arg2 (by decide))).trans (W29_main_arg2 m ρ c),
       (h c _ (mem_uc main_arg3 (by decide))).trans (W29_main_arg3 m ρ c),
       (h c _ (mem_uc main_arg4 (by decide))).trans (W29_main_arg4 m ρ c),
       (h c _ (mem_uc main_arg5 (by decide))).trans (W29_main_arg5 m ρ c),
       (h c _ (mem_uc main_arg6 (by decide))).trans (W29_main_arg6 m ρ c),
       (h c _ (mem_uc main_arg7 (by decide))).trans (W29_main_arg7 m ρ c),
       (h c _ (mem_uc main_arg8 (by decide))).trans (W29_main_arg8 m ρ c),
       (h c _ (mem_uc main_arg9 (by decide))).trans (W29_main_arg9 m ρ c),
       (h c _ (mem_uc main_arg10 (by decide))).trans (W29_main_arg10 m ρ c),
       (h c _ (mem_uc main_arg11 (by decide))).trans (W29_main_arg11 m ρ c),
       (h c _ (mem_uc main_arg12 (by decide))).trans (W29_main_arg12 m ρ c)⟩)
  case tokens =>
    iintro Hown
    imodintro
    isplitl [Hown]
    · iapply (tokens_own (F := F))
      iexact Hown
    · iapply (emp_each (F := F))
      iempintro
  case initial =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Hdebt, -, Hreg, -⟩, -⟩
    imodintro
    isplitl [Hbufs]
    · iexact Hbufs
    · isplitl [Hreg]
      · iexists _
        iexact Hreg
      · iexists ∅
        iexact Hdebt
  case final =>
    intro c s'
    unfold EndsAt
    iintro ⟨⟨Hheld, -⟩, HSI⟩
    unfold StableHlo.held
    imodintro
    iapply (pointsTo_read_all (Pipeline.ucRefs τ sig) (fun b => (((c : Thread nD τ)).1, b)) (W29 m ρ c) s')
    isplitl [Hheld] <;> iassumption

end Cert.KernelIdeal.RunValue

end
-- ==== Proof.LibRelate.lean ====
/-
  Relations between two layouts of one tensor with a node axis (2048), a batch axis (32) and a feature axis.
  One program keeps the node axis first, [2048, 32, F], flattened to [2048, 32·F] with column b·F + f and to
  [65536, F] with row n·32 + b; the other keeps the batch axis first, [32, 2048, F], and flattens through a
  transpose to [2048, F·32] with column f·32 + b and to [65536, F] with row b·2048 + n. Each relation below says
  two arrays hold the same tensor in these two layouts. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Relate

open Idealize.ShloMosaic Idealize.ShloMosaic.ValueIdx

variable {α : Type}

/-- A node-major rank-three array against a batch-major one: entry (n, b, f) of the first is entry (b, n, f) of the second. -/
def Swap3 {Fd : ℕ} (K : (⟨3, ![2048, 32, Fd]⟩ : Shape).Idx → α) (R : (⟨3, ![32, 2048, Fd]⟩ : Shape).Idx → α) : Prop :=
  ∀ (n : Fin 2048) (b : Fin 32) (f : Fin Fd), K (ix3 n b f) = R (ix3 b n f)

/-- Flattened columns at 65 features: column b·65 + f of the first array is column f·32 + b of the second. -/
def Cols65 (K R : (⟨2, ![2048, 2080]⟩ : Shape).Idx → α) : Prop :=
  ∀ (n : Fin 2048) (b : Fin 32) (f : Fin 65),
    K (ix2 n (⟨b.val * 65 + f.val, by omega⟩ : Fin 2080)) = R (ix2 n (⟨f.val * 32 + b.val, by omega⟩ : Fin 2080))

/-- Flattened columns at 128 features: column b·128 + f of the first array is column f·32 + b of the second. -/
def Cols128 (K R : (⟨2, ![2048, 4096]⟩ : Shape).Idx → α) : Prop :=
  ∀ (n : Fin 2048) (b : Fin 32) (f : Fin 128),
    K (ix2 n (⟨b.val * 128 + f.val, by omega⟩ : Fin 4096)) = R (ix2 n (⟨f.val * 32 + b.val, by omega⟩ : Fin 4096))

/-- Flattened rows: row n·32 + b of the first array is row b·2048 + n of the second. -/
def Rows {O : ℕ} (K R : (⟨2, ![65536, O]⟩ : Shape).Idx → α) : Prop :=
  ∀ (n : Fin 2048) (b : Fin 32) (o : Fin O),
    K (ix2 (⟨n.val * 32 + b.val, by omega⟩ : Fin 65536) o) = R (ix2 (⟨b.val * 2048 + n.val, by omega⟩ : Fin 65536) o)

end Cert.Relate

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«132349_j60696477827149_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«132349_j60696477827149_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibRelateLayout.lean ====
/-
  Two layouts of one tensor with a node axis (2048), a batch axis (32) and a feature axis are carried through the
  layout operations and the arithmetic that two programs apply to it: a transpose of the first two axes, a slice or a
  concatenation along the feature axis, entrywise arithmetic, the flattening to columns (before a product on the left
  with a [2048, 2048] matrix) and to rows (before a product on the right with a weight matrix), and back. Each lemma
  takes the shape facts of the operations it mentions as hypotheses and reads both sides at an index built from
  coordinates, where every index equation is linear. None mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«132349_j60696477827149_2_alg».proof.Proof.LibRelate
import proofs.«132349_j60696477827149_2_alg».proof.Proof.LibRowBlocks

noncomputable section

namespace Cert.Relate

open Idealize.ShloMosaic Idealize.ShloMosaic.ValueIdx Cert.DenseLib

variable {α : Type}

/-! ## The relation under layout operations on the rank-three arrays -/

/-- The transpose of the first two axes of a batch-major array is its node-major layout. -/
theorem swap3_transpose {Fd : ℕ} (v : (⟨3, ![32, 2048, Fd]⟩ : Shape).Idx → α)
    (h : (⟨3, ![32, 2048, Fd]⟩ : Shape).Transposes [1, 0, 2] ⟨3, ![2048, 32, Fd]⟩) :
    Swap3 (transpose ⟨3, ![2048, 32, Fd]⟩ [1, 0, 2] v h) v := by
  intro n b f
  exact transpose_apply _ v h (ix3 n b f) (ix3 b n f) fun a => by
    match a with
    | ⟨0, _⟩ => rfl
    | ⟨1, _⟩ => rfl
    | ⟨2, _⟩ => rfl

/-- The transpose of the first two axes of a node-major array IS the batch-major array it is related to. -/
theorem transpose_eq_of_swap3 {Fd : ℕ} (u : (⟨3, ![2048, 32, Fd]⟩ : Shape).Idx → α) (u' : (⟨3, ![32, 2048, Fd]⟩ : Shape).Idx → α)
    (h : (⟨3, ![2048, 32, Fd]⟩ : Shape).Transposes [1, 0, 2] ⟨3, ![32, 2048, Fd]⟩) (hu : Swap3 u u') :
    transpose ⟨3, ![32, 2048, Fd]⟩ [1, 0, 2] u h = u' := by
  funext j
  obtain ⟨b, n, f, rfl⟩ : ∃ (b : Fin 32) (n : Fin 2048) (f : Fin Fd), j = ix3 b n f := ⟨j 0, j 1, j 2, eq_ix3 j⟩
  refine (transpose_apply _ u h (ix3 b n f) (ix3 n b f) fun a => ?_).trans (hu n b f)
  match a with
  | ⟨0, _⟩ => rfl
  | ⟨1, _⟩ => rfl
  | ⟨2, _⟩ => rfl

/-- A slice of the feature axis keeps the relation. -/
theorem swap3_slice {Fd Gd : ℕ} (off : ℕ)
    (x : (⟨3, ![2048, 32, Fd]⟩ : Shape).Idx → α) (x' : (⟨3, ![32, 2048, Fd]⟩ : Shape).Idx → α)
    (h : (⟨3, ![2048, 32, Fd]⟩ : Shape).Slices ![0, 0, off] ⟨3, ![2048, 32, Gd]⟩)
    (h' : (⟨3, ![32, 2048, Fd]⟩ : Shape).Slices ![0, 0, off] ⟨3, ![32, 2048, Gd]⟩)
    (hx : Swap3 x x') :
    Swap3 (extractStridedSlice ⟨3, ![2048, 32, Gd]⟩ ![0, 0, off] x h)
      (extractStridedSlice ⟨3, ![32, 2048, Gd]⟩ ![0, 0, off] x' h') := by
  intro n b g
  have hle : off + Gd ≤ Fd := by
    have e := h.2 (2 : Fin 3)
    exact e
  have hg : off + g.val < Fd := by have := g.isLt; omega
  have e1 : extractStridedSlice ⟨3, ![2048, 32, Gd]⟩ ![0, 0, off] x h (ix3 n b g) = x (ix3 n b (⟨off + g.val, hg⟩ : Fin Fd)) :=
    extractStridedSlice_apply _ x h _ _ fun a => by
      match a with
      | ⟨0, _⟩ => exact (Nat.zero_add _).symm
      | ⟨1, _⟩ => exact (Nat.zero_add _).symm
      | ⟨2, _⟩ => rfl
  have e2 : extractStridedSlice ⟨3, ![32, 2048, Gd]⟩ ![0, 0, off] x' h' (ix3 b n g) = x' (ix3 b n (⟨off + g.val, hg⟩ : Fin Fd)) :=
    extractStridedSlice_apply _ x' h' _ _ fun a => by
      match a with
      | ⟨0, _⟩ => exact (Nat.zero_add _).symm
      | ⟨1, _⟩ => exact (Nat.zero_add _).symm
      | ⟨2, _⟩ => rfl
  rw [e1, e2]
  exact hx n b _

/-- A concatenation of two pieces along the feature axis keeps the relation. -/
theorem swap3_concat {F1 F2 F3 : ℕ}
    (a : (⟨3, ![2048, 32, F1]⟩ : Shape).Idx → α) (a' : (⟨3, ![32, 2048, F1]⟩ : Shape).Idx → α)
    (b : (⟨3, ![2048, 32, F2]⟩ : Shape).Idx → α) (b' : (⟨3, ![32, 2048, F2]⟩ : Shape).Idx → α)
    (h : Shape.Concatenates [(⟨3, ![2048, 32, F1]⟩ : Shape), ⟨3, ![2048, 32, F2]⟩] ⟨3, ![2048, 32, F3]⟩ 2)
    (h' : Shape.Concatenates [(⟨3, ![32, 2048, F1]⟩ : Shape), ⟨3, ![32, 2048, F2]⟩] ⟨3, ![32, 2048, F3]⟩ 2)
    (ha : Swap3 a a') (hb : Swap3 b b') :
    Swap3 (concatenate ⟨3, ![2048, 32, F3]⟩ 2 [⟨⟨3, ![2048, 32, F1]⟩, a⟩, ⟨⟨3, ![2048, 32, F2]⟩, b⟩] h)
      (concatenate ⟨3, ![32, 2048, F3]⟩ 2 [⟨⟨3, ![32, 2048, F1]⟩, a'⟩, ⟨⟨3, ![32, 2048, F2]⟩, b'⟩] h') := by
  intro n c f
  have hsum : F1 + (F2 + 0) = F3 := by
    have e := h.2.2
    simp only [List.map, List.sum_cons, List.sum_nil] at e
    exact e
  by_cases hf : f.val < F1
  · refine (concatenate_pair_apply_left 2 a b h (ix3 n c f) rfl (ix3 n c (⟨f.val, hf⟩ : Fin F1)) fun d => ?_).trans
      ((ha n c ⟨f.val, hf⟩).trans
        (concatenate_pair_apply_left 2 a' b' h' (ix3 c n f) rfl (ix3 c n (⟨f.val, hf⟩ : Fin F1)) fun d => ?_).symm)
    · match d with
      | ⟨0, _⟩ => rfl
      | ⟨1, _⟩ => rfl
      | ⟨2, _⟩ => rfl
    · match d with
      | ⟨0, _⟩ => rfl
      | ⟨1, _⟩ => rfl
      | ⟨2, _⟩ => rfl
  · have hf2 : f.val - F1 < F2 := by have := f.isLt; omega
    refine (concatenate_pair_apply_right 2 a b h (ix3 n c f) rfl rfl (ix3 n c (⟨f.val - F1, hf2⟩ : Fin F2)) (fun d hd => ?_) ?_).trans
      ((hb n c ⟨f.val - F1, hf2⟩).trans
        (concatenate_pair_apply_right 2 a' b' h' (ix3 c n f) rfl rfl (ix3 c n (⟨f.val - F1, hf2⟩ : Fin F2)) (fun d hd => ?_) ?_).symm)
    · match d, hd with
      | ⟨0, _⟩, _ => rfl
      | ⟨1, _⟩, _ => rfl
      | ⟨2, _⟩, hd => exact absurd rfl hd
    · show f.val - F1 + F1 = f.val
      omega
    · match d, hd with
      | ⟨0, _⟩, _ => rfl
      | ⟨1, _⟩, _ => rfl
      | ⟨2, _⟩, hd => exact absurd rfl hd
    · show f.val - F1 + F1 = f.val
      omega

/-! ## The relation under entrywise arithmetic on the extended reals -/

theorem swap3_mulf {Fd : ℕ} {φ : FTy} (x y : FVec Ideal ⟨3, ![2048, 32, Fd]⟩ φ) (x' y' : FVec Ideal ⟨3, ![32, 2048, Fd]⟩ φ)
    (hx : Swap3 x x') (hy : Swap3 y y') : Swap3 (mulf x y) (mulf x' y') := by
  intro n b f
  show x (ix3 n b f) * y (ix3 n b f) = x' (ix3 b n f) * y' (ix3 b n f)
  rw [hx n b f, hy n b f]

theorem swap3_addf {Fd : ℕ} {φ : FTy} (x y : FVec Ideal ⟨3, ![2048, 32, Fd]⟩ φ) (x' y' : FVec Ideal ⟨3, ![32, 2048, Fd]⟩ φ)
    (hx : Swap3 x x') (hy : Swap3 y y') : Swap3 (addf x y) (addf x' y') := by
  intro n b f
  show x (ix3 n b f) + y (ix3 n b f) = x' (ix3 b n f) + y' (ix3 b n f)
  rw [hx n b f, hy n b f]

theorem swap3_subf {Fd : ℕ} {φ : FTy} (x y : FVec Ideal ⟨3, ![2048, 32, Fd]⟩ φ) (x' y' : FVec Ideal ⟨3, ![32, 2048, Fd]⟩ φ)
    (hx : Swap3 x x') (hy : Swap3 y y') : Swap3 (subf x y) (subf x' y') := by
  intro n b f
  show x (ix3 n b f) - y (ix3 n b f) = x' (ix3 b n f) - y' (ix3 b n f)
  rw [hx n b f, hy n b f]

/-- One scalar constant broadcast to both layouts. -/
theorem swap3_const {Fd : ℕ} (φ : FTy) (w : BitVec φ.bits)
    (h : (⟨0, ![]⟩ : Shape).BroadcastsInDim ⟨3, ![2048, 32, Fd]⟩ (![] : Fin 0 → Fin 3))
    (h' : (⟨0, ![]⟩ : Shape).BroadcastsInDim ⟨3, ![32, 2048, Fd]⟩ (![] : Fin 0 → Fin 3)) :
    Swap3 (broadcastInDim ⟨3, ![2048, 32, Fd]⟩ ![] h (constant (F := Ideal) ⟨0, ![]⟩ φ w))
      (broadcastInDim ⟨3, ![32, 2048, Fd]⟩ ![] h' (constant (F := Ideal) ⟨0, ![]⟩ φ w)) := by
  intro n b f
  exact (Cert.LayoutLib.broadcastInDim_scalar_apply h _ (ix3 n b f)).trans
    (Cert.LayoutLib.broadcastInDim_scalar_apply h' _ (ix3 b n f)).symm

/-! ## From the rank-three layouts to flattened columns -/

/-- Node-major [2048, 32, 65] flattened to [2048, 2080] puts (b, f) at column b·65 + f; batch-major [32, 2048, 65]
    transposed to [2048, 65, 32] and flattened puts it at column f·32 + b. -/
theorem cols65_of_swap3 (u : (⟨3, ![2048, 32, 65]⟩ : Shape).Idx → α) (u' : (⟨3, ![32, 2048, 65]⟩ : Shape).Idx → α)
    (hK : (⟨3, ![2048, 32, 65]⟩ : Shape).ShapeCasts ⟨2, ![2048, 2080]⟩)
    (hT : (⟨3, ![32, 2048, 65]⟩ : Shape).Transposes [1, 2, 0] ⟨3, ![2048, 65, 32]⟩)
    (hR : (⟨3, ![2048, 65, 32]⟩ : Shape).ShapeCasts ⟨2, ![2048, 2080]⟩)
    (h : Swap3 u u') :
    Cols65 (shapeCast ⟨2, ![2048, 2080]⟩ u hK)
      (shapeCast ⟨2, ![2048, 2080]⟩ (transpose ⟨3, ![2048, 65, 32]⟩ [1, 2, 0] u' hT) hR) := by
  intro n b f
  have e1 : shapeCast ⟨2, ![2048, 2080]⟩ u hK (ix2 n (⟨b.val * 65 + f.val, by omega⟩ : Fin 2080)) = u (ix3 n b f) :=
    shapeCast_apply u hK _ _ (by
      rw [Shape.rowMajor_val_three, Shape.rowMajor_val_two]
      show (n.val * 32 + b.val) * 65 + f.val = n.val * 2080 + (b.val * 65 + f.val)
      omega)
  have e2 : shapeCast ⟨2, ![2048, 2080]⟩ (transpose ⟨3, ![2048, 65, 32]⟩ [1, 2, 0] u' hT) hR
      (ix2 n (⟨f.val * 32 + b.val, by omega⟩ : Fin 2080)) = transpose ⟨3, ![2048, 65, 32]⟩ [1, 2, 0] u' hT (ix3 n f b) :=
    shapeCast_apply _ hR _ _ (by
      rw [Shape.rowMajor_val_three, Shape.rowMajor_val_two]
      show (n.val * 65 + f.val) * 32 + b.val = n.val * 2080 + (f.val * 32 + b.val)
      omega)
  have e3 : transpose ⟨3, ![2048, 65, 32]⟩ [1, 2, 0] u' hT (ix3 n f b) = u' (ix3 b n f) :=
    transpose_apply _ u' hT _ _ fun a => by
      match a with
      | ⟨0, _⟩ => rfl
      | ⟨1, _⟩ => rfl
      | ⟨2, _⟩ => rfl
  rw [e1, e2, e3]
  exact h n b f

/-- The same at 128 features: columns b·128 + f against f·32 + b of [2048, 4096]. -/
theorem cols128_of_swap3 (u : (⟨3, ![2048, 32, 128]⟩ : Shape).Idx → α) (u' : (⟨3, ![32, 2048, 128]⟩ : Shape).Idx → α)
    (hK : (⟨3, ![2048, 32, 128]⟩ : Shape).ShapeCasts ⟨2, ![2048, 4096]⟩)
    (hT : (⟨3, ![32, 2048, 128]⟩ : Shape).Transposes [1, 2, 0] ⟨3, ![2048, 128, 32]⟩)
    (hR : (⟨3, ![2048, 128, 32]⟩ : Shape).ShapeCasts ⟨2, ![2048, 4096]⟩)
    (h : Swap3 u u') :
    Cols128 (shapeCast ⟨2, ![2048, 4096]⟩ u hK)
      (shapeCast ⟨2, ![2048, 4096]⟩ (transpose ⟨3, ![2048, 128, 32]⟩ [1, 2, 0] u' hT) hR) := by
  intro n b f
  have e1 : shapeCast ⟨2, ![2048, 4096]⟩ u hK (ix2 n (⟨b.val * 128 + f.val, by omega⟩ : Fin 4096)) = u (ix3 n b f) :=
    shapeCast_apply u hK _ _ (by
      rw [Shape.rowMajor_val_three, Shape.rowMajor_val_two]
      show (n.val * 32 + b.val) * 128 + f.val = n.val * 4096 + (b.val * 128 + f.val)
      omega)
  have e2 : shapeCast ⟨2, ![2048, 4096]⟩ (transpose ⟨3, ![2048, 128, 32]⟩ [1, 2, 0] u' hT) hR
      (ix2 n (⟨f.val * 32 + b.val, by omega⟩ : Fin 4096)) = transpose ⟨3, ![2048, 128, 32]⟩ [1, 2, 0] u' hT (ix3 n f b) :=
    shapeCast_apply _ hR _ _ (by
      rw [Shape.rowMajor_val_three, Shape.rowMajor_val_two]
      show (n.val * 128 + f.val) * 32 + b.val = n.val * 4096 + (f.val * 32 + b.val)
      omega)
  have e3 : transpose ⟨3, ![2048, 128, 32]⟩ [1, 2, 0] u' hT (ix3 n f b) = u' (ix3 b n f) :=
    transpose_apply _ u' hT _ _ fun a => by
      match a with
      | ⟨0, _⟩ => rfl
      | ⟨1, _⟩ => rfl
      | ⟨2, _⟩ => rfl
  rw [e1, e2, e3]
  exact h n b f

/-! ## Flattened columns under a product on the left and entrywise combination -/

/-- A product on the left mixes rows and leaves every column in place. -/
theorem cols65_mm (S : (⟨2, ![2048, 2048]⟩ : Shape).Idx → EReal) (X X' : (⟨2, ![2048, 2080]⟩ : Shape).Idx → EReal)
    (h : Cols65 X X') : Cols65 (mm S X) (mm S X') := by
  intro n b f
  refine (mm_apply S X n _).trans (Eq.trans (Finset.sum_congr rfl fun k _ => ?_) (mm_apply S X' n _).symm)
  exact congrArg (S (ix2 n k) * ·) (h k b f)

theorem cols128_mm (S : (⟨2, ![2048, 2048]⟩ : Shape).Idx → EReal) (X X' : (⟨2, ![2048, 4096]⟩ : Shape).Idx → EReal)
    (h : Cols128 X X') : Cols128 (mm S X) (mm S X') := by
  intro n b f
  refine (mm_apply S X n _).trans (Eq.trans (Finset.sum_congr rfl fun k _ => ?_) (mm_apply S X' n _).symm)
  exact congrArg (S (ix2 n k) * ·) (h k b f)

theorem cols65_comb (c : EReal) (Y Y' Z Z' : (⟨2, ![2048, 2080]⟩ : Shape).Idx → EReal)
    (hY : Cols65 Y Y') (hZ : Cols65 Z Z') : Cols65 (fun i => c * Y i - Z i) (fun i => c * Y' i - Z' i) := by
  intro n b f
  show c * Y _ - Z _ = c * Y' _ - Z' _
  rw [hY n b f, hZ n b f]

theorem cols128_comb (c : EReal) (Y Y' Z Z' : (⟨2, ![2048, 4096]⟩ : Shape).Idx → EReal)
    (hY : Cols128 Y Y') (hZ : Cols128 Z Z') : Cols128 (fun i => c * Y i - Z i) (fun i => c * Y' i - Z' i) := by
  intro n b f
  show c * Y _ - Z _ = c * Y' _ - Z' _
  rw [hY n b f, hZ n b f]

/-! ## Between the rank-three layouts and flattened rows -/

/-- Rows n·32 + b against b·2048 + n, reshaped to [2048, 32, O] and to [32, 2048, O]. -/
theorem swap3_of_rows {O : ℕ} (X X' : (⟨2, ![65536, O]⟩ : Shape).Idx → α)
    (h : (⟨2, ![65536, O]⟩ : Shape).ShapeCasts ⟨3, ![2048, 32, O]⟩)
    (h' : (⟨2, ![65536, O]⟩ : Shape).ShapeCasts ⟨3, ![32, 2048, O]⟩)
    (hX : Rows X X') : Swap3 (shapeCast ⟨3, ![2048, 32, O]⟩ X h) (shapeCast ⟨3, ![32, 2048, O]⟩ X' h') := by
  intro n b o
  have e1 : shapeCast ⟨3, ![2048, 32, O]⟩ X h (ix3 n b o) = X (ix2 (⟨n.val * 32 + b.val, by omega⟩ : Fin 65536) o) :=
    shapeCast_apply X h _ _ (by
      rw [Shape.rowMajor_val_three, Shape.rowMajor_val_two]
      rfl)
  have e2 : shapeCast ⟨3, ![32, 2048, O]⟩ X' h' (ix3 b n o) = X' (ix2 (⟨b.val * 2048 + n.val, by omega⟩ : Fin 65536) o) :=
    shapeCast_apply X' h' _ _ (by
      rw [Shape.rowMajor_val_three, Shape.rowMajor_val_two]
      rfl)
  rw [e1, e2]
  exact hX n b o

/-- [2048, 32, 64] flattened to rows n·32 + b; [32, 2048, 64] flattened through [32, 131072] to rows b·2048 + n. -/
theorem rows_of_swap3 (u : (⟨3, ![2048, 32, 64]⟩ : Shape).Idx → α) (u' : (⟨3, ![32, 2048, 64]⟩ : Shape).Idx → α)
    (hK : (⟨3, ![2048, 32, 64]⟩ : Shape).ShapeCasts ⟨2, ![65536, 64]⟩)
    (h1 : (⟨3, ![32, 2048, 64]⟩ : Shape).ShapeCasts ⟨2, ![32, 131072]⟩)
    (h2 : (⟨2, ![32, 131072]⟩ : Shape).ShapeCasts ⟨2, ![65536, 64]⟩)
    (h : Swap3 u u') :
    Rows (shapeCast ⟨2, ![65536, 64]⟩ u hK) (shapeCast ⟨2, ![65536, 64]⟩ (shapeCast ⟨2, ![32, 131072]⟩ u' h1) h2) := by
  intro n b o
  have e1 : shapeCast ⟨2, ![65536, 64]⟩ u hK (ix2 (⟨n.val * 32 + b.val, by omega⟩ : Fin 65536) o) = u (ix3 n b o) :=
    shapeCast_apply u hK _ _ (by
      rw [Shape.rowMajor_val_three, Shape.rowMajor_val_two]
      rfl)
  have e2 : shapeCast ⟨2, ![65536, 64]⟩ (shapeCast ⟨2, ![32, 131072]⟩ u' h1) h2 (ix2 (⟨b.val * 2048 + n.val, by omega⟩ : Fin 65536) o)
      = shapeCast ⟨2, ![32, 131072]⟩ u' h1 (ix2 b (⟨n.val * 64 + o.val, by omega⟩ : Fin 131072)) :=
    shapeCast_apply _ h2 _ _ (by
      rw [Shape.rowMajor_val_two, Shape.rowMajor_val_two]
      show b.val * 131072 + (n.val * 64 + o.val) = (b.val * 2048 + n.val) * 64 + o.val
      omega)
  have e3 : shapeCast ⟨2, ![32, 131072]⟩ u' h1 (ix2 b (⟨n.val * 64 + o.val, by omega⟩ : Fin 131072)) = u' (ix3 b n o) :=
    shapeCast_apply u' h1 _ _ (by
      rw [Shape.rowMajor_val_three, Shape.rowMajor_val_two]
      show (b.val * 2048 + n.val) * 64 + o.val = b.val * 131072 + (n.val * 64 + o.val)
      omega)
  rw [e1, e2, e3]
  exact h n b o

/-- A product on the right acts row by row, so it keeps the row relation; so does adding arrays related the same way. -/
theorem rows_mm_add {K O : ℕ} (X X' : (⟨2, ![65536, K]⟩ : Shape).Idx → EReal) (w : (⟨2, ![K, O]⟩ : Shape).Idx → EReal)
    (β β' : (⟨2, ![65536, O]⟩ : Shape).Idx → EReal) (hX : Rows X X') (hβ : Rows β β') :
    Rows (fun i => mm X w i + β i) (fun i => mm X' w i + β' i) := by
  intro n b o
  show mm X w (ix2 _ o) + β _ = mm X' w (ix2 _ o) + β' _
  rw [hβ n b o, mm_row X X' w _ _ (fun k => hX n b k) o]

/-- A bias laid along every row is related to itself. -/
theorem rows_rows {O : ℕ} (g : Fin O → EReal) : Rows (rows (M := 65536) g) (rows (M := 65536) g) := fun _ _ _ => rfl

/-- The row relation at one output column, read as a [32, 2048] matrix: the node-major column reshaped to
    [2048, 32] and transposed is the batch-major column reshaped to [32, 2048]. -/
theorem transpose_eq_of_rows (Z Z' : (⟨2, ![65536, 1]⟩ : Shape).Idx → α)
    (h1 : (⟨2, ![65536, 1]⟩ : Shape).ShapeCasts ⟨3, ![2048, 32, 1]⟩)
    (h2 : (⟨3, ![2048, 32, 1]⟩ : Shape).ShapeCasts ⟨2, ![2048, 32]⟩)
    (h3 : (⟨2, ![2048, 32]⟩ : Shape).Transposes [1, 0] ⟨2, ![32, 2048]⟩)
    (h' : (⟨2, ![65536, 1]⟩ : Shape).ShapeCasts ⟨2, ![32, 2048]⟩)
    (hZ : Rows Z Z') :
    transpose ⟨2, ![32, 2048]⟩ [1, 0] (shapeCast ⟨2, ![2048, 32]⟩ (shapeCast ⟨3, ![2048, 32, 1]⟩ Z h1) h2) h3
      = shapeCast ⟨2, ![32, 2048]⟩ Z' h' := by
  funext j
  obtain ⟨b, n, rfl⟩ : ∃ (b : Fin 32) (n : Fin 2048), j = ix2 b n := ⟨j 0, j 1, eq_ix2 j⟩
  have e1 : transpose ⟨2, ![32, 2048]⟩ [1, 0] (shapeCast ⟨2, ![2048, 32]⟩ (shapeCast ⟨3, ![2048, 32, 1]⟩ Z h1) h2) h3 (ix2 b n)
      = shapeCast ⟨2, ![2048, 32]⟩ (shapeCast ⟨3, ![2048, 32, 1]⟩ Z h1) h2 (ix2 n b) :=
    transpose_apply _ _ h3 _ _ fun a => by
      match a with
      | ⟨0, _⟩ => rfl
      | ⟨1, _⟩ => rfl
  have e2 : shapeCast ⟨2, ![2048, 32]⟩ (shapeCast ⟨3, ![2048, 32, 1]⟩ Z h1) h2 (ix2 n b)
      = shapeCast ⟨3, ![2048, 32, 1]⟩ Z h1 (ix3 n b (0 : Fin 1)) :=
    shapeCast_apply _ h2 _ _ (by
      rw [Shape.rowMajor_val_three, Shape.rowMajor_val_two]
      show (n.val * 32 + b.val) * 1 + 0 = n.val * 32 + b.val
      omega)
  have e3 : shapeCast ⟨3, ![2048, 32, 1]⟩ Z h1 (ix3 n b (0 : Fin 1)) = Z (ix2 (⟨n.val * 32 + b.val, by omega⟩ : Fin 65536) (0 : Fin 1)) :=
    shapeCast_apply Z h1 _ _ (by
      rw [Shape.rowMajor_val_three, Shape.rowMajor_val_two]
      rfl)
  have e4 : shapeCast ⟨2, ![32, 2048]⟩ Z' h' (ix2 b n) = Z' (ix2 (⟨b.val * 2048 + n.val, by omega⟩ : Fin 65536) (0 : Fin 1)) :=
    shapeCast_apply Z' h' _ _ (by
      rw [Shape.rowMajor_val_two, Shape.rowMajor_val_two]
      show (b.val * 2048 + n.val) * 1 + 0 = b.val * 2048 + n.val
      omega)
  rw [e1, e2, e3, e4]
  exact hZ n b 0

/-- The node-major array transposed and flattened to [32, 131072] is the batch-major array flattened. -/
theorem shapeCast_transpose_eq_of_swap3 (u : (⟨3, ![2048, 32, 64]⟩ : Shape).Idx → α) (u' : (⟨3, ![32, 2048, 64]⟩ : Shape).Idx → α)
    (h : (⟨3, ![2048, 32, 64]⟩ : Shape).Transposes [1, 0, 2] ⟨3, ![32, 2048, 64]⟩)
    (h2 : (⟨3, ![32, 2048, 64]⟩ : Shape).ShapeCasts ⟨2, ![32, 131072]⟩) (hu : Swap3 u u') :
    shapeCast ⟨2, ![32, 131072]⟩ (transpose ⟨3, ![32, 2048, 64]⟩ [1, 0, 2] u h) h2 = shapeCast ⟨2, ![32, 131072]⟩ u' h2 := by
  rw [transpose_eq_of_swap3 u u' h hu]

end Cert.Relate

end
-- ==== Proof.BridgeTerms.lean ====
/-
  The kernel program's intermediate arrays, stage by stage, as whole-array functions of the reference's argument
  arrays and of its two support terms (which the two programs compute alike). Each launched product is written as
  the whole-array matrix product, each projection as the sum of five products plus a bias row followed by its
  activation, each host stretch by the operations it applies. Two layers, each with a gate and a candidate graph
  convolution of five members; then the recurrent update, the final projection and the stacked states.
-/
import proofs.«132349_j60696477827149_2_alg».proof.Proof.Gen.KernelIdeal
import proofs.«132349_j60696477827149_2_alg».proof.Proof.Gen.ReferenceIdeal.Run
import proofs.«132349_j60696477827149_2_alg».proof.Proof.LibDense
import Idealize.ShloMosaic.Lib.IdealHost

set_option maxRecDepth 16384

noncomputable section

namespace Cert.Bridge

open Cert.KernelIdeal Cert.KernelIdeal.Gen
open Idealize.ShloMosaic Idealize.ShloMosaic.TcCoe Idealize.ShloMosaic.ValueIdx Cert.DenseLib

variable (V0 : Valuation Cert.ReferenceIdeal.τ Cert.ReferenceIdeal.sig (Elt Ideal))

/-- The literal 2.0 of the Chebyshev step, never evaluated. -/
abbrev two : EReal := Ideal.ofBits .f32 0x40000000#32

/-- The sum of five products and a bias row laid along every row, added in this order. -/
abbrev proj5 {M K N : ℕ} (X0 X1 X2 X3 X4 : (⟨2, ![M, K]⟩ : Shape).Idx → EReal) (W0 W1 W2 W3 W4 : (⟨2, ![K, N]⟩ : Shape).Idx → EReal)
    (B : (⟨2, ![1, N]⟩ : Shape).Idx → EReal) : FVec Ideal ⟨2, ![M, N]⟩ .f32 :=
  addf (addf (addf (addf (addf (mm X0 W0) (mm X1 W1)) (mm X2 W2)) (mm X3 W3)) (mm X4 W4)) (rows fun q => B (ix2 (0 : Fin 1) q))

/-! ## The argument arrays, as the reference holds them -/
abbrev a3 : S325x128.Idx → EReal := V0 (Proc.devRef .tc Cert.ReferenceIdeal.main_arg3)
abbrev a4 : S128.Idx → EReal := V0 (Proc.devRef .tc Cert.ReferenceIdeal.main_arg4)
abbrev a5 : S325x64.Idx → EReal := V0 (Proc.devRef .tc Cert.ReferenceIdeal.main_arg5)
abbrev a6 : S64.Idx → EReal := V0 (Proc.devRef .tc Cert.ReferenceIdeal.main_arg6)
abbrev a7 : S640x128.Idx → EReal := V0 (Proc.devRef .tc Cert.ReferenceIdeal.main_arg7)
abbrev a8 : S128.Idx → EReal := V0 (Proc.devRef .tc Cert.ReferenceIdeal.main_arg8)
abbrev a9 : S640x64.Idx → EReal := V0 (Proc.devRef .tc Cert.ReferenceIdeal.main_arg9)
abbrev a10 : S64.Idx → EReal := V0 (Proc.devRef .tc Cert.ReferenceIdeal.main_arg10)
abbrev a11 : S64x1.Idx → EReal := V0 (Proc.devRef .tc Cert.ReferenceIdeal.main_arg11)
abbrev a12 : S1.Idx → EReal := V0 (Proc.devRef .tc Cert.ReferenceIdeal.main_arg12)

/-! ## Layer 0 -/
/-- The node-major input and state, over the reference's batch-major ones. -/
abbrev inpK : S2048x32x1.Idx → EReal :=
  transpose S2048x32x1 [1, 0, 2] (Cert.ReferenceIdeal.Value.res_main_v17 V0) transposes_S32x2048x1_S2048x32x1_1_0_2
abbrev hid0K : S2048x32x64.Idx → EReal :=
  transpose S2048x32x64 [1, 0, 2] (Cert.ReferenceIdeal.Value.res_main_v18 V0) transposes_S32x2048x64_S2048x32x64_1_0_2
/-- The gate convolution's input: input and state joined along the feature axis, flattened. -/
abbrev x0K : S2048x2080.Idx → EReal :=
  shapeCast S2048x2080 (concatenate S2048x32x65 2 [⟨S2048x32x1, inpK V0⟩, ⟨S2048x32x64, hid0K V0⟩]
    concatenates_S2048x32x1_S2048x32x64_S2048x32x65_d2) shapeCasts_S2048x32x65_S2048x2080
abbrev x1K : S2048x2080.Idx → EReal := mm (M := 2048) (K := 2048) (N := 2080) (Cert.ReferenceIdeal.Value.res_main_v6 V0) (x0K V0)
abbrev x2K : S2048x2080.Idx → EReal := fun i => two * mm (M := 2048) (K := 2048) (N := 2080) (Cert.ReferenceIdeal.Value.res_main_v6 V0) (x1K V0) i - x0K V0 i
abbrev x3K : S2048x2080.Idx → EReal := mm (M := 2048) (K := 2048) (N := 2080) (Cert.ReferenceIdeal.Value.res_main_v14 V0) (x1K V0)
abbrev x4K : S2048x2080.Idx → EReal := fun i => two * mm (M := 2048) (K := 2048) (N := 2080) (Cert.ReferenceIdeal.Value.res_main_v14 V0) (x3K V0) i - x1K V0 i
/-- The gate: the projection of the five members, squashed, then as [2048, 32, 128] and its two halves. -/
abbrev gate0K : S65536x128.Idx → EReal :=
  logistic (proj5 (M := 65536) (K := 65) (N := 128)
    (shapeCast S65536x65 (x0K V0) shapeCasts_S2048x2080_S65536x65) (shapeCast S65536x65 (x1K V0) shapeCasts_S2048x2080_S65536x65)
    (shapeCast S65536x65 (x2K V0) shapeCasts_S2048x2080_S65536x65) (shapeCast S65536x65 (x3K V0) shapeCasts_S2048x2080_S65536x65)
    (shapeCast S65536x65 (x4K V0) shapeCasts_S2048x2080_S65536x65)
    (shapeCast S65x128 (extractStridedSlice S65x1x128 ![0, 0, 0] (shapeCast S65x5x128 (a3 V0) shapeCasts_S325x128_S65x5x128) slices_S65x5x128_S65x1x128_0_0_0) shapeCasts_S65x1x128_S65x128)
    (shapeCast S65x128 (extractStridedSlice S65x1x128 ![0, 1, 0] (shapeCast S65x5x128 (a3 V0) shapeCasts_S325x128_S65x5x128) slices_S65x5x128_S65x1x128_0_1_0) shapeCasts_S65x1x128_S65x128)
    (shapeCast S65x128 (extractStridedSlice S65x1x128 ![0, 2, 0] (shapeCast S65x5x128 (a3 V0) shapeCasts_S325x128_S65x5x128) slices_S65x5x128_S65x1x128_0_2_0) shapeCasts_S65x1x128_S65x128)
    (shapeCast S65x128 (extractStridedSlice S65x1x128 ![0, 3, 0] (shapeCast S65x5x128 (a3 V0) shapeCasts_S325x128_S65x5x128) slices_S65x5x128_S65x1x128_0_3_0) shapeCasts_S65x1x128_S65x128)
    (shapeCast S65x128 (extractStridedSlice S65x1x128 ![0, 4, 0] (shapeCast S65x5x128 (a3 V0) shapeCasts_S325x128_S65x5x128) slices_S65x5x128_S65x1x128_0_4_0) shapeCasts_S65x1x128_S65x128)
    (shapeCast S1x128 (a4 V0) shapeCasts_S128_S1x128))
abbrev g0K : S2048x32x128.Idx → EReal := shapeCast S2048x32x128 (gate0K V0) shapeCasts_S65536x128_S2048x32x128
abbrev r0K : S2048x32x64.Idx → EReal := extractStridedSlice S2048x32x64 ![0, 0, 0] (g0K V0) slices_S2048x32x128_S2048x32x64_0_0_0
abbrev u0K : S2048x32x64.Idx → EReal := extractStridedSlice S2048x32x64 ![0, 0, 64] (g0K V0) slices_S2048x32x128_S2048x32x64_0_0_64
/-- The candidate convolution's input: input and reset state joined, flattened. -/
abbrev y0K : S2048x2080.Idx → EReal :=
  shapeCast S2048x2080 (concatenate S2048x32x65 2 [⟨S2048x32x1, inpK V0⟩, ⟨S2048x32x64, (mulf (r0K V0) (hid0K V0) : FVec Ideal S2048x32x64 .f32)⟩]
    concatenates_S2048x32x1_S2048x32x64_S2048x32x65_d2) shapeCasts_S2048x32x65_S2048x2080
abbrev y1K : S2048x2080.Idx → EReal := mm (M := 2048) (K := 2048) (N := 2080) (Cert.ReferenceIdeal.Value.res_main_v6 V0) (y0K V0)
abbrev y2K : S2048x2080.Idx → EReal := fun i => two * mm (M := 2048) (K := 2048) (N := 2080) (Cert.ReferenceIdeal.Value.res_main_v6 V0) (y1K V0) i - y0K V0 i
abbrev y3K : S2048x2080.Idx → EReal := mm (M := 2048) (K := 2048) (N := 2080) (Cert.ReferenceIdeal.Value.res_main_v14 V0) (y1K V0)
abbrev y4K : S2048x2080.Idx → EReal := fun i => two * mm (M := 2048) (K := 2048) (N := 2080) (Cert.ReferenceIdeal.Value.res_main_v14 V0) (y3K V0) i - y1K V0 i
abbrev cand0K : S65536x64.Idx → EReal :=
  tanh (proj5 (M := 65536) (K := 65) (N := 64)
    (shapeCast S65536x65 (y0K V0) shapeCasts_S2048x2080_S65536x65) (shapeCast S65536x65 (y1K V0) shapeCasts_S2048x2080_S65536x65)
    (shapeCast S65536x65 (y2K V0) shapeCasts_S2048x2080_S65536x65) (shapeCast S65536x65 (y3K V0) shapeCasts_S2048x2080_S65536x65)
    (shapeCast S65536x65 (y4K V0) shapeCasts_S2048x2080_S65536x65)
    (shapeCast S65x64 (extractStridedSlice S65x1x64 ![0, 0, 0] (shapeCast S65x5x64 (a5 V0) shapeCasts_S325x64_S65x5x64) slices_S65x5x64_S65x1x64_0_0_0) shapeCasts_S65x1x64_S65x64)
    (shapeCast S65x64 (extractStridedSlice S65x1x64 ![0, 1, 0] (shapeCast S65x5x64 (a5 V0) shapeCasts_S325x64_S65x5x64) slices_S65x5x64_S65x1x64_0_1_0) shapeCasts_S65x1x64_S65x64)
    (shapeCast S65x64 (extractStridedSlice S65x1x64 ![0, 2, 0] (shapeCast S65x5x64 (a5 V0) shapeCasts_S325x64_S65x5x64) slices_S65x5x64_S65x1x64_0_2_0) shapeCasts_S65x1x64_S65x64)
    (shapeCast S65x64 (extractStridedSlice S65x1x64 ![0, 3, 0] (shapeCast S65x5x64 (a5 V0) shapeCasts_S325x64_S65x5x64) slices_S65x5x64_S65x1x64_0_3_0) shapeCasts_S65x1x64_S65x64)
    (shapeCast S65x64 (extractStridedSlice S65x1x64 ![0, 4, 0] (shapeCast S65x5x64 (a5 V0) shapeCasts_S325x64_S65x5x64) slices_S65x5x64_S65x1x64_0_4_0) shapeCasts_S65x1x64_S65x64)
    (shapeCast S1x64 (a6 V0) shapeCasts_S64_S1x64))
abbrev c0K : S2048x32x64.Idx → EReal := shapeCast S2048x32x64 (cand0K V0) shapeCasts_S65536x64_S2048x32x64
/-- The new state of layer 0: u·h + (1 − u)·c. -/
abbrev hK0 : S2048x32x64.Idx → EReal :=
  addf (F := Ideal) (φ := .f32) (mulf (u0K V0) (hid0K V0)) (mulf (subf (broadcastInDim S2048x32x64 ![] bcast_S_S2048x32x64 (constant (F := Ideal) S_ .f32 0x3F800000#32)) (u0K V0)) (c0K V0))

/-! ## Layer 1 -/
abbrev hid1K : S2048x32x64.Idx → EReal :=
  transpose S2048x32x64 [1, 0, 2] (Cert.ReferenceIdeal.Value.res_main_v92 V0) transposes_S32x2048x64_S2048x32x64_1_0_2
abbrev z0K : S2048x4096.Idx → EReal :=
  shapeCast S2048x4096 (concatenate S2048x32x128 2 [⟨S2048x32x64, hK0 V0⟩, ⟨S2048x32x64, hid1K V0⟩]
    concatenates_S2048x32x64_S2048x32x64_S2048x32x128_d2) shapeCasts_S2048x32x128_S2048x4096
abbrev z1K : S2048x4096.Idx → EReal := mm (M := 2048) (K := 2048) (N := 4096) (Cert.ReferenceIdeal.Value.res_main_v6 V0) (z0K V0)
abbrev z2K : S2048x4096.Idx → EReal := fun i => two * mm (M := 2048) (K := 2048) (N := 4096) (Cert.ReferenceIdeal.Value.res_main_v6 V0) (z1K V0) i - z0K V0 i
abbrev z3K : S2048x4096.Idx → EReal := mm (M := 2048) (K := 2048) (N := 4096) (Cert.ReferenceIdeal.Value.res_main_v14 V0) (z1K V0)
abbrev z4K : S2048x4096.Idx → EReal := fun i => two * mm (M := 2048) (K := 2048) (N := 4096) (Cert.ReferenceIdeal.Value.res_main_v14 V0) (z3K V0) i - z1K V0 i
abbrev gate1K : S65536x128.Idx → EReal :=
  logistic (proj5 (M := 65536) (K := 128) (N := 128)
    (shapeCast S65536x128 (z0K V0) shapeCasts_S2048x4096_S65536x128) (shapeCast S65536x128 (z1K V0) shapeCasts_S2048x4096_S65536x128)
    (shapeCast S65536x128 (z2K V0) shapeCasts_S2048x4096_S65536x128) (shapeCast S65536x128 (z3K V0) shapeCasts_S2048x4096_S65536x128)
    (shapeCast S65536x128 (z4K V0) shapeCasts_S2048x4096_S65536x128)
    (shapeCast S128x128 (extractStridedSlice S128x1x128 ![0, 0, 0] (shapeCast S128x5x128 (a7 V0) shapeCasts_S640x128_S128x5x128) slices_S128x5x128_S128x1x128_0_0_0) shapeCasts_S128x1x128_S128x128)
    (shapeCast S128x128 (extractStridedSlice S128x1x128 ![0, 1, 0] (shapeCast S128x5x128 (a7 V0) shapeCasts_S640x128_S128x5x128) slices_S128x5x128_S128x1x128_0_1_0) shapeCasts_S128x1x128_S128x128)
    (shapeCast S128x128 (extractStridedSlice S128x1x128 ![0, 2, 0] (shapeCast S128x5x128 (a7 V0) shapeCasts_S640x128_S128x5x128) slices_S128x5x128_S128x1x128_0_2_0) shapeCasts_S128x1x128_S128x128)
    (shapeCast S128x128 (extractStridedSlice S128x1x128 ![0, 3, 0] (shapeCast S128x5x128 (a7 V0) shapeCasts_S640x128_S128x5x128) slices_S128x5x128_S128x1x128_0_3_0) shapeCasts_S128x1x128_S128x128)
    (shapeCast S128x128 (extractStridedSlice S128x1x128 ![0, 4, 0] (shapeCast S128x5x128 (a7 V0) shapeCasts_S640x128_S128x5x128) slices_S128x5x128_S128x1x128_0_4_0) shapeCasts_S128x1x128_S128x128)
    (shapeCast S1x128 (a8 V0) shapeCasts_S128_S1x128))
abbrev g1K : S2048x32x128.Idx → EReal := shapeCast S2048x32x128 (gate1K V0) shapeCasts_S65536x128_S2048x32x128
abbrev r1K : S2048x32x64.Idx → EReal := extractStridedSlice S2048x32x64 ![0, 0, 0] (g1K V0) slices_S2048x32x128_S2048x32x64_0_0_0
abbrev u1K : S2048x32x64.Idx → EReal := extractStridedSlice S2048x32x64 ![0, 0, 64] (g1K V0) slices_S2048x32x128_S2048x32x64_0_0_64
abbrev q0K : S2048x4096.Idx → EReal :=
  shapeCast S2048x4096 (concatenate S2048x32x128 2 [⟨S2048x32x64, hK0 V0⟩, ⟨S2048x32x64, (mulf (r1K V0) (hid1K V0) : FVec Ideal S2048x32x64 .f32)⟩]
    concatenates_S2048x32x64_S2048x32x64_S2048x32x128_d2) shapeCasts_S2048x32x128_S2048x4096
abbrev q1K : S2048x4096.Idx → EReal := mm (M := 2048) (K := 2048) (N := 4096) (Cert.ReferenceIdeal.Value.res_main_v6 V0) (q0K V0)
abbrev q2K : S2048x4096.Idx → EReal := fun i => two * mm (M := 2048) (K := 2048) (N := 4096) (Cert.ReferenceIdeal.Value.res_main_v6 V0) (q1K V0) i - q0K V0 i
abbrev q3K : S2048x4096.Idx → EReal := mm (M := 2048) (K := 2048) (N := 4096) (Cert.ReferenceIdeal.Value.res_main_v14 V0) (q1K V0)
abbrev q4K : S2048x4096.Idx → EReal := fun i => two * mm (M := 2048) (K := 2048) (N := 4096) (Cert.ReferenceIdeal.Value.res_main_v14 V0) (q3K V0) i - q1K V0 i
abbrev cand1K : S65536x64.Idx → EReal :=
  tanh (proj5 (M := 65536) (K := 128) (N := 64)
    (shapeCast S65536x128 (q0K V0) shapeCasts_S2048x4096_S65536x128) (shapeCast S65536x128 (q1K V0) shapeCasts_S2048x4096_S65536x128)
    (shapeCast S65536x128 (q2K V0) shapeCasts_S2048x4096_S65536x128) (shapeCast S65536x128 (q3K V0) shapeCasts_S2048x4096_S65536x128)
    (shapeCast S65536x128 (q4K V0) shapeCasts_S2048x4096_S65536x128)
    (shapeCast S128x64 (extractStridedSlice S128x1x64 ![0, 0, 0] (shapeCast S128x5x64 (a9 V0) shapeCasts_S640x64_S128x5x64) slices_S128x5x64_S128x1x64_0_0_0) shapeCasts_S128x1x64_S128x64)
    (shapeCast S128x64 (extractStridedSlice S128x1x64 ![0, 1, 0] (shapeCast S128x5x64 (a9 V0) shapeCasts_S640x64_S128x5x64) slices_S128x5x64_S128x1x64_0_1_0) shapeCasts_S128x1x64_S128x64)
    (shapeCast S128x64 (extractStridedSlice S128x1x64 ![0, 2, 0] (shapeCast S128x5x64 (a9 V0) shapeCasts_S640x64_S128x5x64) slices_S128x5x64_S128x1x64_0_2_0) shapeCasts_S128x1x64_S128x64)
    (shapeCast S128x64 (extractStridedSlice S128x1x64 ![0, 3, 0] (shapeCast S128x5x64 (a9 V0) shapeCasts_S640x64_S128x5x64) slices_S128x5x64_S128x1x64_0_3_0) shapeCasts_S128x1x64_S128x64)
    (shapeCast S128x64 (extractStridedSlice S128x1x64 ![0, 4, 0] (shapeCast S128x5x64 (a9 V0) shapeCasts_S640x64_S128x5x64) slices_S128x5x64_S128x1x64_0_4_0) shapeCasts_S128x1x64_S128x64)
    (shapeCast S1x64 (a10 V0) shapeCasts_S64_S1x64))
abbrev c1K : S2048x32x64.Idx → EReal := shapeCast S2048x32x64 (cand1K V0) shapeCasts_S65536x64_S2048x32x64
abbrev hK1 : S2048x32x64.Idx → EReal :=
  addf (F := Ideal) (φ := .f32) (mulf (u1K V0) (hid1K V0)) (mulf (subf (broadcastInDim S2048x32x64 ![] bcast_S_S2048x32x64 (constant (F := Ideal) S_ .f32 0x3F800000#32)) (u1K V0)) (c1K V0))

/-! ## The two results -/
abbrev outK : S32x2048.Idx → EReal :=
  transpose S32x2048 [1, 0] (shapeCast S2048x32 (shapeCast S2048x32x1
    (addf (F := Ideal) (φ := .f32) (Host.dotGeneral (φ₁ := .f32) (φ₂ := .f32) dot_S65536x64_S64x1_S65536x1_1_0_0_1_n_n none (shapeCast S65536x64 (hK1 V0) shapeCasts_S2048x32x64_S65536x64) (a11 V0))
      (broadcastInDim S65536x1 ![0, 1] bcast_S1x1_S65536x1_0_1 (broadcastInDim S1x1 ![1] bcast_S1_S1x1_1 (a12 V0))))
    shapeCasts_S65536x1_S2048x32x1) shapeCasts_S2048x32x1_S2048x32) transposes_S2048x32_S32x2048_1_0
abbrev hidK : S2x32x131072.Idx → EReal :=
  concatenate S2x32x131072 0
    [⟨S1x32x131072, broadcastInDim S1x32x131072 ![1, 2] bcast_S32x131072_S1x32x131072_1_2
        (shapeCast S32x131072 (transpose S32x2048x64 [1, 0, 2] (hK0 V0) transposes_S2048x32x64_S32x2048x64_1_0_2) shapeCasts_S32x2048x64_S32x131072)⟩,
     ⟨S1x32x131072, broadcastInDim S1x32x131072 ![1, 2] bcast_S32x131072_S1x32x131072_1_2
        (shapeCast S32x131072 (transpose S32x2048x64 [1, 0, 2] (hK1 V0) transposes_S2048x32x64_S32x2048x64_1_0_2) shapeCasts_S32x2048x64_S32x131072)⟩]
    concatenates_S1x32x131072_S1x32x131072_S2x32x131072_d0

end Cert.Bridge

end
-- ==== Proof.Bridge1.lean ====
/-
  The first boundary of the kernel program against the reference's named terms. Both programs compute the two
  random-walk supports by the same operations, so the kernel's two support buffers ARE the reference's terms once
  the adjacency arrays agree. The kernel keeps the input and the recurrent state node-major, [2048, 32, F]; the
  reference keeps them batch-major, [32, 2048, F]: the kernel's arrays are the reference's with the two leading
  axes swapped, and the graph convolution's input — input and state joined along the feature axis, flattened to
  [2048, 2080] — holds in column b·65 + f what the reference's flattened array holds in column f·32 + b.
-/
import proofs.«132349_j60696477827149_2_alg».proof.Proof.Gen.KernelIdeal.Frame
import proofs.«132349_j60696477827149_2_alg».proof.Proof.Gen.ReferenceIdeal.Run
import proofs.«132349_j60696477827149_2_alg».proof.Proof.LibRelateLayout
import proofs.«132349_j60696477827149_2_alg».proof.Proof.BridgeTerms
import proofs.«132349_j60696477827149_2_alg».proof.Proof.LibDense
import Idealize.ShloMosaic.Lib.StableHlo.Run
import Idealize.ShloMosaic.Lib.IdealHost

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate

variable (m : (ℓ : Loc nD τ sig) → Buf (Elt Ideal) ℓ) (ρ : Dev nD → PrngReg) (c : Dev nD)
variable (V0 : Valuation Cert.ReferenceIdeal.τ Cert.ReferenceIdeal.sig (Elt Ideal))

section Boundary1
/-! After the first host stretch: the two supports, the input and the first layer's state in node-major layout,
    and the first graph convolution's input flattened to columns. -/

variable (h0 : V0 (Proc.devRef .tc Cert.ReferenceIdeal.main_arg0) = m ((c : Thread nD τ).loc main_arg0))
  (h1 : V0 (Proc.devRef .tc Cert.ReferenceIdeal.main_arg1) = m ((c : Thread nD τ).loc main_arg1))
  (h2 : V0 (Proc.devRef .tc Cert.ReferenceIdeal.main_arg2) = m ((c : Thread nD τ).loc main_arg2))

include h2 in
theorem sup0_eq : W1 m ρ c (Proc.devRef .tc main_v15) = Cert.ReferenceIdeal.Value.res_main_v6 V0 := by
  show StableHlo.after hostOps0 (W0 m ρ c) (Proc.devRef .tc main_v15) = _
  after_results
  unfold Cert.ReferenceIdeal.Value.res_main_v6
  rw [h2]
  rfl

include h2 in
theorem sup1_eq : W1 m ρ c (Proc.devRef .tc main_v16) = Cert.ReferenceIdeal.Value.res_main_v14 V0 := by
  show StableHlo.after hostOps0 (W0 m ρ c) (Proc.devRef .tc main_v16) = _
  after_results
  unfold Cert.ReferenceIdeal.Value.res_main_v14 Cert.ReferenceIdeal.Value.res_main_v7
  rw [h2]
  rfl

include h0 in
theorem inp_eq : W1 m ρ c (Proc.devRef .tc main_v18) = inpK V0 := by
  show StableHlo.after hostOps0 (W0 m ρ c) (Proc.devRef .tc main_v18) = _
  after_results
  unfold inpK Cert.ReferenceIdeal.Value.res_main_v17
  rw [h0]
  rfl

include h1 in
theorem hid0_eq : W1 m ρ c (Proc.devRef .tc main_v22) = hid0K V0 := by
  show StableHlo.after hostOps0 (W0 m ρ c) (Proc.devRef .tc main_v22) = _
  after_results
  unfold hid0K Cert.ReferenceIdeal.Value.res_main_v18
  rw [h1]
  rfl

include h0 h1 in
theorem x0_eq : W1 m ρ c (Proc.devRef .tc main_v24) = x0K V0 := by
  show StableHlo.after hostOps0 (W0 m ρ c) (Proc.devRef .tc main_v24) = _
  after_results
  unfold x0K inpK hid0K Cert.ReferenceIdeal.Value.res_main_v17 Cert.ReferenceIdeal.Value.res_main_v18
  rw [h0, h1]
  rfl

include h0 h1 in
theorem x0b_eq : W1 m ρ c (Proc.devRef .tc main_v25) = truncf (F := Ideal) (s := S2048x2080) .bf16 (x0K V0) bitsLt_bf16_f32 := by
  show StableHlo.after hostOps0 (W0 m ρ c) (Proc.devRef .tc main_v25) = _
  after_results
  unfold x0K inpK hid0K Cert.ReferenceIdeal.Value.res_main_v17 Cert.ReferenceIdeal.Value.res_main_v18
  rw [h0, h1]
  rfl

theorem inp_swap : Swap3 (inpK V0) (Cert.ReferenceIdeal.Value.res_main_v17 V0) := swap3_transpose _ _
theorem hid0_swap : Swap3 (hid0K V0) (Cert.ReferenceIdeal.Value.res_main_v18 V0) := swap3_transpose _ _

theorem x0_cols : Cols65 (x0K V0) (Cert.ReferenceIdeal.Value.res_main_v21 V0) := by
  unfold Cert.ReferenceIdeal.Value.res_main_v21
  exact cols65_of_swap3 _ _ _ _ _ (swap3_concat _ _ _ _ _ _ (inp_swap V0) (hid0_swap V0))

end Boundary1

end Cert.Bridge
end
-- ==== Proof.RegionsDiffusion.lean ====
/-
  The sixteen diffusion regions of the kernel program, each read as ONE whole-array function of the arrays the region
  finds when it is entered. A diffusion region walks sixteen row blocks of 128 rows: at block `t` it multiplies rows
  `128 t … 128 t + 127` of the support matrix `S : [2048, 2048]` with the whole operand `X : [2048, C]` and writes the
  result to rows `128 t … 128 t + 127` of its output. Because row `p` of a product `S · X` depends on row `p` of `S`
  only, block `t` of the output is block `t` of the whole product, and the sixteen blocks tile the output: the output
  array ends holding `S · X`. Eight regions store the product in two float formats (over the extended reals the change of
  format is the identity, so both results are the product); the other eight store the Chebyshev step
  `2 · (S · X) − X0`, where block `t` of the subtrahend `X0 : [2048, C]` is read entry by entry beside the product's block.
  Per region: the product of the loaded blocks (`pay`), the index maps decided over the sixteen points (`idx`), each
  input block as entries of its whole array (`rdS`, `rdX`, `rdX0_`), what a point leaves as a value of its blocks
  (`wrote`), that value entry by entry as the whole-array function at the entry's place (`block`), so what a point writes
  back is a block of the whole-array function (`flushed…_eq`), membership in a block (`memblk`), the tiling (`tiles`),
  and the array after the region (`region`). The regions differ only in their number and in the width `C` (2080 or 4096).
-/
import proofs.«132349_j60696477827149_2_alg».proof.Proof.Gen.KernelIdeal.Frame
import proofs.«132349_j60696477827149_2_alg».proof.Proof.LibRowBlocks
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx Cert.DenseLib Cert.RowBlocks

variable (V : (c : Dev nD) → (b : Ref sig .tc) → Buf (Elt Ideal) ((c : Thread nD τ).loc b))

/-- The zero offset of a rectangle that is its whole block. -/
theorem hz : (![0, 0] : Fin 2 → Nat) = fun _ => 0 := funext fun a => by fin_cases a <;> rfl

/-! ## Region 0: the product `S · X` with `X : [2048, 2080]`, stored in both float formats -/

/-- The body's product of its two loaded blocks is their matrix product. -/
theorem pay0_1 (x0 : Vec Ideal S128x2048 .bf16) (x1 : Vec Ideal S2048x2080 .bf16) :
    k0_pay1 x0 x1 = mm (M := 128) (K := 2048) (N := 2080) x0 x1 := by
  unfold k0_pay1
  simp only [shapeCast_self]
  exact matmul_eq_mm _ rfl x0 x1

/-- The change of float format is the identity on the extended reals. -/
theorem pay0_2 (x0 : Vec Ideal S128x2048 .bf16) (x1 : Vec Ideal S2048x2080 .bf16) :
    k0_pay2 x0 x1 = mm (M := 128) (K := 2048) (N := 2080) x0 x1 := by
  unfold k0_pay2
  exact pay0_1 x0 x1

/-- The printed index maps over the sixteen points: the left operand and both results move down by one row block
    per point, the right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry `y` of the left operand's block at point `t` is entry `(128 t + y₀, y₁)` of the whole left operand. -/
theorem rdS0 (c : Dev nD) (t : Fin cfg0.N) (y : S128x2048.Idx) (i : S2048x2048.Idx)
    (h0 : (i 0).val = t.val * 128 + (y 0).val) (h1 : (i 1).val = (y 1).val) :
    (iblk0 V c 0 t : Vec Ideal S128x2048 .bf16) y = (V c (Pipeline.arrRef spec0 0) : S2048x2048.Idx → EReal) i := by
  obtain ⟨e0, e1, -⟩ := idx0 t
  unfold iblk0
  rw [View.read_apply]
  show V c (Pipeline.arrRef spec0 0) _ = V c (Pipeline.arrRef spec0 0) _
  refine congrArg _ ?_
  funext a; apply Fin.ext
  match a with
  | ⟨0, _⟩ => show win0_0.index t (0 : Fin 2) * 128 + 1 * (y 0).val = (i 0).val; rw [e0, h0]; omega
  | ⟨1, _⟩ => show win0_0.index t (1 : Fin 2) * 2048 + 1 * (y 1).val = (i 1).val; rw [e1, h1]; omega

/-- The right operand's block at every point is the whole right operand. -/
theorem rdX0 (c : Dev nD) (t : Fin cfg0.N) :
    (iblk0 V c 1 t : Vec Ideal S2048x2080 .bf16) = (V c (Pipeline.arrRef spec0 1) : S2048x2080.Idx → EReal) := by
  obtain ⟨-, -, e2, e3, -⟩ := idx0 t
  funext y
  unfold iblk0
  rw [View.read_apply]
  show V c (Pipeline.arrRef spec0 1) _ = V c (Pipeline.arrRef spec0 1) _
  refine congrArg _ ?_
  funext a; apply Fin.ext
  match a with
  | ⟨0, _⟩ => show win0_1.index t (0 : Fin 2) * 2048 + 1 * (y 0).val = (y 0).val; rw [e2]; omega
  | ⟨1, _⟩ => show win0_1.index t (1 : Fin 2) * 2080 + 1 * (y 1).val = (y 1).val; rw [e3]; omega

/-- What point `t` leaves for result 0: the product of the two blocks it loaded. -/
theorem wrote0_2 (c : Dev nD) (t : Fin cfg0.N) :
    (dat0 V c).flushed 2 t = mm (M := 128) (K := 2048) (N := 2080) (iblk0 V c 0 t) (iblk0 V c 1 t) := by
  show (cfg0.win 2).cut (grid0.coords t) ((dat0 V c).after 2 t) = _
  rw [after0_2]
  unfold out0_2
  rw [View.canon_unit_zero hz]
  simp only [View.ld_unit_zero (S := S128x2048) hz, View.ld_unit_zero (S := S2048x2080) hz]
  rw [pay0_1]
  rfl

/-- Entry `j` of that product of blocks is the entry of the whole product `S · X` at `j`'s place in result 0: a row
    of a product needs only that row of the left operand. -/
theorem block0_2 (c : Dev nD) (t : Fin cfg0.N) (j : S128x2080.Idx) :
    mm (M := 128) (K := 2048) (N := 2080) (iblk0 V c 0 t) (iblk0 V c 1 t) j
      = mm (M := 2048) (K := 2048) (N := 2080) (V c (Pipeline.arrRef spec0 0)) (V c (Pipeline.arrRef spec0 1)) (((cfg0.win 2).blk t).view.emb j) := by
  obtain ⟨-, -, -, -, e4, e5, e6, e7⟩ := idx0 t
  refine mm_eq_of_row _ _ _ _ j _ (rdX0 V c t) ?_ fun k => ?_
  · show (j 1).val = win0_2.index t (1 : Fin 2) * 2080 + 1 * (j 1).val
    rw [e5]; omega
  · refine rdS0 V c t _ _ ?_ rfl
    show win0_2.index t (0 : Fin 2) * 128 + 1 * (j 0).val = t.val * 128 + (j 0).val
    rw [e4]; omega

/-- What point `t` writes back to result 0 is block `t` of the whole product. -/
theorem flushed0_2_eq (c : Dev nD) (t : Fin cfg0.N) :
    (dat0 V c).flushed 2 t = ((cfg0.win 2).blk t).view.read (Elt Ideal)
      (mm (M := 2048) (K := 2048) (N := 2080) (V c (Pipeline.arrRef spec0 0)) (V c (Pipeline.arrRef spec0 1))) := by
  rw [wrote0_2]
  funext j
  exact block0_2 V c t j

/-- An index of result 0 is in point `t`'s block iff each coordinate is in the block's range on its axis. -/
theorem memblk0_2 (t : Fin cfg0.N) (i : S2048x2080.Idx) :
    i ∈ ((cfg0.win 2).blk t).view.set ↔ ∀ a : Fin 2, win0_2.index t a * S128x2080.size a ≤ (i a).val ∧ (i a).val < win0_2.index t a * S128x2080.size a + S128x2080.size a := by
  show i ∈ ((View.whole main_v26_0).slice (win0_2.rect t)).set ↔ _
  rw [View.set_slice_whole, Rect.mem_set_unit]
  exact Iff.rfl

/-- The sixteen row blocks tile result 0: row `r` is in the block of point `r / 128`. -/
theorem tiles0_2 (i : S2048x2080.Idx) :
    ∃ t : Fin cfg0.N, (cfg0.win 2).flush t = true ∧ i ∈ ((cfg0.win 2).blk t).view.set := by
  have hi0 : (i 0).val < 2048 := (i 0).isLt
  have hi1 : (i 1).val < 2080 := (i 1).isLt
  have ht : (i 0).val / 128 < cfg0.N := by show _ < 16; omega
  obtain ⟨-, -, -, -, e4, e5, e6, e7⟩ := idx0 ⟨(i 0).val / 128, ht⟩
  refine ⟨⟨(i 0).val / 128, ht⟩, flush0_2 _, ?_⟩
  rw [memblk0_2]
  intro a
  match a with
  | ⟨0, _⟩ =>
    show win0_2.index ⟨(i 0).val / 128, ht⟩ (0 : Fin 2) * 128 ≤ (i 0).val ∧ (i 0).val < win0_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win0_2.index ⟨(i 0).val / 128, ht⟩ (1 : Fin 2) * 2080 ≤ (i 1).val ∧ (i 1).val < win0_2.index ⟨(i 0).val / 128, ht⟩ (1 : Fin 2) * 2080 + 2080
    rw [e5]; omega

/-- After region 0, result 0 is the whole product `S · X` of the region's two input arrays. -/
theorem region0_2 (c : Dev nD) :
    (dat0 V c).arrAt 2 cfg0.N
      = mm (M := 2048) (K := 2048) (N := 2080) (V c (Pipeline.arrRef spec0 0)) (V c (Pipeline.arrRef spec0 1)) :=
  (dat0 V c).arrAt_eq_of_cover 2 _ (fun t _ => flushed0_2_eq V c t) tiles0_2

/-- What point `t` leaves for result 1: the product of the two blocks it loaded. -/
theorem wrote0_3 (c : Dev nD) (t : Fin cfg0.N) :
    (dat0 V c).flushed 3 t = mm (M := 128) (K := 2048) (N := 2080) (iblk0 V c 0 t) (iblk0 V c 1 t) := by
  show (cfg0.win 3).cut (grid0.coords t) ((dat0 V c).after 3 t) = _
  rw [after0_3]
  unfold out0_3
  rw [View.canon_unit_zero hz]
  simp only [View.ld_unit_zero (S := S128x2048) hz, View.ld_unit_zero (S := S2048x2080) hz]
  rw [pay0_2]
  rfl

/-- Entry `j` of that product of blocks is the entry of the whole product `S · X` at `j`'s place in result 1: a row
    of a product needs only that row of the left operand. -/
theorem block0_3 (c : Dev nD) (t : Fin cfg0.N) (j : S128x2080.Idx) :
    mm (M := 128) (K := 2048) (N := 2080) (iblk0 V c 0 t) (iblk0 V c 1 t) j
      = mm (M := 2048) (K := 2048) (N := 2080) (V c (Pipeline.arrRef spec0 0)) (V c (Pipeline.arrRef spec0 1)) (((cfg0.win 3).blk t).view.emb j) := by
  obtain ⟨-, -, -, -, e4, e5, e6, e7⟩ := idx0 t
  refine mm_eq_of_row _ _ _ _ j _ (rdX0 V c t) ?_ fun k => ?_
  · show (j 1).val = win0_3.index t (1 : Fin 2) * 2080 + 1 * (j 1).val
    rw [e7]; omega
  · refine rdS0 V c t _ _ ?_ rfl
    show win0_3.index t (0 : Fin 2) * 128 + 1 * (j 0).val = t.val * 128 + (j 0).val
    rw [e6]; omega

/-- What point `t` writes back to result 1 is block `t` of the whole product. -/
theorem flushed0_3_eq (c : Dev nD) (t : Fin cfg0.N) :
    (dat0 V c).flushed 3 t = ((cfg0.win 3).blk t).view.read (Elt Ideal)
      (mm (M := 2048) (K := 2048) (N := 2080) (V c (Pipeline.arrRef spec0 0)) (V c (Pipeline.arrRef spec0 1))) := by
  rw [wrote0_3]
  funext j
  exact block0_3 V c t j

/-- An index of result 1 is in point `t`'s block iff each coordinate is in the block's range on its axis. -/
theorem memblk0_3 (t : Fin cfg0.N) (i : S2048x2080.Idx) :
    i ∈ ((cfg0.win 3).blk t).view.set ↔ ∀ a : Fin 2, win0_3.index t a * S128x2080.size a ≤ (i a).val ∧ (i a).val < win0_3.index t a * S128x2080.size a + S128x2080.size a := by
  show i ∈ ((View.whole main_v26_1).slice (win0_3.rect t)).set ↔ _
  rw [View.set_slice_whole, Rect.mem_set_unit]
  exact Iff.rfl

/-- The sixteen row blocks tile result 1: row `r` is in the block of point `r / 128`. -/
theorem tiles0_3 (i : S2048x2080.Idx) :
    ∃ t : Fin cfg0.N, (cfg0.win 3).flush t = true ∧ i ∈ ((cfg0.win 3).blk t).view.set := by
  have hi0 : (i 0).val < 2048 := (i 0).isLt
  have hi1 : (i 1).val < 2080 := (i 1).isLt
  have ht : (i 0).val / 128 < cfg0.N := by show _ < 16; omega
  obtain ⟨-, -, -, -, e4, e5, e6, e7⟩ := idx0 ⟨(i 0).val / 128, ht⟩
  refine ⟨⟨(i 0).val / 128, ht⟩, flush0_3 _, ?_⟩
  rw [memblk0_3]
  intro a
  match a with
  | ⟨0, _⟩ =>
    show win0_3.index ⟨(i 0).val / 128, ht⟩ (0 : Fin 2) * 128 ≤ (i 0).val ∧ (i 0).val < win0_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win0_3.index ⟨(i 0).val / 128, ht⟩ (1 : Fin 2) * 2080 ≤ (i 1).val ∧ (i 1).val < win0_3.index ⟨(i 0).val / 128, ht⟩ (1 : Fin 2) * 2080 + 2080
    rw [e7]; omega

/-- After region 0, result 1 is the whole product `S · X` of the region's two input arrays. -/
theorem region0_3 (c : Dev nD) :
    (dat0 V c).arrAt 3 cfg0.N
      = mm (M := 2048) (K := 2048) (N := 2080) (V c (Pipeline.arrRef spec0 0)) (V c (Pipeline.arrRef spec0 1)) :=
  (dat0 V c).arrAt_eq_of_cover 3 _ (fun t _ => flushed0_3_eq V c t) tiles0_3

/-! ## Region 1: `2 · (S · X) − X0` with `X, X0 : [2048, 2080]` -/

/-- The body's value of its three loaded blocks: twice their product less the third, the literal two kept as the
    float constant it is printed as. -/
theorem pay1_1 (x0 : Vec Ideal S128x2048 .bf16) (x1 : Vec Ideal S2048x2080 .bf16) (x2 : Vec Ideal S128x2080 .f32) :
    k1_pay1 x0 x1 x2 = fun i => (Ideal.ofBits .f32 0x40000000#32 : EReal) * mm (M := 128) (K := 2048) (N := 2080) x0 x1 i - x2 i := by
  unfold k1_pay1
  simp only [shapeCast_self]
  funext i
  show (Ideal.ofBits .f32 0x40000000#32 : EReal) * matmul _ none x0 x1 (constant S128x2080 .f32 0x00000000#32) i - x2 i = _
  exact congrArg (fun z : EReal => (Ideal.ofBits .f32 0x40000000#32 : EReal) * z - x2 i)
    (congrFun (matmul_eq_mm dot_S128x2048_S2048x2080_S128x2080_1_0_0_1_n_n rfl x0 x1) i)

/-- The printed index maps over the sixteen points: the left operand, the subtrahend and the result move down by
    one row block per point, the right operand stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry `y` of the left operand's block at point `t` is entry `(128 t + y₀, y₁)` of the whole left operand. -/
theorem rdS1 (c : Dev nD) (t : Fin cfg1.N) (y : S128x2048.Idx) (i : S2048x2048.Idx)
    (h0 : (i 0).val = t.val * 128 + (y 0).val) (h1 : (i 1).val = (y 1).val) :
    (iblk1 V c 0 t : Vec Ideal S128x2048 .bf16) y = (V c (Pipeline.arrRef spec1 0) : S2048x2048.Idx → EReal) i := by
  obtain ⟨e0, e1, -⟩ := idx1 t
  unfold iblk1
  rw [View.read_apply]
  show V c (Pipeline.arrRef spec1 0) _ = V c (Pipeline.arrRef spec1 0) _
  refine congrArg _ ?_
  funext a; apply Fin.ext
  match a with
  | ⟨0, _⟩ => show win1_0.index t (0 : Fin 2) * 128 + 1 * (y 0).val = (i 0).val; rw [e0, h0]; omega
  | ⟨1, _⟩ => show win1_0.index t (1 : Fin 2) * 2048 + 1 * (y 1).val = (i 1).val; rw [e1, h1]; omega

/-- The right operand's block at every point is the whole right operand. -/
theorem rdX1 (c : Dev nD) (t : Fin cfg1.N) :
    (iblk1 V c 1 t : Vec Ideal S2048x2080 .bf16) = (V c (Pipeline.arrRef spec1 1) : S2048x2080.Idx → EReal) := by
  obtain ⟨-, -, e2, e3, -⟩ := idx1 t
  funext y
  unfold iblk1
  rw [View.read_apply]
  show V c (Pipeline.arrRef spec1 1) _ = V c (Pipeline.arrRef spec1 1) _
  refine congrArg _ ?_
  funext a; apply Fin.ext
  match a with
  | ⟨0, _⟩ => show win1_1.index t (0 : Fin 2) * 2048 + 1 * (y 0).val = (y 0).val; rw [e2]; omega
  | ⟨1, _⟩ => show win1_1.index t (1 : Fin 2) * 2080 + 1 * (y 1).val = (y 1).val; rw [e3]; omega

/-- Entry `y` of the subtrahend's block at point `t` is entry `(128 t + y₀, y₁)` of the whole subtrahend. -/
theorem rdX0_1 (c : Dev nD) (t : Fin cfg1.N) (y : S128x2080.Idx) (i : S2048x2080.Idx)
    (h0 : (i 0).val = t.val * 128 + (y 0).val) (h1 : (i 1).val = (y 1).val) :
    (iblk1 V c 2 t : Vec Ideal S128x2080 .f32) y = (V c (Pipeline.arrRef spec1 2) : S2048x2080.Idx → EReal) i := by
  obtain ⟨-, -, -, -, e4, e5, -⟩ := idx1 t
  unfold iblk1
  rw [View.read_apply]
  show V c (Pipeline.arrRef spec1 2) _ = V c (Pipeline.arrRef spec1 2) _
  refine congrArg _ ?_
  funext a; apply Fin.ext
  match a with
  | ⟨0, _⟩ => show win1_2.index t (0 : Fin 2) * 128 + 1 * (y 0).val = (i 0).val; rw [e4, h0]; omega
  | ⟨1, _⟩ => show win1_2.index t (1 : Fin 2) * 2080 + 1 * (y 1).val = (i 1).val; rw [e5, h1]; omega

/-- What point `t` leaves for the result: twice the product of the two blocks it loaded, less the subtrahend's block. -/
theorem wrote1_3 (c : Dev nD) (t : Fin cfg1.N) :
    (dat1 V c).flushed 3 t = fun j => (Ideal.ofBits .f32 0x40000000#32 : EReal) * mm (M := 128) (K := 2048) (N := 2080) (iblk1 V c 0 t) (iblk1 V c 1 t) j
      - (iblk1 V c 2 t : Vec Ideal S128x2080 .f32) j := by
  show (cfg1.win 3).cut (grid1.coords t) ((dat1 V c).after 3 t) = _
  rw [after1_3]
  unfold out1_3
  rw [View.canon_unit_zero hz]
  simp only [View.ld_unit_zero (S := S128x2048) hz, View.ld_unit_zero (S := S2048x2080) hz, View.ld_unit_zero (S := S128x2080) hz]
  rw [pay1_1]
  rfl

/-- Entry `j` of that value is the entry of the whole combination `2 · (S · X) − X0` at `j`'s place in the result: a row
    of a product needs only that row of the left operand, and the subtrahend is read entry by entry. -/
theorem block1_3 (c : Dev nD) (t : Fin cfg1.N) (j : S128x2080.Idx) :
    (Ideal.ofBits .f32 0x40000000#32 : EReal) * mm (M := 128) (K := 2048) (N := 2080) (iblk1 V c 0 t) (iblk1 V c 1 t) j
        - (iblk1 V c 2 t : Vec Ideal S128x2080 .f32) j
      = (Ideal.ofBits .f32 0x40000000#32 : EReal) * mm (M := 2048) (K := 2048) (N := 2080) (V c (Pipeline.arrRef spec1 0)) (V c (Pipeline.arrRef spec1 1)) (((cfg1.win 3).blk t).view.emb j)
        - (V c (Pipeline.arrRef spec1 2) : S2048x2080.Idx → EReal) (((cfg1.win 3).blk t).view.emb j) := by
  obtain ⟨-, -, -, -, -, -, e6, e7⟩ := idx1 t
  have hq : (j 1).val = win1_3.index t (1 : Fin 2) * 2080 + 1 * (j 1).val := by rw [e7]; omega
  have hp : win1_3.index t (0 : Fin 2) * 128 + 1 * (j 0).val = t.val * 128 + (j 0).val := by rw [e6]; omega
  have hmm : mm (M := 128) (K := 2048) (N := 2080) (iblk1 V c 0 t) (iblk1 V c 1 t) j
      = mm (M := 2048) (K := 2048) (N := 2080) (V c (Pipeline.arrRef spec1 0)) (V c (Pipeline.arrRef spec1 1)) (((cfg1.win 3).blk t).view.emb j) :=
    mm_eq_of_row _ _ _ _ j _ (rdX1 V c t) hq fun k => rdS1 V c t _ _ hp rfl
  have hsub : (iblk1 V c 2 t : Vec Ideal S128x2080 .f32) j = (V c (Pipeline.arrRef spec1 2) : S2048x2080.Idx → EReal) (((cfg1.win 3).blk t).view.emb j) :=
    rdX0_1 V c t j _ hp hq.symm
  rw [hmm, hsub]

/-- What point `t` writes back is block `t` of the whole combination. -/
theorem flushed1_3_eq (c : Dev nD) (t : Fin cfg1.N) :
    (dat1 V c).flushed 3 t = ((cfg1.win 3).blk t).view.read (Elt Ideal)
      (fun i => (Ideal.ofBits .f32 0x40000000#32 : EReal) * mm (M := 2048) (K := 2048) (N := 2080) (V c (Pipeline.arrRef spec1 0)) (V c (Pipeline.arrRef spec1 1)) i - (V c (Pipeline.arrRef spec1 2) : S2048x2080.Idx → EReal) i) := by
  rw [wrote1_3]
  funext j
  exact block1_3 V c t j

/-- An index of the result is in point `t`'s block iff each coordinate is in the block's range on its axis. -/
theorem memblk1_3 (t : Fin cfg1.N) (i : S2048x2080.Idx) :
    i ∈ ((cfg1.win 3).blk t).view.set ↔ ∀ a : Fin 2, win1_3.index t a * S128x2080.size a ≤ (i a).val ∧ (i a).val < win1_3.index t a * S128x2080.size a + S128x2080.size a := by
  show i ∈ ((View.whole main_v27).slice (win1_3.rect t)).set ↔ _
  rw [View.set_slice_whole, Rect.mem_set_unit]
  exact Iff.rfl

/-- The sixteen row blocks tile the result: row `r` is in the block of point `r / 128`. -/
theorem tiles1_3 (i : S2048x2080.Idx) :
    ∃ t : Fin cfg1.N, (cfg1.win 3).flush t = true ∧ i ∈ ((cfg1.win 3).blk t).view.set := by
  have hi0 : (i 0).val < 2048 := (i 0).isLt
  have hi1 : (i 1).val < 2080 := (i 1).isLt
  have ht : (i 0).val / 128 < cfg1.N := by show _ < 16; omega
  obtain ⟨-, -, -, -, -, -, e6, e7⟩ := idx1 ⟨(i 0).val / 128, ht⟩
  refine ⟨⟨(i 0).val / 128, ht⟩, flush1_3 _, ?_⟩
  rw [memblk1_3]
  intro a
  match a with
  | ⟨0, _⟩ =>
    show win1_3.index ⟨(i 0).val / 128, ht⟩ (0 : Fin 2) * 128 ≤ (i 0).val ∧ (i 0).val < win1_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win1_3.index ⟨(i 0).val / 128, ht⟩ (1 : Fin 2) * 2080 ≤ (i 1).val ∧ (i 1).val < win1_3.index ⟨(i 0).val / 128, ht⟩ (1 : Fin 2) * 2080 + 2080
    rw [e7]; omega

/-- After region 1, the result is `2 · (S · X) − X0` of the region's three input arrays, entry by entry. -/
theorem region1_3 (c : Dev nD) :
    (dat1 V c).arrAt 3 cfg1.N
      = fun i => (Ideal.ofBits .f32 0x40000000#32 : EReal) * mm (M := 2048) (K := 2048) (N := 2080) (V c (Pipeline.arrRef spec1 0)) (V c (Pipeline.arrRef spec1 1)) i - (V c (Pipeline.arrRef spec1 2) : S2048x2080.Idx → EReal) i :=
  (dat1 V c).arrAt_eq_of_cover 3 _ (fun t _ => flushed1_3_eq V c t) tiles1_3

/-! ## Region 2: the product `S · X` with `X : [2048, 2080]`, stored in both float formats -/

/-- The body's product of its two loaded blocks is their matrix product. -/
theorem pay2_1 (x0 : Vec Ideal S128x2048 .bf16) (x1 : Vec Ideal S2048x2080 .bf16) :
    k2_pay1 x0 x1 = mm (M := 128) (K := 2048) (N := 2080) x0 x1 := by
  unfold k2_pay1
  simp only [shapeCast_self]
  exact matmul_eq_mm _ rfl x0 x1

/-- The change of float format is the identity on the extended reals. -/
theorem pay2_2 (x0 : Vec Ideal S128x2048 .bf16) (x1 : Vec Ideal S2048x2080 .bf16) :
    k2_pay2 x0 x1 = mm (M := 128) (K := 2048) (N := 2080) x0 x1 := by
  unfold k2_pay2
  exact pay2_1 x0 x1

/-- The printed index maps over the sixteen points: the left operand and both results move down by one row block
    per point, the right operand stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry `y` of the left operand's block at point `t` is entry `(128 t + y₀, y₁)` of the whole left operand. -/
theorem rdS2 (c : Dev nD) (t : Fin cfg2.N) (y : S128x2048.Idx) (i : S2048x2048.Idx)
    (h0 : (i 0).val = t.val * 128 + (y 0).val) (h1 : (i 1).val = (y 1).val) :
    (iblk2 V c 0 t : Vec Ideal S128x2048 .bf16) y = (V c (Pipeline.arrRef spec2 0) : S2048x2048.Idx → EReal) i := by
  obtain ⟨e0, e1, -⟩ := idx2 t
  unfold iblk2
  rw [View.read_apply]
  show V c (Pipeline.arrRef spec2 0) _ = V c (Pipeline.arrRef spec2 0) _
  refine congrArg _ ?_
  funext a; apply Fin.ext
  match a with
  | ⟨0, _⟩ => show win2_0.index t (0 : Fin 2) * 128 + 1 * (y 0).val = (i 0).val; rw [e0, h0]; omega
  | ⟨1, _⟩ => show win2_0.index t (1 : Fin 2) * 2048 + 1 * (y 1).val = (i 1).val; rw [e1, h1]; omega

/-- The right operand's block at every point is the whole right operand. -/
theorem rdX2 (c : Dev nD) (t : Fin cfg2.N) :
    (iblk2 V c 1 t : Vec Ideal S2048x2080 .bf16) = (V c (Pipeline.arrRef spec2 1) : S2048x2080.Idx → EReal) := by
  obtain ⟨-, -, e2, e3, -⟩ := idx2 t
  funext y
  unfold iblk2
  rw [View.read_apply]
  show V c (Pipeline.arrRef spec2 1) _ = V c (Pipeline.arrRef spec2 1) _
  refine congrArg _ ?_
  funext a; apply Fin.ext
  match a with
  | ⟨0, _⟩ => show win2_1.index t (0 : Fin 2) * 2048 + 1 * (y 0).val = (y 0).val; rw [e2]; omega
  | ⟨1, _⟩ => show win2_1.index t (1 : Fin 2) * 2080 + 1 * (y 1).val = (y 1).val; rw [e3]; omega

/-- What point `t` leaves for result 0: the product of the two blocks it loaded. -/
theorem wrote2_2 (c : Dev nD) (t : Fin cfg2.N) :
    (dat2 V c).flushed 2 t = mm (M := 128) (K := 2048) (N := 2080) (iblk2 V c 0 t) (iblk2 V c 1 t) := by
  show (cfg2.win 2).cut (grid2.coords t) ((dat2 V c).after 2 t) = _
  rw [after2_2]
  unfold out2_2
  rw [View.canon_unit_zero hz]
  simp only [View.ld_unit_zero (S := S128x2048) hz, View.ld_unit_zero (S := S2048x2080) hz]
  rw [pay2_1]
  rfl

/-- Entry `j` of that product of blocks is the entry of the whole product `S · X` at `j`'s place in result 0: a row
    of a product needs only that row of the left operand. -/
theorem block2_2 (c : Dev nD) (t : Fin cfg2.N) (j : S128x2080.Idx) :
    mm (M := 128) (K := 2048) (N := 2080) (iblk2 V c 0 t) (iblk2 V c 1 t) j
      = mm (M := 2048) (K := 2048) (N := 2080) (V c (Pipeline.arrRef spec2 0)) (V c (Pipeline.arrRef spec2 1)) (((cfg2.win 2).blk t).view.emb j) := by
  obtain ⟨-, -, -, -, e4, e5, e6, e7⟩ := idx2 t
  refine mm_eq_of_row _ _ _ _ j _ (rdX2 V c t) ?_ fun k => ?_
  · show (j 1).val = win2_2.index t (1 : Fin 2) * 2080 + 1 * (j 1).val
    rw [e5]; omega
  · refine rdS2 V c t _ _ ?_ rfl
    show win2_2.index t (0 : Fin 2) * 128 + 1 * (j 0).val = t.val * 128 + (j 0).val
    rw [e4]; omega

/-- What point `t` writes back to result 0 is block `t` of the whole product. -/
theorem flushed2_2_eq (c : Dev nD) (t : Fin cfg2.N) :
    (dat2 V c).flushed 2 t = ((cfg2.win 2).blk t).view.read (Elt Ideal)
      (mm (M := 2048) (K := 2048) (N := 2080) (V c (Pipeline.arrRef spec2 0)) (V c (Pipeline.arrRef spec2 1))) := by
  rw [wrote2_2]
  funext j
  exact block2_2 V c t j

/-- An index of result 0 is in point `t`'s block iff each coordinate is in the block's range on its axis. -/
theorem memblk2_2 (t : Fin cfg2.N) (i : S2048x2080.Idx) :
    i ∈ ((cfg2.win 2).blk t).view.set ↔ ∀ a : Fin 2, win2_2.index t a * S128x2080.size a ≤ (i a).val ∧ (i a).val < win2_2.index t a * S128x2080.size a + S128x2080.size a := by
  show i ∈ ((View.whole main_v28_0).slice (win2_2.rect t)).set ↔ _
  rw [View.set_slice_whole, Rect.mem_set_unit]
  exact Iff.rfl

/-- The sixteen row blocks tile result 0: row `r` is in the block of point `r / 128`. -/
theorem tiles2_2 (i : S2048x2080.Idx) :
    ∃ t : Fin cfg2.N, (cfg2.win 2).flush t = true ∧ i ∈ ((cfg2.win 2).blk t).view.set := by
  have hi0 : (i 0).val < 2048 := (i 0).isLt
  have hi1 : (i 1).val < 2080 := (i 1).isLt
  have ht : (i 0).val / 128 < cfg2.N := by show _ < 16; omega
  obtain ⟨-, -, -, -, e4, e5, e6, e7⟩ := idx2 ⟨(i 0).val / 128, ht⟩
  refine ⟨⟨(i 0).val / 128, ht⟩, flush2_2 _, ?_⟩
  rw [memblk2_2]
  intro a
  match a with
  | ⟨0, _⟩ =>
    show win2_2.index ⟨(i 0).val / 128, ht⟩ (0 : Fin 2) * 128 ≤ (i 0).val ∧ (i 0).val < win2_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win2_2.index ⟨(i 0).val / 128, ht⟩ (1 : Fin 2) * 2080 ≤ (i 1).val ∧ (i 1).val < win2_2.index ⟨(i 0).val / 128, ht⟩ (1 : Fin 2) * 2080 + 2080
    rw [e5]; omega

/-- After region 2, result 0 is the whole product `S · X` of the region's two input arrays. -/
theorem region2_2 (c : Dev nD) :
    (dat2 V c).arrAt 2 cfg2.N
      = mm (M := 2048) (K := 2048) (N := 2080) (V c (Pipeline.arrRef spec2 0)) (V c (Pipeline.arrRef spec2 1)) :=
  (dat2 V c).arrAt_eq_of_cover 2 _ (fun t _ => flushed2_2_eq V c t) tiles2_2

/-- What point `t` leaves for result 1: the product of the two blocks it loaded. -/
theorem wrote2_3 (c : Dev nD) (t : Fin cfg2.N) :
    (dat2 V c).flushed 3 t = mm (M := 128) (K := 2048) (N := 2080) (iblk2 V c 0 t) (iblk2 V c 1 t) := by
  show (cfg2.win 3).cut (grid2.coords t) ((dat2 V c).after 3 t) = _
  rw [after2_3]
  unfold out2_3
  rw [View.canon_unit_zero hz]
  simp only [View.ld_unit_zero (S := S128x2048) hz, View.ld_unit_zero (S := S2048x2080) hz]
  rw [pay2_2]
  rfl

/-- Entry `j` of that product of blocks is the entry of the whole product `S · X` at `j`'s place in result 1: a row
    of a product needs only that row of the left operand. -/
theorem block2_3 (c : Dev nD) (t : Fin cfg2.N) (j : S128x2080.Idx) :
    mm (M := 128) (K := 2048) (N := 2080) (iblk2 V c 0 t) (iblk2 V c 1 t) j
      = mm (M := 2048) (K := 2048) (N := 2080) (V c (Pipeline.arrRef spec2 0)) (V c (Pipeline.arrRef spec2 1)) (((cfg2.win 3).blk t).view.emb j) := by
  obtain ⟨-, -, -, -, e4, e5, e6, e7⟩ := idx2 t
  refine mm_eq_of_row _ _ _ _ j _ (rdX2 V c t) ?_ fun k => ?_
  · show (j 1).val = win2_3.index t (1 : Fin 2) * 2080 + 1 * (j 1).val
    rw [e7]; omega
  · refine rdS2 V c t _ _ ?_ rfl
    show win2_3.index t (0 : Fin 2) * 128 + 1 * (j 0).val = t.val * 128 + (j 0).val
    rw [e6]; omega

/-- What point `t` writes back to result 1 is block `t` of the whole product. -/
theorem flushed2_3_eq (c : Dev nD) (t : Fin cfg2.N) :
    (dat2 V c).flushed 3 t = ((cfg2.win 3).blk t).view.read (Elt Ideal)
      (mm (M := 2048) (K := 2048) (N := 2080) (V c (Pipeline.arrRef spec2 0)) (V c (Pipeline.arrRef spec2 1))) := by
  rw [wrote2_3]
  funext j
  exact block2_3 V c t j

/-- An index of result 1 is in point `t`'s block iff each coordinate is in the block's range on its axis. -/
theorem memblk2_3 (t : Fin cfg2.N) (i : S2048x2080.Idx) :
    i ∈ ((cfg2.win 3).blk t).view.set ↔ ∀ a : Fin 2, win2_3.index t a * S128x2080.size a ≤ (i a).val ∧ (i a).val < win2_3.index t a * S128x2080.size a + S128x2080.size a := by
  show i ∈ ((View.whole main_v28_1).slice (win2_3.rect t)).set ↔ _
  rw [View.set_slice_whole, Rect.mem_set_unit]
  exact Iff.rfl

/-- The sixteen row blocks tile result 1: row `r` is in the block of point `r / 128`. -/
theorem tiles2_3 (i : S2048x2080.Idx) :
    ∃ t : Fin cfg2.N, (cfg2.win 3).flush t = true ∧ i ∈ ((cfg2.win 3).blk t).view.set := by
  have hi0 : (i 0).val < 2048 := (i 0).isLt
  have hi1 : (i 1).val < 2080 := (i 1).isLt
  have ht : (i 0).val / 128 < cfg2.N := by show _ < 16; omega
  obtain ⟨-, -, -, -, e4, e5, e6, e7⟩ := idx2 ⟨(i 0).val / 128, ht⟩
  refine ⟨⟨(i 0).val / 128, ht⟩, flush2_3 _, ?_⟩
  rw [memblk2_3]
  intro a
  match a with
  | ⟨0, _⟩ =>
    show win2_3.index ⟨(i 0).val / 128, ht⟩ (0 : Fin 2) * 128 ≤ (i 0).val ∧ (i 0).val < win2_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win2_3.index ⟨(i 0).val / 128, ht⟩ (1 : Fin 2) * 2080 ≤ (i 1).val ∧ (i 1).val < win2_3.index ⟨(i 0).val / 128, ht⟩ (1 : Fin 2) * 2080 + 2080
    rw [e7]; omega

/-- After region 2, result 1 is the whole product `S · X` of the region's two input arrays. -/
theorem region2_3 (c : Dev nD) :
    (dat2 V c).arrAt 3 cfg2.N
      = mm (M := 2048) (K := 2048) (N := 2080) (V c (Pipeline.arrRef spec2 0)) (V c (Pipeline.arrRef spec2 1)) :=
  (dat2 V c).arrAt_eq_of_cover 3 _ (fun t _ => flushed2_3_eq V c t) tiles2_3

/-! ## Region 3: `2 · (S · X) − X0` with `X, X0 : [2048, 2080]` -/

/-- The body's value of its three loaded blocks: twice their product less the third, the literal two kept as the
    float constant it is printed as. -/
theorem pay3_1 (x0 : Vec Ideal S128x2048 .bf16) (x1 : Vec Ideal S2048x2080 .bf16) (x2 : Vec Ideal S128x2080 .f32) :
    k3_pay1 x0 x1 x2 = fun i => (Ideal.ofBits .f32 0x40000000#32 : EReal) * mm (M := 128) (K := 2048) (N := 2080) x0 x1 i - x2 i := by
  unfold k3_pay1
  simp only [shapeCast_self]
  funext i
  show (Ideal.ofBits .f32 0x40000000#32 : EReal) * matmul _ none x0 x1 (constant S128x2080 .f32 0x00000000#32) i - x2 i = _
  exact congrArg (fun z : EReal => (Ideal.ofBits .f32 0x40000000#32 : EReal) * z - x2 i)
    (congrFun (matmul_eq_mm dot_S128x2048_S2048x2080_S128x2080_1_0_0_1_n_n rfl x0 x1) i)

/-- The printed index maps over the sixteen points: the left operand, the subtrahend and the result move down by
    one row block per point, the right operand stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Entry `y` of the left operand's block at point `t` is entry `(128 t + y₀, y₁)` of the whole left operand. -/
theorem rdS3 (c : Dev nD) (t : Fin cfg3.N) (y : S128x2048.Idx) (i : S2048x2048.Idx)
    (h0 : (i 0).val = t.val * 128 + (y 0).val) (h1 : (i 1).val = (y 1).val) :
    (iblk3 V c 0 t : Vec Ideal S128x2048 .bf16) y = (V c (Pipeline.arrRef spec3 0) : S2048x2048.Idx → EReal) i := by
  obtain ⟨e0, e1, -⟩ := idx3 t
  unfold iblk3
  rw [View.read_apply]
  show V c (Pipeline.arrRef spec3 0) _ = V c (Pipeline.arrRef spec3 0) _
  refine congrArg _ ?_
  funext a; apply Fin.ext
  match a with
  | ⟨0, _⟩ => show win3_0.index t (0 : Fin 2) * 128 + 1 * (y 0).val = (i 0).val; rw [e0, h0]; omega
  | ⟨1, _⟩ => show win3_0.index t (1 : Fin 2) * 2048 + 1 * (y 1).val = (i 1).val; rw [e1, h1]; omega

/-- The right operand's block at every point is the whole right operand. -/
theorem rdX3 (c : Dev nD) (t : Fin cfg3.N) :
    (iblk3 V c 1 t : Vec Ideal S2048x2080 .bf16) = (V c (Pipeline.arrRef spec3 1) : S2048x2080.Idx → EReal) := by
  obtain ⟨-, -, e2, e3, -⟩ := idx3 t
  funext y
  unfold iblk3
  rw [View.read_apply]
  show V c (Pipeline.arrRef spec3 1) _ = V c (Pipeline.arrRef spec3 1) _
  refine congrArg _ ?_
  funext a; apply Fin.ext
  match a with
  | ⟨0, _⟩ => show win3_1.index t (0 : Fin 2) * 2048 + 1 * (y 0).val = (y 0).val; rw [e2]; omega
  | ⟨1, _⟩ => show win3_1.index t (1 : Fin 2) * 2080 + 1 * (y 1).val = (y 1).val; rw [e3]; omega

/-- Entry `y` of the subtrahend's block at point `t` is entry `(128 t + y₀, y₁)` of the whole subtrahend. -/
theorem rdX0_3 (c : Dev nD) (t : Fin cfg3.N) (y : S128x2080.Idx) (i : S2048x2080.Idx)
    (h0 : (i 0).val = t.val * 128 + (y 0).val) (h1 : (i 1).val = (y 1).val) :
    (iblk3 V c 2 t : Vec Ideal S128x2080 .f32) y = (V c (Pipeline.arrRef spec3 2) : S2048x2080.Idx → EReal) i := by
  obtain ⟨-, -, -, -, e4, e5, -⟩ := idx3 t
  unfold iblk3
  rw [View.read_apply]
  show V c (Pipeline.arrRef spec3 2) _ = V c (Pipeline.arrRef spec3 2) _
  refine congrArg _ ?_
  funext a; apply Fin.ext
  match a with
  | ⟨0, _⟩ => show win3_2.index t (0 : Fin 2) * 128 + 1 * (y 0).val = (i 0).val; rw [e4, h0]; omega
  | ⟨1, _⟩ => show win3_2.index t (1 : Fin 2) * 2080 + 1 * (y 1).val = (i 1).val; rw [e5, h1]; omega

/-- What point `t` leaves for the result: twice the product of the two blocks it loaded, less the subtrahend's block. -/
theorem wrote3_3 (c : Dev nD) (t : Fin cfg3.N) :
    (dat3 V c).flushed 3 t = fun j => (Ideal.ofBits .f32 0x40000000#32 : EReal) * mm (M := 128) (K := 2048) (N := 2080) (iblk3 V c 0 t) (iblk3 V c 1 t) j
      - (iblk3 V c 2 t : Vec Ideal S128x2080 .f32) j := by
  show (cfg3.win 3).cut (grid3.coords t) ((dat3 V c).after 3 t) = _
  rw [after3_3]
  unfold out3_3
  rw [View.canon_unit_zero hz]
  simp only [View.ld_unit_zero (S := S128x2048) hz, View.ld_unit_zero (S := S2048x2080) hz, View.ld_unit_zero (S := S128x2080) hz]
  rw [pay3_1]
  rfl

/-- Entry `j` of that value is the entry of the whole combination `2 · (S · X) − X0` at `j`'s place in the result: a row
    of a product needs only that row of the left operand, and the subtrahend is read entry by entry. -/
theorem block3_3 (c : Dev nD) (t : Fin cfg3.N) (j : S128x2080.Idx) :
    (Ideal.ofBits .f32 0x40000000#32 : EReal) * mm (M := 128) (K := 2048) (N := 2080) (iblk3 V c 0 t) (iblk3 V c 1 t) j
        - (iblk3 V c 2 t : Vec Ideal S128x2080 .f32) j
      = (Ideal.ofBits .f32 0x40000000#32 : EReal) * mm (M := 2048) (K := 2048) (N := 2080) (V c (Pipeline.arrRef spec3 0)) (V c (Pipeline.arrRef spec3 1)) (((cfg3.win 3).blk t).view.emb j)
        - (V c (Pipeline.arrRef spec3 2) : S2048x2080.Idx → EReal) (((cfg3.win 3).blk t).view.emb j) := by
  obtain ⟨-, -, -, -, -, -, e6, e7⟩ := idx3 t
  have hq : (j 1).val = win3_3.index t (1 : Fin 2) * 2080 + 1 * (j 1).val := by rw [e7]; omega
  have hp : win3_3.index t (0 : Fin 2) * 128 + 1 * (j 0).val = t.val * 128 + (j 0).val := by rw [e6]; omega
  have hmm : mm (M := 128) (K := 2048) (N := 2080) (iblk3 V c 0 t) (iblk3 V c 1 t) j
      = mm (M := 2048) (K := 2048) (N := 2080) (V c (Pipeline.arrRef spec3 0)) (V c (Pipeline.arrRef spec3 1)) (((cfg3.win 3).blk t).view.emb j) :=
    mm_eq_of_row _ _ _ _ j _ (rdX3 V c t) hq fun k => rdS3 V c t _ _ hp rfl
  have hsub : (iblk3 V c 2 t : Vec Ideal S128x2080 .f32) j = (V c (Pipeline.arrRef spec3 2) : S2048x2080.Idx → EReal) (((cfg3.win 3).blk t).view.emb j) :=
    rdX0_3 V c t j _ hp hq.symm
  rw [hmm, hsub]

/-- What point `t` writes back is block `t` of the whole combination. -/
theorem flushed3_3_eq (c : Dev nD) (t : Fin cfg3.N) :
    (dat3 V c).flushed 3 t = ((cfg3.win 3).blk t).view.read (Elt Ideal)
      (fun i => (Ideal.ofBits .f32 0x40000000#32 : EReal) * mm (M := 2048) (K := 2048) (N := 2080) (V c (Pipeline.arrRef spec3 0)) (V c (Pipeline.arrRef spec3 1)) i - (V c (Pipeline.arrRef spec3 2) : S2048x2080.Idx → EReal) i) := by
  rw [wrote3_3]
  funext j
  exact block3_3 V c t j

/-- An index of the result is in point `t`'s block iff each coordinate is in the block's range on its axis. -/
theorem memblk3_3 (t : Fin cfg3.N) (i : S2048x2080.Idx) :
    i ∈ ((cfg3.win 3).blk t).view.set ↔ ∀ a : Fin 2, win3_3.index t a * S128x2080.size a ≤ (i a).val ∧ (i a).val < win3_3.index t a * S128x2080.size a + S128x2080.size a := by
  show i ∈ ((View.whole main_v29).slice (win3_3.rect t)).set ↔ _
  rw [View.set_slice_whole, Rect.mem_set_unit]
  exact Iff.rfl

/-- The sixteen row blocks tile the result: row `r` is in the block of point `r / 128`. -/
theorem tiles3_3 (i : S2048x2080.Idx) :
    ∃ t : Fin cfg3.N, (cfg3.win 3).flush t = true ∧ i ∈ ((cfg3.win 3).blk t).view.set := by
  have hi0 : (i 0).val < 2048 := (i 0).isLt
  have hi1 : (i 1).val < 2080 := (i 1).isLt
  have ht : (i 0).val / 128 < cfg3.N := by show _ < 16; omega
  obtain ⟨-, -, -, -, -, -, e6, e7⟩ := idx3 ⟨(i 0).val / 128, ht⟩
  refine ⟨⟨(i 0).val / 128, ht⟩, flush3_3 _, ?_⟩
  rw [memblk3_3]
  intro a
  match a with
  | ⟨0, _⟩ =>
    show win3_3.index ⟨(i 0).val / 128, ht⟩ (0 : Fin 2) * 128 ≤ (i 0).val ∧ (i 0).val < win3_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win3_3.index ⟨(i 0).val / 128, ht⟩ (1 : Fin 2) * 2080 ≤ (i 1).val ∧ (i 1).val < win3_3.index ⟨(i 0).val / 128, ht⟩ (1 : Fin 2) * 2080 + 2080
    rw [e7]; omega

/-- After region 3, the result is `2 · (S · X) − X0` of the region's three input arrays, entry by entry. -/
theorem region3_3 (c : Dev nD) :
    (dat3 V c).arrAt 3 cfg3.N
      = fun i => (Ideal.ofBits .f32 0x40000000#32 : EReal) * mm (M := 2048) (K := 2048) (N := 2080) (V c (Pipeline.arrRef spec3 0)) (V c (Pipeline.arrRef spec3 1)) i - (V c (Pipeline.arrRef spec3 2) : S2048x2080.Idx → EReal) i :=
  (dat3 V c).arrAt_eq_of_cover 3 _ (fun t _ => flushed3_3_eq V c t) tiles3_3

/-! ## Region 5: the product `S · X` with `X : [2048, 2080]`, stored in both float formats -/

/-- The body's product of its two loaded blocks is their matrix product. -/
theorem pay5_1 (x0 : Vec Ideal S128x2048 .bf16) (x1 : Vec Ideal S2048x2080 .bf16) :
    k5_pay1 x0 x1 = mm (M := 128) (K := 2048) (N := 2080) x0 x1 := by
  unfold k5_pay1
  simp only [shapeCast_self]
  exact matmul_eq_mm _ rfl x0 x1

/-- The change of float format is the identity on the extended reals. -/
theorem pay5_2 (x0 : Vec Ideal S128x2048 .bf16) (x1 : Vec Ideal S2048x2080 .bf16) :
    k5_pay2 x0 x1 = mm (M := 128) (K := 2048) (N := 2080) x0 x1 := by
  unfold k5_pay2
  exact pay5_1 x0 x1

/-- The printed index maps over the sixteen points: the left operand and both results move down by one row block
    per point, the right operand stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Entry `y` of the left operand's block at point `t` is entry `(128 t + y₀, y₁)` of the whole left operand. -/
theorem rdS5 (c : Dev nD) (t : Fin cfg5.N) (y : S128x2048.Idx) (i : S2048x2048.Idx)
    (h0 : (i 0).val = t.val * 128 + (y 0).val) (h1 : (i 1).val = (y 1).val) :
    (iblk5 V c 0 t : Vec Ideal S128x2048 .bf16) y = (V c (Pipeline.arrRef spec5 0) : S2048x2048.Idx → EReal) i := by
  obtain ⟨e0, e1, -⟩ := idx5 t
  unfold iblk5
  rw [View.read_apply]
  show V c (Pipeline.arrRef spec5 0) _ = V c (Pipeline.arrRef spec5 0) _
  refine congrArg _ ?_
  funext a; apply Fin.ext
  match a with
  | ⟨0, _⟩ => show win5_0.index t (0 : Fin 2) * 128 + 1 * (y 0).val = (i 0).val; rw [e0, h0]; omega
  | ⟨1, _⟩ => show win5_0.index t (1 : Fin 2) * 2048 + 1 * (y 1).val = (i 1).val; rw [e1, h1]; omega

/-- The right operand's block at every point is the whole right operand. -/
theorem rdX5 (c : Dev nD) (t : Fin cfg5.N) :
    (iblk5 V c 1 t : Vec Ideal S2048x2080 .bf16) = (V c (Pipeline.arrRef spec5 1) : S2048x2080.Idx → EReal) := by
  obtain ⟨-, -, e2, e3, -⟩ := idx5 t
  funext y
  unfold iblk5
  rw [View.read_apply]
  show V c (Pipeline.arrRef spec5 1) _ = V c (Pipeline.arrRef spec5 1) _
  refine congrArg _ ?_
  funext a; apply Fin.ext
  match a with
  | ⟨0, _⟩ => show win5_1.index t (0 : Fin 2) * 2048 + 1 * (y 0).val = (y 0).val; rw [e2]; omega
  | ⟨1, _⟩ => show win5_1.index t (1 : Fin 2) * 2080 + 1 * (y 1).val = (y 1).val; rw [e3]; omega

/-- What point `t` leaves for result 0: the product of the two blocks it loaded. -/
theorem wrote5_2 (c : Dev nD) (t : Fin cfg5.N) :
    (dat5 V c).flushed 2 t = mm (M := 128) (K := 2048) (N := 2080) (iblk5 V c 0 t) (iblk5 V c 1 t) := by
  show (cfg5.win 2).cut (grid5.coords t) ((dat5 V c).after 2 t) = _
  rw [after5_2]
  unfold out5_2
  rw [View.canon_unit_zero hz]
  simp only [View.ld_unit_zero (S := S128x2048) hz, View.ld_unit_zero (S := S2048x2080) hz]
  rw [pay5_1]
  rfl

/-- Entry `j` of that product of blocks is the entry of the whole product `S · X` at `j`'s place in result 0: a row
    of a product needs only that row of the left operand. -/
theorem block5_2 (c : Dev nD) (t : Fin cfg5.N) (j : S128x2080.Idx) :
    mm (M := 128) (K := 2048) (N := 2080) (iblk5 V c 0 t) (iblk5 V c 1 t) j
      = mm (M := 2048) (K := 2048) (N := 2080) (V c (Pipeline.arrRef spec5 0)) (V c (Pipeline.arrRef spec5 1)) (((cfg5.win 2).blk t).view.emb j) := by
  obtain ⟨-, -, -, -, e4, e5, e6, e7⟩ := idx5 t
  refine mm_eq_of_row _ _ _ _ j _ (rdX5 V c t) ?_ fun k => ?_
  · show (j 1).val = win5_2.index t (1 : Fin 2) * 2080 + 1 * (j 1).val
    rw [e5]; omega
  · refine rdS5 V c t _ _ ?_ rfl
    show win5_2.index t (0 : Fin 2) * 128 + 1 * (j 0).val = t.val * 128 + (j 0).val
    rw [e4]; omega

/-- What point `t` writes back to result 0 is block `t` of the whole product. -/
theorem flushed5_2_eq (c : Dev nD) (t : Fin cfg5.N) :
    (dat5 V c).flushed 2 t = ((cfg5.win 2).blk t).view.read (Elt Ideal)
      (mm (M := 2048) (K := 2048) (N := 2080) (V c (Pipeline.arrRef spec5 0)) (V c (Pipeline.arrRef spec5 1))) := by
  rw [wrote5_2]
  funext j
  exact block5_2 V c t j

/-- An index of result 0 is in point `t`'s block iff each coordinate is in the block's range on its axis. -/
theorem memblk5_2 (t : Fin cfg5.N) (i : S2048x2080.Idx) :
    i ∈ ((cfg5.win 2).blk t).view.set ↔ ∀ a : Fin 2, win5_2.index t a * S128x2080.size a ≤ (i a).val ∧ (i a).val < win5_2.index t a * S128x2080.size a + S128x2080.size a := by
  show i ∈ ((View.whole main_v55_0).slice (win5_2.rect t)).set ↔ _
  rw [View.set_slice_whole, Rect.mem_set_unit]
  exact Iff.rfl

/-- The sixteen row blocks tile result 0: row `r` is in the block of point `r / 128`. -/
theorem tiles5_2 (i : S2048x2080.Idx) :
    ∃ t : Fin cfg5.N, (cfg5.win 2).flush t = true ∧ i ∈ ((cfg5.win 2).blk t).view.set := by
  have hi0 : (i 0).val < 2048 := (i 0).isLt
  have hi1 : (i 1).val < 2080 := (i 1).isLt
  have ht : (i 0).val / 128 < cfg5.N := by show _ < 16; omega
  obtain ⟨-, -, -, -, e4, e5, e6, e7⟩ := idx5 ⟨(i 0).val / 128, ht⟩
  refine ⟨⟨(i 0).val / 128, ht⟩, flush5_2 _, ?_⟩
  rw [memblk5_2]
  intro a
  match a with
  | ⟨0, _⟩ =>
    show win5_2.index ⟨(i 0).val / 128, ht⟩ (0 : Fin 2) * 128 ≤ (i 0).val ∧ (i 0).val < win5_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win5_2.index ⟨(i 0).val / 128, ht⟩ (1 : Fin 2) * 2080 ≤ (i 1).val ∧ (i 1).val < win5_2.index ⟨(i 0).val / 128, ht⟩ (1 : Fin 2) * 2080 + 2080
    rw [e5]; omega

/-- After region 5, result 0 is the whole product `S · X` of the region's two input arrays. -/
theorem region5_2 (c : Dev nD) :
    (dat5 V c).arrAt 2 cfg5.N
      = mm (M := 2048) (K := 2048) (N := 2080) (V c (Pipeline.arrRef spec5 0)) (V c (Pipeline.arrRef spec5 1)) :=
  (dat5 V c).arrAt_eq_of_cover 2 _ (fun t _ => flushed5_2_eq V c t) tiles5_2

/-- What point `t` leaves for result 1: the product of the two blocks it loaded. -/
theorem wrote5_3 (c : Dev nD) (t : Fin cfg5.N) :
    (dat5 V c).flushed 3 t = mm (M := 128) (K := 2048) (N := 2080) (iblk5 V c 0 t) (iblk5 V c 1 t) := by
  show (cfg5.win 3).cut (grid5.coords t) ((dat5 V c).after 3 t) = _
  rw [after5_3]
  unfold out5_3
  rw [View.canon_unit_zero hz]
  simp only [View.ld_unit_zero (S := S128x2048) hz, View.ld_unit_zero (S := S2048x2080) hz]
  rw [pay5_2]
  rfl

/-- Entry `j` of that product of blocks is the entry of the whole product `S · X` at `j`'s place in result 1: a row
    of a product needs only that row of the left operand. -/
theorem block5_3 (c : Dev nD) (t : Fin cfg5.N) (j : S128x2080.Idx) :
    mm (M := 128) (K := 2048) (N := 2080) (iblk5 V c 0 t) (iblk5 V c 1 t) j
      = mm (M := 2048) (K := 2048) (N := 2080) (V c (Pipeline.arrRef spec5 0)) (V c (Pipeline.arrRef spec5 1)) (((cfg5.win 3).blk t).view.emb j) := by
  obtain ⟨-, -, -, -, e4, e5, e6, e7⟩ := idx5 t
  refine mm_eq_of_row _ _ _ _ j _ (rdX5 V c t) ?_ fun k => ?_
  · show (j 1).val = win5_3.index t (1 : Fin 2) * 2080 + 1 * (j 1).val
    rw [e7]; omega
  · refine rdS5 V c t _ _ ?_ rfl
    show win5_3.index t (0 : Fin 2) * 128 + 1 * (j 0).val = t.val * 128 + (j 0).val
    rw [e6]; omega

/-- What point `t` writes back to result 1 is block `t` of the whole product. -/
theorem flushed5_3_eq (c : Dev nD) (t : Fin cfg5.N) :
    (dat5 V c).flushed 3 t = ((cfg5.win 3).blk t).view.read (Elt Ideal)
      (mm (M := 2048) (K := 2048) (N := 2080) (V c (Pipeline.arrRef spec5 0)) (V c (Pipeline.arrRef spec5 1))) := by
  rw [wrote5_3]
  funext j
  exact block5_3 V c t j

/-- An index of result 1 is in point `t`'s block iff each coordinate is in the block's range on its axis. -/
theorem memblk5_3 (t : Fin cfg5.N) (i : S2048x2080.Idx) :
    i ∈ ((cfg5.win 3).blk t).view.set ↔ ∀ a : Fin 2, win5_3.index t a * S128x2080.size a ≤ (i a).val ∧ (i a).val < win5_3.index t a * S128x2080.size a + S128x2080.size a := by
  show i ∈ ((View.whole main_v55_1).slice (win5_3.rect t)).set ↔ _
  rw [View.set_slice_whole, Rect.mem_set_unit]
  exact Iff.rfl

/-- The sixteen row blocks tile result 1: row `r` is in the block of point `r / 128`. -/
theorem tiles5_3 (i : S2048x2080.Idx) :
    ∃ t : Fin cfg5.N, (cfg5.win 3).flush t = true ∧ i ∈ ((cfg5.win 3).blk t).view.set := by
  have hi0 : (i 0).val < 2048 := (i 0).isLt
  have hi1 : (i 1).val < 2080 := (i 1).isLt
  have ht : (i 0).val / 128 < cfg5.N := by show _ < 16; omega
  obtain ⟨-, -, -, -, e4, e5, e6, e7⟩ := idx5 ⟨(i 0).val / 128, ht⟩
  refine ⟨⟨(i 0).val / 128, ht⟩, flush5_3 _, ?_⟩
  rw [memblk5_3]
  intro a
  match a with
  | ⟨0, _⟩ =>
    show win5_3.index ⟨(i 0).val / 128, ht⟩ (0 : Fin 2) * 128 ≤ (i 0).val ∧ (i 0).val < win5_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win5_3.index ⟨(i 0).val / 128, ht⟩ (1 : Fin 2) * 2080 ≤ (i 1).val ∧ (i 1).val < win5_3.index ⟨(i 0).val / 128, ht⟩ (1 : Fin 2) * 2080 + 2080
    rw [e7]; omega

/-- After region 5, result 1 is the whole product `S · X` of the region's two input arrays. -/
theorem region5_3 (c : Dev nD) :
    (dat5 V c).arrAt 3 cfg5.N
      = mm (M := 2048) (K := 2048) (N := 2080) (V c (Pipeline.arrRef spec5 0)) (V c (Pipeline.arrRef spec5 1)) :=
  (dat5 V c).arrAt_eq_of_cover 3 _ (fun t _ => flushed5_3_eq V c t) tiles5_3

/-! ## Region 6: `2 · (S · X) − X0` with `X, X0 : [2048, 2080]` -/

/-- The body's value of its three loaded blocks: twice their product less the third, the literal two kept as the
    float constant it is printed as. -/
theorem pay6_1 (x0 : Vec Ideal S128x2048 .bf16) (x1 : Vec Ideal S2048x2080 .bf16) (x2 : Vec Ideal S128x2080 .f32) :
    k6_pay1 x0 x1 x2 = fun i => (Ideal.ofBits .f32 0x40000000#32 : EReal) * mm (M := 128) (K := 2048) (N := 2080) x0 x1 i - x2 i := by
  unfold k6_pay1
  simp only [shapeCast_self]
  funext i
  show (Ideal.ofBits .f32 0x40000000#32 : EReal) * matmul _ none x0 x1 (constant S128x2080 .f32 0x00000000#32) i - x2 i = _
  exact congrArg (fun z : EReal => (Ideal.ofBits .f32 0x40000000#32 : EReal) * z - x2 i)
    (congrFun (matmul_eq_mm dot_S128x2048_S2048x2080_S128x2080_1_0_0_1_n_n rfl x0 x1) i)

/-- The printed index maps over the sixteen points: the left operand, the subtrahend and the result move down by
    one row block per point, the right operand stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Entry `y` of the left operand's block at point `t` is entry `(128 t + y₀, y₁)` of the whole left operand. -/
theorem rdS6 (c : Dev nD) (t : Fin cfg6.N) (y : S128x2048.Idx) (i : S2048x2048.Idx)
    (h0 : (i 0).val = t.val * 128 + (y 0).val) (h1 : (i 1).val = (y 1).val) :
    (iblk6 V c 0 t : Vec Ideal S128x2048 .bf16) y = (V c (Pipeline.arrRef spec6 0) : S2048x2048.Idx → EReal) i := by
  obtain ⟨e0, e1, -⟩ := idx6 t
  unfold iblk6
  rw [View.read_apply]
  show V c (Pipeline.arrRef spec6 0) _ = V c (Pipeline.arrRef spec6 0) _
  refine congrArg _ ?_
  funext a; apply Fin.ext
  match a with
  | ⟨0, _⟩ => show win6_0.index t (0 : Fin 2) * 128 + 1 * (y 0).val = (i 0).val; rw [e0, h0]; omega
  | ⟨1, _⟩ => show win6_0.index t (1 : Fin 2) * 2048 + 1 * (y 1).val = (i 1).val; rw [e1, h1]; omega

/-- The right operand's block at every point is the whole right operand. -/
theorem rdX6 (c : Dev nD) (t : Fin cfg6.N) :
    (iblk6 V c 1 t : Vec Ideal S2048x2080 .bf16) = (V c (Pipeline.arrRef spec6 1) : S2048x2080.Idx → EReal) := by
  obtain ⟨-, -, e2, e3, -⟩ := idx6 t
  funext y
  unfold iblk6
  rw [View.read_apply]
  show V c (Pipeline.arrRef spec6 1) _ = V c (Pipeline.arrRef spec6 1) _
  refine congrArg _ ?_
  funext a; apply Fin.ext
  match a with
  | ⟨0, _⟩ => show win6_1.index t (0 : Fin 2) * 2048 + 1 * (y 0).val = (y 0).val; rw [e2]; omega
  | ⟨1, _⟩ => show win6_1.index t (1 : Fin 2) * 2080 + 1 * (y 1).val = (y 1).val; rw [e3]; omega

/-- Entry `y` of the subtrahend's block at point `t` is entry `(128 t + y₀, y₁)` of the whole subtrahend. -/
theorem rdX0_6 (c : Dev nD) (t : Fin cfg6.N) (y : S128x2080.Idx) (i : S2048x2080.Idx)
    (h0 : (i 0).val = t.val * 128 + (y 0).val) (h1 : (i 1).val = (y 1).val) :
    (iblk6 V c 2 t : Vec Ideal S128x2080 .f32) y = (V c (Pipeline.arrRef spec6 2) : S2048x2080.Idx → EReal) i := by
  obtain ⟨-, -, -, -, e4, e5, -⟩ := idx6 t
  unfold iblk6
  rw [View.read_apply]
  show V c (Pipeline.arrRef spec6 2) _ = V c (Pipeline.arrRef spec6 2) _
  refine congrArg _ ?_
  funext a; apply Fin.ext
  match a with
  | ⟨0, _⟩ => show win6_2.index t (0 : Fin 2) * 128 + 1 * (y 0).val = (i 0).val; rw [e4, h0]; omega
  | ⟨1, _⟩ => show win6_2.index t (1 : Fin 2) * 2080 + 1 * (y 1).val = (i 1).val; rw [e5, h1]; omega

/-- What point `t` leaves for the result: twice the product of the two blocks it loaded, less the subtrahend's block. -/
theorem wrote6_3 (c : Dev nD) (t : Fin cfg6.N) :
    (dat6 V c).flushed 3 t = fun j => (Ideal.ofBits .f32 0x40000000#32 : EReal) * mm (M := 128) (K := 2048) (N := 2080) (iblk6 V c 0 t) (iblk6 V c 1 t) j
      - (iblk6 V c 2 t : Vec Ideal S128x2080 .f32) j := by
  show (cfg6.win 3).cut (grid6.coords t) ((dat6 V c).after 3 t) = _
  rw [after6_3]
  unfold out6_3
  rw [View.canon_unit_zero hz]
  simp only [View.ld_unit_zero (S := S128x2048) hz, View.ld_unit_zero (S := S2048x2080) hz, View.ld_unit_zero (S := S128x2080) hz]
  rw [pay6_1]
  rfl

/-- Entry `j` of that value is the entry of the whole combination `2 · (S · X) − X0` at `j`'s place in the result: a row
    of a product needs only that row of the left operand, and the subtrahend is read entry by entry. -/
theorem block6_3 (c : Dev nD) (t : Fin cfg6.N) (j : S128x2080.Idx) :
    (Ideal.ofBits .f32 0x40000000#32 : EReal) * mm (M := 128) (K := 2048) (N := 2080) (iblk6 V c 0 t) (iblk6 V c 1 t) j
        - (iblk6 V c 2 t : Vec Ideal S128x2080 .f32) j
      = (Ideal.ofBits .f32 0x40000000#32 : EReal) * mm (M := 2048) (K := 2048) (N := 2080) (V c (Pipeline.arrRef spec6 0)) (V c (Pipeline.arrRef spec6 1)) (((cfg6.win 3).blk t).view.emb j)
        - (V c (Pipeline.arrRef spec6 2) : S2048x2080.Idx → EReal) (((cfg6.win 3).blk t).view.emb j) := by
  obtain ⟨-, -, -, -, -, -, e6, e7⟩ := idx6 t
  have hq : (j 1).val = win6_3.index t (1 : Fin 2) * 2080 + 1 * (j 1).val := by rw [e7]; omega
  have hp : win6_3.index t (0 : Fin 2) * 128 + 1 * (j 0).val = t.val * 128 + (j 0).val := by rw [e6]; omega
  have hmm : mm (M := 128) (K := 2048) (N := 2080) (iblk6 V c 0 t) (iblk6 V c 1 t) j
      = mm (M := 2048) (K := 2048) (N := 2080) (V c (Pipeline.arrRef spec6 0)) (V c (Pipeline.arrRef spec6 1)) (((cfg6.win 3).blk t).view.emb j) :=
    mm_eq_of_row _ _ _ _ j _ (rdX6 V c t) hq fun k => rdS6 V c t _ _ hp rfl
  have hsub : (iblk6 V c 2 t : Vec Ideal S128x2080 .f32) j = (V c (Pipeline.arrRef spec6 2) : S2048x2080.Idx → EReal) (((cfg6.win 3).blk t).view.emb j) :=
    rdX0_6 V c t j _ hp hq.symm
  rw [hmm, hsub]

/-- What point `t` writes back is block `t` of the whole combination. -/
theorem flushed6_3_eq (c : Dev nD) (t : Fin cfg6.N) :
    (dat6 V c).flushed 3 t = ((cfg6.win 3).blk t).view.read (Elt Ideal)
      (fun i => (Ideal.ofBits .f32 0x40000000#32 : EReal) * mm (M := 2048) (K := 2048) (N := 2080) (V c (Pipeline.arrRef spec6 0)) (V c (Pipeline.arrRef spec6 1)) i - (V c (Pipeline.arrRef spec6 2) : S2048x2080.Idx → EReal) i) := by
  rw [wrote6_3]
  funext j
  exact block6_3 V c t j

/-- An index of the result is in point `t`'s block iff each coordinate is in the block's range on its axis. -/
theorem memblk6_3 (t : Fin cfg6.N) (i : S2048x2080.Idx) :
    i ∈ ((cfg6.win 3).blk t).view.set ↔ ∀ a : Fin 2, win6_3.index t a * S128x2080.size a ≤ (i a).val ∧ (i a).val < win6_3.index t a * S128x2080.size a + S128x2080.size a := by
  show i ∈ ((View.whole main_v56).slice (win6_3.rect t)).set ↔ _
  rw [View.set_slice_whole, Rect.mem_set_unit]
  exact Iff.rfl

/-- The sixteen row blocks tile the result: row `r` is in the block of point `r / 128`. -/
theorem tiles6_3 (i : S2048x2080.Idx) :
    ∃ t : Fin cfg6.N, (cfg6.win 3).flush t = true ∧ i ∈ ((cfg6.win 3).blk t).view.set := by
  have hi0 : (i 0).val < 2048 := (i 0).isLt
  have hi1 : (i 1).val < 2080 := (i 1).isLt
  have ht : (i 0).val / 128 < cfg6.N := by show _ < 16; omega
  obtain ⟨-, -, -, -, -, -, e6, e7⟩ := idx6 ⟨(i 0).val / 128, ht⟩
  refine ⟨⟨(i 0).val / 128, ht⟩, flush6_3 _, ?_⟩
  rw [memblk6_3]
  intro a
  match a with
  | ⟨0, _⟩ =>
    show win6_3.index ⟨(i 0).val / 128, ht⟩ (0 : Fin 2) * 128 ≤ (i 0).val ∧ (i 0).val < win6_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win6_3.index ⟨(i 0).val / 128, ht⟩ (1 : Fin 2) * 2080 ≤ (i 1).val ∧ (i 1).val < win6_3.index ⟨(i 0).val / 128, ht⟩ (1 : Fin 2) * 2080 + 2080
    rw [e7]; omega

/-- After region 6, the result is `2 · (S · X) − X0` of the region's three input arrays, entry by entry. -/
theorem region6_3 (c : Dev nD) :
    (dat6 V c).arrAt 3 cfg6.N
      = fun i => (Ideal.ofBits .f32 0x40000000#32 : EReal) * mm (M := 2048) (K := 2048) (N := 2080) (V c (Pipeline.arrRef spec6 0)) (V c (Pipeline.arrRef spec6 1)) i - (V c (Pipeline.arrRef spec6 2) : S2048x2080.Idx → EReal) i :=
  (dat6 V c).arrAt_eq_of_cover 3 _ (fun t _ => flushed6_3_eq V c t) tiles6_3

/-! ## Region 7: the product `S · X` with `X : [2048, 2080]`, stored in both float formats -/

/-- The body's product of its two loaded blocks is their matrix product. -/
theorem pay7_1 (x0 : Vec Ideal S128x2048 .bf16) (x1 : Vec Ideal S2048x2080 .bf16) :
    k7_pay1 x0 x1 = mm (M := 128) (K := 2048) (N := 2080) x0 x1 := by
  unfold k7_pay1
  simp only [shapeCast_self]
  exact matmul_eq_mm _ rfl x0 x1

/-- The change of float format is the identity on the extended reals. -/
theorem pay7_2 (x0 : Vec Ideal S128x2048 .bf16) (x1 : Vec Ideal S2048x2080 .bf16) :
    k7_pay2 x0 x1 = mm (M := 128) (K := 2048) (N := 2080) x0 x1 := by
  unfold k7_pay2
  exact pay7_1 x0 x1

/-- The printed index maps over the sixteen points: the left operand and both results move down by one row block
    per point, the right operand stays. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- Entry `y` of the left operand's block at point `t` is entry `(128 t + y₀, y₁)` of the whole left operand. -/
theorem rdS7 (c : Dev nD) (t : Fin cfg7.N) (y : S128x2048.Idx) (i : S2048x2048.Idx)
    (h0 : (i 0).val = t.val * 128 + (y 0).val) (h1 : (i 1).val = (y 1).val) :
    (iblk7 V c 0 t : Vec Ideal S128x2048 .bf16) y = (V c (Pipeline.arrRef spec7 0) : S2048x2048.Idx → EReal) i := by
  obtain ⟨e0, e1, -⟩ := idx7 t
  unfold iblk7
  rw [View.read_apply]
  show V c (Pipeline.arrRef spec7 0) _ = V c (Pipeline.arrRef spec7 0) _
  refine congrArg _ ?_
  funext a; apply Fin.ext
  match a with
  | ⟨0, _⟩ => show win7_0.index t (0 : Fin 2) * 128 + 1 * (y 0).val = (i 0).val; rw [e0, h0]; omega
  | ⟨1, _⟩ => show win7_0.index t (1 : Fin 2) * 2048 + 1 * (y 1).val = (i 1).val; rw [e1, h1]; omega

/-- The right operand's block at every point is the whole right operand. -/
theorem rdX7 (c : Dev nD) (t : Fin cfg7.N) :
    (iblk7 V c 1 t : Vec Ideal S2048x2080 .bf16) = (V c (Pipeline.arrRef spec7 1) : S2048x2080.Idx → EReal) := by
  obtain ⟨-, -, e2, e3, -⟩ := idx7 t
  funext y
  unfold iblk7
  rw [View.read_apply]
  show V c (Pipeline.arrRef spec7 1) _ = V c (Pipeline.arrRef spec7 1) _
  refine congrArg _ ?_
  funext a; apply Fin.ext
  match a with
  | ⟨0, _⟩ => show win7_1.index t (0 : Fin 2) * 2048 + 1 * (y 0).val = (y 0).val; rw [e2]; omega
  | ⟨1, _⟩ => show win7_1.index t (1 : Fin 2) * 2080 + 1 * (y 1).val = (y 1).val; rw [e3]; omega

/-- What point `t` leaves for result 0: the product of the two blocks it loaded. -/
theorem wrote7_2 (c : Dev nD) (t : Fin cfg7.N) :
    (dat7 V c).flushed 2 t = mm (M := 128) (K := 2048) (N := 2080) (iblk7 V c 0 t) (iblk7 V c 1 t) := by
  show (cfg7.win 2).cut (grid7.coords t) ((dat7 V c).after 2 t) = _
  rw [after7_2]
  unfold out7_2
  rw [View.canon_unit_zero hz]
  simp only [View.ld_unit_zero (S := S128x2048) hz, View.ld_unit_zero (S := S2048x2080) hz]
  rw [pay7_1]
  rfl

/-- Entry `j` of that product of blocks is the entry of the whole product `S · X` at `j`'s place in result 0: a row
    of a product needs only that row of the left operand. -/
theorem block7_2 (c : Dev nD) (t : Fin cfg7.N) (j : S128x2080.Idx) :
    mm (M := 128) (K := 2048) (N := 2080) (iblk7 V c 0 t) (iblk7 V c 1 t) j
      = mm (M := 2048) (K := 2048) (N := 2080) (V c (Pipeline.arrRef spec7 0)) (V c (Pipeline.arrRef spec7 1)) (((cfg7.win 2).blk t).view.emb j) := by
  obtain ⟨-, -, -, -, e4, e5, e6, e7⟩ := idx7 t
  refine mm_eq_of_row _ _ _ _ j _ (rdX7 V c t) ?_ fun k => ?_
  · show (j 1).val = win7_2.index t (1 : Fin 2) * 2080 + 1 * (j 1).val
    rw [e5]; omega
  · refine rdS7 V c t _ _ ?_ rfl
    show win7_2.index t (0 : Fin 2) * 128 + 1 * (j 0).val = t.val * 128 + (j 0).val
    rw [e4]; omega

/-- What point `t` writes back to result 0 is block `t` of the whole product. -/
theorem flushed7_2_eq (c : Dev nD) (t : Fin cfg7.N) :
    (dat7 V c).flushed 2 t = ((cfg7.win 2).blk t).view.read (Elt Ideal)
      (mm (M := 2048) (K := 2048) (N := 2080) (V c (Pipeline.arrRef spec7 0)) (V c (Pipeline.arrRef spec7 1))) := by
  rw [wrote7_2]
  funext j
  exact block7_2 V c t j

/-- An index of result 0 is in point `t`'s block iff each coordinate is in the block's range on its axis. -/
theorem memblk7_2 (t : Fin cfg7.N) (i : S2048x2080.Idx) :
    i ∈ ((cfg7.win 2).blk t).view.set ↔ ∀ a : Fin 2, win7_2.index t a * S128x2080.size a ≤ (i a).val ∧ (i a).val < win7_2.index t a * S128x2080.size a + S128x2080.size a := by
  show i ∈ ((View.whole main_v57_0).slice (win7_2.rect t)).set ↔ _
  rw [View.set_slice_whole, Rect.mem_set_unit]
  exact Iff.rfl

/-- The sixteen row blocks tile result 0: row `r` is in the block of point `r / 128`. -/
theorem tiles7_2 (i : S2048x2080.Idx) :
    ∃ t : Fin cfg7.N, (cfg7.win 2).flush t = true ∧ i ∈ ((cfg7.win 2).blk t).view.set := by
  have hi0 : (i 0).val < 2048 := (i 0).isLt
  have hi1 : (i 1).val < 2080 := (i 1).isLt
  have ht : (i 0).val / 128 < cfg7.N := by show _ < 16; omega
  obtain ⟨-, -, -, -, e4, e5, e6, e7⟩ := idx7 ⟨(i 0).val / 128, ht⟩
  refine ⟨⟨(i 0).val / 128, ht⟩, flush7_2 _, ?_⟩
  rw [memblk7_2]
  intro a
  match a with
  | ⟨0, _⟩ =>
    show win7_2.index ⟨(i 0).val / 128, ht⟩ (0 : Fin 2) * 128 ≤ (i 0).val ∧ (i 0).val < win7_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win7_2.index ⟨(i 0).val / 128, ht⟩ (1 : Fin 2) * 2080 ≤ (i 1).val ∧ (i 1).val < win7_2.index ⟨(i 0).val / 128, ht⟩ (1 : Fin 2) * 2080 + 2080
    rw [e5]; omega

/-- After region 7, result 0 is the whole product `S · X` of the region's two input arrays. -/
theorem region7_2 (c : Dev nD) :
    (dat7 V c).arrAt 2 cfg7.N
      = mm (M := 2048) (K := 2048) (N := 2080) (V c (Pipeline.arrRef spec7 0)) (V c (Pipeline.arrRef spec7 1)) :=
  (dat7 V c).arrAt_eq_of_cover 2 _ (fun t _ => flushed7_2_eq V c t) tiles7_2

/-- What point `t` leaves for result 1: the product of the two blocks it loaded. -/
theorem wrote7_3 (c : Dev nD) (t : Fin cfg7.N) :
    (dat7 V c).flushed 3 t = mm (M := 128) (K := 2048) (N := 2080) (iblk7 V c 0 t) (iblk7 V c 1 t) := by
  show (cfg7.win 3).cut (grid7.coords t) ((dat7 V c).after 3 t) = _
  rw [after7_3]
  unfold out7_3
  rw [View.canon_unit_zero hz]
  simp only [View.ld_unit_zero (S := S128x2048) hz, View.ld_unit_zero (S := S2048x2080) hz]
  rw [pay7_2]
  rfl

/-- Entry `j` of that product of blocks is the entry of the whole product `S · X` at `j`'s place in result 1: a row
    of a product needs only that row of the left operand. -/
theorem block7_3 (c : Dev nD) (t : Fin cfg7.N) (j : S128x2080.Idx) :
    mm (M := 128) (K := 2048) (N := 2080) (iblk7 V c 0 t) (iblk7 V c 1 t) j
      = mm (M := 2048) (K := 2048) (N := 2080) (V c (Pipeline.arrRef spec7 0)) (V c (Pipeline.arrRef spec7 1)) (((cfg7.win 3).blk t).view.emb j) := by
  obtain ⟨-, -, -, -, e4, e5, e6, e7⟩ := idx7 t
  refine mm_eq_of_row _ _ _ _ j _ (rdX7 V c t) ?_ fun k => ?_
  · show (j 1).val = win7_3.index t (1 : Fin 2) * 2080 + 1 * (j 1).val
    rw [e7]; omega
  · refine rdS7 V c t _ _ ?_ rfl
    show win7_3.index t (0 : Fin 2) * 128 + 1 * (j 0).val = t.val * 128 + (j 0).val
    rw [e6]; omega

/-- What point `t` writes back to result 1 is block `t` of the whole product. -/
theorem flushed7_3_eq (c : Dev nD) (t : Fin cfg7.N) :
    (dat7 V c).flushed 3 t = ((cfg7.win 3).blk t).view.read (Elt Ideal)
      (mm (M := 2048) (K := 2048) (N := 2080) (V c (Pipeline.arrRef spec7 0)) (V c (Pipeline.arrRef spec7 1))) := by
  rw [wrote7_3]
  funext j
  exact block7_3 V c t j

/-- An index of result 1 is in point `t`'s block iff each coordinate is in the block's range on its axis. -/
theorem memblk7_3 (t : Fin cfg7.N) (i : S2048x2080.Idx) :
    i ∈ ((cfg7.win 3).blk t).view.set ↔ ∀ a : Fin 2, win7_3.index t a * S128x2080.size a ≤ (i a).val ∧ (i a).val < win7_3.index t a * S128x2080.size a + S128x2080.size a := by
  show i ∈ ((View.whole main_v57_1).slice (win7_3.rect t)).set ↔ _
  rw [View.set_slice_whole, Rect.mem_set_unit]
  exact Iff.rfl

/-- The sixteen row blocks tile result 1: row `r` is in the block of point `r / 128`. -/
theorem tiles7_3 (i : S2048x2080.Idx) :
    ∃ t : Fin cfg7.N, (cfg7.win 3).flush t = true ∧ i ∈ ((cfg7.win 3).blk t).view.set := by
  have hi0 : (i 0).val < 2048 := (i 0).isLt
  have hi1 : (i 1).val < 2080 := (i 1).isLt
  have ht : (i 0).val / 128 < cfg7.N := by show _ < 16; omega
  obtain ⟨-, -, -, -, e4, e5, e6, e7⟩ := idx7 ⟨(i 0).val / 128, ht⟩
  refine ⟨⟨(i 0).val / 128, ht⟩, flush7_3 _, ?_⟩
  rw [memblk7_3]
  intro a
  match a with
  | ⟨0, _⟩ =>
    show win7_3.index ⟨(i 0).val / 128, ht⟩ (0 : Fin 2) * 128 ≤ (i 0).val ∧ (i 0).val < win7_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win7_3.index ⟨(i 0).val / 128, ht⟩ (1 : Fin 2) * 2080 ≤ (i 1).val ∧ (i 1).val < win7_3.index ⟨(i 0).val / 128, ht⟩ (1 : Fin 2) * 2080 + 2080
    rw [e7]; omega

/-- After region 7, result 1 is the whole product `S · X` of the region's two input arrays. -/
theorem region7_3 (c : Dev nD) :
    (dat7 V c).arrAt 3 cfg7.N
      = mm (M := 2048) (K := 2048) (N := 2080) (V c (Pipeline.arrRef spec7 0)) (V c (Pipeline.arrRef spec7 1)) :=
  (dat7 V c).arrAt_eq_of_cover 3 _ (fun t _ => flushed7_3_eq V c t) tiles7_3

/-! ## Region 8: `2 · (S · X) − X0` with `X, X0 : [2048, 2080]` -/

/-- The body's value of its three loaded blocks: twice their product less the third, the literal two kept as the
    float constant it is printed as. -/
theorem pay8_1 (x0 : Vec Ideal S128x2048 .bf16) (x1 : Vec Ideal S2048x2080 .bf16) (x2 : Vec Ideal S128x2080 .f32) :
    k8_pay1 x0 x1 x2 = fun i => (Ideal.ofBits .f32 0x40000000#32 : EReal) * mm (M := 128) (K := 2048) (N := 2080) x0 x1 i - x2 i := by
  unfold k8_pay1
  simp only [shapeCast_self]
  funext i
  show (Ideal.ofBits .f32 0x40000000#32 : EReal) * matmul _ none x0 x1 (constant S128x2080 .f32 0x00000000#32) i - x2 i = _
  exact congrArg (fun z : EReal => (Ideal.ofBits .f32 0x40000000#32 : EReal) * z - x2 i)
    (congrFun (matmul_eq_mm dot_S128x2048_S2048x2080_S128x2080_1_0_0_1_n_n rfl x0 x1) i)

/-- The printed index maps over the sixteen points: the left operand, the subtrahend and the result move down by
    one row block per point, the right operand stays. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- Entry `y` of the left operand's block at point `t` is entry `(128 t + y₀, y₁)` of the whole left operand. -/
theorem rdS8 (c : Dev nD) (t : Fin cfg8.N) (y : S128x2048.Idx) (i : S2048x2048.Idx)
    (h0 : (i 0).val = t.val * 128 + (y 0).val) (h1 : (i 1).val = (y 1).val) :
    (iblk8 V c 0 t : Vec Ideal S128x2048 .bf16) y = (V c (Pipeline.arrRef spec8 0) : S2048x2048.Idx → EReal) i := by
  obtain ⟨e0, e1, -⟩ := idx8 t
  unfold iblk8
  rw [View.read_apply]
  show V c (Pipeline.arrRef spec8 0) _ = V c (Pipeline.arrRef spec8 0) _
  refine congrArg _ ?_
  funext a; apply Fin.ext
  match a with
  | ⟨0, _⟩ => show win8_0.index t (0 : Fin 2) * 128 + 1 * (y 0).val = (i 0).val; rw [e0, h0]; omega
  | ⟨1, _⟩ => show win8_0.index t (1 : Fin 2) * 2048 + 1 * (y 1).val = (i 1).val; rw [e1, h1]; omega

/-- The right operand's block at every point is the whole right operand. -/
theorem rdX8 (c : Dev nD) (t : Fin cfg8.N) :
    (iblk8 V c 1 t : Vec Ideal S2048x2080 .bf16) = (V c (Pipeline.arrRef spec8 1) : S2048x2080.Idx → EReal) := by
  obtain ⟨-, -, e2, e3, -⟩ := idx8 t
  funext y
  unfold iblk8
  rw [View.read_apply]
  show V c (Pipeline.arrRef spec8 1) _ = V c (Pipeline.arrRef spec8 1) _
  refine congrArg _ ?_
  funext a; apply Fin.ext
  match a with
  | ⟨0, _⟩ => show win8_1.index t (0 : Fin 2) * 2048 + 1 * (y 0).val = (y 0).val; rw [e2]; omega
  | ⟨1, _⟩ => show win8_1.index t (1 : Fin 2) * 2080 + 1 * (y 1).val = (y 1).val; rw [e3]; omega

/-- Entry `y` of the subtrahend's block at point `t` is entry `(128 t + y₀, y₁)` of the whole subtrahend. -/
theorem rdX0_8 (c : Dev nD) (t : Fin cfg8.N) (y : S128x2080.Idx) (i : S2048x2080.Idx)
    (h0 : (i 0).val = t.val * 128 + (y 0).val) (h1 : (i 1).val = (y 1).val) :
    (iblk8 V c 2 t : Vec Ideal S128x2080 .f32) y = (V c (Pipeline.arrRef spec8 2) : S2048x2080.Idx → EReal) i := by
  obtain ⟨-, -, -, -, e4, e5, -⟩ := idx8 t
  unfold iblk8
  rw [View.read_apply]
  show V c (Pipeline.arrRef spec8 2) _ = V c (Pipeline.arrRef spec8 2) _
  refine congrArg _ ?_
  funext a; apply Fin.ext
  match a with
  | ⟨0, _⟩ => show win8_2.index t (0 : Fin 2) * 128 + 1 * (y 0).val = (i 0).val; rw [e4, h0]; omega
  | ⟨1, _⟩ => show win8_2.index t (1 : Fin 2) * 2080 + 1 * (y 1).val = (i 1).val; rw [e5, h1]; omega

/-- What point `t` leaves for the result: twice the product of the two blocks it loaded, less the subtrahend's block. -/
theorem wrote8_3 (c : Dev nD) (t : Fin cfg8.N) :
    (dat8 V c).flushed 3 t = fun j => (Ideal.ofBits .f32 0x40000000#32 : EReal) * mm (M := 128) (K := 2048) (N := 2080) (iblk8 V c 0 t) (iblk8 V c 1 t) j
      - (iblk8 V c 2 t : Vec Ideal S128x2080 .f32) j := by
  show (cfg8.win 3).cut (grid8.coords t) ((dat8 V c).after 3 t) = _
  rw [after8_3]
  unfold out8_3
  rw [View.canon_unit_zero hz]
  simp only [View.ld_unit_zero (S := S128x2048) hz, View.ld_unit_zero (S := S2048x2080) hz, View.ld_unit_zero (S := S128x2080) hz]
  rw [pay8_1]
  rfl

/-- Entry `j` of that value is the entry of the whole combination `2 · (S · X) − X0` at `j`'s place in the result: a row
    of a product needs only that row of the left operand, and the subtrahend is read entry by entry. -/
theorem block8_3 (c : Dev nD) (t : Fin cfg8.N) (j : S128x2080.Idx) :
    (Ideal.ofBits .f32 0x40000000#32 : EReal) * mm (M := 128) (K := 2048) (N := 2080) (iblk8 V c 0 t) (iblk8 V c 1 t) j
        - (iblk8 V c 2 t : Vec Ideal S128x2080 .f32) j
      = (Ideal.ofBits .f32 0x40000000#32 : EReal) * mm (M := 2048) (K := 2048) (N := 2080) (V c (Pipeline.arrRef spec8 0)) (V c (Pipeline.arrRef spec8 1)) (((cfg8.win 3).blk t).view.emb j)
        - (V c (Pipeline.arrRef spec8 2) : S2048x2080.Idx → EReal) (((cfg8.win 3).blk t).view.emb j) := by
  obtain ⟨-, -, -, -, -, -, e6, e7⟩ := idx8 t
  have hq : (j 1).val = win8_3.index t (1 : Fin 2) * 2080 + 1 * (j 1).val := by rw [e7]; omega
  have hp : win8_3.index t (0 : Fin 2) * 128 + 1 * (j 0).val = t.val * 128 + (j 0).val := by rw [e6]; omega
  have hmm : mm (M := 128) (K := 2048) (N := 2080) (iblk8 V c 0 t) (iblk8 V c 1 t) j
      = mm (M := 2048) (K := 2048) (N := 2080) (V c (Pipeline.arrRef spec8 0)) (V c (Pipeline.arrRef spec8 1)) (((cfg8.win 3).blk t).view.emb j) :=
    mm_eq_of_row _ _ _ _ j _ (rdX8 V c t) hq fun k => rdS8 V c t _ _ hp rfl
  have hsub : (iblk8 V c 2 t : Vec Ideal S128x2080 .f32) j = (V c (Pipeline.arrRef spec8 2) : S2048x2080.Idx → EReal) (((cfg8.win 3).blk t).view.emb j) :=
    rdX0_8 V c t j _ hp hq.symm
  rw [hmm, hsub]

/-- What point `t` writes back is block `t` of the whole combination. -/
theorem flushed8_3_eq (c : Dev nD) (t : Fin cfg8.N) :
    (dat8 V c).flushed 3 t = ((cfg8.win 3).blk t).view.read (Elt Ideal)
      (fun i => (Ideal.ofBits .f32 0x40000000#32 : EReal) * mm (M := 2048) (K := 2048) (N := 2080) (V c (Pipeline.arrRef spec8 0)) (V c (Pipeline.arrRef spec8 1)) i - (V c (Pipeline.arrRef spec8 2) : S2048x2080.Idx → EReal) i) := by
  rw [wrote8_3]
  funext j
  exact block8_3 V c t j

/-- An index of the result is in point `t`'s block iff each coordinate is in the block's range on its axis. -/
theorem memblk8_3 (t : Fin cfg8.N) (i : S2048x2080.Idx) :
    i ∈ ((cfg8.win 3).blk t).view.set ↔ ∀ a : Fin 2, win8_3.index t a * S128x2080.size a ≤ (i a).val ∧ (i a).val < win8_3.index t a * S128x2080.size a + S128x2080.size a := by
  show i ∈ ((View.whole main_v58).slice (win8_3.rect t)).set ↔ _
  rw [View.set_slice_whole, Rect.mem_set_unit]
  exact Iff.rfl

/-- The sixteen row blocks tile the result: row `r` is in the block of point `r / 128`. -/
theorem tiles8_3 (i : S2048x2080.Idx) :
    ∃ t : Fin cfg8.N, (cfg8.win 3).flush t = true ∧ i ∈ ((cfg8.win 3).blk t).view.set := by
  have hi0 : (i 0).val < 2048 := (i 0).isLt
  have hi1 : (i 1).val < 2080 := (i 1).isLt
  have ht : (i 0).val / 128 < cfg8.N := by show _ < 16; omega
  obtain ⟨-, -, -, -, -, -, e6, e7⟩ := idx8 ⟨(i 0).val / 128, ht⟩
  refine ⟨⟨(i 0).val / 128, ht⟩, flush8_3 _, ?_⟩
  rw [memblk8_3]
  intro a
  match a with
  | ⟨0, _⟩ =>
    show win8_3.index ⟨(i 0).val / 128, ht⟩ (0 : Fin 2) * 128 ≤ (i 0).val ∧ (i 0).val < win8_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win8_3.index ⟨(i 0).val / 128, ht⟩ (1 : Fin 2) * 2080 ≤ (i 1).val ∧ (i 1).val < win8_3.index ⟨(i 0).val / 128, ht⟩ (1 : Fin 2) * 2080 + 2080
    rw [e7]; omega

/-- After region 8, the result is `2 · (S · X) − X0` of the region's three input arrays, entry by entry. -/
theorem region8_3 (c : Dev nD) :
    (dat8 V c).arrAt 3 cfg8.N
      = fun i => (Ideal.ofBits .f32 0x40000000#32 : EReal) * mm (M := 2048) (K := 2048) (N := 2080) (V c (Pipeline.arrRef spec8 0)) (V c (Pipeline.arrRef spec8 1)) i - (V c (Pipeline.arrRef spec8 2) : S2048x2080.Idx → EReal) i :=
  (dat8 V c).arrAt_eq_of_cover 3 _ (fun t _ => flushed8_3_eq V c t) tiles8_3

/-! ## Region 10: the product `S · X` with `X : [2048, 4096]`, stored in both float formats -/

/-- The body's product of its two loaded blocks is their matrix product. -/
theorem pay10_1 (x0 : Vec Ideal S128x2048 .bf16) (x1 : Vec Ideal S2048x4096 .bf16) :
    k10_pay1 x0 x1 = mm (M := 128) (K := 2048) (N := 4096) x0 x1 := by
  unfold k10_pay1
  simp only [shapeCast_self]
  exact matmul_eq_mm _ rfl x0 x1

/-- The change of float format is the identity on the extended reals. -/
theorem pay10_2 (x0 : Vec Ideal S128x2048 .bf16) (x1 : Vec Ideal S2048x4096 .bf16) :
    k10_pay2 x0 x1 = mm (M := 128) (K := 2048) (N := 4096) x0 x1 := by
  unfold k10_pay2
  exact pay10_1 x0 x1

/-- The printed index maps over the sixteen points: the left operand and both results move down by one row block
    per point, the right operand stays. -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0 :=
  (by decide +kernel : ∀ t : Fin grid10.N, _)

/-- Entry `y` of the left operand's block at point `t` is entry `(128 t + y₀, y₁)` of the whole left operand. -/
theorem rdS10 (c : Dev nD) (t : Fin cfg10.N) (y : S128x2048.Idx) (i : S2048x2048.Idx)
    (h0 : (i 0).val = t.val * 128 + (y 0).val) (h1 : (i 1).val = (y 1).val) :
    (iblk10 V c 0 t : Vec Ideal S128x2048 .bf16) y = (V c (Pipeline.arrRef spec10 0) : S2048x2048.Idx → EReal) i := by
  obtain ⟨e0, e1, -⟩ := idx10 t
  unfold iblk10
  rw [View.read_apply]
  show V c (Pipeline.arrRef spec10 0) _ = V c (Pipeline.arrRef spec10 0) _
  refine congrArg _ ?_
  funext a; apply Fin.ext
  match a with
  | ⟨0, _⟩ => show win10_0.index t (0 : Fin 2) * 128 + 1 * (y 0).val = (i 0).val; rw [e0, h0]; omega
  | ⟨1, _⟩ => show win10_0.index t (1 : Fin 2) * 2048 + 1 * (y 1).val = (i 1).val; rw [e1, h1]; omega

/-- The right operand's block at every point is the whole right operand. -/
theorem rdX10 (c : Dev nD) (t : Fin cfg10.N) :
    (iblk10 V c 1 t : Vec Ideal S2048x4096 .bf16) = (V c (Pipeline.arrRef spec10 1) : S2048x4096.Idx → EReal) := by
  obtain ⟨-, -, e2, e3, -⟩ := idx10 t
  funext y
  unfold iblk10
  rw [View.read_apply]
  show V c (Pipeline.arrRef spec10 1) _ = V c (Pipeline.arrRef spec10 1) _
  refine congrArg _ ?_
  funext a; apply Fin.ext
  match a with
  | ⟨0, _⟩ => show win10_1.index t (0 : Fin 2) * 2048 + 1 * (y 0).val = (y 0).val; rw [e2]; omega
  | ⟨1, _⟩ => show win10_1.index t (1 : Fin 2) * 4096 + 1 * (y 1).val = (y 1).val; rw [e3]; omega

/-- What point `t` leaves for result 0: the product of the two blocks it loaded. -/
theorem wrote10_2 (c : Dev nD) (t : Fin cfg10.N) :
    (dat10 V c).flushed 2 t = mm (M := 128) (K := 2048) (N := 4096) (iblk10 V c 0 t) (iblk10 V c 1 t) := by
  show (cfg10.win 2).cut (grid10.coords t) ((dat10 V c).after 2 t) = _
  rw [after10_2]
  unfold out10_2
  rw [View.canon_unit_zero hz]
  simp only [View.ld_unit_zero (S := S128x2048) hz, View.ld_unit_zero (S := S2048x4096) hz]
  rw [pay10_1]
  rfl

/-- Entry `j` of that product of blocks is the entry of the whole product `S · X` at `j`'s place in result 0: a row
    of a product needs only that row of the left operand. -/
theorem block10_2 (c : Dev nD) (t : Fin cfg10.N) (j : S128x4096.Idx) :
    mm (M := 128) (K := 2048) (N := 4096) (iblk10 V c 0 t) (iblk10 V c 1 t) j
      = mm (M := 2048) (K := 2048) (N := 4096) (V c (Pipeline.arrRef spec10 0)) (V c (Pipeline.arrRef spec10 1)) (((cfg10.win 2).blk t).view.emb j) := by
  obtain ⟨-, -, -, -, e4, e5, e6, e7⟩ := idx10 t
  refine mm_eq_of_row _ _ _ _ j _ (rdX10 V c t) ?_ fun k => ?_
  · show (j 1).val = win10_2.index t (1 : Fin 2) * 4096 + 1 * (j 1).val
    rw [e5]; omega
  · refine rdS10 V c t _ _ ?_ rfl
    show win10_2.index t (0 : Fin 2) * 128 + 1 * (j 0).val = t.val * 128 + (j 0).val
    rw [e4]; omega

/-- What point `t` writes back to result 0 is block `t` of the whole product. -/
theorem flushed10_2_eq (c : Dev nD) (t : Fin cfg10.N) :
    (dat10 V c).flushed 2 t = ((cfg10.win 2).blk t).view.read (Elt Ideal)
      (mm (M := 2048) (K := 2048) (N := 4096) (V c (Pipeline.arrRef spec10 0)) (V c (Pipeline.arrRef spec10 1))) := by
  rw [wrote10_2]
  funext j
  exact block10_2 V c t j

/-- An index of result 0 is in point `t`'s block iff each coordinate is in the block's range on its axis. -/
theorem memblk10_2 (t : Fin cfg10.N) (i : S2048x4096.Idx) :
    i ∈ ((cfg10.win 2).blk t).view.set ↔ ∀ a : Fin 2, win10_2.index t a * S128x4096.size a ≤ (i a).val ∧ (i a).val < win10_2.index t a * S128x4096.size a + S128x4096.size a := by
  show i ∈ ((View.whole main_v90_0).slice (win10_2.rect t)).set ↔ _
  rw [View.set_slice_whole, Rect.mem_set_unit]
  exact Iff.rfl

/-- The sixteen row blocks tile result 0: row `r` is in the block of point `r / 128`. -/
theorem tiles10_2 (i : S2048x4096.Idx) :
    ∃ t : Fin cfg10.N, (cfg10.win 2).flush t = true ∧ i ∈ ((cfg10.win 2).blk t).view.set := by
  have hi0 : (i 0).val < 2048 := (i 0).isLt
  have hi1 : (i 1).val < 4096 := (i 1).isLt
  have ht : (i 0).val / 128 < cfg10.N := by show _ < 16; omega
  obtain ⟨-, -, -, -, e4, e5, e6, e7⟩ := idx10 ⟨(i 0).val / 128, ht⟩
  refine ⟨⟨(i 0).val / 128, ht⟩, flush10_2 _, ?_⟩
  rw [memblk10_2]
  intro a
  match a with
  | ⟨0, _⟩ =>
    show win10_2.index ⟨(i 0).val / 128, ht⟩ (0 : Fin 2) * 128 ≤ (i 0).val ∧ (i 0).val < win10_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win10_2.index ⟨(i 0).val / 128, ht⟩ (1 : Fin 2) * 4096 ≤ (i 1).val ∧ (i 1).val < win10_2.index ⟨(i 0).val / 128, ht⟩ (1 : Fin 2) * 4096 + 4096
    rw [e5]; omega

/-- After region 10, result 0 is the whole product `S · X` of the region's two input arrays. -/
theorem region10_2 (c : Dev nD) :
    (dat10 V c).arrAt 2 cfg10.N
      = mm (M := 2048) (K := 2048) (N := 4096) (V c (Pipeline.arrRef spec10 0)) (V c (Pipeline.arrRef spec10 1)) :=
  (dat10 V c).arrAt_eq_of_cover 2 _ (fun t _ => flushed10_2_eq V c t) tiles10_2

/-- What point `t` leaves for result 1: the product of the two blocks it loaded. -/
theorem wrote10_3 (c : Dev nD) (t : Fin cfg10.N) :
    (dat10 V c).flushed 3 t = mm (M := 128) (K := 2048) (N := 4096) (iblk10 V c 0 t) (iblk10 V c 1 t) := by
  show (cfg10.win 3).cut (grid10.coords t) ((dat10 V c).after 3 t) = _
  rw [after10_3]
  unfold out10_3
  rw [View.canon_unit_zero hz]
  simp only [View.ld_unit_zero (S := S128x2048) hz, View.ld_unit_zero (S := S2048x4096) hz]
  rw [pay10_2]
  rfl

/-- Entry `j` of that product of blocks is the entry of the whole product `S · X` at `j`'s place in result 1: a row
    of a product needs only that row of the left operand. -/
theorem block10_3 (c : Dev nD) (t : Fin cfg10.N) (j : S128x4096.Idx) :
    mm (M := 128) (K := 2048) (N := 4096) (iblk10 V c 0 t) (iblk10 V c 1 t) j
      = mm (M := 2048) (K := 2048) (N := 4096) (V c (Pipeline.arrRef spec10 0)) (V c (Pipeline.arrRef spec10 1)) (((cfg10.win 3).blk t).view.emb j) := by
  obtain ⟨-, -, -, -, e4, e5, e6, e7⟩ := idx10 t
  refine mm_eq_of_row _ _ _ _ j _ (rdX10 V c t) ?_ fun k => ?_
  · show (j 1).val = win10_3.index t (1 : Fin 2) * 4096 + 1 * (j 1).val
    rw [e7]; omega
  · refine rdS10 V c t _ _ ?_ rfl
    show win10_3.index t (0 : Fin 2) * 128 + 1 * (j 0).val = t.val * 128 + (j 0).val
    rw [e6]; omega

/-- What point `t` writes back to result 1 is block `t` of the whole product. -/
theorem flushed10_3_eq (c : Dev nD) (t : Fin cfg10.N) :
    (dat10 V c).flushed 3 t = ((cfg10.win 3).blk t).view.read (Elt Ideal)
      (mm (M := 2048) (K := 2048) (N := 4096) (V c (Pipeline.arrRef spec10 0)) (V c (Pipeline.arrRef spec10 1))) := by
  rw [wrote10_3]
  funext j
  exact block10_3 V c t j

/-- An index of result 1 is in point `t`'s block iff each coordinate is in the block's range on its axis. -/
theorem memblk10_3 (t : Fin cfg10.N) (i : S2048x4096.Idx) :
    i ∈ ((cfg10.win 3).blk t).view.set ↔ ∀ a : Fin 2, win10_3.index t a * S128x4096.size a ≤ (i a).val ∧ (i a).val < win10_3.index t a * S128x4096.size a + S128x4096.size a := by
  show i ∈ ((View.whole main_v90_1).slice (win10_3.rect t)).set ↔ _
  rw [View.set_slice_whole, Rect.mem_set_unit]
  exact Iff.rfl

/-- The sixteen row blocks tile result 1: row `r` is in the block of point `r / 128`. -/
theorem tiles10_3 (i : S2048x4096.Idx) :
    ∃ t : Fin cfg10.N, (cfg10.win 3).flush t = true ∧ i ∈ ((cfg10.win 3).blk t).view.set := by
  have hi0 : (i 0).val < 2048 := (i 0).isLt
  have hi1 : (i 1).val < 4096 := (i 1).isLt
  have ht : (i 0).val / 128 < cfg10.N := by show _ < 16; omega
  obtain ⟨-, -, -, -, e4, e5, e6, e7⟩ := idx10 ⟨(i 0).val / 128, ht⟩
  refine ⟨⟨(i 0).val / 128, ht⟩, flush10_3 _, ?_⟩
  rw [memblk10_3]
  intro a
  match a with
  | ⟨0, _⟩ =>
    show win10_3.index ⟨(i 0).val / 128, ht⟩ (0 : Fin 2) * 128 ≤ (i 0).val ∧ (i 0).val < win10_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win10_3.index ⟨(i 0).val / 128, ht⟩ (1 : Fin 2) * 4096 ≤ (i 1).val ∧ (i 1).val < win10_3.index ⟨(i 0).val / 128, ht⟩ (1 : Fin 2) * 4096 + 4096
    rw [e7]; omega

/-- After region 10, result 1 is the whole product `S · X` of the region's two input arrays. -/
theorem region10_3 (c : Dev nD) :
    (dat10 V c).arrAt 3 cfg10.N
      = mm (M := 2048) (K := 2048) (N := 4096) (V c (Pipeline.arrRef spec10 0)) (V c (Pipeline.arrRef spec10 1)) :=
  (dat10 V c).arrAt_eq_of_cover 3 _ (fun t _ => flushed10_3_eq V c t) tiles10_3

/-! ## Region 11: `2 · (S · X) − X0` with `X, X0 : [2048, 4096]` -/

/-- The body's value of its three loaded blocks: twice their product less the third, the literal two kept as the
    float constant it is printed as. -/
theorem pay11_1 (x0 : Vec Ideal S128x2048 .bf16) (x1 : Vec Ideal S2048x4096 .bf16) (x2 : Vec Ideal S128x4096 .f32) :
    k11_pay1 x0 x1 x2 = fun i => (Ideal.ofBits .f32 0x40000000#32 : EReal) * mm (M := 128) (K := 2048) (N := 4096) x0 x1 i - x2 i := by
  unfold k11_pay1
  simp only [shapeCast_self]
  funext i
  show (Ideal.ofBits .f32 0x40000000#32 : EReal) * matmul _ none x0 x1 (constant S128x4096 .f32 0x00000000#32) i - x2 i = _
  exact congrArg (fun z : EReal => (Ideal.ofBits .f32 0x40000000#32 : EReal) * z - x2 i)
    (congrFun (matmul_eq_mm dot_S128x2048_S2048x4096_S128x4096_1_0_0_1_n_n rfl x0 x1) i)

/-- The printed index maps over the sixteen points: the left operand, the subtrahend and the result move down by
    one row block per point, the right operand stays. -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0 :=
  (by decide +kernel : ∀ t : Fin grid11.N, _)

/-- Entry `y` of the left operand's block at point `t` is entry `(128 t + y₀, y₁)` of the whole left operand. -/
theorem rdS11 (c : Dev nD) (t : Fin cfg11.N) (y : S128x2048.Idx) (i : S2048x2048.Idx)
    (h0 : (i 0).val = t.val * 128 + (y 0).val) (h1 : (i 1).val = (y 1).val) :
    (iblk11 V c 0 t : Vec Ideal S128x2048 .bf16) y = (V c (Pipeline.arrRef spec11 0) : S2048x2048.Idx → EReal) i := by
  obtain ⟨e0, e1, -⟩ := idx11 t
  unfold iblk11
  rw [View.read_apply]
  show V c (Pipeline.arrRef spec11 0) _ = V c (Pipeline.arrRef spec11 0) _
  refine congrArg _ ?_
  funext a; apply Fin.ext
  match a with
  | ⟨0, _⟩ => show win11_0.index t (0 : Fin 2) * 128 + 1 * (y 0).val = (i 0).val; rw [e0, h0]; omega
  | ⟨1, _⟩ => show win11_0.index t (1 : Fin 2) * 2048 + 1 * (y 1).val = (i 1).val; rw [e1, h1]; omega

/-- The right operand's block at every point is the whole right operand. -/
theorem rdX11 (c : Dev nD) (t : Fin cfg11.N) :
    (iblk11 V c 1 t : Vec Ideal S2048x4096 .bf16) = (V c (Pipeline.arrRef spec11 1) : S2048x4096.Idx → EReal) := by
  obtain ⟨-, -, e2, e3, -⟩ := idx11 t
  funext y
  unfold iblk11
  rw [View.read_apply]
  show V c (Pipeline.arrRef spec11 1) _ = V c (Pipeline.arrRef spec11 1) _
  refine congrArg _ ?_
  funext a; apply Fin.ext
  match a with
  | ⟨0, _⟩ => show win11_1.index t (0 : Fin 2) * 2048 + 1 * (y 0).val = (y 0).val; rw [e2]; omega
  | ⟨1, _⟩ => show win11_1.index t (1 : Fin 2) * 4096 + 1 * (y 1).val = (y 1).val; rw [e3]; omega

/-- Entry `y` of the subtrahend's block at point `t` is entry `(128 t + y₀, y₁)` of the whole subtrahend. -/
theorem rdX0_11 (c : Dev nD) (t : Fin cfg11.N) (y : S128x4096.Idx) (i : S2048x4096.Idx)
    (h0 : (i 0).val = t.val * 128 + (y 0).val) (h1 : (i 1).val = (y 1).val) :
    (iblk11 V c 2 t : Vec Ideal S128x4096 .f32) y = (V c (Pipeline.arrRef spec11 2) : S2048x4096.Idx → EReal) i := by
  obtain ⟨-, -, -, -, e4, e5, -⟩ := idx11 t
  unfold iblk11
  rw [View.read_apply]
  show V c (Pipeline.arrRef spec11 2) _ = V c (Pipeline.arrRef spec11 2) _
  refine congrArg _ ?_
  funext a; apply Fin.ext
  match a with
  | ⟨0, _⟩ => show win11_2.index t (0 : Fin 2) * 128 + 1 * (y 0).val = (i 0).val; rw [e4, h0]; omega
  | ⟨1, _⟩ => show win11_2.index t (1 : Fin 2) * 4096 + 1 * (y 1).val = (i 1).val; rw [e5, h1]; omega

/-- What point `t` leaves for the result: twice the product of the two blocks it loaded, less the subtrahend's block. -/
theorem wrote11_3 (c : Dev nD) (t : Fin cfg11.N) :
    (dat11 V c).flushed 3 t = fun j => (Ideal.ofBits .f32 0x40000000#32 : EReal) * mm (M := 128) (K := 2048) (N := 4096) (iblk11 V c 0 t) (iblk11 V c 1 t) j
      - (iblk11 V c 2 t : Vec Ideal S128x4096 .f32) j := by
  show (cfg11.win 3).cut (grid11.coords t) ((dat11 V c).after 3 t) = _
  rw [after11_3]
  unfold out11_3
  rw [View.canon_unit_zero hz]
  simp only [View.ld_unit_zero (S := S128x2048) hz, View.ld_unit_zero (S := S2048x4096) hz, View.ld_unit_zero (S := S128x4096) hz]
  rw [pay11_1]
  rfl

/-- Entry `j` of that value is the entry of the whole combination `2 · (S · X) − X0` at `j`'s place in the result: a row
    of a product needs only that row of the left operand, and the subtrahend is read entry by entry. -/
theorem block11_3 (c : Dev nD) (t : Fin cfg11.N) (j : S128x4096.Idx) :
    (Ideal.ofBits .f32 0x40000000#32 : EReal) * mm (M := 128) (K := 2048) (N := 4096) (iblk11 V c 0 t) (iblk11 V c 1 t) j
        - (iblk11 V c 2 t : Vec Ideal S128x4096 .f32) j
      = (Ideal.ofBits .f32 0x40000000#32 : EReal) * mm (M := 2048) (K := 2048) (N := 4096) (V c (Pipeline.arrRef spec11 0)) (V c (Pipeline.arrRef spec11 1)) (((cfg11.win 3).blk t).view.emb j)
        - (V c (Pipeline.arrRef spec11 2) : S2048x4096.Idx → EReal) (((cfg11.win 3).blk t).view.emb j) := by
  obtain ⟨-, -, -, -, -, -, e6, e7⟩ := idx11 t
  have hq : (j 1).val = win11_3.index t (1 : Fin 2) * 4096 + 1 * (j 1).val := by rw [e7]; omega
  have hp : win11_3.index t (0 : Fin 2) * 128 + 1 * (j 0).val = t.val * 128 + (j 0).val := by rw [e6]; omega
  have hmm : mm (M := 128) (K := 2048) (N := 4096) (iblk11 V c 0 t) (iblk11 V c 1 t) j
      = mm (M := 2048) (K := 2048) (N := 4096) (V c (Pipeline.arrRef spec11 0)) (V c (Pipeline.arrRef spec11 1)) (((cfg11.win 3).blk t).view.emb j) :=
    mm_eq_of_row _ _ _ _ j _ (rdX11 V c t) hq fun k => rdS11 V c t _ _ hp rfl
  have hsub : (iblk11 V c 2 t : Vec Ideal S128x4096 .f32) j = (V c (Pipeline.arrRef spec11 2) : S2048x4096.Idx → EReal) (((cfg11.win 3).blk t).view.emb j) :=
    rdX0_11 V c t j _ hp hq.symm
  rw [hmm, hsub]

/-- What point `t` writes back is block `t` of the whole combination. -/
theorem flushed11_3_eq (c : Dev nD) (t : Fin cfg11.N) :
    (dat11 V c).flushed 3 t = ((cfg11.win 3).blk t).view.read (Elt Ideal)
      (fun i => (Ideal.ofBits .f32 0x40000000#32 : EReal) * mm (M := 2048) (K := 2048) (N := 4096) (V c (Pipeline.arrRef spec11 0)) (V c (Pipeline.arrRef spec11 1)) i - (V c (Pipeline.arrRef spec11 2) : S2048x4096.Idx → EReal) i) := by
  rw [wrote11_3]
  funext j
  exact block11_3 V c t j

/-- An index of the result is in point `t`'s block iff each coordinate is in the block's range on its axis. -/
theorem memblk11_3 (t : Fin cfg11.N) (i : S2048x4096.Idx) :
    i ∈ ((cfg11.win 3).blk t).view.set ↔ ∀ a : Fin 2, win11_3.index t a * S128x4096.size a ≤ (i a).val ∧ (i a).val < win11_3.index t a * S128x4096.size a + S128x4096.size a := by
  show i ∈ ((View.whole main_v91).slice (win11_3.rect t)).set ↔ _
  rw [View.set_slice_whole, Rect.mem_set_unit]
  exact Iff.rfl

/-- The sixteen row blocks tile the result: row `r` is in the block of point `r / 128`. -/
theorem tiles11_3 (i : S2048x4096.Idx) :
    ∃ t : Fin cfg11.N, (cfg11.win 3).flush t = true ∧ i ∈ ((cfg11.win 3).blk t).view.set := by
  have hi0 : (i 0).val < 2048 := (i 0).isLt
  have hi1 : (i 1).val < 4096 := (i 1).isLt
  have ht : (i 0).val / 128 < cfg11.N := by show _ < 16; omega
  obtain ⟨-, -, -, -, -, -, e6, e7⟩ := idx11 ⟨(i 0).val / 128, ht⟩
  refine ⟨⟨(i 0).val / 128, ht⟩, flush11_3 _, ?_⟩
  rw [memblk11_3]
  intro a
  match a with
  | ⟨0, _⟩ =>
    show win11_3.index ⟨(i 0).val / 128, ht⟩ (0 : Fin 2) * 128 ≤ (i 0).val ∧ (i 0).val < win11_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win11_3.index ⟨(i 0).val / 128, ht⟩ (1 : Fin 2) * 4096 ≤ (i 1).val ∧ (i 1).val < win11_3.index ⟨(i 0).val / 128, ht⟩ (1 : Fin 2) * 4096 + 4096
    rw [e7]; omega

/-- After region 11, the result is `2 · (S · X) − X0` of the region's three input arrays, entry by entry. -/
theorem region11_3 (c : Dev nD) :
    (dat11 V c).arrAt 3 cfg11.N
      = fun i => (Ideal.ofBits .f32 0x40000000#32 : EReal) * mm (M := 2048) (K := 2048) (N := 4096) (V c (Pipeline.arrRef spec11 0)) (V c (Pipeline.arrRef spec11 1)) i - (V c (Pipeline.arrRef spec11 2) : S2048x4096.Idx → EReal) i :=
  (dat11 V c).arrAt_eq_of_cover 3 _ (fun t _ => flushed11_3_eq V c t) tiles11_3

/-! ## Region 12: the product `S · X` with `X : [2048, 4096]`, stored in both float formats -/

/-- The body's product of its two loaded blocks is their matrix product. -/
theorem pay12_1 (x0 : Vec Ideal S128x2048 .bf16) (x1 : Vec Ideal S2048x4096 .bf16) :
    k12_pay1 x0 x1 = mm (M := 128) (K := 2048) (N := 4096) x0 x1 := by
  unfold k12_pay1
  simp only [shapeCast_self]
  exact matmul_eq_mm _ rfl x0 x1

/-- The change of float format is the identity on the extended reals. -/
theorem pay12_2 (x0 : Vec Ideal S128x2048 .bf16) (x1 : Vec Ideal S2048x4096 .bf16) :
    k12_pay2 x0 x1 = mm (M := 128) (K := 2048) (N := 4096) x0 x1 := by
  unfold k12_pay2
  exact pay12_1 x0 x1

/-- The printed index maps over the sixteen points: the left operand and both results move down by one row block
    per point, the right operand stays. -/
theorem idx12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0 :=
  (by decide +kernel : ∀ t : Fin grid12.N, _)

/-- Entry `y` of the left operand's block at point `t` is entry `(128 t + y₀, y₁)` of the whole left operand. -/
theorem rdS12 (c : Dev nD) (t : Fin cfg12.N) (y : S128x2048.Idx) (i : S2048x2048.Idx)
    (h0 : (i 0).val = t.val * 128 + (y 0).val) (h1 : (i 1).val = (y 1).val) :
    (iblk12 V c 0 t : Vec Ideal S128x2048 .bf16) y = (V c (Pipeline.arrRef spec12 0) : S2048x2048.Idx → EReal) i := by
  obtain ⟨e0, e1, -⟩ := idx12 t
  unfold iblk12
  rw [View.read_apply]
  show V c (Pipeline.arrRef spec12 0) _ = V c (Pipeline.arrRef spec12 0) _
  refine congrArg _ ?_
  funext a; apply Fin.ext
  match a with
  | ⟨0, _⟩ => show win12_0.index t (0 : Fin 2) * 128 + 1 * (y 0).val = (i 0).val; rw [e0, h0]; omega
  | ⟨1, _⟩ => show win12_0.index t (1 : Fin 2) * 2048 + 1 * (y 1).val = (i 1).val; rw [e1, h1]; omega

/-- The right operand's block at every point is the whole right operand. -/
theorem rdX12 (c : Dev nD) (t : Fin cfg12.N) :
    (iblk12 V c 1 t : Vec Ideal S2048x4096 .bf16) = (V c (Pipeline.arrRef spec12 1) : S2048x4096.Idx → EReal) := by
  obtain ⟨-, -, e2, e3, -⟩ := idx12 t
  funext y
  unfold iblk12
  rw [View.read_apply]
  show V c (Pipeline.arrRef spec12 1) _ = V c (Pipeline.arrRef spec12 1) _
  refine congrArg _ ?_
  funext a; apply Fin.ext
  match a with
  | ⟨0, _⟩ => show win12_1.index t (0 : Fin 2) * 2048 + 1 * (y 0).val = (y 0).val; rw [e2]; omega
  | ⟨1, _⟩ => show win12_1.index t (1 : Fin 2) * 4096 + 1 * (y 1).val = (y 1).val; rw [e3]; omega

/-- What point `t` leaves for result 0: the product of the two blocks it loaded. -/
theorem wrote12_2 (c : Dev nD) (t : Fin cfg12.N) :
    (dat12 V c).flushed 2 t = mm (M := 128) (K := 2048) (N := 4096) (iblk12 V c 0 t) (iblk12 V c 1 t) := by
  show (cfg12.win 2).cut (grid12.coords t) ((dat12 V c).after 2 t) = _
  rw [after12_2]
  unfold out12_2
  rw [View.canon_unit_zero hz]
  simp only [View.ld_unit_zero (S := S128x2048) hz, View.ld_unit_zero (S := S2048x4096) hz]
  rw [pay12_1]
  rfl

/-- Entry `j` of that product of blocks is the entry of the whole product `S · X` at `j`'s place in result 0: a row
    of a product needs only that row of the left operand. -/
theorem block12_2 (c : Dev nD) (t : Fin cfg12.N) (j : S128x4096.Idx) :
    mm (M := 128) (K := 2048) (N := 4096) (iblk12 V c 0 t) (iblk12 V c 1 t) j
      = mm (M := 2048) (K := 2048) (N := 4096) (V c (Pipeline.arrRef spec12 0)) (V c (Pipeline.arrRef spec12 1)) (((cfg12.win 2).blk t).view.emb j) := by
  obtain ⟨-, -, -, -, e4, e5, e6, e7⟩ := idx12 t
  refine mm_eq_of_row _ _ _ _ j _ (rdX12 V c t) ?_ fun k => ?_
  · show (j 1).val = win12_2.index t (1 : Fin 2) * 4096 + 1 * (j 1).val
    rw [e5]; omega
  · refine rdS12 V c t _ _ ?_ rfl
    show win12_2.index t (0 : Fin 2) * 128 + 1 * (j 0).val = t.val * 128 + (j 0).val
    rw [e4]; omega

/-- What point `t` writes back to result 0 is block `t` of the whole product. -/
theorem flushed12_2_eq (c : Dev nD) (t : Fin cfg12.N) :
    (dat12 V c).flushed 2 t = ((cfg12.win 2).blk t).view.read (Elt Ideal)
      (mm (M := 2048) (K := 2048) (N := 4096) (V c (Pipeline.arrRef spec12 0)) (V c (Pipeline.arrRef spec12 1))) := by
  rw [wrote12_2]
  funext j
  exact block12_2 V c t j

/-- An index of result 0 is in point `t`'s block iff each coordinate is in the block's range on its axis. -/
theorem memblk12_2 (t : Fin cfg12.N) (i : S2048x4096.Idx) :
    i ∈ ((cfg12.win 2).blk t).view.set ↔ ∀ a : Fin 2, win12_2.index t a * S128x4096.size a ≤ (i a).val ∧ (i a).val < win12_2.index t a * S128x4096.size a + S128x4096.size a := by
  show i ∈ ((View.whole main_v92_0).slice (win12_2.rect t)).set ↔ _
  rw [View.set_slice_whole, Rect.mem_set_unit]
  exact Iff.rfl

/-- The sixteen row blocks tile result 0: row `r` is in the block of point `r / 128`. -/
theorem tiles12_2 (i : S2048x4096.Idx) :
    ∃ t : Fin cfg12.N, (cfg12.win 2).flush t = true ∧ i ∈ ((cfg12.win 2).blk t).view.set := by
  have hi0 : (i 0).val < 2048 := (i 0).isLt
  have hi1 : (i 1).val < 4096 := (i 1).isLt
  have ht : (i 0).val / 128 < cfg12.N := by show _ < 16; omega
  obtain ⟨-, -, -, -, e4, e5, e6, e7⟩ := idx12 ⟨(i 0).val / 128, ht⟩
  refine ⟨⟨(i 0).val / 128, ht⟩, flush12_2 _, ?_⟩
  rw [memblk12_2]
  intro a
  match a with
  | ⟨0, _⟩ =>
    show win12_2.index ⟨(i 0).val / 128, ht⟩ (0 : Fin 2) * 128 ≤ (i 0).val ∧ (i 0).val < win12_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win12_2.index ⟨(i 0).val / 128, ht⟩ (1 : Fin 2) * 4096 ≤ (i 1).val ∧ (i 1).val < win12_2.index ⟨(i 0).val / 128, ht⟩ (1 : Fin 2) * 4096 + 4096
    rw [e5]; omega

/-- After region 12, result 0 is the whole product `S · X` of the region's two input arrays. -/
theorem region12_2 (c : Dev nD) :
    (dat12 V c).arrAt 2 cfg12.N
      = mm (M := 2048) (K := 2048) (N := 4096) (V c (Pipeline.arrRef spec12 0)) (V c (Pipeline.arrRef spec12 1)) :=
  (dat12 V c).arrAt_eq_of_cover 2 _ (fun t _ => flushed12_2_eq V c t) tiles12_2

/-- What point `t` leaves for result 1: the product of the two blocks it loaded. -/
theorem wrote12_3 (c : Dev nD) (t : Fin cfg12.N) :
    (dat12 V c).flushed 3 t = mm (M := 128) (K := 2048) (N := 4096) (iblk12 V c 0 t) (iblk12 V c 1 t) := by
  show (cfg12.win 3).cut (grid12.coords t) ((dat12 V c).after 3 t) = _
  rw [after12_3]
  unfold out12_3
  rw [View.canon_unit_zero hz]
  simp only [View.ld_unit_zero (S := S128x2048) hz, View.ld_unit_zero (S := S2048x4096) hz]
  rw [pay12_2]
  rfl

/-- Entry `j` of that product of blocks is the entry of the whole product `S · X` at `j`'s place in result 1: a row
    of a product needs only that row of the left operand. -/
theorem block12_3 (c : Dev nD) (t : Fin cfg12.N) (j : S128x4096.Idx) :
    mm (M := 128) (K := 2048) (N := 4096) (iblk12 V c 0 t) (iblk12 V c 1 t) j
      = mm (M := 2048) (K := 2048) (N := 4096) (V c (Pipeline.arrRef spec12 0)) (V c (Pipeline.arrRef spec12 1)) (((cfg12.win 3).blk t).view.emb j) := by
  obtain ⟨-, -, -, -, e4, e5, e6, e7⟩ := idx12 t
  refine mm_eq_of_row _ _ _ _ j _ (rdX12 V c t) ?_ fun k => ?_
  · show (j 1).val = win12_3.index t (1 : Fin 2) * 4096 + 1 * (j 1).val
    rw [e7]; omega
  · refine rdS12 V c t _ _ ?_ rfl
    show win12_3.index t (0 : Fin 2) * 128 + 1 * (j 0).val = t.val * 128 + (j 0).val
    rw [e6]; omega

/-- What point `t` writes back to result 1 is block `t` of the whole product. -/
theorem flushed12_3_eq (c : Dev nD) (t : Fin cfg12.N) :
    (dat12 V c).flushed 3 t = ((cfg12.win 3).blk t).view.read (Elt Ideal)
      (mm (M := 2048) (K := 2048) (N := 4096) (V c (Pipeline.arrRef spec12 0)) (V c (Pipeline.arrRef spec12 1))) := by
  rw [wrote12_3]
  funext j
  exact block12_3 V c t j

/-- An index of result 1 is in point `t`'s block iff each coordinate is in the block's range on its axis. -/
theorem memblk12_3 (t : Fin cfg12.N) (i : S2048x4096.Idx) :
    i ∈ ((cfg12.win 3).blk t).view.set ↔ ∀ a : Fin 2, win12_3.index t a * S128x4096.size a ≤ (i a).val ∧ (i a).val < win12_3.index t a * S128x4096.size a + S128x4096.size a := by
  show i ∈ ((View.whole main_v92_1).slice (win12_3.rect t)).set ↔ _
  rw [View.set_slice_whole, Rect.mem_set_unit]
  exact Iff.rfl

/-- The sixteen row blocks tile result 1: row `r` is in the block of point `r / 128`. -/
theorem tiles12_3 (i : S2048x4096.Idx) :
    ∃ t : Fin cfg12.N, (cfg12.win 3).flush t = true ∧ i ∈ ((cfg12.win 3).blk t).view.set := by
  have hi0 : (i 0).val < 2048 := (i 0).isLt
  have hi1 : (i 1).val < 4096 := (i 1).isLt
  have ht : (i 0).val / 128 < cfg12.N := by show _ < 16; omega
  obtain ⟨-, -, -, -, e4, e5, e6, e7⟩ := idx12 ⟨(i 0).val / 128, ht⟩
  refine ⟨⟨(i 0).val / 128, ht⟩, flush12_3 _, ?_⟩
  rw [memblk12_3]
  intro a
  match a with
  | ⟨0, _⟩ =>
    show win12_3.index ⟨(i 0).val / 128, ht⟩ (0 : Fin 2) * 128 ≤ (i 0).val ∧ (i 0).val < win12_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win12_3.index ⟨(i 0).val / 128, ht⟩ (1 : Fin 2) * 4096 ≤ (i 1).val ∧ (i 1).val < win12_3.index ⟨(i 0).val / 128, ht⟩ (1 : Fin 2) * 4096 + 4096
    rw [e7]; omega

/-- After region 12, result 1 is the whole product `S · X` of the region's two input arrays. -/
theorem region12_3 (c : Dev nD) :
    (dat12 V c).arrAt 3 cfg12.N
      = mm (M := 2048) (K := 2048) (N := 4096) (V c (Pipeline.arrRef spec12 0)) (V c (Pipeline.arrRef spec12 1)) :=
  (dat12 V c).arrAt_eq_of_cover 3 _ (fun t _ => flushed12_3_eq V c t) tiles12_3

/-! ## Region 13: `2 · (S · X) − X0` with `X, X0 : [2048, 4096]` -/

/-- The body's value of its three loaded blocks: twice their product less the third, the literal two kept as the
    float constant it is printed as. -/
theorem pay13_1 (x0 : Vec Ideal S128x2048 .bf16) (x1 : Vec Ideal S2048x4096 .bf16) (x2 : Vec Ideal S128x4096 .f32) :
    k13_pay1 x0 x1 x2 = fun i => (Ideal.ofBits .f32 0x40000000#32 : EReal) * mm (M := 128) (K := 2048) (N := 4096) x0 x1 i - x2 i := by
  unfold k13_pay1
  simp only [shapeCast_self]
  funext i
  show (Ideal.ofBits .f32 0x40000000#32 : EReal) * matmul _ none x0 x1 (constant S128x4096 .f32 0x00000000#32) i - x2 i = _
  exact congrArg (fun z : EReal => (Ideal.ofBits .f32 0x40000000#32 : EReal) * z - x2 i)
    (congrFun (matmul_eq_mm dot_S128x2048_S2048x4096_S128x4096_1_0_0_1_n_n rfl x0 x1) i)

/-- The printed index maps over the sixteen points: the left operand, the subtrahend and the result move down by
    one row block per point, the right operand stays. -/
theorem idx13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0 :=
  (by decide +kernel : ∀ t : Fin grid13.N, _)

/-- Entry `y` of the left operand's block at point `t` is entry `(128 t + y₀, y₁)` of the whole left operand. -/
theorem rdS13 (c : Dev nD) (t : Fin cfg13.N) (y : S128x2048.Idx) (i : S2048x2048.Idx)
    (h0 : (i 0).val = t.val * 128 + (y 0).val) (h1 : (i 1).val = (y 1).val) :
    (iblk13 V c 0 t : Vec Ideal S128x2048 .bf16) y = (V c (Pipeline.arrRef spec13 0) : S2048x2048.Idx → EReal) i := by
  obtain ⟨e0, e1, -⟩ := idx13 t
  unfold iblk13
  rw [View.read_apply]
  show V c (Pipeline.arrRef spec13 0) _ = V c (Pipeline.arrRef spec13 0) _
  refine congrArg _ ?_
  funext a; apply Fin.ext
  match a with
  | ⟨0, _⟩ => show win13_0.index t (0 : Fin 2) * 128 + 1 * (y 0).val = (i 0).val; rw [e0, h0]; omega
  | ⟨1, _⟩ => show win13_0.index t (1 : Fin 2) * 2048 + 1 * (y 1).val = (i 1).val; rw [e1, h1]; omega

/-- The right operand's block at every point is the whole right operand. -/
theorem rdX13 (c : Dev nD) (t : Fin cfg13.N) :
    (iblk13 V c 1 t : Vec Ideal S2048x4096 .bf16) = (V c (Pipeline.arrRef spec13 1) : S2048x4096.Idx → EReal) := by
  obtain ⟨-, -, e2, e3, -⟩ := idx13 t
  funext y
  unfold iblk13
  rw [View.read_apply]
  show V c (Pipeline.arrRef spec13 1) _ = V c (Pipeline.arrRef spec13 1) _
  refine congrArg _ ?_
  funext a; apply Fin.ext
  match a with
  | ⟨0, _⟩ => show win13_1.index t (0 : Fin 2) * 2048 + 1 * (y 0).val = (y 0).val; rw [e2]; omega
  | ⟨1, _⟩ => show win13_1.index t (1 : Fin 2) * 4096 + 1 * (y 1).val = (y 1).val; rw [e3]; omega

/-- Entry `y` of the subtrahend's block at point `t` is entry `(128 t + y₀, y₁)` of the whole subtrahend. -/
theorem rdX0_13 (c : Dev nD) (t : Fin cfg13.N) (y : S128x4096.Idx) (i : S2048x4096.Idx)
    (h0 : (i 0).val = t.val * 128 + (y 0).val) (h1 : (i 1).val = (y 1).val) :
    (iblk13 V c 2 t : Vec Ideal S128x4096 .f32) y = (V c (Pipeline.arrRef spec13 2) : S2048x4096.Idx → EReal) i := by
  obtain ⟨-, -, -, -, e4, e5, -⟩ := idx13 t
  unfold iblk13
  rw [View.read_apply]
  show V c (Pipeline.arrRef spec13 2) _ = V c (Pipeline.arrRef spec13 2) _
  refine congrArg _ ?_
  funext a; apply Fin.ext
  match a with
  | ⟨0, _⟩ => show win13_2.index t (0 : Fin 2) * 128 + 1 * (y 0).val = (i 0).val; rw [e4, h0]; omega
  | ⟨1, _⟩ => show win13_2.index t (1 : Fin 2) * 4096 + 1 * (y 1).val = (i 1).val; rw [e5, h1]; omega

/-- What point `t` leaves for the result: twice the product of the two blocks it loaded, less the subtrahend's block. -/
theorem wrote13_3 (c : Dev nD) (t : Fin cfg13.N) :
    (dat13 V c).flushed 3 t = fun j => (Ideal.ofBits .f32 0x40000000#32 : EReal) * mm (M := 128) (K := 2048) (N := 4096) (iblk13 V c 0 t) (iblk13 V c 1 t) j
      - (iblk13 V c 2 t : Vec Ideal S128x4096 .f32) j := by
  show (cfg13.win 3).cut (grid13.coords t) ((dat13 V c).after 3 t) = _
  rw [after13_3]
  unfold out13_3
  rw [View.canon_unit_zero hz]
  simp only [View.ld_unit_zero (S := S128x2048) hz, View.ld_unit_zero (S := S2048x4096) hz, View.ld_unit_zero (S := S128x4096) hz]
  rw [pay13_1]
  rfl

/-- Entry `j` of that value is the entry of the whole combination `2 · (S · X) − X0` at `j`'s place in the result: a row
    of a product needs only that row of the left operand, and the subtrahend is read entry by entry. -/
theorem block13_3 (c : Dev nD) (t : Fin cfg13.N) (j : S128x4096.Idx) :
    (Ideal.ofBits .f32 0x40000000#32 : EReal) * mm (M := 128) (K := 2048) (N := 4096) (iblk13 V c 0 t) (iblk13 V c 1 t) j
        - (iblk13 V c 2 t : Vec Ideal S128x4096 .f32) j
      = (Ideal.ofBits .f32 0x40000000#32 : EReal) * mm (M := 2048) (K := 2048) (N := 4096) (V c (Pipeline.arrRef spec13 0)) (V c (Pipeline.arrRef spec13 1)) (((cfg13.win 3).blk t).view.emb j)
        - (V c (Pipeline.arrRef spec13 2) : S2048x4096.Idx → EReal) (((cfg13.win 3).blk t).view.emb j) := by
  obtain ⟨-, -, -, -, -, -, e6, e7⟩ := idx13 t
  have hq : (j 1).val = win13_3.index t (1 : Fin 2) * 4096 + 1 * (j 1).val := by rw [e7]; omega
  have hp : win13_3.index t (0 : Fin 2) * 128 + 1 * (j 0).val = t.val * 128 + (j 0).val := by rw [e6]; omega
  have hmm : mm (M := 128) (K := 2048) (N := 4096) (iblk13 V c 0 t) (iblk13 V c 1 t) j
      = mm (M := 2048) (K := 2048) (N := 4096) (V c (Pipeline.arrRef spec13 0)) (V c (Pipeline.arrRef spec13 1)) (((cfg13.win 3).blk t).view.emb j) :=
    mm_eq_of_row _ _ _ _ j _ (rdX13 V c t) hq fun k => rdS13 V c t _ _ hp rfl
  have hsub : (iblk13 V c 2 t : Vec Ideal S128x4096 .f32) j = (V c (Pipeline.arrRef spec13 2) : S2048x4096.Idx → EReal) (((cfg13.win 3).blk t).view.emb j) :=
    rdX0_13 V c t j _ hp hq.symm
  rw [hmm, hsub]

/-- What point `t` writes back is block `t` of the whole combination. -/
theorem flushed13_3_eq (c : Dev nD) (t : Fin cfg13.N) :
    (dat13 V c).flushed 3 t = ((cfg13.win 3).blk t).view.read (Elt Ideal)
      (fun i => (Ideal.ofBits .f32 0x40000000#32 : EReal) * mm (M := 2048) (K := 2048) (N := 4096) (V c (Pipeline.arrRef spec13 0)) (V c (Pipeline.arrRef spec13 1)) i - (V c (Pipeline.arrRef spec13 2) : S2048x4096.Idx → EReal) i) := by
  rw [wrote13_3]
  funext j
  exact block13_3 V c t j

/-- An index of the result is in point `t`'s block iff each coordinate is in the block's range on its axis. -/
theorem memblk13_3 (t : Fin cfg13.N) (i : S2048x4096.Idx) :
    i ∈ ((cfg13.win 3).blk t).view.set ↔ ∀ a : Fin 2, win13_3.index t a * S128x4096.size a ≤ (i a).val ∧ (i a).val < win13_3.index t a * S128x4096.size a + S128x4096.size a := by
  show i ∈ ((View.whole main_v93).slice (win13_3.rect t)).set ↔ _
  rw [View.set_slice_whole, Rect.mem_set_unit]
  exact Iff.rfl

/-- The sixteen row blocks tile the result: row `r` is in the block of point `r / 128`. -/
theorem tiles13_3 (i : S2048x4096.Idx) :
    ∃ t : Fin cfg13.N, (cfg13.win 3).flush t = true ∧ i ∈ ((cfg13.win 3).blk t).view.set := by
  have hi0 : (i 0).val < 2048 := (i 0).isLt
  have hi1 : (i 1).val < 4096 := (i 1).isLt
  have ht : (i 0).val / 128 < cfg13.N := by show _ < 16; omega
  obtain ⟨-, -, -, -, -, -, e6, e7⟩ := idx13 ⟨(i 0).val / 128, ht⟩
  refine ⟨⟨(i 0).val / 128, ht⟩, flush13_3 _, ?_⟩
  rw [memblk13_3]
  intro a
  match a with
  | ⟨0, _⟩ =>
    show win13_3.index ⟨(i 0).val / 128, ht⟩ (0 : Fin 2) * 128 ≤ (i 0).val ∧ (i 0).val < win13_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win13_3.index ⟨(i 0).val / 128, ht⟩ (1 : Fin 2) * 4096 ≤ (i 1).val ∧ (i 1).val < win13_3.index ⟨(i 0).val / 128, ht⟩ (1 : Fin 2) * 4096 + 4096
    rw [e7]; omega

/-- After region 13, the result is `2 · (S · X) − X0` of the region's three input arrays, entry by entry. -/
theorem region13_3 (c : Dev nD) :
    (dat13 V c).arrAt 3 cfg13.N
      = fun i => (Ideal.ofBits .f32 0x40000000#32 : EReal) * mm (M := 2048) (K := 2048) (N := 4096) (V c (Pipeline.arrRef spec13 0)) (V c (Pipeline.arrRef spec13 1)) i - (V c (Pipeline.arrRef spec13 2) : S2048x4096.Idx → EReal) i :=
  (dat13 V c).arrAt_eq_of_cover 3 _ (fun t _ => flushed13_3_eq V c t) tiles13_3

/-! ## Region 15: the product `S · X` with `X : [2048, 4096]`, stored in both float formats -/

/-- The body's product of its two loaded blocks is their matrix product. -/
theorem pay15_1 (x0 : Vec Ideal S128x2048 .bf16) (x1 : Vec Ideal S2048x4096 .bf16) :
    k15_pay1 x0 x1 = mm (M := 128) (K := 2048) (N := 4096) x0 x1 := by
  unfold k15_pay1
  simp only [shapeCast_self]
  exact matmul_eq_mm _ rfl x0 x1

/-- The change of float format is the identity on the extended reals. -/
theorem pay15_2 (x0 : Vec Ideal S128x2048 .bf16) (x1 : Vec Ideal S2048x4096 .bf16) :
    k15_pay2 x0 x1 = mm (M := 128) (K := 2048) (N := 4096) x0 x1 := by
  unfold k15_pay2
  exact pay15_1 x0 x1

/-- The printed index maps over the sixteen points: the left operand and both results move down by one row block
    per point, the right operand stays. -/
theorem idx15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0
    ∧ win15_3.index t (0 : Fin 2) = t.val ∧ win15_3.index t (1 : Fin 2) = 0 :=
  (by decide +kernel : ∀ t : Fin grid15.N, _)

/-- Entry `y` of the left operand's block at point `t` is entry `(128 t + y₀, y₁)` of the whole left operand. -/
theorem rdS15 (c : Dev nD) (t : Fin cfg15.N) (y : S128x2048.Idx) (i : S2048x2048.Idx)
    (h0 : (i 0).val = t.val * 128 + (y 0).val) (h1 : (i 1).val = (y 1).val) :
    (iblk15 V c 0 t : Vec Ideal S128x2048 .bf16) y = (V c (Pipeline.arrRef spec15 0) : S2048x2048.Idx → EReal) i := by
  obtain ⟨e0, e1, -⟩ := idx15 t
  unfold iblk15
  rw [View.read_apply]
  show V c (Pipeline.arrRef spec15 0) _ = V c (Pipeline.arrRef spec15 0) _
  refine congrArg _ ?_
  funext a; apply Fin.ext
  match a with
  | ⟨0, _⟩ => show win15_0.index t (0 : Fin 2) * 128 + 1 * (y 0).val = (i 0).val; rw [e0, h0]; omega
  | ⟨1, _⟩ => show win15_0.index t (1 : Fin 2) * 2048 + 1 * (y 1).val = (i 1).val; rw [e1, h1]; omega

/-- The right operand's block at every point is the whole right operand. -/
theorem rdX15 (c : Dev nD) (t : Fin cfg15.N) :
    (iblk15 V c 1 t : Vec Ideal S2048x4096 .bf16) = (V c (Pipeline.arrRef spec15 1) : S2048x4096.Idx → EReal) := by
  obtain ⟨-, -, e2, e3, -⟩ := idx15 t
  funext y
  unfold iblk15
  rw [View.read_apply]
  show V c (Pipeline.arrRef spec15 1) _ = V c (Pipeline.arrRef spec15 1) _
  refine congrArg _ ?_
  funext a; apply Fin.ext
  match a with
  | ⟨0, _⟩ => show win15_1.index t (0 : Fin 2) * 2048 + 1 * (y 0).val = (y 0).val; rw [e2]; omega
  | ⟨1, _⟩ => show win15_1.index t (1 : Fin 2) * 4096 + 1 * (y 1).val = (y 1).val; rw [e3]; omega

/-- What point `t` leaves for result 0: the product of the two blocks it loaded. -/
theorem wrote15_2 (c : Dev nD) (t : Fin cfg15.N) :
    (dat15 V c).flushed 2 t = mm (M := 128) (K := 2048) (N := 4096) (iblk15 V c 0 t) (iblk15 V c 1 t) := by
  show (cfg15.win 2).cut (grid15.coords t) ((dat15 V c).after 2 t) = _
  rw [after15_2]
  unfold out15_2
  rw [View.canon_unit_zero hz]
  simp only [View.ld_unit_zero (S := S128x2048) hz, View.ld_unit_zero (S := S2048x4096) hz]
  rw [pay15_1]
  rfl

/-- Entry `j` of that product of blocks is the entry of the whole product `S · X` at `j`'s place in result 0: a row
    of a product needs only that row of the left operand. -/
theorem block15_2 (c : Dev nD) (t : Fin cfg15.N) (j : S128x4096.Idx) :
    mm (M := 128) (K := 2048) (N := 4096) (iblk15 V c 0 t) (iblk15 V c 1 t) j
      = mm (M := 2048) (K := 2048) (N := 4096) (V c (Pipeline.arrRef spec15 0)) (V c (Pipeline.arrRef spec15 1)) (((cfg15.win 2).blk t).view.emb j) := by
  obtain ⟨-, -, -, -, e4, e5, e6, e7⟩ := idx15 t
  refine mm_eq_of_row _ _ _ _ j _ (rdX15 V c t) ?_ fun k => ?_
  · show (j 1).val = win15_2.index t (1 : Fin 2) * 4096 + 1 * (j 1).val
    rw [e5]; omega
  · refine rdS15 V c t _ _ ?_ rfl
    show win15_2.index t (0 : Fin 2) * 128 + 1 * (j 0).val = t.val * 128 + (j 0).val
    rw [e4]; omega

/-- What point `t` writes back to result 0 is block `t` of the whole product. -/
theorem flushed15_2_eq (c : Dev nD) (t : Fin cfg15.N) :
    (dat15 V c).flushed 2 t = ((cfg15.win 2).blk t).view.read (Elt Ideal)
      (mm (M := 2048) (K := 2048) (N := 4096) (V c (Pipeline.arrRef spec15 0)) (V c (Pipeline.arrRef spec15 1))) := by
  rw [wrote15_2]
  funext j
  exact block15_2 V c t j

/-- An index of result 0 is in point `t`'s block iff each coordinate is in the block's range on its axis. -/
theorem memblk15_2 (t : Fin cfg15.N) (i : S2048x4096.Idx) :
    i ∈ ((cfg15.win 2).blk t).view.set ↔ ∀ a : Fin 2, win15_2.index t a * S128x4096.size a ≤ (i a).val ∧ (i a).val < win15_2.index t a * S128x4096.size a + S128x4096.size a := by
  show i ∈ ((View.whole main_v119_0).slice (win15_2.rect t)).set ↔ _
  rw [View.set_slice_whole, Rect.mem_set_unit]
  exact Iff.rfl

/-- The sixteen row blocks tile result 0: row `r` is in the block of point `r / 128`. -/
theorem tiles15_2 (i : S2048x4096.Idx) :
    ∃ t : Fin cfg15.N, (cfg15.win 2).flush t = true ∧ i ∈ ((cfg15.win 2).blk t).view.set := by
  have hi0 : (i 0).val < 2048 := (i 0).isLt
  have hi1 : (i 1).val < 4096 := (i 1).isLt
  have ht : (i 0).val / 128 < cfg15.N := by show _ < 16; omega
  obtain ⟨-, -, -, -, e4, e5, e6, e7⟩ := idx15 ⟨(i 0).val / 128, ht⟩
  refine ⟨⟨(i 0).val / 128, ht⟩, flush15_2 _, ?_⟩
  rw [memblk15_2]
  intro a
  match a with
  | ⟨0, _⟩ =>
    show win15_2.index ⟨(i 0).val / 128, ht⟩ (0 : Fin 2) * 128 ≤ (i 0).val ∧ (i 0).val < win15_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win15_2.index ⟨(i 0).val / 128, ht⟩ (1 : Fin 2) * 4096 ≤ (i 1).val ∧ (i 1).val < win15_2.index ⟨(i 0).val / 128, ht⟩ (1 : Fin 2) * 4096 + 4096
    rw [e5]; omega

/-- After region 15, result 0 is the whole product `S · X` of the region's two input arrays. -/
theorem region15_2 (c : Dev nD) :
    (dat15 V c).arrAt 2 cfg15.N
      = mm (M := 2048) (K := 2048) (N := 4096) (V c (Pipeline.arrRef spec15 0)) (V c (Pipeline.arrRef spec15 1)) :=
  (dat15 V c).arrAt_eq_of_cover 2 _ (fun t _ => flushed15_2_eq V c t) tiles15_2

/-- What point `t` leaves for result 1: the product of the two blocks it loaded. -/
theorem wrote15_3 (c : Dev nD) (t : Fin cfg15.N) :
    (dat15 V c).flushed 3 t = mm (M := 128) (K := 2048) (N := 4096) (iblk15 V c 0 t) (iblk15 V c 1 t) := by
  show (cfg15.win 3).cut (grid15.coords t) ((dat15 V c).after 3 t) = _
  rw [after15_3]
  unfold out15_3
  rw [View.canon_unit_zero hz]
  simp only [View.ld_unit_zero (S := S128x2048) hz, View.ld_unit_zero (S := S2048x4096) hz]
  rw [pay15_2]
  rfl

/-- Entry `j` of that product of blocks is the entry of the whole product `S · X` at `j`'s place in result 1: a row
    of a product needs only that row of the left operand. -/
theorem block15_3 (c : Dev nD) (t : Fin cfg15.N) (j : S128x4096.Idx) :
    mm (M := 128) (K := 2048) (N := 4096) (iblk15 V c 0 t) (iblk15 V c 1 t) j
      = mm (M := 2048) (K := 2048) (N := 4096) (V c (Pipeline.arrRef spec15 0)) (V c (Pipeline.arrRef spec15 1)) (((cfg15.win 3).blk t).view.emb j) := by
  obtain ⟨-, -, -, -, e4, e5, e6, e7⟩ := idx15 t
  refine mm_eq_of_row _ _ _ _ j _ (rdX15 V c t) ?_ fun k => ?_
  · show (j 1).val = win15_3.index t (1 : Fin 2) * 4096 + 1 * (j 1).val
    rw [e7]; omega
  · refine rdS15 V c t _ _ ?_ rfl
    show win15_3.index t (0 : Fin 2) * 128 + 1 * (j 0).val = t.val * 128 + (j 0).val
    rw [e6]; omega

/-- What point `t` writes back to result 1 is block `t` of the whole product. -/
theorem flushed15_3_eq (c : Dev nD) (t : Fin cfg15.N) :
    (dat15 V c).flushed 3 t = ((cfg15.win 3).blk t).view.read (Elt Ideal)
      (mm (M := 2048) (K := 2048) (N := 4096) (V c (Pipeline.arrRef spec15 0)) (V c (Pipeline.arrRef spec15 1))) := by
  rw [wrote15_3]
  funext j
  exact block15_3 V c t j

/-- An index of result 1 is in point `t`'s block iff each coordinate is in the block's range on its axis. -/
theorem memblk15_3 (t : Fin cfg15.N) (i : S2048x4096.Idx) :
    i ∈ ((cfg15.win 3).blk t).view.set ↔ ∀ a : Fin 2, win15_3.index t a * S128x4096.size a ≤ (i a).val ∧ (i a).val < win15_3.index t a * S128x4096.size a + S128x4096.size a := by
  show i ∈ ((View.whole main_v119_1).slice (win15_3.rect t)).set ↔ _
  rw [View.set_slice_whole, Rect.mem_set_unit]
  exact Iff.rfl

/-- The sixteen row blocks tile result 1: row `r` is in the block of point `r / 128`. -/
theorem tiles15_3 (i : S2048x4096.Idx) :
    ∃ t : Fin cfg15.N, (cfg15.win 3).flush t = true ∧ i ∈ ((cfg15.win 3).blk t).view.set := by
  have hi0 : (i 0).val < 2048 := (i 0).isLt
  have hi1 : (i 1).val < 4096 := (i 1).isLt
  have ht : (i 0).val / 128 < cfg15.N := by show _ < 16; omega
  obtain ⟨-, -, -, -, e4, e5, e6, e7⟩ := idx15 ⟨(i 0).val / 128, ht⟩
  refine ⟨⟨(i 0).val / 128, ht⟩, flush15_3 _, ?_⟩
  rw [memblk15_3]
  intro a
  match a with
  | ⟨0, _⟩ =>
    show win15_3.index ⟨(i 0).val / 128, ht⟩ (0 : Fin 2) * 128 ≤ (i 0).val ∧ (i 0).val < win15_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win15_3.index ⟨(i 0).val / 128, ht⟩ (1 : Fin 2) * 4096 ≤ (i 1).val ∧ (i 1).val < win15_3.index ⟨(i 0).val / 128, ht⟩ (1 : Fin 2) * 4096 + 4096
    rw [e7]; omega

/-- After region 15, result 1 is the whole product `S · X` of the region's two input arrays. -/
theorem region15_3 (c : Dev nD) :
    (dat15 V c).arrAt 3 cfg15.N
      = mm (M := 2048) (K := 2048) (N := 4096) (V c (Pipeline.arrRef spec15 0)) (V c (Pipeline.arrRef spec15 1)) :=
  (dat15 V c).arrAt_eq_of_cover 3 _ (fun t _ => flushed15_3_eq V c t) tiles15_3

/-! ## Region 16: `2 · (S · X) − X0` with `X, X0 : [2048, 4096]` -/

/-- The body's value of its three loaded blocks: twice their product less the third, the literal two kept as the
    float constant it is printed as. -/
theorem pay16_1 (x0 : Vec Ideal S128x2048 .bf16) (x1 : Vec Ideal S2048x4096 .bf16) (x2 : Vec Ideal S128x4096 .f32) :
    k16_pay1 x0 x1 x2 = fun i => (Ideal.ofBits .f32 0x40000000#32 : EReal) * mm (M := 128) (K := 2048) (N := 4096) x0 x1 i - x2 i := by
  unfold k16_pay1
  simp only [shapeCast_self]
  funext i
  show (Ideal.ofBits .f32 0x40000000#32 : EReal) * matmul _ none x0 x1 (constant S128x4096 .f32 0x00000000#32) i - x2 i = _
  exact congrArg (fun z : EReal => (Ideal.ofBits .f32 0x40000000#32 : EReal) * z - x2 i)
    (congrFun (matmul_eq_mm dot_S128x2048_S2048x4096_S128x4096_1_0_0_1_n_n rfl x0 x1) i)

/-- The printed index maps over the sixteen points: the left operand, the subtrahend and the result move down by
    one row block per point, the right operand stays. -/
theorem idx16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0 :=
  (by decide +kernel : ∀ t : Fin grid16.N, _)

/-- Entry `y` of the left operand's block at point `t` is entry `(128 t + y₀, y₁)` of the whole left operand. -/
theorem rdS16 (c : Dev nD) (t : Fin cfg16.N) (y : S128x2048.Idx) (i : S2048x2048.Idx)
    (h0 : (i 0).val = t.val * 128 + (y 0).val) (h1 : (i 1).val = (y 1).val) :
    (iblk16 V c 0 t : Vec Ideal S128x2048 .bf16) y = (V c (Pipeline.arrRef spec16 0) : S2048x2048.Idx → EReal) i := by
  obtain ⟨e0, e1, -⟩ := idx16 t
  unfold iblk16
  rw [View.read_apply]
  show V c (Pipeline.arrRef spec16 0) _ = V c (Pipeline.arrRef spec16 0) _
  refine congrArg _ ?_
  funext a; apply Fin.ext
  match a with
  | ⟨0, _⟩ => show win16_0.index t (0 : Fin 2) * 128 + 1 * (y 0).val = (i 0).val; rw [e0, h0]; omega
  | ⟨1, _⟩ => show win16_0.index t (1 : Fin 2) * 2048 + 1 * (y 1).val = (i 1).val; rw [e1, h1]; omega

/-- The right operand's block at every point is the whole right operand. -/
theorem rdX16 (c : Dev nD) (t : Fin cfg16.N) :
    (iblk16 V c 1 t : Vec Ideal S2048x4096 .bf16) = (V c (Pipeline.arrRef spec16 1) : S2048x4096.Idx → EReal) := by
  obtain ⟨-, -, e2, e3, -⟩ := idx16 t
  funext y
  unfold iblk16
  rw [View.read_apply]
  show V c (Pipeline.arrRef spec16 1) _ = V c (Pipeline.arrRef spec16 1) _
  refine congrArg _ ?_
  funext a; apply Fin.ext
  match a with
  | ⟨0, _⟩ => show win16_1.index t (0 : Fin 2) * 2048 + 1 * (y 0).val = (y 0).val; rw [e2]; omega
  | ⟨1, _⟩ => show win16_1.index t (1 : Fin 2) * 4096 + 1 * (y 1).val = (y 1).val; rw [e3]; omega

/-- Entry `y` of the subtrahend's block at point `t` is entry `(128 t + y₀, y₁)` of the whole subtrahend. -/
theorem rdX0_16 (c : Dev nD) (t : Fin cfg16.N) (y : S128x4096.Idx) (i : S2048x4096.Idx)
    (h0 : (i 0).val = t.val * 128 + (y 0).val) (h1 : (i 1).val = (y 1).val) :
    (iblk16 V c 2 t : Vec Ideal S128x4096 .f32) y = (V c (Pipeline.arrRef spec16 2) : S2048x4096.Idx → EReal) i := by
  obtain ⟨-, -, -, -, e4, e5, -⟩ := idx16 t
  unfold iblk16
  rw [View.read_apply]
  show V c (Pipeline.arrRef spec16 2) _ = V c (Pipeline.arrRef spec16 2) _
  refine congrArg _ ?_
  funext a; apply Fin.ext
  match a with
  | ⟨0, _⟩ => show win16_2.index t (0 : Fin 2) * 128 + 1 * (y 0).val = (i 0).val; rw [e4, h0]; omega
  | ⟨1, _⟩ => show win16_2.index t (1 : Fin 2) * 4096 + 1 * (y 1).val = (i 1).val; rw [e5, h1]; omega

/-- What point `t` leaves for the result: twice the product of the two blocks it loaded, less the subtrahend's block. -/
theorem wrote16_3 (c : Dev nD) (t : Fin cfg16.N) :
    (dat16 V c).flushed 3 t = fun j => (Ideal.ofBits .f32 0x40000000#32 : EReal) * mm (M := 128) (K := 2048) (N := 4096) (iblk16 V c 0 t) (iblk16 V c 1 t) j
      - (iblk16 V c 2 t : Vec Ideal S128x4096 .f32) j := by
  show (cfg16.win 3).cut (grid16.coords t) ((dat16 V c).after 3 t) = _
  rw [after16_3]
  unfold out16_3
  rw [View.canon_unit_zero hz]
  simp only [View.ld_unit_zero (S := S128x2048) hz, View.ld_unit_zero (S := S2048x4096) hz, View.ld_unit_zero (S := S128x4096) hz]
  rw [pay16_1]
  rfl

/-- Entry `j` of that value is the entry of the whole combination `2 · (S · X) − X0` at `j`'s place in the result: a row
    of a product needs only that row of the left operand, and the subtrahend is read entry by entry. -/
theorem block16_3 (c : Dev nD) (t : Fin cfg16.N) (j : S128x4096.Idx) :
    (Ideal.ofBits .f32 0x40000000#32 : EReal) * mm (M := 128) (K := 2048) (N := 4096) (iblk16 V c 0 t) (iblk16 V c 1 t) j
        - (iblk16 V c 2 t : Vec Ideal S128x4096 .f32) j
      = (Ideal.ofBits .f32 0x40000000#32 : EReal) * mm (M := 2048) (K := 2048) (N := 4096) (V c (Pipeline.arrRef spec16 0)) (V c (Pipeline.arrRef spec16 1)) (((cfg16.win 3).blk t).view.emb j)
        - (V c (Pipeline.arrRef spec16 2) : S2048x4096.Idx → EReal) (((cfg16.win 3).blk t).view.emb j) := by
  obtain ⟨-, -, -, -, -, -, e6, e7⟩ := idx16 t
  have hq : (j 1).val = win16_3.index t (1 : Fin 2) * 4096 + 1 * (j 1).val := by rw [e7]; omega
  have hp : win16_3.index t (0 : Fin 2) * 128 + 1 * (j 0).val = t.val * 128 + (j 0).val := by rw [e6]; omega
  have hmm : mm (M := 128) (K := 2048) (N := 4096) (iblk16 V c 0 t) (iblk16 V c 1 t) j
      = mm (M := 2048) (K := 2048) (N := 4096) (V c (Pipeline.arrRef spec16 0)) (V c (Pipeline.arrRef spec16 1)) (((cfg16.win 3).blk t).view.emb j) :=
    mm_eq_of_row _ _ _ _ j _ (rdX16 V c t) hq fun k => rdS16 V c t _ _ hp rfl
  have hsub : (iblk16 V c 2 t : Vec Ideal S128x4096 .f32) j = (V c (Pipeline.arrRef spec16 2) : S2048x4096.Idx → EReal) (((cfg16.win 3).blk t).view.emb j) :=
    rdX0_16 V c t j _ hp hq.symm
  rw [hmm, hsub]

/-- What point `t` writes back is block `t` of the whole combination. -/
theorem flushed16_3_eq (c : Dev nD) (t : Fin cfg16.N) :
    (dat16 V c).flushed 3 t = ((cfg16.win 3).blk t).view.read (Elt Ideal)
      (fun i => (Ideal.ofBits .f32 0x40000000#32 : EReal) * mm (M := 2048) (K := 2048) (N := 4096) (V c (Pipeline.arrRef spec16 0)) (V c (Pipeline.arrRef spec16 1)) i - (V c (Pipeline.arrRef spec16 2) : S2048x4096.Idx → EReal) i) := by
  rw [wrote16_3]
  funext j
  exact block16_3 V c t j

/-- An index of the result is in point `t`'s block iff each coordinate is in the block's range on its axis. -/
theorem memblk16_3 (t : Fin cfg16.N) (i : S2048x4096.Idx) :
    i ∈ ((cfg16.win 3).blk t).view.set ↔ ∀ a : Fin 2, win16_3.index t a * S128x4096.size a ≤ (i a).val ∧ (i a).val < win16_3.index t a * S128x4096.size a + S128x4096.size a := by
  show i ∈ ((View.whole main_v120).slice (win16_3.rect t)).set ↔ _
  rw [View.set_slice_whole, Rect.mem_set_unit]
  exact Iff.rfl

/-- The sixteen row blocks tile the result: row `r` is in the block of point `r / 128`. -/
theorem tiles16_3 (i : S2048x4096.Idx) :
    ∃ t : Fin cfg16.N, (cfg16.win 3).flush t = true ∧ i ∈ ((cfg16.win 3).blk t).view.set := by
  have hi0 : (i 0).val < 2048 := (i 0).isLt
  have hi1 : (i 1).val < 4096 := (i 1).isLt
  have ht : (i 0).val / 128 < cfg16.N := by show _ < 16; omega
  obtain ⟨-, -, -, -, -, -, e6, e7⟩ := idx16 ⟨(i 0).val / 128, ht⟩
  refine ⟨⟨(i 0).val / 128, ht⟩, flush16_3 _, ?_⟩
  rw [memblk16_3]
  intro a
  match a with
  | ⟨0, _⟩ =>
    show win16_3.index ⟨(i 0).val / 128, ht⟩ (0 : Fin 2) * 128 ≤ (i 0).val ∧ (i 0).val < win16_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win16_3.index ⟨(i 0).val / 128, ht⟩ (1 : Fin 2) * 4096 ≤ (i 1).val ∧ (i 1).val < win16_3.index ⟨(i 0).val / 128, ht⟩ (1 : Fin 2) * 4096 + 4096
    rw [e7]; omega

/-- After region 16, the result is `2 · (S · X) − X0` of the region's three input arrays, entry by entry. -/
theorem region16_3 (c : Dev nD) :
    (dat16 V c).arrAt 3 cfg16.N
      = fun i => (Ideal.ofBits .f32 0x40000000#32 : EReal) * mm (M := 2048) (K := 2048) (N := 4096) (V c (Pipeline.arrRef spec16 0)) (V c (Pipeline.arrRef spec16 1)) i - (V c (Pipeline.arrRef spec16 2) : S2048x4096.Idx → EReal) i :=
  (dat16 V c).arrAt_eq_of_cover 3 _ (fun t _ => flushed16_3_eq V c t) tiles16_3

/-! ## Region 17: the product `S · X` with `X : [2048, 4096]`, stored in both float formats -/

/-- The body's product of its two loaded blocks is their matrix product. -/
theorem pay17_1 (x0 : Vec Ideal S128x2048 .bf16) (x1 : Vec Ideal S2048x4096 .bf16) :
    k17_pay1 x0 x1 = mm (M := 128) (K := 2048) (N := 4096) x0 x1 := by
  unfold k17_pay1
  simp only [shapeCast_self]
  exact matmul_eq_mm _ rfl x0 x1

/-- The change of float format is the identity on the extended reals. -/
theorem pay17_2 (x0 : Vec Ideal S128x2048 .bf16) (x1 : Vec Ideal S2048x4096 .bf16) :
    k17_pay2 x0 x1 = mm (M := 128) (K := 2048) (N := 4096) x0 x1 := by
  unfold k17_pay2
  exact pay17_1 x0 x1

/-- The printed index maps over the sixteen points: the left operand and both results move down by one row block
    per point, the right operand stays. -/
theorem idx17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = t.val ∧ win17_2.index t (1 : Fin 2) = 0
    ∧ win17_3.index t (0 : Fin 2) = t.val ∧ win17_3.index t (1 : Fin 2) = 0 :=
  (by decide +kernel : ∀ t : Fin grid17.N, _)

/-- Entry `y` of the left operand's block at point `t` is entry `(128 t + y₀, y₁)` of the whole left operand. -/
theorem rdS17 (c : Dev nD) (t : Fin cfg17.N) (y : S128x2048.Idx) (i : S2048x2048.Idx)
    (h0 : (i 0).val = t.val * 128 + (y 0).val) (h1 : (i 1).val = (y 1).val) :
    (iblk17 V c 0 t : Vec Ideal S128x2048 .bf16) y = (V c (Pipeline.arrRef spec17 0) : S2048x2048.Idx → EReal) i := by
  obtain ⟨e0, e1, -⟩ := idx17 t
  unfold iblk17
  rw [View.read_apply]
  show V c (Pipeline.arrRef spec17 0) _ = V c (Pipeline.arrRef spec17 0) _
  refine congrArg _ ?_
  funext a; apply Fin.ext
  match a with
  | ⟨0, _⟩ => show win17_0.index t (0 : Fin 2) * 128 + 1 * (y 0).val = (i 0).val; rw [e0, h0]; omega
  | ⟨1, _⟩ => show win17_0.index t (1 : Fin 2) * 2048 + 1 * (y 1).val = (i 1).val; rw [e1, h1]; omega

/-- The right operand's block at every point is the whole right operand. -/
theorem rdX17 (c : Dev nD) (t : Fin cfg17.N) :
    (iblk17 V c 1 t : Vec Ideal S2048x4096 .bf16) = (V c (Pipeline.arrRef spec17 1) : S2048x4096.Idx → EReal) := by
  obtain ⟨-, -, e2, e3, -⟩ := idx17 t
  funext y
  unfold iblk17
  rw [View.read_apply]
  show V c (Pipeline.arrRef spec17 1) _ = V c (Pipeline.arrRef spec17 1) _
  refine congrArg _ ?_
  funext a; apply Fin.ext
  match a with
  | ⟨0, _⟩ => show win17_1.index t (0 : Fin 2) * 2048 + 1 * (y 0).val = (y 0).val; rw [e2]; omega
  | ⟨1, _⟩ => show win17_1.index t (1 : Fin 2) * 4096 + 1 * (y 1).val = (y 1).val; rw [e3]; omega

/-- What point `t` leaves for result 0: the product of the two blocks it loaded. -/
theorem wrote17_2 (c : Dev nD) (t : Fin cfg17.N) :
    (dat17 V c).flushed 2 t = mm (M := 128) (K := 2048) (N := 4096) (iblk17 V c 0 t) (iblk17 V c 1 t) := by
  show (cfg17.win 2).cut (grid17.coords t) ((dat17 V c).after 2 t) = _
  rw [after17_2]
  unfold out17_2
  rw [View.canon_unit_zero hz]
  simp only [View.ld_unit_zero (S := S128x2048) hz, View.ld_unit_zero (S := S2048x4096) hz]
  rw [pay17_1]
  rfl

/-- Entry `j` of that product of blocks is the entry of the whole product `S · X` at `j`'s place in result 0: a row
    of a product needs only that row of the left operand. -/
theorem block17_2 (c : Dev nD) (t : Fin cfg17.N) (j : S128x4096.Idx) :
    mm (M := 128) (K := 2048) (N := 4096) (iblk17 V c 0 t) (iblk17 V c 1 t) j
      = mm (M := 2048) (K := 2048) (N := 4096) (V c (Pipeline.arrRef spec17 0)) (V c (Pipeline.arrRef spec17 1)) (((cfg17.win 2).blk t).view.emb j) := by
  obtain ⟨-, -, -, -, e4, e5, e6, e7⟩ := idx17 t
  refine mm_eq_of_row _ _ _ _ j _ (rdX17 V c t) ?_ fun k => ?_
  · show (j 1).val = win17_2.index t (1 : Fin 2) * 4096 + 1 * (j 1).val
    rw [e5]; omega
  · refine rdS17 V c t _ _ ?_ rfl
    show win17_2.index t (0 : Fin 2) * 128 + 1 * (j 0).val = t.val * 128 + (j 0).val
    rw [e4]; omega

/-- What point `t` writes back to result 0 is block `t` of the whole product. -/
theorem flushed17_2_eq (c : Dev nD) (t : Fin cfg17.N) :
    (dat17 V c).flushed 2 t = ((cfg17.win 2).blk t).view.read (Elt Ideal)
      (mm (M := 2048) (K := 2048) (N := 4096) (V c (Pipeline.arrRef spec17 0)) (V c (Pipeline.arrRef spec17 1))) := by
  rw [wrote17_2]
  funext j
  exact block17_2 V c t j

/-- An index of result 0 is in point `t`'s block iff each coordinate is in the block's range on its axis. -/
theorem memblk17_2 (t : Fin cfg17.N) (i : S2048x4096.Idx) :
    i ∈ ((cfg17.win 2).blk t).view.set ↔ ∀ a : Fin 2, win17_2.index t a * S128x4096.size a ≤ (i a).val ∧ (i a).val < win17_2.index t a * S128x4096.size a + S128x4096.size a := by
  show i ∈ ((View.whole main_v121_0).slice (win17_2.rect t)).set ↔ _
  rw [View.set_slice_whole, Rect.mem_set_unit]
  exact Iff.rfl

/-- The sixteen row blocks tile result 0: row `r` is in the block of point `r / 128`. -/
theorem tiles17_2 (i : S2048x4096.Idx) :
    ∃ t : Fin cfg17.N, (cfg17.win 2).flush t = true ∧ i ∈ ((cfg17.win 2).blk t).view.set := by
  have hi0 : (i 0).val < 2048 := (i 0).isLt
  have hi1 : (i 1).val < 4096 := (i 1).isLt
  have ht : (i 0).val / 128 < cfg17.N := by show _ < 16; omega
  obtain ⟨-, -, -, -, e4, e5, e6, e7⟩ := idx17 ⟨(i 0).val / 128, ht⟩
  refine ⟨⟨(i 0).val / 128, ht⟩, flush17_2 _, ?_⟩
  rw [memblk17_2]
  intro a
  match a with
  | ⟨0, _⟩ =>
    show win17_2.index ⟨(i 0).val / 128, ht⟩ (0 : Fin 2) * 128 ≤ (i 0).val ∧ (i 0).val < win17_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win17_2.index ⟨(i 0).val / 128, ht⟩ (1 : Fin 2) * 4096 ≤ (i 1).val ∧ (i 1).val < win17_2.index ⟨(i 0).val / 128, ht⟩ (1 : Fin 2) * 4096 + 4096
    rw [e5]; omega

/-- After region 17, result 0 is the whole product `S · X` of the region's two input arrays. -/
theorem region17_2 (c : Dev nD) :
    (dat17 V c).arrAt 2 cfg17.N
      = mm (M := 2048) (K := 2048) (N := 4096) (V c (Pipeline.arrRef spec17 0)) (V c (Pipeline.arrRef spec17 1)) :=
  (dat17 V c).arrAt_eq_of_cover 2 _ (fun t _ => flushed17_2_eq V c t) tiles17_2

/-- What point `t` leaves for result 1: the product of the two blocks it loaded. -/
theorem wrote17_3 (c : Dev nD) (t : Fin cfg17.N) :
    (dat17 V c).flushed 3 t = mm (M := 128) (K := 2048) (N := 4096) (iblk17 V c 0 t) (iblk17 V c 1 t) := by
  show (cfg17.win 3).cut (grid17.coords t) ((dat17 V c).after 3 t) = _
  rw [after17_3]
  unfold out17_3
  rw [View.canon_unit_zero hz]
  simp only [View.ld_unit_zero (S := S128x2048) hz, View.ld_unit_zero (S := S2048x4096) hz]
  rw [pay17_2]
  rfl

/-- Entry `j` of that product of blocks is the entry of the whole product `S · X` at `j`'s place in result 1: a row
    of a product needs only that row of the left operand. -/
theorem block17_3 (c : Dev nD) (t : Fin cfg17.N) (j : S128x4096.Idx) :
    mm (M := 128) (K := 2048) (N := 4096) (iblk17 V c 0 t) (iblk17 V c 1 t) j
      = mm (M := 2048) (K := 2048) (N := 4096) (V c (Pipeline.arrRef spec17 0)) (V c (Pipeline.arrRef spec17 1)) (((cfg17.win 3).blk t).view.emb j) := by
  obtain ⟨-, -, -, -, e4, e5, e6, e7⟩ := idx17 t
  refine mm_eq_of_row _ _ _ _ j _ (rdX17 V c t) ?_ fun k => ?_
  · show (j 1).val = win17_3.index t (1 : Fin 2) * 4096 + 1 * (j 1).val
    rw [e7]; omega
  · refine rdS17 V c t _ _ ?_ rfl
    show win17_3.index t (0 : Fin 2) * 128 + 1 * (j 0).val = t.val * 128 + (j 0).val
    rw [e6]; omega

/-- What point `t` writes back to result 1 is block `t` of the whole product. -/
theorem flushed17_3_eq (c : Dev nD) (t : Fin cfg17.N) :
    (dat17 V c).flushed 3 t = ((cfg17.win 3).blk t).view.read (Elt Ideal)
      (mm (M := 2048) (K := 2048) (N := 4096) (V c (Pipeline.arrRef spec17 0)) (V c (Pipeline.arrRef spec17 1))) := by
  rw [wrote17_3]
  funext j
  exact block17_3 V c t j

/-- An index of result 1 is in point `t`'s block iff each coordinate is in the block's range on its axis. -/
theorem memblk17_3 (t : Fin cfg17.N) (i : S2048x4096.Idx) :
    i ∈ ((cfg17.win 3).blk t).view.set ↔ ∀ a : Fin 2, win17_3.index t a * S128x4096.size a ≤ (i a).val ∧ (i a).val < win17_3.index t a * S128x4096.size a + S128x4096.size a := by
  show i ∈ ((View.whole main_v121_1).slice (win17_3.rect t)).set ↔ _
  rw [View.set_slice_whole, Rect.mem_set_unit]
  exact Iff.rfl

/-- The sixteen row blocks tile result 1: row `r` is in the block of point `r / 128`. -/
theorem tiles17_3 (i : S2048x4096.Idx) :
    ∃ t : Fin cfg17.N, (cfg17.win 3).flush t = true ∧ i ∈ ((cfg17.win 3).blk t).view.set := by
  have hi0 : (i 0).val < 2048 := (i 0).isLt
  have hi1 : (i 1).val < 4096 := (i 1).isLt
  have ht : (i 0).val / 128 < cfg17.N := by show _ < 16; omega
  obtain ⟨-, -, -, -, e4, e5, e6, e7⟩ := idx17 ⟨(i 0).val / 128, ht⟩
  refine ⟨⟨(i 0).val / 128, ht⟩, flush17_3 _, ?_⟩
  rw [memblk17_3]
  intro a
  match a with
  | ⟨0, _⟩ =>
    show win17_3.index ⟨(i 0).val / 128, ht⟩ (0 : Fin 2) * 128 ≤ (i 0).val ∧ (i 0).val < win17_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win17_3.index ⟨(i 0).val / 128, ht⟩ (1 : Fin 2) * 4096 ≤ (i 1).val ∧ (i 1).val < win17_3.index ⟨(i 0).val / 128, ht⟩ (1 : Fin 2) * 4096 + 4096
    rw [e7]; omega

/-- After region 17, result 1 is the whole product `S · X` of the region's two input arrays. -/
theorem region17_3 (c : Dev nD) :
    (dat17 V c).arrAt 3 cfg17.N
      = mm (M := 2048) (K := 2048) (N := 4096) (V c (Pipeline.arrRef spec17 0)) (V c (Pipeline.arrRef spec17 1)) :=
  (dat17 V c).arrAt_eq_of_cover 3 _ (fun t _ => flushed17_3_eq V c t) tiles17_3

/-! ## Region 18: `2 · (S · X) − X0` with `X, X0 : [2048, 4096]` -/

/-- The body's value of its three loaded blocks: twice their product less the third, the literal two kept as the
    float constant it is printed as. -/
theorem pay18_1 (x0 : Vec Ideal S128x2048 .bf16) (x1 : Vec Ideal S2048x4096 .bf16) (x2 : Vec Ideal S128x4096 .f32) :
    k18_pay1 x0 x1 x2 = fun i => (Ideal.ofBits .f32 0x40000000#32 : EReal) * mm (M := 128) (K := 2048) (N := 4096) x0 x1 i - x2 i := by
  unfold k18_pay1
  simp only [shapeCast_self]
  funext i
  show (Ideal.ofBits .f32 0x40000000#32 : EReal) * matmul _ none x0 x1 (constant S128x4096 .f32 0x00000000#32) i - x2 i = _
  exact congrArg (fun z : EReal => (Ideal.ofBits .f32 0x40000000#32 : EReal) * z - x2 i)
    (congrFun (matmul_eq_mm dot_S128x2048_S2048x4096_S128x4096_1_0_0_1_n_n rfl x0 x1) i)

/-- The printed index maps over the sixteen points: the left operand, the subtrahend and the result move down by
    one row block per point, the right operand stays. -/
theorem idx18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0
    ∧ win18_3.index t (0 : Fin 2) = t.val ∧ win18_3.index t (1 : Fin 2) = 0 :=
  (by decide +kernel : ∀ t : Fin grid18.N, _)

/-- Entry `y` of the left operand's block at point `t` is entry `(128 t + y₀, y₁)` of the whole left operand. -/
theorem rdS18 (c : Dev nD) (t : Fin cfg18.N) (y : S128x2048.Idx) (i : S2048x2048.Idx)
    (h0 : (i 0).val = t.val * 128 + (y 0).val) (h1 : (i 1).val = (y 1).val) :
    (iblk18 V c 0 t : Vec Ideal S128x2048 .bf16) y = (V c (Pipeline.arrRef spec18 0) : S2048x2048.Idx → EReal) i := by
  obtain ⟨e0, e1, -⟩ := idx18 t
  unfold iblk18
  rw [View.read_apply]
  show V c (Pipeline.arrRef spec18 0) _ = V c (Pipeline.arrRef spec18 0) _
  refine congrArg _ ?_
  funext a; apply Fin.ext
  match a with
  | ⟨0, _⟩ => show win18_0.index t (0 : Fin 2) * 128 + 1 * (y 0).val = (i 0).val; rw [e0, h0]; omega
  | ⟨1, _⟩ => show win18_0.index t (1 : Fin 2) * 2048 + 1 * (y 1).val = (i 1).val; rw [e1, h1]; omega

/-- The right operand's block at every point is the whole right operand. -/
theorem rdX18 (c : Dev nD) (t : Fin cfg18.N) :
    (iblk18 V c 1 t : Vec Ideal S2048x4096 .bf16) = (V c (Pipeline.arrRef spec18 1) : S2048x4096.Idx → EReal) := by
  obtain ⟨-, -, e2, e3, -⟩ := idx18 t
  funext y
  unfold iblk18
  rw [View.read_apply]
  show V c (Pipeline.arrRef spec18 1) _ = V c (Pipeline.arrRef spec18 1) _
  refine congrArg _ ?_
  funext a; apply Fin.ext
  match a with
  | ⟨0, _⟩ => show win18_1.index t (0 : Fin 2) * 2048 + 1 * (y 0).val = (y 0).val; rw [e2]; omega
  | ⟨1, _⟩ => show win18_1.index t (1 : Fin 2) * 4096 + 1 * (y 1).val = (y 1).val; rw [e3]; omega

/-- Entry `y` of the subtrahend's block at point `t` is entry `(128 t + y₀, y₁)` of the whole subtrahend. -/
theorem rdX0_18 (c : Dev nD) (t : Fin cfg18.N) (y : S128x4096.Idx) (i : S2048x4096.Idx)
    (h0 : (i 0).val = t.val * 128 + (y 0).val) (h1 : (i 1).val = (y 1).val) :
    (iblk18 V c 2 t : Vec Ideal S128x4096 .f32) y = (V c (Pipeline.arrRef spec18 2) : S2048x4096.Idx → EReal) i := by
  obtain ⟨-, -, -, -, e4, e5, -⟩ := idx18 t
  unfold iblk18
  rw [View.read_apply]
  show V c (Pipeline.arrRef spec18 2) _ = V c (Pipeline.arrRef spec18 2) _
  refine congrArg _ ?_
  funext a; apply Fin.ext
  match a with
  | ⟨0, _⟩ => show win18_2.index t (0 : Fin 2) * 128 + 1 * (y 0).val = (i 0).val; rw [e4, h0]; omega
  | ⟨1, _⟩ => show win18_2.index t (1 : Fin 2) * 4096 + 1 * (y 1).val = (i 1).val; rw [e5, h1]; omega

/-- What point `t` leaves for the result: twice the product of the two blocks it loaded, less the subtrahend's block. -/
theorem wrote18_3 (c : Dev nD) (t : Fin cfg18.N) :
    (dat18 V c).flushed 3 t = fun j => (Ideal.ofBits .f32 0x40000000#32 : EReal) * mm (M := 128) (K := 2048) (N := 4096) (iblk18 V c 0 t) (iblk18 V c 1 t) j
      - (iblk18 V c 2 t : Vec Ideal S128x4096 .f32) j := by
  show (cfg18.win 3).cut (grid18.coords t) ((dat18 V c).after 3 t) = _
  rw [after18_3]
  unfold out18_3
  rw [View.canon_unit_zero hz]
  simp only [View.ld_unit_zero (S := S128x2048) hz, View.ld_unit_zero (S := S2048x4096) hz, View.ld_unit_zero (S := S128x4096) hz]
  rw [pay18_1]
  rfl

/-- Entry `j` of that value is the entry of the whole combination `2 · (S · X) − X0` at `j`'s place in the result: a row
    of a product needs only that row of the left operand, and the subtrahend is read entry by entry. -/
theorem block18_3 (c : Dev nD) (t : Fin cfg18.N) (j : S128x4096.Idx) :
    (Ideal.ofBits .f32 0x40000000#32 : EReal) * mm (M := 128) (K := 2048) (N := 4096) (iblk18 V c 0 t) (iblk18 V c 1 t) j
        - (iblk18 V c 2 t : Vec Ideal S128x4096 .f32) j
      = (Ideal.ofBits .f32 0x40000000#32 : EReal) * mm (M := 2048) (K := 2048) (N := 4096) (V c (Pipeline.arrRef spec18 0)) (V c (Pipeline.arrRef spec18 1)) (((cfg18.win 3).blk t).view.emb j)
        - (V c (Pipeline.arrRef spec18 2) : S2048x4096.Idx → EReal) (((cfg18.win 3).blk t).view.emb j) := by
  obtain ⟨-, -, -, -, -, -, e6, e7⟩ := idx18 t
  have hq : (j 1).val = win18_3.index t (1 : Fin 2) * 4096 + 1 * (j 1).val := by rw [e7]; omega
  have hp : win18_3.index t (0 : Fin 2) * 128 + 1 * (j 0).val = t.val * 128 + (j 0).val := by rw [e6]; omega
  have hmm : mm (M := 128) (K := 2048) (N := 4096) (iblk18 V c 0 t) (iblk18 V c 1 t) j
      = mm (M := 2048) (K := 2048) (N := 4096) (V c (Pipeline.arrRef spec18 0)) (V c (Pipeline.arrRef spec18 1)) (((cfg18.win 3).blk t).view.emb j) :=
    mm_eq_of_row _ _ _ _ j _ (rdX18 V c t) hq fun k => rdS18 V c t _ _ hp rfl
  have hsub : (iblk18 V c 2 t : Vec Ideal S128x4096 .f32) j = (V c (Pipeline.arrRef spec18 2) : S2048x4096.Idx → EReal) (((cfg18.win 3).blk t).view.emb j) :=
    rdX0_18 V c t j _ hp hq.symm
  rw [hmm, hsub]

/-- What point `t` writes back is block `t` of the whole combination. -/
theorem flushed18_3_eq (c : Dev nD) (t : Fin cfg18.N) :
    (dat18 V c).flushed 3 t = ((cfg18.win 3).blk t).view.read (Elt Ideal)
      (fun i => (Ideal.ofBits .f32 0x40000000#32 : EReal) * mm (M := 2048) (K := 2048) (N := 4096) (V c (Pipeline.arrRef spec18 0)) (V c (Pipeline.arrRef spec18 1)) i - (V c (Pipeline.arrRef spec18 2) : S2048x4096.Idx → EReal) i) := by
  rw [wrote18_3]
  funext j
  exact block18_3 V c t j

/-- An index of the result is in point `t`'s block iff each coordinate is in the block's range on its axis. -/
theorem memblk18_3 (t : Fin cfg18.N) (i : S2048x4096.Idx) :
    i ∈ ((cfg18.win 3).blk t).view.set ↔ ∀ a : Fin 2, win18_3.index t a * S128x4096.size a ≤ (i a).val ∧ (i a).val < win18_3.index t a * S128x4096.size a + S128x4096.size a := by
  show i ∈ ((View.whole main_v122).slice (win18_3.rect t)).set ↔ _
  rw [View.set_slice_whole, Rect.mem_set_unit]
  exact Iff.rfl

/-- The sixteen row blocks tile the result: row `r` is in the block of point `r / 128`. -/
theorem tiles18_3 (i : S2048x4096.Idx) :
    ∃ t : Fin cfg18.N, (cfg18.win 3).flush t = true ∧ i ∈ ((cfg18.win 3).blk t).view.set := by
  have hi0 : (i 0).val < 2048 := (i 0).isLt
  have hi1 : (i 1).val < 4096 := (i 1).isLt
  have ht : (i 0).val / 128 < cfg18.N := by show _ < 16; omega
  obtain ⟨-, -, -, -, -, -, e6, e7⟩ := idx18 ⟨(i 0).val / 128, ht⟩
  refine ⟨⟨(i 0).val / 128, ht⟩, flush18_3 _, ?_⟩
  rw [memblk18_3]
  intro a
  match a with
  | ⟨0, _⟩ =>
    show win18_3.index ⟨(i 0).val / 128, ht⟩ (0 : Fin 2) * 128 ≤ (i 0).val ∧ (i 0).val < win18_3.index ⟨(i 0).val / 128, ht⟩ (0 : Fin 2) * 128 + 128
    rw [e6]; show (i 0).val / 128 * 128 ≤ (i 0).val ∧ (i 0).val < (i 0).val / 128 * 128 + 128; omega
  | ⟨1, _⟩ =>
    show win18_3.index ⟨(i 0).val / 128, ht⟩ (1 : Fin 2) * 4096 ≤ (i 1).val ∧ (i 1).val < win18_3.index ⟨(i 0).val / 128, ht⟩ (1 : Fin 2) * 4096 + 4096
    rw [e7]; omega

/-- After region 18, the result is `2 · (S · X) − X0` of the region's three input arrays, entry by entry. -/
theorem region18_3 (c : Dev nD) :
    (dat18 V c).arrAt 3 cfg18.N
      = fun i => (Ideal.ofBits .f32 0x40000000#32 : EReal) * mm (M := 2048) (K := 2048) (N := 4096) (V c (Pipeline.arrRef spec18 0)) (V c (Pipeline.arrRef spec18 1)) i - (V c (Pipeline.arrRef spec18 2) : S2048x4096.Idx → EReal) i :=
  (dat18 V c).arrAt_eq_of_cover 3 _ (fun t _ => flushed18_3_eq V c t) tiles18_3

end Cert.KernelIdeal.RegionValue
end
-- ==== Proof.KernelCarry.lean ====
/-
  What the kernel program's buffers hold at the boundaries between its host stretches and its regions: a buffer that
  a stretch does not write and that is not an array of a region keeps its contents across it, so a value computed
  once is still there when a later region or stretch reads it, and an argument is as launched until it is read.
  One lemma per stretch (the list of the references it writes, and that a reference outside the list is kept), the
  generated lemma per region, and then each carry is a chain of such steps.
-/
import proofs.«132349_j60696477827149_2_alg».proof.Proof.Gen.KernelIdeal.Frame

noncomputable section

namespace Cert.KernelIdeal.Carry

open Idealize.ShloMosaic Idealize.ShloMosaic.TcCoe Idealize.SL.Sem Cert.KernelIdeal Cert.KernelIdeal.Gen

variable {F : FTy → Type} [FloatOps F]

variable (m : (ℓ : Loc nD τ sig) → Buf (Elt F) ℓ) (ρ : Dev nD → PrngReg)

/-! ## The stretches: what each writes, and that the rest is kept -/

/-- The references stretch 0 writes, in order. -/
def written0 : List (Ref sig .tc) := [main_cst, main_v0, main_v1, main_cst_0, main_v2, main_v3, main_v4, main_v5, main_v6, main_v7, main_cst_1, main_v8, main_v9, main_cst_2, main_v10, main_v11, main_v12, main_v13, main_v14, main_v15, main_v16, main_v17, main_v18, main_v19, main_v20, main_v21, main_v22, main_v23, main_v24, main_v25]

theorem hostOps0_writes :
    (hostOps0 : List (HloOp τ sig (Elt F))).Forall fun op => op.writes ⊆ (written0.map (Proc.devRef (τ := τ) .tc)).toFinset := by
  simp only [hostOps0, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 0 does not write is kept across it. -/
theorem keep_host0 (c : Dev nD) (r : Ref sig .tc) (hr : r ∉ written0) :
    W1 m ρ c (Proc.devRef .tc r) = W0 m ρ c (Proc.devRef .tc r) :=
  StableHlo.after_of_writes_sub _ _ hostOps0_writes hr

/-- The references stretch 4 writes, in order. -/
def written4 : List (Ref sig .tc) := [main_v30, main_v31, main_v32, main_v33, main_v34, main_v35, main_v36, main_v37, main_v38, main_v39, main_v40, main_v41, main_v42, main_v43, main_v44, main_v45, main_v46]

theorem hostOps4_writes :
    (hostOps4 : List (HloOp τ sig (Elt F))).Forall fun op => op.writes ⊆ (written4.map (Proc.devRef (τ := τ) .tc)).toFinset := by
  simp only [hostOps4, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 4 does not write is kept across it. -/
theorem keep_host4 (c : Dev nD) (r : Ref sig .tc) (hr : r ∉ written4) :
    W6 m ρ c (Proc.devRef .tc r) = W5 m ρ c (Proc.devRef .tc r) :=
  StableHlo.after_of_writes_sub _ _ hostOps4_writes hr

/-- The references stretch 5 writes, in order. -/
def written5 : List (Ref sig .tc) := [main_v48, main_v49, main_v50, main_v51, main_v52, main_v53, main_v54]

theorem hostOps5_writes :
    (hostOps5 : List (HloOp τ sig (Elt F))).Forall fun op => op.writes ⊆ (written5.map (Proc.devRef (τ := τ) .tc)).toFinset := by
  simp only [hostOps5, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 5 does not write is kept across it. -/
theorem keep_host5 (c : Dev nD) (r : Ref sig .tc) (hr : r ∉ written5) :
    W8 m ρ c (Proc.devRef .tc r) = W7 m ρ c (Proc.devRef .tc r) :=
  StableHlo.after_of_writes_sub _ _ hostOps5_writes hr

/-- The references stretch 9 writes, in order. -/
def written9 : List (Ref sig .tc) := [main_v59, main_v60, main_v61, main_v62, main_v63, main_v64, main_v65, main_v66, main_v67, main_v68, main_v69, main_v70, main_v71, main_v72, main_v73, main_v74, main_v75]

theorem hostOps9_writes :
    (hostOps9 : List (HloOp τ sig (Elt F))).Forall fun op => op.writes ⊆ (written9.map (Proc.devRef (τ := τ) .tc)).toFinset := by
  simp only [hostOps9, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 9 does not write is kept across it. -/
theorem keep_host9 (c : Dev nD) (r : Ref sig .tc) (hr : r ∉ written9) :
    W13 m ρ c (Proc.devRef .tc r) = W12 m ρ c (Proc.devRef .tc r) :=
  StableHlo.after_of_writes_sub _ _ hostOps9_writes hr

/-- The references stretch 10 writes, in order. -/
def written10 : List (Ref sig .tc) := [main_v77, main_v78, main_cst_3, main_v79, main_v80, main_v81, main_v82, main_v83, main_v84, main_v85, main_v86, main_v87, main_v88, main_v89]

theorem hostOps10_writes :
    (hostOps10 : List (HloOp τ sig (Elt F))).Forall fun op => op.writes ⊆ (written10.map (Proc.devRef (τ := τ) .tc)).toFinset := by
  simp only [hostOps10, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 10 does not write is kept across it. -/
theorem keep_host10 (c : Dev nD) (r : Ref sig .tc) (hr : r ∉ written10) :
    W15 m ρ c (Proc.devRef .tc r) = W14 m ρ c (Proc.devRef .tc r) :=
  StableHlo.after_of_writes_sub _ _ hostOps10_writes hr

/-- The references stretch 14 writes, in order. -/
def written14 : List (Ref sig .tc) := [main_v94, main_v95, main_v96, main_v97, main_v98, main_v99, main_v100, main_v101, main_v102, main_v103, main_v104, main_v105, main_v106, main_v107, main_v108, main_v109, main_v110]

theorem hostOps14_writes :
    (hostOps14 : List (HloOp τ sig (Elt F))).Forall fun op => op.writes ⊆ (written14.map (Proc.devRef (τ := τ) .tc)).toFinset := by
  simp only [hostOps14, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 14 does not write is kept across it. -/
theorem keep_host14 (c : Dev nD) (r : Ref sig .tc) (hr : r ∉ written14) :
    W20 m ρ c (Proc.devRef .tc r) = W19 m ρ c (Proc.devRef .tc r) :=
  StableHlo.after_of_writes_sub _ _ hostOps14_writes hr

/-- The references stretch 15 writes, in order. -/
def written15 : List (Ref sig .tc) := [main_v112, main_v113, main_v114, main_v115, main_v116, main_v117, main_v118]

theorem hostOps15_writes :
    (hostOps15 : List (HloOp τ sig (Elt F))).Forall fun op => op.writes ⊆ (written15.map (Proc.devRef (τ := τ) .tc)).toFinset := by
  simp only [hostOps15, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 15 does not write is kept across it. -/
theorem keep_host15 (c : Dev nD) (r : Ref sig .tc) (hr : r ∉ written15) :
    W22 m ρ c (Proc.devRef .tc r) = W21 m ρ c (Proc.devRef .tc r) :=
  StableHlo.after_of_writes_sub _ _ hostOps15_writes hr

/-- The references stretch 19 writes, in order. -/
def written19 : List (Ref sig .tc) := [main_v123, main_v124, main_v125, main_v126, main_v127, main_v128, main_v129, main_v130, main_v131, main_v132, main_v133, main_v134, main_v135, main_v136, main_v137, main_v138, main_v139]

theorem hostOps19_writes :
    (hostOps19 : List (HloOp τ sig (Elt F))).Forall fun op => op.writes ⊆ (written19.map (Proc.devRef (τ := τ) .tc)).toFinset := by
  simp only [hostOps19, List.Forall, StableHlo.nullary_writes, StableHlo.unary_writes, StableHlo.binary_writes,
    StableHlo.reshape_writes, Finset.singleton_subset_iff, List.mem_toFinset]
  repeat' apply And.intro
  all_goals exact List.mem_map_of_mem (by decide)

/-- A reference stretch 19 does not write is kept across it. -/
theorem keep_host19 (c : Dev nD) (r : Ref sig .tc) (hr : r ∉ written19) :
    W27 m ρ c (Proc.devRef .tc r) = W26 m ρ c (Proc.devRef .tc r) :=
  StableHlo.after_of_writes_sub _ _ hostOps19_writes hr

/-! ## The regions: an input window's array is kept -/

/-- An input window's array is as entered at region 0's exit. -/
theorem keep_in0 (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))

/-- An input window's array is as entered at region 1's exit. -/
theorem keep_in1 (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin cfg1.N).trans (A_eq1 (V2 m ρ) c w))

/-- An input window's array is as entered at region 2's exit. -/
theorem keep_in2 (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin cfg2.N).trans (A_eq2 (V3 m ρ) c w))

/-- An input window's array is as entered at region 3's exit. -/
theorem keep_in3 (c : Dev nD) (w : Fin cfg3.W) (hin : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hin cfg3.N).trans (A_eq3 (V4 m ρ) c w))

/-- An input window's array is as entered at region 5's exit. -/
theorem keep_in5 (c : Dev nD) (w : Fin cfg5.W) (hin : (cfg5.win w).isOut = false) :
    W9 m ρ c (Proc.devRef .tc (Pipeline.arrRef spec5 w)) = W8 m ρ c (Proc.devRef .tc (Pipeline.arrRef spec5 w)) :=
  (W9_arr m ρ c w).trans (((dat5 (V8 m ρ) c).arrAt_in w hin cfg5.N).trans (A_eq5 (V8 m ρ) c w))

/-- An input window's array is as entered at region 6's exit. -/
theorem keep_in6 (c : Dev nD) (w : Fin cfg6.W) (hin : (cfg6.win w).isOut = false) :
    W10 m ρ c (Proc.devRef .tc (Pipeline.arrRef spec6 w)) = W9 m ρ c (Proc.devRef .tc (Pipeline.arrRef spec6 w)) :=
  (W10_arr m ρ c w).trans (((dat6 (V9 m ρ) c).arrAt_in w hin cfg6.N).trans (A_eq6 (V9 m ρ) c w))

/-- An input window's array is as entered at region 7's exit. -/
theorem keep_in7 (c : Dev nD) (w : Fin cfg7.W) (hin : (cfg7.win w).isOut = false) :
    W11 m ρ c (Proc.devRef .tc (Pipeline.arrRef spec7 w)) = W10 m ρ c (Proc.devRef .tc (Pipeline.arrRef spec7 w)) :=
  (W11_arr m ρ c w).trans (((dat7 (V10 m ρ) c).arrAt_in w hin cfg7.N).trans (A_eq7 (V10 m ρ) c w))

/-- An input window's array is as entered at region 8's exit. -/
theorem keep_in8 (c : Dev nD) (w : Fin cfg8.W) (hin : (cfg8.win w).isOut = false) :
    W12 m ρ c (Proc.devRef .tc (Pipeline.arrRef spec8 w)) = W11 m ρ c (Proc.devRef .tc (Pipeline.arrRef spec8 w)) :=
  (W12_arr m ρ c w).trans (((dat8 (V11 m ρ) c).arrAt_in w hin cfg8.N).trans (A_eq8 (V11 m ρ) c w))

/-- An input window's array is as entered at region 10's exit. -/
theorem keep_in10 (c : Dev nD) (w : Fin cfg10.W) (hin : (cfg10.win w).isOut = false) :
    W16 m ρ c (Proc.devRef .tc (Pipeline.arrRef spec10 w)) = W15 m ρ c (Proc.devRef .tc (Pipeline.arrRef spec10 w)) :=
  (W16_arr m ρ c w).trans (((dat10 (V15 m ρ) c).arrAt_in w hin cfg10.N).trans (A_eq10 (V15 m ρ) c w))

/-- An input window's array is as entered at region 11's exit. -/
theorem keep_in11 (c : Dev nD) (w : Fin cfg11.W) (hin : (cfg11.win w).isOut = false) :
    W17 m ρ c (Proc.devRef .tc (Pipeline.arrRef spec11 w)) = W16 m ρ c (Proc.devRef .tc (Pipeline.arrRef spec11 w)) :=
  (W17_arr m ρ c w).trans (((dat11 (V16 m ρ) c).arrAt_in w hin cfg11.N).trans (A_eq11 (V16 m ρ) c w))

/-- An input window's array is as entered at region 12's exit. -/
theorem keep_in12 (c : Dev nD) (w : Fin cfg12.W) (hin : (cfg12.win w).isOut = false) :
    W18 m ρ c (Proc.devRef .tc (Pipeline.arrRef spec12 w)) = W17 m ρ c (Proc.devRef .tc (Pipeline.arrRef spec12 w)) :=
  (W18_arr m ρ c w).trans (((dat12 (V17 m ρ) c).arrAt_in w hin cfg12.N).trans (A_eq12 (V17 m ρ) c w))

/-- An input window's array is as entered at region 13's exit. -/
theorem keep_in13 (c : Dev nD) (w : Fin cfg13.W) (hin : (cfg13.win w).isOut = false) :
    W19 m ρ c (Proc.devRef .tc (Pipeline.arrRef spec13 w)) = W18 m ρ c (Proc.devRef .tc (Pipeline.arrRef spec13 w)) :=
  (W19_arr m ρ c w).trans (((dat13 (V18 m ρ) c).arrAt_in w hin cfg13.N).trans (A_eq13 (V18 m ρ) c w))

/-- An input window's array is as entered at region 15's exit. -/
theorem keep_in15 (c : Dev nD) (w : Fin cfg15.W) (hin : (cfg15.win w).isOut = false) :
    W23 m ρ c (Proc.devRef .tc (Pipeline.arrRef spec15 w)) = W22 m ρ c (Proc.devRef .tc (Pipeline.arrRef spec15 w)) :=
  (W23_arr m ρ c w).trans (((dat15 (V22 m ρ) c).arrAt_in w hin cfg15.N).trans (A_eq15 (V22 m ρ) c w))

/-- An input window's array is as entered at region 16's exit. -/
theorem keep_in16 (c : Dev nD) (w : Fin cfg16.W) (hin : (cfg16.win w).isOut = false) :
    W24 m ρ c (Proc.devRef .tc (Pipeline.arrRef spec16 w)) = W23 m ρ c (Proc.devRef .tc (Pipeline.arrRef spec16 w)) :=
  (W24_arr m ρ c w).trans (((dat16 (V23 m ρ) c).arrAt_in w hin cfg16.N).trans (A_eq16 (V23 m ρ) c w))

/-- An input window's array is as entered at region 17's exit. -/
theorem keep_in17 (c : Dev nD) (w : Fin cfg17.W) (hin : (cfg17.win w).isOut = false) :
    W25 m ρ c (Proc.devRef .tc (Pipeline.arrRef spec17 w)) = W24 m ρ c (Proc.devRef .tc (Pipeline.arrRef spec17 w)) :=
  (W25_arr m ρ c w).trans (((dat17 (V24 m ρ) c).arrAt_in w hin cfg17.N).trans (A_eq17 (V24 m ρ) c w))

/-- An input window's array is as entered at region 18's exit. -/
theorem keep_in18 (c : Dev nD) (w : Fin cfg18.W) (hin : (cfg18.win w).isOut = false) :
    W26 m ρ c (Proc.devRef .tc (Pipeline.arrRef spec18 w)) = W25 m ρ c (Proc.devRef .tc (Pipeline.arrRef spec18 w)) :=
  (W26_arr m ρ c w).trans (((dat18 (V25 m ρ) c).arrAt_in w hin cfg18.N).trans (A_eq18 (V25 m ρ) c w))

/-! ## Values computed by the program, carried to where they are read -/

theorem carry_main_v15_2 (c : Dev nD) : W2 m ρ c (Proc.devRef .tc main_v15) = W1 m ρ c (Proc.devRef .tc main_v15) :=
  calc W2 m ρ c (Proc.devRef .tc main_v15)
    _ = W1 m ρ c (Proc.devRef .tc main_v15) := keep_in0 m ρ c 0 rfl

theorem carry_main_v15_8 (c : Dev nD) : W8 m ρ c (Proc.devRef .tc main_v15) = W1 m ρ c (Proc.devRef .tc main_v15) :=
  calc W8 m ρ c (Proc.devRef .tc main_v15)
    _ = W7 m ρ c (Proc.devRef .tc main_v15) := keep_host5 m ρ c main_v15 (by decide)
    _ = W6 m ρ c (Proc.devRef .tc main_v15) := W7_of_ne m ρ c main_v15 (by decide)
    _ = W5 m ρ c (Proc.devRef .tc main_v15) := keep_host4 m ρ c main_v15 (by decide)
    _ = W4 m ρ c (Proc.devRef .tc main_v15) := W5_of_ne m ρ c main_v15 (by decide)
    _ = W3 m ρ c (Proc.devRef .tc main_v15) := W4_of_ne m ρ c main_v15 (by decide)
    _ = W2 m ρ c (Proc.devRef .tc main_v15) := keep_in1 m ρ c 0 rfl
    _ = W1 m ρ c (Proc.devRef .tc main_v15) := carry_main_v15_2 m ρ c

theorem carry_main_v15_9 (c : Dev nD) : W9 m ρ c (Proc.devRef .tc main_v15) = W1 m ρ c (Proc.devRef .tc main_v15) :=
  calc W9 m ρ c (Proc.devRef .tc main_v15)
    _ = W8 m ρ c (Proc.devRef .tc main_v15) := keep_in5 m ρ c 0 rfl
    _ = W1 m ρ c (Proc.devRef .tc main_v15) := carry_main_v15_8 m ρ c

theorem carry_main_v15_15 (c : Dev nD) : W15 m ρ c (Proc.devRef .tc main_v15) = W1 m ρ c (Proc.devRef .tc main_v15) :=
  calc W15 m ρ c (Proc.devRef .tc main_v15)
    _ = W14 m ρ c (Proc.devRef .tc main_v15) := keep_host10 m ρ c main_v15 (by decide)
    _ = W13 m ρ c (Proc.devRef .tc main_v15) := W14_of_ne m ρ c main_v15 (by decide)
    _ = W12 m ρ c (Proc.devRef .tc main_v15) := keep_host9 m ρ c main_v15 (by decide)
    _ = W11 m ρ c (Proc.devRef .tc main_v15) := W12_of_ne m ρ c main_v15 (by decide)
    _ = W10 m ρ c (Proc.devRef .tc main_v15) := W11_of_ne m ρ c main_v15 (by decide)
    _ = W9 m ρ c (Proc.devRef .tc main_v15) := keep_in6 m ρ c 0 rfl
    _ = W1 m ρ c (Proc.devRef .tc main_v15) := carry_main_v15_9 m ρ c

theorem carry_main_v15_16 (c : Dev nD) : W16 m ρ c (Proc.devRef .tc main_v15) = W1 m ρ c (Proc.devRef .tc main_v15) :=
  calc W16 m ρ c (Proc.devRef .tc main_v15)
    _ = W15 m ρ c (Proc.devRef .tc main_v15) := keep_in10 m ρ c 0 rfl
    _ = W1 m ρ c (Proc.devRef .tc main_v15) := carry_main_v15_15 m ρ c

theorem carry_main_v15_22 (c : Dev nD) : W22 m ρ c (Proc.devRef .tc main_v15) = W1 m ρ c (Proc.devRef .tc main_v15) :=
  calc W22 m ρ c (Proc.devRef .tc main_v15)
    _ = W21 m ρ c (Proc.devRef .tc main_v15) := keep_host15 m ρ c main_v15 (by decide)
    _ = W20 m ρ c (Proc.devRef .tc main_v15) := W21_of_ne m ρ c main_v15 (by decide)
    _ = W19 m ρ c (Proc.devRef .tc main_v15) := keep_host14 m ρ c main_v15 (by decide)
    _ = W18 m ρ c (Proc.devRef .tc main_v15) := W19_of_ne m ρ c main_v15 (by decide)
    _ = W17 m ρ c (Proc.devRef .tc main_v15) := W18_of_ne m ρ c main_v15 (by decide)
    _ = W16 m ρ c (Proc.devRef .tc main_v15) := keep_in11 m ρ c 0 rfl
    _ = W1 m ρ c (Proc.devRef .tc main_v15) := carry_main_v15_16 m ρ c

theorem carry_main_v15_23 (c : Dev nD) : W23 m ρ c (Proc.devRef .tc main_v15) = W1 m ρ c (Proc.devRef .tc main_v15) :=
  calc W23 m ρ c (Proc.devRef .tc main_v15)
    _ = W22 m ρ c (Proc.devRef .tc main_v15) := keep_in15 m ρ c 0 rfl
    _ = W1 m ρ c (Proc.devRef .tc main_v15) := carry_main_v15_22 m ρ c

theorem carry_main_v16_3 (c : Dev nD) : W3 m ρ c (Proc.devRef .tc main_v16) = W1 m ρ c (Proc.devRef .tc main_v16) :=
  calc W3 m ρ c (Proc.devRef .tc main_v16)
    _ = W2 m ρ c (Proc.devRef .tc main_v16) := W3_of_ne m ρ c main_v16 (by decide)
    _ = W1 m ρ c (Proc.devRef .tc main_v16) := W2_of_ne m ρ c main_v16 (by decide)

theorem carry_main_v16_4 (c : Dev nD) : W4 m ρ c (Proc.devRef .tc main_v16) = W1 m ρ c (Proc.devRef .tc main_v16) :=
  calc W4 m ρ c (Proc.devRef .tc main_v16)
    _ = W3 m ρ c (Proc.devRef .tc main_v16) := keep_in2 m ρ c 0 rfl
    _ = W1 m ρ c (Proc.devRef .tc main_v16) := carry_main_v16_3 m ρ c

theorem carry_main_v16_10 (c : Dev nD) : W10 m ρ c (Proc.devRef .tc main_v16) = W1 m ρ c (Proc.devRef .tc main_v16) :=
  calc W10 m ρ c (Proc.devRef .tc main_v16)
    _ = W9 m ρ c (Proc.devRef .tc main_v16) := W10_of_ne m ρ c main_v16 (by decide)
    _ = W8 m ρ c (Proc.devRef .tc main_v16) := W9_of_ne m ρ c main_v16 (by decide)
    _ = W7 m ρ c (Proc.devRef .tc main_v16) := keep_host5 m ρ c main_v16 (by decide)
    _ = W6 m ρ c (Proc.devRef .tc main_v16) := W7_of_ne m ρ c main_v16 (by decide)
    _ = W5 m ρ c (Proc.devRef .tc main_v16) := keep_host4 m ρ c main_v16 (by decide)
    _ = W4 m ρ c (Proc.devRef .tc main_v16) := keep_in3 m ρ c 0 rfl
    _ = W1 m ρ c (Proc.devRef .tc main_v16) := carry_main_v16_4 m ρ c

theorem carry_main_v16_11 (c : Dev nD) : W11 m ρ c (Proc.devRef .tc main_v16) = W1 m ρ c (Proc.devRef .tc main_v16) :=
  calc W11 m ρ c (Proc.devRef .tc main_v16)
    _ = W10 m ρ c (Proc.devRef .tc main_v16) := keep_in7 m ρ c 0 rfl
    _ = W1 m ρ c (Proc.devRef .tc main_v16) := carry_main_v16_10 m ρ c

theorem carry_main_v16_17 (c : Dev nD) : W17 m ρ c (Proc.devRef .tc main_v16) = W1 m ρ c (Proc.devRef .tc main_v16) :=
  calc W17 m ρ c (Proc.devRef .tc main_v16)
    _ = W16 m ρ c (Proc.devRef .tc main_v16) := W17_of_ne m ρ c main_v16 (by decide)
    _ = W15 m ρ c (Proc.devRef .tc main_v16) := W16_of_ne m ρ c main_v16 (by decide)
    _ = W14 m ρ c (Proc.devRef .tc main_v16) := keep_host10 m ρ c main_v16 (by decide)
    _ = W13 m ρ c (Proc.devRef .tc main_v16) := W14_of_ne m ρ c main_v16 (by decide)
    _ = W12 m ρ c (Proc.devRef .tc main_v16) := keep_host9 m ρ c main_v16 (by decide)
    _ = W11 m ρ c (Proc.devRef .tc main_v16) := keep_in8 m ρ c 0 rfl
    _ = W1 m ρ c (Proc.devRef .tc main_v16) := carry_main_v16_11 m ρ c

theorem carry_main_v16_18 (c : Dev nD) : W18 m ρ c (Proc.devRef .tc main_v16) = W1 m ρ c (Proc.devRef .tc main_v16) :=
  calc W18 m ρ c (Proc.devRef .tc main_v16)
    _ = W17 m ρ c (Proc.devRef .tc main_v16) := keep_in12 m ρ c 0 rfl
    _ = W1 m ρ c (Proc.devRef .tc main_v16) := carry_main_v16_17 m ρ c

theorem carry_main_v16_24 (c : Dev nD) : W24 m ρ c (Proc.devRef .tc main_v16) = W1 m ρ c (Proc.devRef .tc main_v16) :=
  calc W24 m ρ c (Proc.devRef .tc main_v16)
    _ = W23 m ρ c (Proc.devRef .tc main_v16) := W24_of_ne m ρ c main_v16 (by decide)
    _ = W22 m ρ c (Proc.devRef .tc main_v16) := W23_of_ne m ρ c main_v16 (by decide)
    _ = W21 m ρ c (Proc.devRef .tc main_v16) := keep_host15 m ρ c main_v16 (by decide)
    _ = W20 m ρ c (Proc.devRef .tc main_v16) := W21_of_ne m ρ c main_v16 (by decide)
    _ = W19 m ρ c (Proc.devRef .tc main_v16) := keep_host14 m ρ c main_v16 (by decide)
    _ = W18 m ρ c (Proc.devRef .tc main_v16) := keep_in13 m ρ c 0 rfl
    _ = W1 m ρ c (Proc.devRef .tc main_v16) := carry_main_v16_18 m ρ c

theorem carry_main_v16_25 (c : Dev nD) : W25 m ρ c (Proc.devRef .tc main_v16) = W1 m ρ c (Proc.devRef .tc main_v16) :=
  calc W25 m ρ c (Proc.devRef .tc main_v16)
    _ = W24 m ρ c (Proc.devRef .tc main_v16) := keep_in17 m ρ c 0 rfl
    _ = W1 m ρ c (Proc.devRef .tc main_v16) := carry_main_v16_24 m ρ c

theorem carry_main_v24_2 (c : Dev nD) : W2 m ρ c (Proc.devRef .tc main_v24) = W1 m ρ c (Proc.devRef .tc main_v24) :=
  calc W2 m ρ c (Proc.devRef .tc main_v24)
    _ = W1 m ρ c (Proc.devRef .tc main_v24) := W2_of_ne m ρ c main_v24 (by decide)

theorem carry_main_v24_5 (c : Dev nD) : W5 m ρ c (Proc.devRef .tc main_v24) = W1 m ρ c (Proc.devRef .tc main_v24) :=
  calc W5 m ρ c (Proc.devRef .tc main_v24)
    _ = W4 m ρ c (Proc.devRef .tc main_v24) := W5_of_ne m ρ c main_v24 (by decide)
    _ = W3 m ρ c (Proc.devRef .tc main_v24) := W4_of_ne m ρ c main_v24 (by decide)
    _ = W2 m ρ c (Proc.devRef .tc main_v24) := keep_in1 m ρ c 2 rfl
    _ = W1 m ρ c (Proc.devRef .tc main_v24) := carry_main_v24_2 m ρ c

theorem carry_main_v18_7 (c : Dev nD) : W7 m ρ c (Proc.devRef .tc main_v18) = W1 m ρ c (Proc.devRef .tc main_v18) :=
  calc W7 m ρ c (Proc.devRef .tc main_v18)
    _ = W6 m ρ c (Proc.devRef .tc main_v18) := W7_of_ne m ρ c main_v18 (by decide)
    _ = W5 m ρ c (Proc.devRef .tc main_v18) := keep_host4 m ρ c main_v18 (by decide)
    _ = W4 m ρ c (Proc.devRef .tc main_v18) := W5_of_ne m ρ c main_v18 (by decide)
    _ = W3 m ρ c (Proc.devRef .tc main_v18) := W4_of_ne m ρ c main_v18 (by decide)
    _ = W2 m ρ c (Proc.devRef .tc main_v18) := W3_of_ne m ρ c main_v18 (by decide)
    _ = W1 m ρ c (Proc.devRef .tc main_v18) := W2_of_ne m ρ c main_v18 (by decide)

theorem carry_main_v22_7 (c : Dev nD) : W7 m ρ c (Proc.devRef .tc main_v22) = W1 m ρ c (Proc.devRef .tc main_v22) :=
  calc W7 m ρ c (Proc.devRef .tc main_v22)
    _ = W6 m ρ c (Proc.devRef .tc main_v22) := W7_of_ne m ρ c main_v22 (by decide)
    _ = W5 m ρ c (Proc.devRef .tc main_v22) := keep_host4 m ρ c main_v22 (by decide)
    _ = W4 m ρ c (Proc.devRef .tc main_v22) := W5_of_ne m ρ c main_v22 (by decide)
    _ = W3 m ρ c (Proc.devRef .tc main_v22) := W4_of_ne m ρ c main_v22 (by decide)
    _ = W2 m ρ c (Proc.devRef .tc main_v22) := W3_of_ne m ρ c main_v22 (by decide)
    _ = W1 m ρ c (Proc.devRef .tc main_v22) := W2_of_ne m ρ c main_v22 (by decide)

theorem carry_main_v22_14 (c : Dev nD) : W14 m ρ c (Proc.devRef .tc main_v22) = W1 m ρ c (Proc.devRef .tc main_v22) :=
  calc W14 m ρ c (Proc.devRef .tc main_v22)
    _ = W13 m ρ c (Proc.devRef .tc main_v22) := W14_of_ne m ρ c main_v22 (by decide)
    _ = W12 m ρ c (Proc.devRef .tc main_v22) := keep_host9 m ρ c main_v22 (by decide)
    _ = W11 m ρ c (Proc.devRef .tc main_v22) := W12_of_ne m ρ c main_v22 (by decide)
    _ = W10 m ρ c (Proc.devRef .tc main_v22) := W11_of_ne m ρ c main_v22 (by decide)
    _ = W9 m ρ c (Proc.devRef .tc main_v22) := W10_of_ne m ρ c main_v22 (by decide)
    _ = W8 m ρ c (Proc.devRef .tc main_v22) := W9_of_ne m ρ c main_v22 (by decide)
    _ = W7 m ρ c (Proc.devRef .tc main_v22) := keep_host5 m ρ c main_v22 (by decide)
    _ = W1 m ρ c (Proc.devRef .tc main_v22) := carry_main_v22_7 m ρ c

theorem carry_main_v26_1_3 (c : Dev nD) : W3 m ρ c (Proc.devRef .tc main_v26_1) = W2 m ρ c (Proc.devRef .tc main_v26_1) :=
  calc W3 m ρ c (Proc.devRef .tc main_v26_1)
    _ = W2 m ρ c (Proc.devRef .tc main_v26_1) := keep_in1 m ρ c 1 rfl

theorem carry_main_v26_0_4 (c : Dev nD) : W4 m ρ c (Proc.devRef .tc main_v26_0) = W2 m ρ c (Proc.devRef .tc main_v26_0) :=
  calc W4 m ρ c (Proc.devRef .tc main_v26_0)
    _ = W3 m ρ c (Proc.devRef .tc main_v26_0) := W4_of_ne m ρ c main_v26_0 (by decide)
    _ = W2 m ρ c (Proc.devRef .tc main_v26_0) := W3_of_ne m ρ c main_v26_0 (by decide)

theorem carry_main_v26_0_5 (c : Dev nD) : W5 m ρ c (Proc.devRef .tc main_v26_0) = W2 m ρ c (Proc.devRef .tc main_v26_0) :=
  calc W5 m ρ c (Proc.devRef .tc main_v26_0)
    _ = W4 m ρ c (Proc.devRef .tc main_v26_0) := keep_in3 m ρ c 2 rfl
    _ = W2 m ρ c (Proc.devRef .tc main_v26_0) := carry_main_v26_0_4 m ρ c

theorem carry_main_v27_5 (c : Dev nD) : W5 m ρ c (Proc.devRef .tc main_v27) = W3 m ρ c (Proc.devRef .tc main_v27) :=
  calc W5 m ρ c (Proc.devRef .tc main_v27)
    _ = W4 m ρ c (Proc.devRef .tc main_v27) := W5_of_ne m ρ c main_v27 (by decide)
    _ = W3 m ρ c (Proc.devRef .tc main_v27) := W4_of_ne m ρ c main_v27 (by decide)

theorem carry_main_v28_0_5 (c : Dev nD) : W5 m ρ c (Proc.devRef .tc main_v28_0) = W4 m ρ c (Proc.devRef .tc main_v28_0) :=
  calc W5 m ρ c (Proc.devRef .tc main_v28_0)
    _ = W4 m ρ c (Proc.devRef .tc main_v28_0) := W5_of_ne m ρ c main_v28_0 (by decide)

theorem carry_main_v53_9 (c : Dev nD) : W9 m ρ c (Proc.devRef .tc main_v53) = W8 m ρ c (Proc.devRef .tc main_v53) :=
  calc W9 m ρ c (Proc.devRef .tc main_v53)
    _ = W8 m ρ c (Proc.devRef .tc main_v53) := W9_of_ne m ρ c main_v53 (by decide)

theorem carry_main_v53_12 (c : Dev nD) : W12 m ρ c (Proc.devRef .tc main_v53) = W8 m ρ c (Proc.devRef .tc main_v53) :=
  calc W12 m ρ c (Proc.devRef .tc main_v53)
    _ = W11 m ρ c (Proc.devRef .tc main_v53) := W12_of_ne m ρ c main_v53 (by decide)
    _ = W10 m ρ c (Proc.devRef .tc main_v53) := W11_of_ne m ρ c main_v53 (by decide)
    _ = W9 m ρ c (Proc.devRef .tc main_v53) := keep_in6 m ρ c 2 rfl
    _ = W8 m ρ c (Proc.devRef .tc main_v53) := carry_main_v53_9 m ρ c

theorem carry_main_v55_1_10 (c : Dev nD) : W10 m ρ c (Proc.devRef .tc main_v55_1) = W9 m ρ c (Proc.devRef .tc main_v55_1) :=
  calc W10 m ρ c (Proc.devRef .tc main_v55_1)
    _ = W9 m ρ c (Proc.devRef .tc main_v55_1) := keep_in6 m ρ c 1 rfl

theorem carry_main_v55_0_11 (c : Dev nD) : W11 m ρ c (Proc.devRef .tc main_v55_0) = W9 m ρ c (Proc.devRef .tc main_v55_0) :=
  calc W11 m ρ c (Proc.devRef .tc main_v55_0)
    _ = W10 m ρ c (Proc.devRef .tc main_v55_0) := W11_of_ne m ρ c main_v55_0 (by decide)
    _ = W9 m ρ c (Proc.devRef .tc main_v55_0) := W10_of_ne m ρ c main_v55_0 (by decide)

theorem carry_main_v55_0_12 (c : Dev nD) : W12 m ρ c (Proc.devRef .tc main_v55_0) = W9 m ρ c (Proc.devRef .tc main_v55_0) :=
  calc W12 m ρ c (Proc.devRef .tc main_v55_0)
    _ = W11 m ρ c (Proc.devRef .tc main_v55_0) := keep_in8 m ρ c 2 rfl
    _ = W9 m ρ c (Proc.devRef .tc main_v55_0) := carry_main_v55_0_11 m ρ c

theorem carry_main_v56_12 (c : Dev nD) : W12 m ρ c (Proc.devRef .tc main_v56) = W10 m ρ c (Proc.devRef .tc main_v56) :=
  calc W12 m ρ c (Proc.devRef .tc main_v56)
    _ = W11 m ρ c (Proc.devRef .tc main_v56) := W12_of_ne m ρ c main_v56 (by decide)
    _ = W10 m ρ c (Proc.devRef .tc main_v56) := W11_of_ne m ρ c main_v56 (by decide)

theorem carry_main_v57_0_12 (c : Dev nD) : W12 m ρ c (Proc.devRef .tc main_v57_0) = W11 m ρ c (Proc.devRef .tc main_v57_0) :=
  calc W12 m ρ c (Proc.devRef .tc main_v57_0)
    _ = W11 m ρ c (Proc.devRef .tc main_v57_0) := W12_of_ne m ρ c main_v57_0 (by decide)

theorem carry_main_v50_14 (c : Dev nD) : W14 m ρ c (Proc.devRef .tc main_v50) = W8 m ρ c (Proc.devRef .tc main_v50) :=
  calc W14 m ρ c (Proc.devRef .tc main_v50)
    _ = W13 m ρ c (Proc.devRef .tc main_v50) := W14_of_ne m ρ c main_v50 (by decide)
    _ = W12 m ρ c (Proc.devRef .tc main_v50) := keep_host9 m ρ c main_v50 (by decide)
    _ = W11 m ρ c (Proc.devRef .tc main_v50) := W12_of_ne m ρ c main_v50 (by decide)
    _ = W10 m ρ c (Proc.devRef .tc main_v50) := W11_of_ne m ρ c main_v50 (by decide)
    _ = W9 m ρ c (Proc.devRef .tc main_v50) := W10_of_ne m ρ c main_v50 (by decide)
    _ = W8 m ρ c (Proc.devRef .tc main_v50) := W9_of_ne m ρ c main_v50 (by decide)

theorem carry_main_v88_16 (c : Dev nD) : W16 m ρ c (Proc.devRef .tc main_v88) = W15 m ρ c (Proc.devRef .tc main_v88) :=
  calc W16 m ρ c (Proc.devRef .tc main_v88)
    _ = W15 m ρ c (Proc.devRef .tc main_v88) := W16_of_ne m ρ c main_v88 (by decide)

theorem carry_main_v88_19 (c : Dev nD) : W19 m ρ c (Proc.devRef .tc main_v88) = W15 m ρ c (Proc.devRef .tc main_v88) :=
  calc W19 m ρ c (Proc.devRef .tc main_v88)
    _ = W18 m ρ c (Proc.devRef .tc main_v88) := W19_of_ne m ρ c main_v88 (by decide)
    _ = W17 m ρ c (Proc.devRef .tc main_v88) := W18_of_ne m ρ c main_v88 (by decide)
    _ = W16 m ρ c (Proc.devRef .tc main_v88) := keep_in11 m ρ c 2 rfl
    _ = W15 m ρ c (Proc.devRef .tc main_v88) := carry_main_v88_16 m ρ c

theorem carry_main_v90_1_17 (c : Dev nD) : W17 m ρ c (Proc.devRef .tc main_v90_1) = W16 m ρ c (Proc.devRef .tc main_v90_1) :=
  calc W17 m ρ c (Proc.devRef .tc main_v90_1)
    _ = W16 m ρ c (Proc.devRef .tc main_v90_1) := keep_in11 m ρ c 1 rfl

theorem carry_main_v90_0_18 (c : Dev nD) : W18 m ρ c (Proc.devRef .tc main_v90_0) = W16 m ρ c (Proc.devRef .tc main_v90_0) :=
  calc W18 m ρ c (Proc.devRef .tc main_v90_0)
    _ = W17 m ρ c (Proc.devRef .tc main_v90_0) := W18_of_ne m ρ c main_v90_0 (by decide)
    _ = W16 m ρ c (Proc.devRef .tc main_v90_0) := W17_of_ne m ρ c main_v90_0 (by decide)

theorem carry_main_v90_0_19 (c : Dev nD) : W19 m ρ c (Proc.devRef .tc main_v90_0) = W16 m ρ c (Proc.devRef .tc main_v90_0) :=
  calc W19 m ρ c (Proc.devRef .tc main_v90_0)
    _ = W18 m ρ c (Proc.devRef .tc main_v90_0) := keep_in13 m ρ c 2 rfl
    _ = W16 m ρ c (Proc.devRef .tc main_v90_0) := carry_main_v90_0_18 m ρ c

theorem carry_main_v91_19 (c : Dev nD) : W19 m ρ c (Proc.devRef .tc main_v91) = W17 m ρ c (Proc.devRef .tc main_v91) :=
  calc W19 m ρ c (Proc.devRef .tc main_v91)
    _ = W18 m ρ c (Proc.devRef .tc main_v91) := W19_of_ne m ρ c main_v91 (by decide)
    _ = W17 m ρ c (Proc.devRef .tc main_v91) := W18_of_ne m ρ c main_v91 (by decide)

theorem carry_main_v92_0_19 (c : Dev nD) : W19 m ρ c (Proc.devRef .tc main_v92_0) = W18 m ρ c (Proc.devRef .tc main_v92_0) :=
  calc W19 m ρ c (Proc.devRef .tc main_v92_0)
    _ = W18 m ρ c (Proc.devRef .tc main_v92_0) := W19_of_ne m ρ c main_v92_0 (by decide)

theorem carry_main_v86_21 (c : Dev nD) : W21 m ρ c (Proc.devRef .tc main_v86) = W15 m ρ c (Proc.devRef .tc main_v86) :=
  calc W21 m ρ c (Proc.devRef .tc main_v86)
    _ = W20 m ρ c (Proc.devRef .tc main_v86) := W21_of_ne m ρ c main_v86 (by decide)
    _ = W19 m ρ c (Proc.devRef .tc main_v86) := keep_host14 m ρ c main_v86 (by decide)
    _ = W18 m ρ c (Proc.devRef .tc main_v86) := W19_of_ne m ρ c main_v86 (by decide)
    _ = W17 m ρ c (Proc.devRef .tc main_v86) := W18_of_ne m ρ c main_v86 (by decide)
    _ = W16 m ρ c (Proc.devRef .tc main_v86) := W17_of_ne m ρ c main_v86 (by decide)
    _ = W15 m ρ c (Proc.devRef .tc main_v86) := W16_of_ne m ρ c main_v86 (by decide)

theorem carry_main_v86_28 (c : Dev nD) : W28 m ρ c (Proc.devRef .tc main_v86) = W15 m ρ c (Proc.devRef .tc main_v86) :=
  calc W28 m ρ c (Proc.devRef .tc main_v86)
    _ = W27 m ρ c (Proc.devRef .tc main_v86) := W28_of_ne m ρ c main_v86 (by decide)
    _ = W26 m ρ c (Proc.devRef .tc main_v86) := keep_host19 m ρ c main_v86 (by decide)
    _ = W25 m ρ c (Proc.devRef .tc main_v86) := W26_of_ne m ρ c main_v86 (by decide)
    _ = W24 m ρ c (Proc.devRef .tc main_v86) := W25_of_ne m ρ c main_v86 (by decide)
    _ = W23 m ρ c (Proc.devRef .tc main_v86) := W24_of_ne m ρ c main_v86 (by decide)
    _ = W22 m ρ c (Proc.devRef .tc main_v86) := W23_of_ne m ρ c main_v86 (by decide)
    _ = W21 m ρ c (Proc.devRef .tc main_v86) := keep_host15 m ρ c main_v86 (by decide)
    _ = W15 m ρ c (Proc.devRef .tc main_v86) := carry_main_v86_21 m ρ c

theorem carry_main_v82_21 (c : Dev nD) : W21 m ρ c (Proc.devRef .tc main_v82) = W15 m ρ c (Proc.devRef .tc main_v82) :=
  calc W21 m ρ c (Proc.devRef .tc main_v82)
    _ = W20 m ρ c (Proc.devRef .tc main_v82) := W21_of_ne m ρ c main_v82 (by decide)
    _ = W19 m ρ c (Proc.devRef .tc main_v82) := keep_host14 m ρ c main_v82 (by decide)
    _ = W18 m ρ c (Proc.devRef .tc main_v82) := W19_of_ne m ρ c main_v82 (by decide)
    _ = W17 m ρ c (Proc.devRef .tc main_v82) := W18_of_ne m ρ c main_v82 (by decide)
    _ = W16 m ρ c (Proc.devRef .tc main_v82) := W17_of_ne m ρ c main_v82 (by decide)
    _ = W15 m ρ c (Proc.devRef .tc main_v82) := W16_of_ne m ρ c main_v82 (by decide)

theorem carry_main_v82_28 (c : Dev nD) : W28 m ρ c (Proc.devRef .tc main_v82) = W15 m ρ c (Proc.devRef .tc main_v82) :=
  calc W28 m ρ c (Proc.devRef .tc main_v82)
    _ = W27 m ρ c (Proc.devRef .tc main_v82) := W28_of_ne m ρ c main_v82 (by decide)
    _ = W26 m ρ c (Proc.devRef .tc main_v82) := keep_host19 m ρ c main_v82 (by decide)
    _ = W25 m ρ c (Proc.devRef .tc main_v82) := W26_of_ne m ρ c main_v82 (by decide)
    _ = W24 m ρ c (Proc.devRef .tc main_v82) := W25_of_ne m ρ c main_v82 (by decide)
    _ = W23 m ρ c (Proc.devRef .tc main_v82) := W24_of_ne m ρ c main_v82 (by decide)
    _ = W22 m ρ c (Proc.devRef .tc main_v82) := W23_of_ne m ρ c main_v82 (by decide)
    _ = W21 m ρ c (Proc.devRef .tc main_v82) := keep_host15 m ρ c main_v82 (by decide)
    _ = W15 m ρ c (Proc.devRef .tc main_v82) := carry_main_v82_21 m ρ c

theorem carry_main_v117_23 (c : Dev nD) : W23 m ρ c (Proc.devRef .tc main_v117) = W22 m ρ c (Proc.devRef .tc main_v117) :=
  calc W23 m ρ c (Proc.devRef .tc main_v117)
    _ = W22 m ρ c (Proc.devRef .tc main_v117) := W23_of_ne m ρ c main_v117 (by decide)

theorem carry_main_v117_26 (c : Dev nD) : W26 m ρ c (Proc.devRef .tc main_v117) = W22 m ρ c (Proc.devRef .tc main_v117) :=
  calc W26 m ρ c (Proc.devRef .tc main_v117)
    _ = W25 m ρ c (Proc.devRef .tc main_v117) := W26_of_ne m ρ c main_v117 (by decide)
    _ = W24 m ρ c (Proc.devRef .tc main_v117) := W25_of_ne m ρ c main_v117 (by decide)
    _ = W23 m ρ c (Proc.devRef .tc main_v117) := keep_in16 m ρ c 2 rfl
    _ = W22 m ρ c (Proc.devRef .tc main_v117) := carry_main_v117_23 m ρ c

theorem carry_main_v119_1_24 (c : Dev nD) : W24 m ρ c (Proc.devRef .tc main_v119_1) = W23 m ρ c (Proc.devRef .tc main_v119_1) :=
  calc W24 m ρ c (Proc.devRef .tc main_v119_1)
    _ = W23 m ρ c (Proc.devRef .tc main_v119_1) := keep_in16 m ρ c 1 rfl

theorem carry_main_v119_0_25 (c : Dev nD) : W25 m ρ c (Proc.devRef .tc main_v119_0) = W23 m ρ c (Proc.devRef .tc main_v119_0) :=
  calc W25 m ρ c (Proc.devRef .tc main_v119_0)
    _ = W24 m ρ c (Proc.devRef .tc main_v119_0) := W25_of_ne m ρ c main_v119_0 (by decide)
    _ = W23 m ρ c (Proc.devRef .tc main_v119_0) := W24_of_ne m ρ c main_v119_0 (by decide)

theorem carry_main_v119_0_26 (c : Dev nD) : W26 m ρ c (Proc.devRef .tc main_v119_0) = W23 m ρ c (Proc.devRef .tc main_v119_0) :=
  calc W26 m ρ c (Proc.devRef .tc main_v119_0)
    _ = W25 m ρ c (Proc.devRef .tc main_v119_0) := keep_in18 m ρ c 2 rfl
    _ = W23 m ρ c (Proc.devRef .tc main_v119_0) := carry_main_v119_0_25 m ρ c

theorem carry_main_v120_26 (c : Dev nD) : W26 m ρ c (Proc.devRef .tc main_v120) = W24 m ρ c (Proc.devRef .tc main_v120) :=
  calc W26 m ρ c (Proc.devRef .tc main_v120)
    _ = W25 m ρ c (Proc.devRef .tc main_v120) := W26_of_ne m ρ c main_v120 (by decide)
    _ = W24 m ρ c (Proc.devRef .tc main_v120) := W25_of_ne m ρ c main_v120 (by decide)

theorem carry_main_v121_0_26 (c : Dev nD) : W26 m ρ c (Proc.devRef .tc main_v121_0) = W25 m ρ c (Proc.devRef .tc main_v121_0) :=
  calc W26 m ρ c (Proc.devRef .tc main_v121_0)
    _ = W25 m ρ c (Proc.devRef .tc main_v121_0) := W26_of_ne m ρ c main_v121_0 (by decide)

theorem carry_main_v114_28 (c : Dev nD) : W28 m ρ c (Proc.devRef .tc main_v114) = W22 m ρ c (Proc.devRef .tc main_v114) :=
  calc W28 m ρ c (Proc.devRef .tc main_v114)
    _ = W27 m ρ c (Proc.devRef .tc main_v114) := W28_of_ne m ρ c main_v114 (by decide)
    _ = W26 m ρ c (Proc.devRef .tc main_v114) := keep_host19 m ρ c main_v114 (by decide)
    _ = W25 m ρ c (Proc.devRef .tc main_v114) := W26_of_ne m ρ c main_v114 (by decide)
    _ = W24 m ρ c (Proc.devRef .tc main_v114) := W25_of_ne m ρ c main_v114 (by decide)
    _ = W23 m ρ c (Proc.devRef .tc main_v114) := W24_of_ne m ρ c main_v114 (by decide)
    _ = W22 m ρ c (Proc.devRef .tc main_v114) := W23_of_ne m ρ c main_v114 (by decide)

/-! ## Arguments, as launched until they are read -/

theorem carry_main_arg3_5 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := keep_host0 m ρ c main_arg3 (by decide)
    _ = m ((c : Thread nD τ).loc main_arg3) := rfl

theorem carry_main_arg4_5 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := keep_host0 m ρ c main_arg4 (by decide)
    _ = m ((c : Thread nD τ).loc main_arg4) := rfl

theorem carry_main_arg5_12 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := W9_of_ne m ρ c main_arg5 (by decide)
    _ = W7 m ρ c (Proc.devRef .tc main_arg5) := keep_host5 m ρ c main_arg5 (by decide)
    _ = W6 m ρ c (Proc.devRef .tc main_arg5) := W7_of_ne m ρ c main_arg5 (by decide)
    _ = W5 m ρ c (Proc.devRef .tc main_arg5) := keep_host4 m ρ c main_arg5 (by decide)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := keep_host0 m ρ c main_arg5 (by decide)
    _ = m ((c : Thread nD τ).loc main_arg5) := rfl

theorem carry_main_arg6_12 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := W9_of_ne m ρ c main_arg6 (by decide)
    _ = W7 m ρ c (Proc.devRef .tc main_arg6) := keep_host5 m ρ c main_arg6 (by decide)
    _ = W6 m ρ c (Proc.devRef .tc main_arg6) := W7_of_ne m ρ c main_arg6 (by decide)
    _ = W5 m ρ c (Proc.devRef .tc main_arg6) := keep_host4 m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := keep_host0 m ρ c main_arg6 (by decide)
    _ = m ((c : Thread nD τ).loc main_arg6) := rfl

theorem carry_main_arg1_14 (c : Dev nD) : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := keep_host9 m ρ c main_arg1 (by decide)
    _ = W11 m ρ c (Proc.devRef .tc main_arg1) := W12_of_ne m ρ c main_arg1 (by decide)
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := W9_of_ne m ρ c main_arg1 (by decide)
    _ = W7 m ρ c (Proc.devRef .tc main_arg1) := keep_host5 m ρ c main_arg1 (by decide)
    _ = W6 m ρ c (Proc.devRef .tc main_arg1) := W7_of_ne m ρ c main_arg1 (by decide)
    _ = W5 m ρ c (Proc.devRef .tc main_arg1) := keep_host4 m ρ c main_arg1 (by decide)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := keep_host0 m ρ c main_arg1 (by decide)
    _ = m ((c : Thread nD τ).loc main_arg1) := rfl

theorem carry_main_arg7_19 (c : Dev nD) : W19 m ρ c (Proc.devRef .tc main_arg7) = m ((c : Thread nD τ).loc main_arg7) :=
  calc W19 m ρ c (Proc.devRef .tc main_arg7)
    _ = W18 m ρ c (Proc.devRef .tc main_arg7) := W19_of_ne m ρ c main_arg7 (by decide)
    _ = W17 m ρ c (Proc.devRef .tc main_arg7) := W18_of_ne m ρ c main_arg7 (by decide)
    _ = W16 m ρ c (Proc.devRef .tc main_arg7) := W17_of_ne m ρ c main_arg7 (by decide)
    _ = W15 m ρ c (Proc.devRef .tc main_arg7) := W16_of_ne m ρ c main_arg7 (by decide)
    _ = W14 m ρ c (Proc.devRef .tc main_arg7) := keep_host10 m ρ c main_arg7 (by decide)
    _ = W13 m ρ c (Proc.devRef .tc main_arg7) := W14_of_ne m ρ c main_arg7 (by decide)
    _ = W12 m ρ c (Proc.devRef .tc main_arg7) := keep_host9 m ρ c main_arg7 (by decide)
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := keep_host5 m ρ c main_arg7 (by decide)
    _ = W6 m ρ c (Proc.devRef .tc main_arg7) := W7_of_ne m ρ c main_arg7 (by decide)
    _ = W5 m ρ c (Proc.devRef .tc main_arg7) := keep_host4 m ρ c main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := keep_host0 m ρ c main_arg7 (by decide)
    _ = m ((c : Thread nD τ).loc main_arg7) := rfl

theorem carry_main_arg8_19 (c : Dev nD) : W19 m ρ c (Proc.devRef .tc main_arg8) = m ((c : Thread nD τ).loc main_arg8) :=
  calc W19 m ρ c (Proc.devRef .tc main_arg8)
    _ = W18 m ρ c (Proc.devRef .tc main_arg8) := W19_of_ne m ρ c main_arg8 (by decide)
    _ = W17 m ρ c (Proc.devRef .tc main_arg8) := W18_of_ne m ρ c main_arg8 (by decide)
    _ = W16 m ρ c (Proc.devRef .tc main_arg8) := W17_of_ne m ρ c main_arg8 (by decide)
    _ = W15 m ρ c (Proc.devRef .tc main_arg8) := W16_of_ne m ρ c main_arg8 (by decide)
    _ = W14 m ρ c (Proc.devRef .tc main_arg8) := keep_host10 m ρ c main_arg8 (by decide)
    _ = W13 m ρ c (Proc.devRef .tc main_arg8) := W14_of_ne m ρ c main_arg8 (by decide)
    _ = W12 m ρ c (Proc.devRef .tc main_arg8) := keep_host9 m ρ c main_arg8 (by decide)
    _ = W11 m ρ c (Proc.devRef .tc main_arg8) := W12_of_ne m ρ c main_arg8 (by decide)
    _ = W10 m ρ c (Proc.devRef .tc main_arg8) := W11_of_ne m ρ c main_arg8 (by decide)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := keep_host5 m ρ c main_arg8 (by decide)
    _ = W6 m ρ c (Proc.devRef .tc main_arg8) := W7_of_ne m ρ c main_arg8 (by decide)
    _ = W5 m ρ c (Proc.devRef .tc main_arg8) := keep_host4 m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := keep_host0 m ρ c main_arg8 (by decide)
    _ = m ((c : Thread nD τ).loc main_arg8) := rfl

theorem carry_main_arg9_26 (c : Dev nD) : W26 m ρ c (Proc.devRef .tc main_arg9) = m ((c : Thread nD τ).loc main_arg9) :=
  calc W26 m ρ c (Proc.devRef .tc main_arg9)
    _ = W25 m ρ c (Proc.devRef .tc main_arg9) := W26_of_ne m ρ c main_arg9 (by decide)
    _ = W24 m ρ c (Proc.devRef .tc main_arg9) := W25_of_ne m ρ c main_arg9 (by decide)
    _ = W23 m ρ c (Proc.devRef .tc main_arg9) := W24_of_ne m ρ c main_arg9 (by decide)
    _ = W22 m ρ c (Proc.devRef .tc main_arg9) := W23_of_ne m ρ c main_arg9 (by decide)
    _ = W21 m ρ c (Proc.devRef .tc main_arg9) := keep_host15 m ρ c main_arg9 (by decide)
    _ = W20 m ρ c (Proc.devRef .tc main_arg9) := W21_of_ne m ρ c main_arg9 (by decide)
    _ = W19 m ρ c (Proc.devRef .tc main_arg9) := keep_host14 m ρ c main_arg9 (by decide)
    _ = W18 m ρ c (Proc.devRef .tc main_arg9) := W19_of_ne m ρ c main_arg9 (by decide)
    _ = W17 m ρ c (Proc.devRef .tc main_arg9) := W18_of_ne m ρ c main_arg9 (by decide)
    _ = W16 m ρ c (Proc.devRef .tc main_arg9) := W17_of_ne m ρ c main_arg9 (by decide)
    _ = W15 m ρ c (Proc.devRef .tc main_arg9) := W16_of_ne m ρ c main_arg9 (by decide)
    _ = W14 m ρ c (Proc.devRef .tc main_arg9) := keep_host10 m ρ c main_arg9 (by decide)
    _ = W13 m ρ c (Proc.devRef .tc main_arg9) := W14_of_ne m ρ c main_arg9 (by decide)
    _ = W12 m ρ c (Proc.devRef .tc main_arg9) := keep_host9 m ρ c main_arg9 (by decide)
    _ = W11 m ρ c (Proc.devRef .tc main_arg9) := W12_of_ne m ρ c main_arg9 (by decide)
    _ = W10 m ρ c (Proc.devRef .tc main_arg9) := W11_of_ne m ρ c main_arg9 (by decide)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := keep_host5 m ρ c main_arg9 (by decide)
    _ = W6 m ρ c (Proc.devRef .tc main_arg9) := W7_of_ne m ρ c main_arg9 (by decide)
    _ = W5 m ρ c (Proc.devRef .tc main_arg9) := keep_host4 m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := keep_host0 m ρ c main_arg9 (by decide)
    _ = m ((c : Thread nD τ).loc main_arg9) := rfl

theorem carry_main_arg10_26 (c : Dev nD) : W26 m ρ c (Proc.devRef .tc main_arg10) = m ((c : Thread nD τ).loc main_arg10) :=
  calc W26 m ρ c (Proc.devRef .tc main_arg10)
    _ = W25 m ρ c (Proc.devRef .tc main_arg10) := W26_of_ne m ρ c main_arg10 (by decide)
    _ = W24 m ρ c (Proc.devRef .tc main_arg10) := W25_of_ne m ρ c main_arg10 (by decide)
    _ = W23 m ρ c (Proc.devRef .tc main_arg10) := W24_of_ne m ρ c main_arg10 (by decide)
    _ = W22 m ρ c (Proc.devRef .tc main_arg10) := W23_of_ne m ρ c main_arg10 (by decide)
    _ = W21 m ρ c (Proc.devRef .tc main_arg10) := keep_host15 m ρ c main_arg10 (by decide)
    _ = W20 m ρ c (Proc.devRef .tc main_arg10) := W21_of_ne m ρ c main_arg10 (by decide)
    _ = W19 m ρ c (Proc.devRef .tc main_arg10) := keep_host14 m ρ c main_arg10 (by decide)
    _ = W18 m ρ c (Proc.devRef .tc main_arg10) := W19_of_ne m ρ c main_arg10 (by decide)
    _ = W17 m ρ c (Proc.devRef .tc main_arg10) := W18_of_ne m ρ c main_arg10 (by decide)
    _ = W16 m ρ c (Proc.devRef .tc main_arg10) := W17_of_ne m ρ c main_arg10 (by decide)
    _ = W15 m ρ c (Proc.devRef .tc main_arg10) := W16_of_ne m ρ c main_arg10 (by decide)
    _ = W14 m ρ c (Proc.devRef .tc main_arg10) := keep_host10 m ρ c main_arg10 (by decide)
    _ = W13 m ρ c (Proc.devRef .tc main_arg10) := W14_of_ne m ρ c main_arg10 (by decide)
    _ = W12 m ρ c (Proc.devRef .tc main_arg10) := keep_host9 m ρ c main_arg10 (by decide)
    _ = W11 m ρ c (Proc.devRef .tc main_arg10) := W12_of_ne m ρ c main_arg10 (by decide)
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := keep_host5 m ρ c main_arg10 (by decide)
    _ = W6 m ρ c (Proc.devRef .tc main_arg10) := W7_of_ne m ρ c main_arg10 (by decide)
    _ = W5 m ρ c (Proc.devRef .tc main_arg10) := keep_host4 m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := keep_host0 m ρ c main_arg10 (by decide)
    _ = m ((c : Thread nD τ).loc main_arg10) := rfl

theorem carry_main_arg11_28 (c : Dev nD) : W28 m ρ c (Proc.devRef .tc main_arg11) = m ((c : Thread nD τ).loc main_arg11) :=
  calc W28 m ρ c (Proc.devRef .tc main_arg11)
    _ = W27 m ρ c (Proc.devRef .tc main_arg11) := W28_of_ne m ρ c main_arg11 (by decide)
    _ = W26 m ρ c (Proc.devRef .tc main_arg11) := keep_host19 m ρ c main_arg11 (by decide)
    _ = W25 m ρ c (Proc.devRef .tc main_arg11) := W26_of_ne m ρ c main_arg11 (by decide)
    _ = W24 m ρ c (Proc.devRef .tc main_arg11) := W25_of_ne m ρ c main_arg11 (by decide)
    _ = W23 m ρ c (Proc.devRef .tc main_arg11) := W24_of_ne m ρ c main_arg11 (by decide)
    _ = W22 m ρ c (Proc.devRef .tc main_arg11) := W23_of_ne m ρ c main_arg11 (by decide)
    _ = W21 m ρ c (Proc.devRef .tc main_arg11) := keep_host15 m ρ c main_arg11 (by decide)
    _ = W20 m ρ c (Proc.devRef .tc main_arg11) := W21_of_ne m ρ c main_arg11 (by decide)
    _ = W19 m ρ c (Proc.devRef .tc main_arg11) := keep_host14 m ρ c main_arg11 (by decide)
    _ = W18 m ρ c (Proc.devRef .tc main_arg11) := W19_of_ne m ρ c main_arg11 (by decide)
    _ = W17 m ρ c (Proc.devRef .tc main_arg11) := W18_of_ne m ρ c main_arg11 (by decide)
    _ = W16 m ρ c (Proc.devRef .tc main_arg11) := W17_of_ne m ρ c main_arg11 (by decide)
    _ = W15 m ρ c (Proc.devRef .tc main_arg11) := W16_of_ne m ρ c main_arg11 (by decide)
    _ = W14 m ρ c (Proc.devRef .tc main_arg11) := keep_host10 m ρ c main_arg11 (by decide)
    _ = W13 m ρ c (Proc.devRef .tc main_arg11) := W14_of_ne m ρ c main_arg11 (by decide)
    _ = W12 m ρ c (Proc.devRef .tc main_arg11) := keep_host9 m ρ c main_arg11 (by decide)
    _ = W11 m ρ c (Proc.devRef .tc main_arg11) := W12_of_ne m ρ c main_arg11 (by decide)
    _ = W10 m ρ c (Proc.devRef .tc main_arg11) := W11_of_ne m ρ c main_arg11 (by decide)
    _ = W9 m ρ c (Proc.devRef .tc main_arg11) := W10_of_ne m ρ c main_arg11 (by decide)
    _ = W8 m ρ c (Proc.devRef .tc main_arg11) := W9_of_ne m ρ c main_arg11 (by decide)
    _ = W7 m ρ c (Proc.devRef .tc main_arg11) := keep_host5 m ρ c main_arg11 (by decide)
    _ = W6 m ρ c (Proc.devRef .tc main_arg11) := W7_of_ne m ρ c main_arg11 (by decide)
    _ = W5 m ρ c (Proc.devRef .tc main_arg11) := keep_host4 m ρ c main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := keep_host0 m ρ c main_arg11 (by decide)
    _ = m ((c : Thread nD τ).loc main_arg11) := rfl

theorem carry_main_arg12_28 (c : Dev nD) : W28 m ρ c (Proc.devRef .tc main_arg12) = m ((c : Thread nD τ).loc main_arg12) :=
  calc W28 m ρ c (Proc.devRef .tc main_arg12)
    _ = W27 m ρ c (Proc.devRef .tc main_arg12) := W28_of_ne m ρ c main_arg12 (by decide)
    _ = W26 m ρ c (Proc.devRef .tc main_arg12) := keep_host19 m ρ c main_arg12 (by decide)
    _ = W25 m ρ c (Proc.devRef .tc main_arg12) := W26_of_ne m ρ c main_arg12 (by decide)
    _ = W24 m ρ c (Proc.devRef .tc main_arg12) := W25_of_ne m ρ c main_arg12 (by decide)
    _ = W23 m ρ c (Proc.devRef .tc main_arg12) := W24_of_ne m ρ c main_arg12 (by decide)
    _ = W22 m ρ c (Proc.devRef .tc main_arg12) := W23_of_ne m ρ c main_arg12 (by decide)
    _ = W21 m ρ c (Proc.devRef .tc main_arg12) := keep_host15 m ρ c main_arg12 (by decide)
    _ = W20 m ρ c (Proc.devRef .tc main_arg12) := W21_of_ne m ρ c main_arg12 (by decide)
    _ = W19 m ρ c (Proc.devRef .tc main_arg12) := keep_host14 m ρ c main_arg12 (by decide)
    _ = W18 m ρ c (Proc.devRef .tc main_arg12) := W19_of_ne m ρ c main_arg12 (by decide)
    _ = W17 m ρ c (Proc.devRef .tc main_arg12) := W18_of_ne m ρ c main_arg12 (by decide)
    _ = W16 m ρ c (Proc.devRef .tc main_arg12) := W17_of_ne m ρ c main_arg12 (by decide)
    _ = W15 m ρ c (Proc.devRef .tc main_arg12) := W16_of_ne m ρ c main_arg12 (by decide)
    _ = W14 m ρ c (Proc.devRef .tc main_arg12) := keep_host10 m ρ c main_arg12 (by decide)
    _ = W13 m ρ c (Proc.devRef .tc main_arg12) := W14_of_ne m ρ c main_arg12 (by decide)
    _ = W12 m ρ c (Proc.devRef .tc main_arg12) := keep_host9 m ρ c main_arg12 (by decide)
    _ = W11 m ρ c (Proc.devRef .tc main_arg12) := W12_of_ne m ρ c main_arg12 (by decide)
    _ = W10 m ρ c (Proc.devRef .tc main_arg12) := W11_of_ne m ρ c main_arg12 (by decide)
    _ = W9 m ρ c (Proc.devRef .tc main_arg12) := W10_of_ne m ρ c main_arg12 (by decide)
    _ = W8 m ρ c (Proc.devRef .tc main_arg12) := W9_of_ne m ρ c main_arg12 (by decide)
    _ = W7 m ρ c (Proc.devRef .tc main_arg12) := keep_host5 m ρ c main_arg12 (by decide)
    _ = W6 m ρ c (Proc.devRef .tc main_arg12) := W7_of_ne m ρ c main_arg12 (by decide)
    _ = W5 m ρ c (Proc.devRef .tc main_arg12) := keep_host4 m ρ c main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := keep_host0 m ρ c main_arg12 (by decide)
    _ = m ((c : Thread nD τ).loc main_arg12) := rfl

end Cert.KernelIdeal.Carry

end
-- ==== Proof.BridgeX.lean ====
/-
  The first graph convolution's five members, kernel against reference. From an input X (columns b·65 + f in one
  program, f·32 + b in the other) both programs form X, S₀X, 2·S₀(S₀X) − X, S₁(S₀X) and 2·S₁(S₁S₀X) − S₀X with the
  same two supports: a product on the left acts on each column separately, and the combination is entrywise, so
  the relation between the two column orders is kept member by member. In the kernel each product is one launched
  region whose result array is the whole-array product of the arrays it was launched on.
-/
import proofs.«132349_j60696477827149_2_alg».proof.Proof.Bridge1
import proofs.«132349_j60696477827149_2_alg».proof.Proof.RegionsDiffusion
import proofs.«132349_j60696477827149_2_alg».proof.Proof.KernelCarry

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate Cert.DenseLib Cert.KernelIdeal.Carry
open Cert.ReferenceIdeal.Value (res_main_v6 res_main_v14 res_main_v21 res_main_v22 res_main_v27)

variable (m : (ℓ : Loc nD τ sig) → Buf (Elt Ideal) ℓ) (ρ : Dev nD → PrngReg) (c : Dev nD)
variable (V0 : Valuation Cert.ReferenceIdeal.τ Cert.ReferenceIdeal.sig (Elt Ideal))
variable (h0 : V0 (Proc.devRef .tc Cert.ReferenceIdeal.main_arg0) = m ((c : Thread nD τ).loc main_arg0))
  (h1 : V0 (Proc.devRef .tc Cert.ReferenceIdeal.main_arg1) = m ((c : Thread nD τ).loc main_arg1))
  (h2 : V0 (Proc.devRef .tc Cert.ReferenceIdeal.main_arg2) = m ((c : Thread nD τ).loc main_arg2))

/-! ## The kernel's four regions -/

include h0 h1 h2 in
theorem x1_eq : W2 m ρ c (Proc.devRef .tc main_v26_0) = x1K V0 := by
  have e := W2_arr m ρ c 2
  rw [Cert.KernelIdeal.RegionValue.region0_2] at e
  have s : V1 m ρ c (Pipeline.arrRef spec0 0) = res_main_v6 V0 := sup0_eq m ρ c V0 h2
  have x : V1 m ρ c (Pipeline.arrRef spec0 1) = x0K V0 := x0b_eq m ρ c V0 h0 h1
  rw [s, x] at e
  exact e

include h0 h1 h2 in
theorem x1b_eq : W2 m ρ c (Proc.devRef .tc main_v26_1) = x1K V0 := by
  have e := W2_arr m ρ c 3
  rw [Cert.KernelIdeal.RegionValue.region0_3] at e
  have s : V1 m ρ c (Pipeline.arrRef spec0 0) = res_main_v6 V0 := sup0_eq m ρ c V0 h2
  have x : V1 m ρ c (Pipeline.arrRef spec0 1) = x0K V0 := x0b_eq m ρ c V0 h0 h1
  rw [s, x] at e
  exact e

include h0 h1 h2 in
theorem x2_eq : W3 m ρ c (Proc.devRef .tc main_v27) = x2K V0 := by
  have e := W3_arr m ρ c 3
  rw [Cert.KernelIdeal.RegionValue.region1_3] at e
  have s : V2 m ρ c (Pipeline.arrRef spec1 0) = res_main_v6 V0 :=
    (carry_main_v15_2 m ρ c).trans (sup0_eq m ρ c V0 h2)
  have x : V2 m ρ c (Pipeline.arrRef spec1 1) = x1K V0 := x1b_eq m ρ c V0 h0 h1 h2
  have z : V2 m ρ c (Pipeline.arrRef spec1 2) = x0K V0 :=
    (carry_main_v24_2 m ρ c).trans (x0_eq m ρ c V0 h0 h1)
  rw [s, x, z] at e
  exact e

include h0 h1 h2 in
theorem x3_eq : W4 m ρ c (Proc.devRef .tc main_v28_0) = x3K V0 := by
  have e := W4_arr m ρ c 2
  rw [Cert.KernelIdeal.RegionValue.region2_2] at e
  have s : V3 m ρ c (Pipeline.arrRef spec2 0) = res_main_v14 V0 :=
    (carry_main_v16_3 m ρ c).trans (sup1_eq m ρ c V0 h2)
  have x : V3 m ρ c (Pipeline.arrRef spec2 1) = x1K V0 :=
    (carry_main_v26_1_3 m ρ c).trans (x1b_eq m ρ c V0 h0 h1 h2)
  rw [s, x] at e
  exact e

include h0 h1 h2 in
theorem x3b_eq : W4 m ρ c (Proc.devRef .tc main_v28_1) = x3K V0 := by
  have e := W4_arr m ρ c 3
  rw [Cert.KernelIdeal.RegionValue.region2_3] at e
  have s : V3 m ρ c (Pipeline.arrRef spec2 0) = res_main_v14 V0 :=
    (carry_main_v16_3 m ρ c).trans (sup1_eq m ρ c V0 h2)
  have x : V3 m ρ c (Pipeline.arrRef spec2 1) = x1K V0 :=
    (carry_main_v26_1_3 m ρ c).trans (x1b_eq m ρ c V0 h0 h1 h2)
  rw [s, x] at e
  exact e

include h0 h1 h2 in
theorem x4_eq : W5 m ρ c (Proc.devRef .tc main_v29) = x4K V0 := by
  have e := W5_arr m ρ c 3
  rw [Cert.KernelIdeal.RegionValue.region3_3] at e
  have s : V4 m ρ c (Pipeline.arrRef spec3 0) = res_main_v14 V0 :=
    (carry_main_v16_4 m ρ c).trans (sup1_eq m ρ c V0 h2)
  have x : V4 m ρ c (Pipeline.arrRef spec3 1) = x3K V0 := x3b_eq m ρ c V0 h0 h1 h2
  have z : V4 m ρ c (Pipeline.arrRef spec3 2) = x1K V0 :=
    (carry_main_v26_0_4 m ρ c).trans (x1_eq m ρ c V0 h0 h1 h2)
  rw [s, x, z] at e
  exact e

/-! ## Against the reference's members -/

/-- The reference's general dot with a support on the left is the plain product. -/
theorem dot2080 (S : FVec Ideal Cert.ReferenceIdeal.S2048x2048 .f32) (X : FVec Ideal Cert.ReferenceIdeal.S2048x2080 .f32) :
    Host.dotGeneral (F := Ideal) (φ₁ := .f32) (φ₂ := .f32) Cert.ReferenceIdeal.dot_S2048x2048_S2048x2080_S2048x2080_1_0_0_1_n_n none S X
      = (mm (M := 2048) (K := 2048) (N := 2080) S X : FVec Ideal Cert.ReferenceIdeal.S2048x2080 .f32) :=
  dotGeneral_eq_mm _ rfl _ _

/-- The reference's Chebyshev step, entry by entry. -/
theorem comb2080 (Y Z : FVec Ideal Cert.ReferenceIdeal.S2048x2080 .f32) :
    subf (mulf (broadcastInDim Cert.ReferenceIdeal.S2048x2080 ![] Cert.ReferenceIdeal.Gen.bcast_S_S2048x2080
        (constant (F := Ideal) Cert.ReferenceIdeal.S_ .f32 0x40000000#32)) Y) Z
      = (fun i => two * Y i - Z i : FVec Ideal Cert.ReferenceIdeal.S2048x2080 .f32) := by
  funext i
  show broadcastInDim Cert.ReferenceIdeal.S2048x2080 ![] Cert.ReferenceIdeal.Gen.bcast_S_S2048x2080
      (constant (F := Ideal) Cert.ReferenceIdeal.S_ .f32 0x40000000#32) i * Y i - Z i = _
  rw [Cert.LayoutLib.broadcastInDim_scalar_apply]
  rfl

/-- The reference's third and fifth members. -/
abbrev x2R : FVec Ideal Cert.ReferenceIdeal.S2048x2080 .f32 :=
  subf (mulf (broadcastInDim Cert.ReferenceIdeal.S2048x2080 ![] Cert.ReferenceIdeal.Gen.bcast_S_S2048x2080
      (constant (F := Ideal) Cert.ReferenceIdeal.S_ .f32 0x40000000#32))
    (Host.dotGeneral (F := Ideal) (φ₁ := .f32) (φ₂ := .f32) Cert.ReferenceIdeal.dot_S2048x2048_S2048x2080_S2048x2080_1_0_0_1_n_n none (res_main_v6 V0) (res_main_v22 V0)))
    (res_main_v21 V0)
abbrev x4R : FVec Ideal Cert.ReferenceIdeal.S2048x2080 .f32 :=
  subf (mulf (broadcastInDim Cert.ReferenceIdeal.S2048x2080 ![] Cert.ReferenceIdeal.Gen.bcast_S_S2048x2080
      (constant (F := Ideal) Cert.ReferenceIdeal.S_ .f32 0x40000000#32))
    (Host.dotGeneral (F := Ideal) (φ₁ := .f32) (φ₂ := .f32) Cert.ReferenceIdeal.dot_S2048x2048_S2048x2080_S2048x2080_1_0_0_1_n_n none (res_main_v14 V0) (res_main_v27 V0)))
    (res_main_v22 V0)

theorem x1_cols : Cols65 (x1K V0) (res_main_v22 V0) := by
  unfold Cert.ReferenceIdeal.Value.res_main_v22
  rw [dot2080]
  exact cols65_mm _ _ _ (x0_cols V0)

theorem x2_cols : Cols65 (x2K V0) (x2R V0) := by
  unfold x2R
  rw [comb2080, dot2080]
  exact cols65_comb _ _ _ _ _ (cols65_mm _ _ _ (x1_cols V0)) (x0_cols V0)

theorem x3_cols : Cols65 (x3K V0) (res_main_v27 V0) := by
  unfold Cert.ReferenceIdeal.Value.res_main_v27
  rw [dot2080]
  exact cols65_mm _ _ _ (x1_cols V0)

theorem x4_cols : Cols65 (x4K V0) (x4R V0) := by
  unfold x4R
  rw [comb2080, dot2080]
  exact cols65_comb _ _ _ _ _ (cols65_mm _ _ _ (x3_cols V0)) (x1_cols V0)

end Cert.Bridge
end
-- ==== Proof.LibRelateActivation.lean ====
/-
  The two entrywise steps that follow a product with a weight matrix, for one tensor held in two layouts: a gate
  1 / (1 + e^(-y)), which one side applies as a single operation and the other spells out with a negation, an
  exponential, a sum with the constant one and a quotient; and a hyperbolic tangent, applied before a reshape on one side
  and after it on the other. Over the extended reals the two spellings of the gate are one function, and an entrywise
  function commutes with any re-indexing, so flattened rows n·32 + b against b·2048 + n stay related, and reshaped to
  [2048, 32, O] and [32, 2048, O] they become the node-major and batch-major layouts of one tensor. None mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«132349_j60696477827149_2_alg».proof.Proof.LibRelate
import proofs.«132349_j60696477827149_2_alg».proof.Proof.LibRowBlocks

noncomputable section

namespace Cert.Relate

open Idealize.ShloMosaic Idealize.ShloMosaic.ValueIdx

variable {α : Type}

/-! ## The two reshapes of flattened rows, read at an index -/

/-- [65536, O] reshaped to [2048, 32, O] reads, at (n, b, o), row n·32 + b. -/
theorem shapeCast_nodeMajor_apply {O : ℕ} (X : (⟨2, ![65536, O]⟩ : Shape).Idx → α)
    (h : (⟨2, ![65536, O]⟩ : Shape).ShapeCasts ⟨3, ![2048, 32, O]⟩) (n : Fin 2048) (b : Fin 32) (o : Fin O) :
    shapeCast ⟨3, ![2048, 32, O]⟩ X h (ix3 n b o) = X (ix2 (⟨n.val * 32 + b.val, by omega⟩ : Fin 65536) o) :=
  shapeCast_apply X h _ _ (by
    rw [Shape.rowMajor_val_three, Shape.rowMajor_val_two]
    rfl)

/-- [65536, O] reshaped to [32, 2048, O] reads, at (b, n, o), row b·2048 + n. -/
theorem shapeCast_batchMajor_apply {O : ℕ} (X : (⟨2, ![65536, O]⟩ : Shape).Idx → α)
    (h : (⟨2, ![65536, O]⟩ : Shape).ShapeCasts ⟨3, ![32, 2048, O]⟩) (b : Fin 32) (n : Fin 2048) (o : Fin O) :
    shapeCast ⟨3, ![32, 2048, O]⟩ X h (ix3 b n o) = X (ix2 (⟨b.val * 2048 + n.val, by omega⟩ : Fin 65536) o) :=
  shapeCast_apply X h _ _ (by
    rw [Shape.rowMajor_val_three, Shape.rowMajor_val_two]
    rfl)

/-! ## The gate -/

/-- The spelled-out gate at an index: with the broadcast constant read as one, it is 1 / (1 + e^(-y)) of the entry. -/
theorem gate_apply {s : Shape} (hb : (⟨0, ![]⟩ : Shape).BroadcastsInDim s (![] : Fin 0 → Fin s.rank))
    (Y : FVec Ideal s .f32) (i : s.Idx) :
    Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf Y))) i
      = Ideal.logistic (Y i) := by
  show Ideal.div (broadcastInDim s ![] hb (constant (F := Ideal) ⟨0, ![]⟩ .f32 0x3F800000#32) i)
      (broadcastInDim s ![] hb (constant (F := Ideal) ⟨0, ![]⟩ .f32 0x3F800000#32) i + Ideal.exp (-(Y i)))
    = Ideal.div 1 (1 + Ideal.exp (-(Y i)))
  rw [Cert.LayoutLib.broadcastInDim_scalar_apply]
  show Ideal.div (Ideal.ofBits .f32 0x3F800000#32) (Ideal.ofBits .f32 0x3F800000#32 + Ideal.exp (-(Y i)))
    = Ideal.div 1 (1 + Ideal.exp (-(Y i)))
  rw [Ideal.ofBits_one_f32]

/-- The spelled-out gate is the single operation, as whole arrays. -/
theorem gate_eq_logistic {s : Shape} (hb : (⟨0, ![]⟩ : Shape).BroadcastsInDim s (![] : Fin 0 → Fin s.rank))
    (Y : FVec Ideal s .f32) :
    Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf Y)))
      = logistic Y :=
  funext fun i => gate_apply hb Y i

/-- The gate keeps the row relation, whichever way each side spells it. -/
theorem rows_gate {O : ℕ} (Y Y' : FVec Ideal ⟨2, ![65536, O]⟩ .f32)
    (hb : (⟨0, ![]⟩ : Shape).BroadcastsInDim ⟨2, ![65536, O]⟩ (![] : Fin 0 → Fin 2)) (hY : Rows Y Y') :
    Rows (logistic Y)
      (Host.divf (broadcastInDim ⟨2, ![65536, O]⟩ ![] hb (constant (F := Ideal) ⟨0, ![]⟩ .f32 0x3F800000#32))
        (addf (broadcastInDim ⟨2, ![65536, O]⟩ ![] hb (constant (F := Ideal) ⟨0, ![]⟩ .f32 0x3F800000#32)) (Host.exp (Host.negf Y')))) := by
  intro n b o
  refine Eq.trans ?_ (gate_apply hb Y' _).symm
  show Ideal.logistic (Y _) = Ideal.logistic (Y' _)
  rw [hY n b o]

/-- The gate followed by the two reshapes: the node-major and batch-major layouts of one tensor. -/
theorem swap3_gate {O : ℕ} (Y Y' : FVec Ideal ⟨2, ![65536, O]⟩ .f32)
    (hb : (⟨0, ![]⟩ : Shape).BroadcastsInDim ⟨2, ![65536, O]⟩ (![] : Fin 0 → Fin 2))
    (h : (⟨2, ![65536, O]⟩ : Shape).ShapeCasts ⟨3, ![2048, 32, O]⟩)
    (h' : (⟨2, ![65536, O]⟩ : Shape).ShapeCasts ⟨3, ![32, 2048, O]⟩) (hY : Rows Y Y') :
    Swap3 (shapeCast ⟨3, ![2048, 32, O]⟩ (logistic Y) h)
      (shapeCast ⟨3, ![32, 2048, O]⟩
        (Host.divf (broadcastInDim ⟨2, ![65536, O]⟩ ![] hb (constant (F := Ideal) ⟨0, ![]⟩ .f32 0x3F800000#32))
          (addf (broadcastInDim ⟨2, ![65536, O]⟩ ![] hb (constant (F := Ideal) ⟨0, ![]⟩ .f32 0x3F800000#32)) (Host.exp (Host.negf Y')))) h') := by
  intro n b o
  exact (shapeCast_nodeMajor_apply _ h n b o).trans
    ((rows_gate Y Y' hb hY n b o).trans (shapeCast_batchMajor_apply _ h' b n o).symm)

/-! ## The hyperbolic tangent -/

/-- The tangent before the reshape on one side, after it on the other. -/
theorem swap3_tanh {O : ℕ} (Y Y' : FVec Ideal ⟨2, ![65536, O]⟩ .f32)
    (h : (⟨2, ![65536, O]⟩ : Shape).ShapeCasts ⟨3, ![2048, 32, O]⟩)
    (h' : (⟨2, ![65536, O]⟩ : Shape).ShapeCasts ⟨3, ![32, 2048, O]⟩) (hY : Rows Y Y') :
    Swap3 (shapeCast ⟨3, ![2048, 32, O]⟩ (tanh Y) h) (Host.tanh (shapeCast ⟨3, ![32, 2048, O]⟩ Y' h')) := by
  intro n b o
  refine (shapeCast_nodeMajor_apply _ h n b o).trans ?_
  show Ideal.tanh (Y _) = Ideal.tanh (shapeCast ⟨3, ![32, 2048, O]⟩ Y' h' (ix3 b n o))
  rw [shapeCast_batchMajor_apply Y' h' b n o, hY n b o]

end Cert.Relate

end
-- ==== Proof.LibProjection.lean ====
/-
  The five-term projection of a graph network, in two spellings. One program keeps the node axis first and the batch
  axis second: it multiplies each of its five `[2048·32, F]` operands by its own `[F, O]` slice of a `[F·5, O]` weight
  (rows `f·5 + m` of the weight, `m` the operand's number), adds the five products from the left and adds a bias row.
  The other keeps the batch axis first: it stacks its five operands, permutes the stack so that the operand's number is
  the innermost axis, flattens it to `[32·2048, F·5]` and multiplies once by the whole weight, then adds the bias.
  When the operands hold the same tensors in the two layouts, row `n·32 + b` of the first result is row `b·2048 + n`
  of the second: the one contraction over `k = f·5 + m` is the double sum over `(f, m)`, regrouped as five sums over
  `f`. Only commutativity and associativity of the sum on the extended reals are used, so nothing is asked of the
  entries. Stated at 65 and at 128 features, for any output width `O`.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«132349_j60696477827149_2_alg».proof.Proof.LibIndex
import proofs.«132349_j60696477827149_2_alg».proof.Proof.LibDense
import proofs.«132349_j60696477827149_2_alg».proof.Proof.LibRowBlocks
import proofs.«132349_j60696477827149_2_alg».proof.Proof.LibRelate

noncomputable section

namespace Cert.Relate

open Idealize.ShloMosaic Idealize.ShloMosaic.ValueIdx Cert.LayoutLib Cert.DenseLib Cert.RowBlocks

variable {α : Type}

/-- A sum over `N = F · 5` positions is the double sum over `(f, m)` with position `f · 5 + m`. -/
theorem sum_split5 {M : Type*} [AddCommMonoid M] {F N : ℕ} (hN : N = F * 5) (h : Fin N → M) :
    ∑ k, h k = ∑ f : Fin F, ∑ m : Fin 5, h ⟨f.val * 5 + m.val, by have := f.isLt; have := m.isLt; omega⟩ := by
  subst hN
  rw [← finProdFinEquiv.sum_comp, Fintype.sum_prod_type]
  refine Finset.sum_congr rfl fun f _ => Finset.sum_congr rfl fun m _ => congrArg h (Fin.ext ?_)
  show m.val + 5 * f.val = f.val * 5 + m.val
  omega

/-- A double sum over `(f, m)`, `m` below five, is the five sums over `f` added from the left. -/
theorem sum_five_regroup {M : Type*} [AddCommMonoid M] {F : ℕ} (g : Fin F → Fin 5 → M) :
    ∑ f : Fin F, ∑ m : Fin 5, g f m = ((((∑ f, g f 0) + ∑ f, g f 1) + ∑ f, g f 2) + ∑ f, g f 3) + ∑ f, g f 4 := by
  simp only [Fin.sum_univ_five, Finset.sum_add_distrib]

/-- The regrouping behind both programs, at any sizes: if the stacked operand `S` holds, at row `ρ'` and column `f·5 + m`,
    the entry `Xr m` holds at row `ρ` and column `f`, and `W m` holds at `(f, o)` the weight's row `f·5 + m`, then the five
    products added from the left are the one product against the whole weight. Only commutativity and associativity of
    the sum are used. -/
theorem proj_core {Fd K O R R' : ℕ} (hK : K = Fd * 5)
    (Xr : Fin 5 → (⟨2, ![R, Fd]⟩ : Shape).Idx → EReal) (W : Fin 5 → (⟨2, ![Fd, O]⟩ : Shape).Idx → EReal)
    (S : (⟨2, ![R', K]⟩ : Shape).Idx → EReal) (w : (⟨2, ![K, O]⟩ : Shape).Idx → EReal)
    (ρ : Fin R) (ρ' : Fin R') (o : Fin O)
    (hS : ∀ (f : Fin Fd) (m : Fin 5), S (ix2 ρ' (⟨f.val * 5 + m.val, by omega⟩ : Fin K)) = Xr m (ix2 ρ f))
    (hW : ∀ (f : Fin Fd) (m : Fin 5), W m (ix2 f o) = w (ix2 (⟨f.val * 5 + m.val, by omega⟩ : Fin K) o)) :
    mm (Xr 0) (W 0) (ix2 ρ o) + mm (Xr 1) (W 1) (ix2 ρ o) + mm (Xr 2) (W 2) (ix2 ρ o) + mm (Xr 3) (W 3) (ix2 ρ o)
      + mm (Xr 4) (W 4) (ix2 ρ o) = mm S w (ix2 ρ' o) := by
  simp only [mm_apply]
  rw [sum_split5 hK, sum_five_regroup]
  simp only [hS, hW]

/-- Two sums related row by row, term by term, are related row by row. -/
theorem rows_addf {O : ℕ} (A P A' P' : FVec Ideal ⟨2, ![65536, O]⟩ .f32) (hA : Rows A A') (hP : Rows P P') :
    Rows (addf A P) (addf A' P') := fun n b o => by
  show A _ + P _ = A' _ + P' _
  rw [hA n b o, hP n b o]

/-- A bias laid along every row is related to itself: a row's bias does not depend on the row. -/
theorem rows_rows_of_eq {O : ℕ} (u v : Fin O → EReal) (h : ∀ o, u o = v o) :
    Rows (rows (M := 65536) u) (rows (M := 65536) v) := fun _ _ o => h o

/-- The regrouping, row by row: five products added from the left, against the one product of the stacked operand,
    when the stacked operand's row `b·2048 + n` holds at column `f·5 + m` what operand `m` holds at row `n·32 + b`,
    column `f`, and slice `m` of the weight holds at `(f, o)` the weight's row `f·5 + m`. -/
theorem proj_rows_core {Fd K O : ℕ} (hK : K = Fd * 5)
    (A0 A1 A2 A3 A4 : FVec Ideal ⟨2, ![65536, Fd]⟩ .f32) (W0 W1 W2 W3 W4 : FVec Ideal ⟨2, ![Fd, O]⟩ .f32)
    (S : FVec Ideal ⟨2, ![65536, K]⟩ .f32) (w : FVec Ideal ⟨2, ![K, O]⟩ .f32)
    (hS : ∀ (n : Fin 2048) (b : Fin 32) (f : Fin Fd) (m : Fin 5),
      S (ix2 (⟨b.val * 2048 + n.val, by omega⟩ : Fin 65536) (⟨f.val * 5 + m.val, by omega⟩ : Fin K))
        = (![A0, A1, A2, A3, A4] m) (ix2 (⟨n.val * 32 + b.val, by omega⟩ : Fin 65536) f))
    (hW : ∀ (f : Fin Fd) (m : Fin 5) (o : Fin O),
      (![W0, W1, W2, W3, W4] m) (ix2 f o) = w (ix2 (⟨f.val * 5 + m.val, by omega⟩ : Fin K) o)) :
    Rows (addf (F := Ideal) (φ := .f32) (addf (addf (addf (mm A0 W0) (mm A1 W1)) (mm A2 W2)) (mm A3 W3)) (mm A4 W4))
      (mm S w) := fun n b o =>
  proj_core hK ![A0, A1, A2, A3, A4] ![W0, W1, W2, W3, W4] S w _ _ o (hS n b) (fun f m => hW f m o)

/-! ## 65 features -/

/-- `[2048, 32·65]` recast to `[2048·32, 65]`: row `n·32 + b`, column `f` is row `n`, column `b·65 + f`. -/
theorem rowsCast65_apply (X : (⟨2, ![2048, 2080]⟩ : Shape).Idx → α)
    (h : (⟨2, ![2048, 2080]⟩ : Shape).ShapeCasts ⟨2, ![65536, 65]⟩) (n : Fin 2048) (b : Fin 32) (f : Fin 65) :
    shapeCast ⟨2, ![65536, 65]⟩ X h (ix2 (⟨n.val * 32 + b.val, by omega⟩ : Fin 65536) f)
      = X (ix2 n (⟨b.val * 65 + f.val, by omega⟩ : Fin 2080)) :=
  shapeCast_apply X h _ _ (by
    rw [Shape.rowMajor_val_two, Shape.rowMajor_val_two]
    show n.val * 2080 + (b.val * 65 + f.val) = (n.val * 32 + b.val) * 65 + f.val
    omega)

/-- Slice `m` of the middle axis of a `[65·5, O]` weight seen as `[65, 5, O]`: entry `(f, o)` is row `f·5 + m` of the weight. -/
theorem wslice65_apply {O : ℕ} (w : (⟨2, ![325, O]⟩ : Shape).Idx → α) (m : ℕ) (hm : m < 5)
    (h1 : (⟨2, ![325, O]⟩ : Shape).ShapeCasts ⟨3, ![65, 5, O]⟩)
    (h2 : (⟨3, ![65, 5, O]⟩ : Shape).Slices ![0, m, 0] ⟨3, ![65, 1, O]⟩)
    (h3 : (⟨3, ![65, 1, O]⟩ : Shape).ShapeCasts ⟨2, ![65, O]⟩) (f : Fin 65) (o : Fin O) :
    shapeCast ⟨2, ![65, O]⟩ (extractStridedSlice ⟨3, ![65, 1, O]⟩ ![0, m, 0] (shapeCast ⟨3, ![65, 5, O]⟩ w h1) h2) h3 (ix2 f o)
      = w (ix2 (⟨f.val * 5 + m, by omega⟩ : Fin 325) o) := by
  refine (shapeCast_apply _ h3 (ix2 f o) (ix3 f (0 : Fin 1) o) ?_).trans ?_
  · rw [Shape.rowMajor_val_three, Shape.rowMajor_val_two]
    show (f.val * 1 + 0) * O + o.val = f.val * O + o.val
    rw [Nat.mul_one, Nat.add_zero]
  refine (extractStridedSlice_apply _ _ h2 (ix3 f (0 : Fin 1) o) (ix3 f (⟨m, hm⟩ : Fin 5) o) fun a => ?_).trans ?_
  · match a with
    | ⟨0, _⟩ => show f.val = 0 + f.val; omega
    | ⟨1, _⟩ => show m = m + 0; omega
    | ⟨2, _⟩ => show o.val = 0 + o.val; omega
  refine shapeCast_apply w h1 (ix3 f (⟨m, hm⟩ : Fin 5) o) (ix2 (⟨f.val * 5 + m, by omega⟩ : Fin 325) o) ?_
  rw [Shape.rowMajor_val_two, Shape.rowMajor_val_three]
  rfl

/-- Five unit pieces stacked along a new leading axis: at `(m, n, c)` the stack reads piece `m` at `(0, n, c)`. -/
theorem concat5x2080_apply (a0 a1 a2 a3 a4 : (⟨3, ![1, 2048, 2080]⟩ : Shape).Idx → α)
    (hc : Shape.Concatenates (([⟨⟨3, ![1, 2048, 2080]⟩, a0⟩, ⟨⟨3, ![1, 2048, 2080]⟩, a1⟩, ⟨⟨3, ![1, 2048, 2080]⟩, a2⟩,
      ⟨⟨3, ![1, 2048, 2080]⟩, a3⟩, ⟨⟨3, ![1, 2048, 2080]⟩, a4⟩] : List ((s : Shape) × (s.Idx → α))).map (·.1)) ⟨3, ![5, 2048, 2080]⟩ 0)
    (m : Fin 5) (n : Fin 2048) (c : Fin 2080) :
    concatenate ⟨3, ![5, 2048, 2080]⟩ 0 [⟨⟨3, ![1, 2048, 2080]⟩, a0⟩, ⟨⟨3, ![1, 2048, 2080]⟩, a1⟩, ⟨⟨3, ![1, 2048, 2080]⟩, a2⟩,
      ⟨⟨3, ![1, 2048, 2080]⟩, a3⟩, ⟨⟨3, ![1, 2048, 2080]⟩, a4⟩] hc (ix3 m n c)
      = (![a0, a1, a2, a3, a4] m) (ix3 (0 : Fin 1) n c) := by
  refine concatenate_ofFn_unit_apply (t := ⟨3, ![5, 2048, 2080]⟩) (s₁ := ⟨3, ![1, 2048, 2080]⟩) (0 : Fin 3)
    (f := ![a0, a1, a2, a3, a4]) hc rfl rfl (ix3 m n c) m rfl (ix3 (0 : Fin 1) n c) fun b hb => ?_
  match b with
  | ⟨0, _⟩ => exact absurd rfl hb
  | ⟨1, _⟩ => rfl
  | ⟨2, _⟩ => rfl

/-- The second program's stacked operand. Five `[2048, 65·32]` arrays, each given a leading unit axis, are stacked to
    `[5, 2048, 2080]`, seen as `[5, 2048, 65, 32]`, permuted to `[32, 2048, 65, 5]` and flattened to `[32·2048, 65·5]`:
    row `b·2048 + n`, column `f·5 + m` of the result is array `m` at row `n`, column `f·32 + b`. -/
theorem stack65_apply (Y0 Y1 Y2 Y3 Y4 : (⟨2, ![2048, 2080]⟩ : Shape).Idx → α)
    (hb : (⟨2, ![2048, 2080]⟩ : Shape).BroadcastsInDim ⟨3, ![1, 2048, 2080]⟩ (![1, 2] : Fin 2 → Fin 3))
    (hc : Shape.Concatenates (([⟨⟨3, ![1, 2048, 2080]⟩, broadcastInDim ⟨3, ![1, 2048, 2080]⟩ ![1, 2] hb Y0⟩,
      ⟨⟨3, ![1, 2048, 2080]⟩, broadcastInDim ⟨3, ![1, 2048, 2080]⟩ ![1, 2] hb Y1⟩,
      ⟨⟨3, ![1, 2048, 2080]⟩, broadcastInDim ⟨3, ![1, 2048, 2080]⟩ ![1, 2] hb Y2⟩,
      ⟨⟨3, ![1, 2048, 2080]⟩, broadcastInDim ⟨3, ![1, 2048, 2080]⟩ ![1, 2] hb Y3⟩,
      ⟨⟨3, ![1, 2048, 2080]⟩, broadcastInDim ⟨3, ![1, 2048, 2080]⟩ ![1, 2] hb Y4⟩] : List ((s : Shape) × (s.Idx → α))).map (·.1))
      ⟨3, ![5, 2048, 2080]⟩ 0)
    (h1 : (⟨3, ![5, 2048, 2080]⟩ : Shape).ShapeCasts ⟨4, ![5, 2048, 65, 32]⟩)
    (ht : (⟨4, ![5, 2048, 65, 32]⟩ : Shape).Transposes [3, 1, 2, 0] ⟨4, ![32, 2048, 65, 5]⟩)
    (h2 : (⟨4, ![32, 2048, 65, 5]⟩ : Shape).ShapeCasts ⟨2, ![65536, 325]⟩)
    (n : Fin 2048) (b : Fin 32) (f : Fin 65) (m : Fin 5) :
    shapeCast ⟨2, ![65536, 325]⟩ (transpose ⟨4, ![32, 2048, 65, 5]⟩ [3, 1, 2, 0] (shapeCast ⟨4, ![5, 2048, 65, 32]⟩
      (concatenate ⟨3, ![5, 2048, 2080]⟩ 0 [⟨⟨3, ![1, 2048, 2080]⟩, broadcastInDim ⟨3, ![1, 2048, 2080]⟩ ![1, 2] hb Y0⟩,
        ⟨⟨3, ![1, 2048, 2080]⟩, broadcastInDim ⟨3, ![1, 2048, 2080]⟩ ![1, 2] hb Y1⟩,
        ⟨⟨3, ![1, 2048, 2080]⟩, broadcastInDim ⟨3, ![1, 2048, 2080]⟩ ![1, 2] hb Y2⟩,
        ⟨⟨3, ![1, 2048, 2080]⟩, broadcastInDim ⟨3, ![1, 2048, 2080]⟩ ![1, 2] hb Y3⟩,
        ⟨⟨3, ![1, 2048, 2080]⟩, broadcastInDim ⟨3, ![1, 2048, 2080]⟩ ![1, 2] hb Y4⟩] hc) h1) ht) h2
      (ix2 (⟨b.val * 2048 + n.val, by omega⟩ : Fin 65536) (⟨f.val * 5 + m.val, by omega⟩ : Fin 325))
      = (![Y0, Y1, Y2, Y3, Y4] m) (ix2 n (⟨f.val * 32 + b.val, by omega⟩ : Fin 2080)) := by
  -- the flattening: position ((b·2048 + n)·65 + f)·5 + m
  refine (shapeCast_apply _ h2 _ (ix4 b n f m) ?_).trans ?_
  · rw [Shape.rowMajor_val_four, Shape.rowMajor_val_two]
    show ((b.val * 2048 + n.val) * 65 + f.val) * 5 + m.val = (b.val * 2048 + n.val) * 325 + (f.val * 5 + m.val)
    omega
  -- the permutation: result axes (b, n, f, m) read source axes (m, n, f, b)
  refine (transpose_apply _ _ ht (ix4 b n f m) (ix4 m n f b) fun a => ?_).trans ?_
  · match a with
    | ⟨0, _⟩ => rfl
    | ⟨1, _⟩ => rfl
    | ⟨2, _⟩ => rfl
    | ⟨3, _⟩ => rfl
  -- the split of the column axis: column f·32 + b
  refine (shapeCast_apply _ h1 (ix4 m n f b) (ix3 m n (⟨f.val * 32 + b.val, by omega⟩ : Fin 2080)) ?_).trans ?_
  · rw [Shape.rowMajor_val_three, Shape.rowMajor_val_four]
    show (m.val * 2048 + n.val) * 2080 + (f.val * 32 + b.val) = ((m.val * 2048 + n.val) * 65 + f.val) * 32 + b.val
    omega
  -- the stack: piece m, whose leading unit axis is dropped
  rw [concat5x2080_apply]
  have hbc : ∀ Y : (⟨2, ![2048, 2080]⟩ : Shape).Idx → α,
      broadcastInDim ⟨3, ![1, 2048, 2080]⟩ ![1, 2] hb Y (ix3 (0 : Fin 1) n (⟨f.val * 32 + b.val, by omega⟩ : Fin 2080))
        = Y (ix2 n (⟨f.val * 32 + b.val, by omega⟩ : Fin 2080)) := fun Y =>
    broadcastInDim_apply _ hb Y _ _ fun a => by
      match a with
      | ⟨0, _⟩ => rfl
      | ⟨1, _⟩ => rfl
  match m with
  | ⟨0, _⟩ => exact hbc Y0
  | ⟨1, _⟩ => exact hbc Y1
  | ⟨2, _⟩ => exact hbc Y2
  | ⟨3, _⟩ => exact hbc Y3
  | ⟨4, _⟩ => exact hbc Y4

/-- **The projection at 65 features.** The first program multiplies each of its five `[2048·32, 65]` operands by its
    own `[65, O]` slice of the weight, adds the five products from the left and adds the bias; the second stacks its five
    operands into one `[32·2048, 65·5]` array, multiplies once by the whole weight and adds the bias. When the operands
    hold the same tensors (`Cols65`), row `n·32 + b` of the first result is row `b·2048 + n` of the second. -/
theorem proj65_rows {O : ℕ}
    (X0 X1 X2 X3 X4 X0' X1' X2' X3' X4' : FVec Ideal ⟨2, ![2048, 2080]⟩ .f32)
    (w : FVec Ideal ⟨2, ![325, O]⟩ .f32) (β : FVec Ideal ⟨1, ![O]⟩ .f32)
    (r0 : Cols65 X0 X0') (r1 : Cols65 X1 X1') (r2 : Cols65 X2 X2') (r3 : Cols65 X3 X3') (r4 : Cols65 X4 X4')
    (hx : (⟨2, ![2048, 2080]⟩ : Shape).ShapeCasts ⟨2, ![65536, 65]⟩)
    (hw1 : (⟨2, ![325, O]⟩ : Shape).ShapeCasts ⟨3, ![65, 5, O]⟩)
    (hs0 : (⟨3, ![65, 5, O]⟩ : Shape).Slices ![0, 0, 0] ⟨3, ![65, 1, O]⟩)
    (hs1 : (⟨3, ![65, 5, O]⟩ : Shape).Slices ![0, 1, 0] ⟨3, ![65, 1, O]⟩)
    (hs2 : (⟨3, ![65, 5, O]⟩ : Shape).Slices ![0, 2, 0] ⟨3, ![65, 1, O]⟩)
    (hs3 : (⟨3, ![65, 5, O]⟩ : Shape).Slices ![0, 3, 0] ⟨3, ![65, 1, O]⟩)
    (hs4 : (⟨3, ![65, 5, O]⟩ : Shape).Slices ![0, 4, 0] ⟨3, ![65, 1, O]⟩)
    (hw3 : (⟨3, ![65, 1, O]⟩ : Shape).ShapeCasts ⟨2, ![65, O]⟩)
    (hβ : (⟨1, ![O]⟩ : Shape).ShapeCasts ⟨2, ![1, O]⟩)
    (hb : (⟨2, ![2048, 2080]⟩ : Shape).BroadcastsInDim ⟨3, ![1, 2048, 2080]⟩ (![1, 2] : Fin 2 → Fin 3))
    (hc : Shape.Concatenates (([⟨⟨3, ![1, 2048, 2080]⟩, broadcastInDim ⟨3, ![1, 2048, 2080]⟩ ![1, 2] hb X0'⟩,
      ⟨⟨3, ![1, 2048, 2080]⟩, broadcastInDim ⟨3, ![1, 2048, 2080]⟩ ![1, 2] hb X1'⟩,
      ⟨⟨3, ![1, 2048, 2080]⟩, broadcastInDim ⟨3, ![1, 2048, 2080]⟩ ![1, 2] hb X2'⟩,
      ⟨⟨3, ![1, 2048, 2080]⟩, broadcastInDim ⟨3, ![1, 2048, 2080]⟩ ![1, 2] hb X3'⟩,
      ⟨⟨3, ![1, 2048, 2080]⟩, broadcastInDim ⟨3, ![1, 2048, 2080]⟩ ![1, 2] hb X4'⟩] : List ((s : Shape) × (s.Idx → Ideal .f32))).map (·.1))
      ⟨3, ![5, 2048, 2080]⟩ 0)
    (h1 : (⟨3, ![5, 2048, 2080]⟩ : Shape).ShapeCasts ⟨4, ![5, 2048, 65, 32]⟩)
    (ht : (⟨4, ![5, 2048, 65, 32]⟩ : Shape).Transposes [3, 1, 2, 0] ⟨4, ![32, 2048, 65, 5]⟩)
    (h2 : (⟨4, ![32, 2048, 65, 5]⟩ : Shape).ShapeCasts ⟨2, ![65536, 325]⟩)
    (D : DotDims ⟨2, ![65536, 325]⟩ ⟨2, ![325, O]⟩ ⟨2, ![65536, O]⟩) (hD : D = DotDims.plain 65536 325 O)
    (hβ1 : (⟨1, ![O]⟩ : Shape).BroadcastsInDim ⟨2, ![1, O]⟩ (![1] : Fin 1 → Fin 2))
    (hβ2 : (⟨2, ![1, O]⟩ : Shape).BroadcastsInDim ⟨2, ![65536, O]⟩ (![0, 1] : Fin 2 → Fin 2)) :
    Rows
      (addf (F := Ideal) (φ := .f32) (addf (addf (addf (addf
        (mm (shapeCast ⟨2, ![65536, 65]⟩ X0 hx)
          (shapeCast ⟨2, ![65, O]⟩ (extractStridedSlice ⟨3, ![65, 1, O]⟩ ![0, 0, 0] (shapeCast ⟨3, ![65, 5, O]⟩ w hw1) hs0) hw3))
        (mm (shapeCast ⟨2, ![65536, 65]⟩ X1 hx)
          (shapeCast ⟨2, ![65, O]⟩ (extractStridedSlice ⟨3, ![65, 1, O]⟩ ![0, 1, 0] (shapeCast ⟨3, ![65, 5, O]⟩ w hw1) hs1) hw3)))
        (mm (shapeCast ⟨2, ![65536, 65]⟩ X2 hx)
          (shapeCast ⟨2, ![65, O]⟩ (extractStridedSlice ⟨3, ![65, 1, O]⟩ ![0, 2, 0] (shapeCast ⟨3, ![65, 5, O]⟩ w hw1) hs2) hw3)))
        (mm (shapeCast ⟨2, ![65536, 65]⟩ X3 hx)
          (shapeCast ⟨2, ![65, O]⟩ (extractStridedSlice ⟨3, ![65, 1, O]⟩ ![0, 3, 0] (shapeCast ⟨3, ![65, 5, O]⟩ w hw1) hs3) hw3)))
        (mm (shapeCast ⟨2, ![65536, 65]⟩ X4 hx)
          (shapeCast ⟨2, ![65, O]⟩ (extractStridedSlice ⟨3, ![65, 1, O]⟩ ![0, 4, 0] (shapeCast ⟨3, ![65, 5, O]⟩ w hw1) hs4) hw3)))
        (rows fun q => shapeCast ⟨2, ![1, O]⟩ β hβ (ix2 (0 : Fin 1) q)))
      (addf (F := Ideal) (φ := .f32)
        (Host.dotGeneral (φ₁ := .f32) (φ₂ := .f32) D none (shapeCast ⟨2, ![65536, 325]⟩ (transpose ⟨4, ![32, 2048, 65, 5]⟩ [3, 1, 2, 0]
          (shapeCast ⟨4, ![5, 2048, 65, 32]⟩
            (concatenate ⟨3, ![5, 2048, 2080]⟩ 0 [⟨⟨3, ![1, 2048, 2080]⟩, broadcastInDim ⟨3, ![1, 2048, 2080]⟩ ![1, 2] hb X0'⟩,
              ⟨⟨3, ![1, 2048, 2080]⟩, broadcastInDim ⟨3, ![1, 2048, 2080]⟩ ![1, 2] hb X1'⟩,
              ⟨⟨3, ![1, 2048, 2080]⟩, broadcastInDim ⟨3, ![1, 2048, 2080]⟩ ![1, 2] hb X2'⟩,
              ⟨⟨3, ![1, 2048, 2080]⟩, broadcastInDim ⟨3, ![1, 2048, 2080]⟩ ![1, 2] hb X3'⟩,
              ⟨⟨3, ![1, 2048, 2080]⟩, broadcastInDim ⟨3, ![1, 2048, 2080]⟩ ![1, 2] hb X4'⟩] hc) h1) ht) h2) w)
        (broadcastInDim ⟨2, ![65536, O]⟩ ![0, 1] hβ2 (broadcastInDim ⟨2, ![1, O]⟩ ![1] hβ1 β))) := by
  rw [dotGeneral_eq_mm D hD, broadcastInDim_eq_rows]
  -- the bias: both programs add `β o` to every row
  refine rows_addf _ _ _ _ ?_ (rows_rows_of_eq _ _ fun o => shapeCast_vecRow_apply β hβ (0 : Fin 1) o)
  -- the five products against the one
  refine proj_rows_core (Fd := 65) (K := 325) rfl _ _ _ _ _ _ _ _ _ _ _ w ?_ ?_
  · -- the stacked operand holds the first program's operands
    intro n b f m
    rw [stack65_apply]
    match m with
    | ⟨0, _⟩ => exact ((rowsCast65_apply X0 hx n b f).trans (r0 n b f)).symm
    | ⟨1, _⟩ => exact ((rowsCast65_apply X1 hx n b f).trans (r1 n b f)).symm
    | ⟨2, _⟩ => exact ((rowsCast65_apply X2 hx n b f).trans (r2 n b f)).symm
    | ⟨3, _⟩ => exact ((rowsCast65_apply X3 hx n b f).trans (r3 n b f)).symm
    | ⟨4, _⟩ => exact ((rowsCast65_apply X4 hx n b f).trans (r4 n b f)).symm
  · -- each slice of the weight holds its rows
    intro f m o
    match m with
    | ⟨0, _⟩ => exact wslice65_apply w 0 (by omega) hw1 hs0 hw3 f o
    | ⟨1, _⟩ => exact wslice65_apply w 1 (by omega) hw1 hs1 hw3 f o
    | ⟨2, _⟩ => exact wslice65_apply w 2 (by omega) hw1 hs2 hw3 f o
    | ⟨3, _⟩ => exact wslice65_apply w 3 (by omega) hw1 hs3 hw3 f o
    | ⟨4, _⟩ => exact wslice65_apply w 4 (by omega) hw1 hs4 hw3 f o

/-! ## 128 features -/

/-- `[2048, 32·128]` recast to `[2048·32, 128]`: row `n·32 + b`, column `f` is row `n`, column `b·128 + f`. -/
theorem rowsCast128_apply (X : (⟨2, ![2048, 4096]⟩ : Shape).Idx → α)
    (h : (⟨2, ![2048, 4096]⟩ : Shape).ShapeCasts ⟨2, ![65536, 128]⟩) (n : Fin 2048) (b : Fin 32) (f : Fin 128) :
    shapeCast ⟨2, ![65536, 128]⟩ X h (ix2 (⟨n.val * 32 + b.val, by omega⟩ : Fin 65536) f)
      = X (ix2 n (⟨b.val * 128 + f.val, by omega⟩ : Fin 4096)) :=
  shapeCast_apply X h _ _ (by
    rw [Shape.rowMajor_val_two, Shape.rowMajor_val_two]
    show n.val * 4096 + (b.val * 128 + f.val) = (n.val * 32 + b.val) * 128 + f.val
    omega)

/-- Slice `m` of the middle axis of a `[128·5, O]` weight seen as `[128, 5, O]`: entry `(f, o)` is row `f·5 + m` of the weight. -/
theorem wslice128_apply {O : ℕ} (w : (⟨2, ![640, O]⟩ : Shape).Idx → α) (m : ℕ) (hm : m < 5)
    (h1 : (⟨2, ![640, O]⟩ : Shape).ShapeCasts ⟨3, ![128, 5, O]⟩)
    (h2 : (⟨3, ![128, 5, O]⟩ : Shape).Slices ![0, m, 0] ⟨3, ![128, 1, O]⟩)
    (h3 : (⟨3, ![128, 1, O]⟩ : Shape).ShapeCasts ⟨2, ![128, O]⟩) (f : Fin 128) (o : Fin O) :
    shapeCast ⟨2, ![128, O]⟩ (extractStridedSlice ⟨3, ![128, 1, O]⟩ ![0, m, 0] (shapeCast ⟨3, ![128, 5, O]⟩ w h1) h2) h3 (ix2 f o)
      = w (ix2 (⟨f.val * 5 + m, by omega⟩ : Fin 640) o) := by
  refine (shapeCast_apply _ h3 (ix2 f o) (ix3 f (0 : Fin 1) o) ?_).trans ?_
  · rw [Shape.rowMajor_val_three, Shape.rowMajor_val_two]
    show (f.val * 1 + 0) * O + o.val = f.val * O + o.val
    rw [Nat.mul_one, Nat.add_zero]
  refine (extractStridedSlice_apply _ _ h2 (ix3 f (0 : Fin 1) o) (ix3 f (⟨m, hm⟩ : Fin 5) o) fun a => ?_).trans ?_
  · match a with
    | ⟨0, _⟩ => show f.val = 0 + f.val; omega
    | ⟨1, _⟩ => show m = m + 0; omega
    | ⟨2, _⟩ => show o.val = 0 + o.val; omega
  refine shapeCast_apply w h1 (ix3 f (⟨m, hm⟩ : Fin 5) o) (ix2 (⟨f.val * 5 + m, by omega⟩ : Fin 640) o) ?_
  rw [Shape.rowMajor_val_two, Shape.rowMajor_val_three]
  rfl

/-- Five unit pieces stacked along a new leading axis: at `(m, n, c)` the stack reads piece `m` at `(0, n, c)`. -/
theorem concat5x4096_apply (a0 a1 a2 a3 a4 : (⟨3, ![1, 2048, 4096]⟩ : Shape).Idx → α)
    (hc : Shape.Concatenates (([⟨⟨3, ![1, 2048, 4096]⟩, a0⟩, ⟨⟨3, ![1, 2048, 4096]⟩, a1⟩, ⟨⟨3, ![1, 2048, 4096]⟩, a2⟩,
      ⟨⟨3, ![1, 2048, 4096]⟩, a3⟩, ⟨⟨3, ![1, 2048, 4096]⟩, a4⟩] : List ((s : Shape) × (s.Idx → α))).map (·.1)) ⟨3, ![5, 2048, 4096]⟩ 0)
    (m : Fin 5) (n : Fin 2048) (c : Fin 4096) :
    concatenate ⟨3, ![5, 2048, 4096]⟩ 0 [⟨⟨3, ![1, 2048, 4096]⟩, a0⟩, ⟨⟨3, ![1, 2048, 4096]⟩, a1⟩, ⟨⟨3, ![1, 2048, 4096]⟩, a2⟩,
      ⟨⟨3, ![1, 2048, 4096]⟩, a3⟩, ⟨⟨3, ![1, 2048, 4096]⟩, a4⟩] hc (ix3 m n c)
      = (![a0, a1, a2, a3, a4] m) (ix3 (0 : Fin 1) n c) := by
  refine concatenate_ofFn_unit_apply (t := ⟨3, ![5, 2048, 4096]⟩) (s₁ := ⟨3, ![1, 2048, 4096]⟩) (0 : Fin 3)
    (f := ![a0, a1, a2, a3, a4]) hc rfl rfl (ix3 m n c) m rfl (ix3 (0 : Fin 1) n c) fun b hb => ?_
  match b with
  | ⟨0, _⟩ => exact absurd rfl hb
  | ⟨1, _⟩ => rfl
  | ⟨2, _⟩ => rfl

/-- The second program's stacked operand. Five `[2048, 128·32]` arrays, each given a leading unit axis, are stacked to
    `[5, 2048, 4096]`, seen as `[5, 2048, 128, 32]`, permuted to `[32, 2048, 128, 5]` and flattened to `[32·2048, 128·5]`:
    row `b·2048 + n`, column `f·5 + m` of the result is array `m` at row `n`, column `f·32 + b`. -/
theorem stack128_apply (Y0 Y1 Y2 Y3 Y4 : (⟨2, ![2048, 4096]⟩ : Shape).Idx → α)
    (hb : (⟨2, ![2048, 4096]⟩ : Shape).BroadcastsInDim ⟨3, ![1, 2048, 4096]⟩ (![1, 2] : Fin 2 → Fin 3))
    (hc : Shape.Concatenates (([⟨⟨3, ![1, 2048, 4096]⟩, broadcastInDim ⟨3, ![1, 2048, 4096]⟩ ![1, 2] hb Y0⟩,
      ⟨⟨3, ![1, 2048, 4096]⟩, broadcastInDim ⟨3, ![1, 2048, 4096]⟩ ![1, 2] hb Y1⟩,
      ⟨⟨3, ![1, 2048, 4096]⟩, broadcastInDim ⟨3, ![1, 2048, 4096]⟩ ![1, 2] hb Y2⟩,
      ⟨⟨3, ![1, 2048, 4096]⟩, broadcastInDim ⟨3, ![1, 2048, 4096]⟩ ![1, 2] hb Y3⟩,
      ⟨⟨3, ![1, 2048, 4096]⟩, broadcastInDim ⟨3, ![1, 2048, 4096]⟩ ![1, 2] hb Y4⟩] : List ((s : Shape) × (s.Idx → α))).map (·.1))
      ⟨3, ![5, 2048, 4096]⟩ 0)
    (h1 : (⟨3, ![5, 2048, 4096]⟩ : Shape).ShapeCasts ⟨4, ![5, 2048, 128, 32]⟩)
    (ht : (⟨4, ![5, 2048, 128, 32]⟩ : Shape).Transposes [3, 1, 2, 0] ⟨4, ![32, 2048, 128, 5]⟩)
    (h2 : (⟨4, ![32, 2048, 128, 5]⟩ : Shape).ShapeCasts ⟨2, ![65536, 640]⟩)
    (n : Fin 2048) (b : Fin 32) (f : Fin 128) (m : Fin 5) :
    shapeCast ⟨2, ![65536, 640]⟩ (transpose ⟨4, ![32, 2048, 128, 5]⟩ [3, 1, 2, 0] (shapeCast ⟨4, ![5, 2048, 128, 32]⟩
      (concatenate ⟨3, ![5, 2048, 4096]⟩ 0 [⟨⟨3, ![1, 2048, 4096]⟩, broadcastInDim ⟨3, ![1, 2048, 4096]⟩ ![1, 2] hb Y0⟩,
        ⟨⟨3, ![1, 2048, 4096]⟩, broadcastInDim ⟨3, ![1, 2048, 4096]⟩ ![1, 2] hb Y1⟩,
        ⟨⟨3, ![1, 2048, 4096]⟩, broadcastInDim ⟨3, ![1, 2048, 4096]⟩ ![1, 2] hb Y2⟩,
        ⟨⟨3, ![1, 2048, 4096]⟩, broadcastInDim ⟨3, ![1, 2048, 4096]⟩ ![1, 2] hb Y3⟩,
        ⟨⟨3, ![1, 2048, 4096]⟩, broadcastInDim ⟨3, ![1, 2048, 4096]⟩ ![1, 2] hb Y4⟩] hc) h1) ht) h2
      (ix2 (⟨b.val * 2048 + n.val, by omega⟩ : Fin 65536) (⟨f.val * 5 + m.val, by omega⟩ : Fin 640))
      = (![Y0, Y1, Y2, Y3, Y4] m) (ix2 n (⟨f.val * 32 + b.val, by omega⟩ : Fin 4096)) := by
  -- the flattening: position ((b·2048 + n)·128 + f)·5 + m
  refine (shapeCast_apply _ h2 _ (ix4 b n f m) ?_).trans ?_
  · rw [Shape.rowMajor_val_four, Shape.rowMajor_val_two]
    show ((b.val * 2048 + n.val) * 128 + f.val) * 5 + m.val = (b.val * 2048 + n.val) * 640 + (f.val * 5 + m.val)
    omega
  -- the permutation: result axes (b, n, f, m) read source axes (m, n, f, b)
  refine (transpose_apply _ _ ht (ix4 b n f m) (ix4 m n f b) fun a => ?_).trans ?_
  · match a with
    | ⟨0, _⟩ => rfl
    | ⟨1, _⟩ => rfl
    | ⟨2, _⟩ => rfl
    | ⟨3, _⟩ => rfl
  -- the split of the column axis: column f·32 + b
  refine (shapeCast_apply _ h1 (ix4 m n f b) (ix3 m n (⟨f.val * 32 + b.val, by omega⟩ : Fin 4096)) ?_).trans ?_
  · rw [Shape.rowMajor_val_three, Shape.rowMajor_val_four]
    show (m.val * 2048 + n.val) * 4096 + (f.val * 32 + b.val) = ((m.val * 2048 + n.val) * 128 + f.val) * 32 + b.val
    omega
  -- the stack: piece m, whose leading unit axis is dropped
  rw [concat5x4096_apply]
  have hbc : ∀ Y : (⟨2, ![2048, 4096]⟩ : Shape).Idx → α,
      broadcastInDim ⟨3, ![1, 2048, 4096]⟩ ![1, 2] hb Y (ix3 (0 : Fin 1) n (⟨f.val * 32 + b.val, by omega⟩ : Fin 4096))
        = Y (ix2 n (⟨f.val * 32 + b.val, by omega⟩ : Fin 4096)) := fun Y =>
    broadcastInDim_apply _ hb Y _ _ fun a => by
      match a with
      | ⟨0, _⟩ => rfl
      | ⟨1, _⟩ => rfl
  match m with
  | ⟨0, _⟩ => exact hbc Y0
  | ⟨1, _⟩ => exact hbc Y1
  | ⟨2, _⟩ => exact hbc Y2
  | ⟨3, _⟩ => exact hbc Y3
  | ⟨4, _⟩ => exact hbc Y4

/-- **The projection at 128 features.** The first program multiplies each of its five `[2048·32, 128]` operands by its
    own `[128, O]` slice of the weight, adds the five products from the left and adds the bias; the second stacks its five
    operands into one `[32·2048, 128·5]` array, multiplies once by the whole weight and adds the bias. When the operands
    hold the same tensors (`Cols128`), row `n·32 + b` of the first result is row `b·2048 + n` of the second. -/
theorem proj128_rows {O : ℕ}
    (X0 X1 X2 X3 X4 X0' X1' X2' X3' X4' : FVec Ideal ⟨2, ![2048, 4096]⟩ .f32)
    (w : FVec Ideal ⟨2, ![640, O]⟩ .f32) (β : FVec Ideal ⟨1, ![O]⟩ .f32)
    (r0 : Cols128 X0 X0') (r1 : Cols128 X1 X1') (r2 : Cols128 X2 X2') (r3 : Cols128 X3 X3') (r4 : Cols128 X4 X4')
    (hx : (⟨2, ![2048, 4096]⟩ : Shape).ShapeCasts ⟨2, ![65536, 128]⟩)
    (hw1 : (⟨2, ![640, O]⟩ : Shape).ShapeCasts ⟨3, ![128, 5, O]⟩)
    (hs0 : (⟨3, ![128, 5, O]⟩ : Shape).Slices ![0, 0, 0] ⟨3, ![128, 1, O]⟩)
    (hs1 : (⟨3, ![128, 5, O]⟩ : Shape).Slices ![0, 1, 0] ⟨3, ![128, 1, O]⟩)
    (hs2 : (⟨3, ![128, 5, O]⟩ : Shape).Slices ![0, 2, 0] ⟨3, ![128, 1, O]⟩)
    (hs3 : (⟨3, ![128, 5, O]⟩ : Shape).Slices ![0, 3, 0] ⟨3, ![128, 1, O]⟩)
    (hs4 : (⟨3, ![128, 5, O]⟩ : Shape).Slices ![0, 4, 0] ⟨3, ![128, 1, O]⟩)
    (hw3 : (⟨3, ![128, 1, O]⟩ : Shape).ShapeCasts ⟨2, ![128, O]⟩)
    (hβ : (⟨1, ![O]⟩ : Shape).ShapeCasts ⟨2, ![1, O]⟩)
    (hb : (⟨2, ![2048, 4096]⟩ : Shape).BroadcastsInDim ⟨3, ![1, 2048, 4096]⟩ (![1, 2] : Fin 2 → Fin 3))
    (hc : Shape.Concatenates (([⟨⟨3, ![1, 2048, 4096]⟩, broadcastInDim ⟨3, ![1, 2048, 4096]⟩ ![1, 2] hb X0'⟩,
      ⟨⟨3, ![1, 2048, 4096]⟩, broadcastInDim ⟨3, ![1, 2048, 4096]⟩ ![1, 2] hb X1'⟩,
      ⟨⟨3, ![1, 2048, 4096]⟩, broadcastInDim ⟨3, ![1, 2048, 4096]⟩ ![1, 2] hb X2'⟩,
      ⟨⟨3, ![1, 2048, 4096]⟩, broadcastInDim ⟨3, ![1, 2048, 4096]⟩ ![1, 2] hb X3'⟩,
      ⟨⟨3, ![1, 2048, 4096]⟩, broadcastInDim ⟨3, ![1, 2048, 4096]⟩ ![1, 2] hb X4'⟩] : List ((s : Shape) × (s.Idx → Ideal .f32))).map (·.1))
      ⟨3, ![5, 2048, 4096]⟩ 0)
    (h1 : (⟨3, ![5, 2048, 4096]⟩ : Shape).ShapeCasts ⟨4, ![5, 2048, 128, 32]⟩)
    (ht : (⟨4, ![5, 2048, 128, 32]⟩ : Shape).Transposes [3, 1, 2, 0] ⟨4, ![32, 2048, 128, 5]⟩)
    (h2 : (⟨4, ![32, 2048, 128, 5]⟩ : Shape).ShapeCasts ⟨2, ![65536, 640]⟩)
    (D : DotDims ⟨2, ![65536, 640]⟩ ⟨2, ![640, O]⟩ ⟨2, ![65536, O]⟩) (hD : D = DotDims.plain 65536 640 O)
    (hβ1 : (⟨1, ![O]⟩ : Shape).BroadcastsInDim ⟨2, ![1, O]⟩ (![1] : Fin 1 → Fin 2))
    (hβ2 : (⟨2, ![1, O]⟩ : Shape).BroadcastsInDim ⟨2, ![65536, O]⟩ (![0, 1] : Fin 2 → Fin 2)) :
    Rows
      (addf (F := Ideal) (φ := .f32) (addf (addf (addf (addf
        (mm (shapeCast ⟨2, ![65536, 128]⟩ X0 hx)
          (shapeCast ⟨2, ![128, O]⟩ (extractStridedSlice ⟨3, ![128, 1, O]⟩ ![0, 0, 0] (shapeCast ⟨3, ![128, 5, O]⟩ w hw1) hs0) hw3))
        (mm (shapeCast ⟨2, ![65536, 128]⟩ X1 hx)
          (shapeCast ⟨2, ![128, O]⟩ (extractStridedSlice ⟨3, ![128, 1, O]⟩ ![0, 1, 0] (shapeCast ⟨3, ![128, 5, O]⟩ w hw1) hs1) hw3)))
        (mm (shapeCast ⟨2, ![65536, 128]⟩ X2 hx)
          (shapeCast ⟨2, ![128, O]⟩ (extractStridedSlice ⟨3, ![128, 1, O]⟩ ![0, 2, 0] (shapeCast ⟨3, ![128, 5, O]⟩ w hw1) hs2) hw3)))
        (mm (shapeCast ⟨2, ![65536, 128]⟩ X3 hx)
          (shapeCast ⟨2, ![128, O]⟩ (extractStridedSlice ⟨3, ![128, 1, O]⟩ ![0, 3, 0] (shapeCast ⟨3, ![128, 5, O]⟩ w hw1) hs3) hw3)))
        (mm (shapeCast ⟨2, ![65536, 128]⟩ X4 hx)
          (shapeCast ⟨2, ![128, O]⟩ (extractStridedSlice ⟨3, ![128, 1, O]⟩ ![0, 4, 0] (shapeCast ⟨3, ![128, 5, O]⟩ w hw1) hs4) hw3)))
        (rows fun q => shapeCast ⟨2, ![1, O]⟩ β hβ (ix2 (0 : Fin 1) q)))
      (addf (F := Ideal) (φ := .f32)
        (Host.dotGeneral (φ₁ := .f32) (φ₂ := .f32) D none (shapeCast ⟨2, ![65536, 640]⟩ (transpose ⟨4, ![32, 2048, 128, 5]⟩ [3, 1, 2, 0]
          (shapeCast ⟨4, ![5, 2048, 128, 32]⟩
            (concatenate ⟨3, ![5, 2048, 4096]⟩ 0 [⟨⟨3, ![1, 2048, 4096]⟩, broadcastInDim ⟨3, ![1, 2048, 4096]⟩ ![1, 2] hb X0'⟩,
              ⟨⟨3, ![1, 2048, 4096]⟩, broadcastInDim ⟨3, ![1, 2048, 4096]⟩ ![1, 2] hb X1'⟩,
              ⟨⟨3, ![1, 2048, 4096]⟩, broadcastInDim ⟨3, ![1, 2048, 4096]⟩ ![1, 2] hb X2'⟩,
              ⟨⟨3, ![1, 2048, 4096]⟩, broadcastInDim ⟨3, ![1, 2048, 4096]⟩ ![1, 2] hb X3'⟩,
              ⟨⟨3, ![1, 2048, 4096]⟩, broadcastInDim ⟨3, ![1, 2048, 4096]⟩ ![1, 2] hb X4'⟩] hc) h1) ht) h2) w)
        (broadcastInDim ⟨2, ![65536, O]⟩ ![0, 1] hβ2 (broadcastInDim ⟨2, ![1, O]⟩ ![1] hβ1 β))) := by
  rw [dotGeneral_eq_mm D hD, broadcastInDim_eq_rows]
  -- the bias: both programs add `β o` to every row
  refine rows_addf _ _ _ _ ?_ (rows_rows_of_eq _ _ fun o => shapeCast_vecRow_apply β hβ (0 : Fin 1) o)
  -- the five products against the one
  refine proj_rows_core (Fd := 128) (K := 640) rfl _ _ _ _ _ _ _ _ _ _ _ w ?_ ?_
  · -- the stacked operand holds the first program's operands
    intro n b f m
    rw [stack128_apply]
    match m with
    | ⟨0, _⟩ => exact ((rowsCast128_apply X0 hx n b f).trans (r0 n b f)).symm
    | ⟨1, _⟩ => exact ((rowsCast128_apply X1 hx n b f).trans (r1 n b f)).symm
    | ⟨2, _⟩ => exact ((rowsCast128_apply X2 hx n b f).trans (r2 n b f)).symm
    | ⟨3, _⟩ => exact ((rowsCast128_apply X3 hx n b f).trans (r3 n b f)).symm
    | ⟨4, _⟩ => exact ((rowsCast128_apply X4 hx n b f).trans (r4 n b f)).symm
  · -- each slice of the weight holds its rows
    intro f m o
    match m with
    | ⟨0, _⟩ => exact wslice128_apply w 0 (by omega) hw1 hs0 hw3 f o
    | ⟨1, _⟩ => exact wslice128_apply w 1 (by omega) hw1 hs1 hw3 f o
    | ⟨2, _⟩ => exact wslice128_apply w 2 (by omega) hw1 hs2 hw3 f o
    | ⟨3, _⟩ => exact wslice128_apply w 3 (by omega) hw1 hs3 hw3 f o
    | ⟨4, _⟩ => exact wslice128_apply w 4 (by omega) hw1 hs4 hw3 f o

end Cert.Relate

end
-- ==== Proof.RegionsProjection.lean ====
/-
  The four projection regions, each read as ONE function of the arrays it finds: the output array ends holding the
  activation of the sum of five matrix products and a bias row,
      act (((((x₀·w₀ + x₁·w₁) + x₂·w₂) + x₃·w₃) + x₄·w₄) + b),
  where each x is a tall array cut into blocks of 4096 rows, each w and the bias row b are read whole at every grid
  point, and the output is written back one block of 4096 rows per point. Row r of a product depends on row r of its
  left operand only, so block t of the output is the same function of block t of each x as the whole output is of the
  whole x; the sixteen blocks tile the output (row r lies in block r / 4096).
-/
import proofs.«132349_j60696477827149_2_alg».proof.Proof.Gen.KernelIdeal.Frame
import proofs.«132349_j60696477827149_2_alg».proof.Proof.LibRowBlocks
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen Cert.LayoutLib Cert.DenseLib Cert.RowBlocks

theorem zero_offsets : (![0, 0] : Fin 2 → Nat) = fun _ => 0 := funext fun a => by fin_cases a <;> rfl

/-- The sum of five products and a bias row laid along every row, added in this order. -/
def pre5 {M K N : ℕ} (X0 X1 X2 X3 X4 : (⟨2, ![M, K]⟩ : Shape).Idx → EReal) (W0 W1 W2 W3 W4 : (⟨2, ![K, N]⟩ : Shape).Idx → EReal)
    (B : (⟨2, ![1, N]⟩ : Shape).Idx → EReal) : FVec Ideal ⟨2, ![M, N]⟩ .f32 :=
  addf (addf (addf (addf (addf (mm X0 W0) (mm X1 W1)) (mm X2 W2)) (mm X3 W3)) (mm X4 W4)) (rows fun q => B (ix2 (0 : Fin 1) q))

/-- An entry of that sum is determined by its row of each left operand: if row `j 0` of each `x` is row `i 0` of the
    matching `X`, the weights and the bias agree and the columns are the same, the two entries are equal. -/
theorem pre5_eq_of_row {M M' K N : ℕ} (x0 x1 x2 x3 x4 : (⟨2, ![M', K]⟩ : Shape).Idx → EReal) (w0 w1 w2 w3 w4 : (⟨2, ![K, N]⟩ : Shape).Idx → EReal)
    (b : (⟨2, ![1, N]⟩ : Shape).Idx → EReal)
    (X0 X1 X2 X3 X4 : (⟨2, ![M, K]⟩ : Shape).Idx → EReal) (W0 W1 W2 W3 W4 : (⟨2, ![K, N]⟩ : Shape).Idx → EReal)
    (B : (⟨2, ![1, N]⟩ : Shape).Idx → EReal)
    (j : (⟨2, ![M', N]⟩ : Shape).Idx) (i : (⟨2, ![M, N]⟩ : Shape).Idx)
    (hw0 : w0 = W0) (hw1 : w1 = W1) (hw2 : w2 = W2) (hw3 : w3 = W3) (hw4 : w4 = W4) (hb : b = B)
    (hq : (j 1).val = (i 1).val)
    (hx0 : ∀ k : Fin K, x0 (ix2 (n0 := M') (j 0) k) = X0 (ix2 (n0 := M) (i 0) k))
    (hx1 : ∀ k : Fin K, x1 (ix2 (n0 := M') (j 0) k) = X1 (ix2 (n0 := M) (i 0) k))
    (hx2 : ∀ k : Fin K, x2 (ix2 (n0 := M') (j 0) k) = X2 (ix2 (n0 := M) (i 0) k))
    (hx3 : ∀ k : Fin K, x3 (ix2 (n0 := M') (j 0) k) = X3 (ix2 (n0 := M) (i 0) k))
    (hx4 : ∀ k : Fin K, x4 (ix2 (n0 := M') (j 0) k) = X4 (ix2 (n0 := M) (i 0) k)) :
    pre5 x0 x1 x2 x3 x4 w0 w1 w2 w3 w4 b j = pre5 X0 X1 X2 X3 X4 W0 W1 W2 W3 W4 B i := by
  subst hb
  show mm x0 w0 j + mm x1 w1 j + mm x2 w2 j + mm x3 w3 j + mm x4 w4 j + b (ix2 (0 : Fin 1) (n1 := N) (j 1))
     = mm X0 W0 i + mm X1 W1 i + mm X2 W2 i + mm X3 W3 i + mm X4 W4 i + b (ix2 (0 : Fin 1) (n1 := N) (i 1))
  have e : (ix2 (0 : Fin 1) (n1 := N) (j 1)) = ix2 (0 : Fin 1) (n1 := N) (i 1) := congrArg (ix2 (0 : Fin 1)) (Fin.ext hq)
  rw [mm_eq_of_row x0 w0 X0 W0 j i hw0 hq hx0, mm_eq_of_row x1 w1 X1 W1 j i hw1 hq hx1, mm_eq_of_row x2 w2 X2 W2 j i hw2 hq hx2,
    mm_eq_of_row x3 w3 X3 W3 j i hw3 hq hx3, mm_eq_of_row x4 w4 X4 W4 j i hw4 hq hx4, e]

/-- The same for the logistic function of that sum, which acts entry by entry. -/
theorem logistic_pre5_eq_of_row {M M' K N : ℕ} (x0 x1 x2 x3 x4 : (⟨2, ![M', K]⟩ : Shape).Idx → EReal) (w0 w1 w2 w3 w4 : (⟨2, ![K, N]⟩ : Shape).Idx → EReal)
    (b : (⟨2, ![1, N]⟩ : Shape).Idx → EReal)
    (X0 X1 X2 X3 X4 : (⟨2, ![M, K]⟩ : Shape).Idx → EReal) (W0 W1 W2 W3 W4 : (⟨2, ![K, N]⟩ : Shape).Idx → EReal)
    (B : (⟨2, ![1, N]⟩ : Shape).Idx → EReal)
    (j : (⟨2, ![M', N]⟩ : Shape).Idx) (i : (⟨2, ![M, N]⟩ : Shape).Idx)
    (hw0 : w0 = W0) (hw1 : w1 = W1) (hw2 : w2 = W2) (hw3 : w3 = W3) (hw4 : w4 = W4) (hb : b = B)
    (hq : (j 1).val = (i 1).val)
    (hx0 : ∀ k : Fin K, x0 (ix2 (n0 := M') (j 0) k) = X0 (ix2 (n0 := M) (i 0) k))
    (hx1 : ∀ k : Fin K, x1 (ix2 (n0 := M') (j 0) k) = X1 (ix2 (n0 := M) (i 0) k))
    (hx2 : ∀ k : Fin K, x2 (ix2 (n0 := M') (j 0) k) = X2 (ix2 (n0 := M) (i 0) k))
    (hx3 : ∀ k : Fin K, x3 (ix2 (n0 := M') (j 0) k) = X3 (ix2 (n0 := M) (i 0) k))
    (hx4 : ∀ k : Fin K, x4 (ix2 (n0 := M') (j 0) k) = X4 (ix2 (n0 := M) (i 0) k)) :
    logistic (pre5 x0 x1 x2 x3 x4 w0 w1 w2 w3 w4 b) j = logistic (pre5 X0 X1 X2 X3 X4 W0 W1 W2 W3 W4 B) i := by
  show FloatOps.logistic (F := Ideal) (φ := .f32) (pre5 x0 x1 x2 x3 x4 w0 w1 w2 w3 w4 b j) = FloatOps.logistic (F := Ideal) (φ := .f32) (pre5 X0 X1 X2 X3 X4 W0 W1 W2 W3 W4 B i)
  rw [pre5_eq_of_row x0 x1 x2 x3 x4 w0 w1 w2 w3 w4 b X0 X1 X2 X3 X4 W0 W1 W2 W3 W4 B j i hw0 hw1 hw2 hw3 hw4 hb hq hx0 hx1 hx2 hx3 hx4]

/-- The same for the hyperbolic tangent of that sum, which acts entry by entry. -/
theorem tanh_pre5_eq_of_row {M M' K N : ℕ} (x0 x1 x2 x3 x4 : (⟨2, ![M', K]⟩ : Shape).Idx → EReal) (w0 w1 w2 w3 w4 : (⟨2, ![K, N]⟩ : Shape).Idx → EReal)
    (b : (⟨2, ![1, N]⟩ : Shape).Idx → EReal)
    (X0 X1 X2 X3 X4 : (⟨2, ![M, K]⟩ : Shape).Idx → EReal) (W0 W1 W2 W3 W4 : (⟨2, ![K, N]⟩ : Shape).Idx → EReal)
    (B : (⟨2, ![1, N]⟩ : Shape).Idx → EReal)
    (j : (⟨2, ![M', N]⟩ : Shape).Idx) (i : (⟨2, ![M, N]⟩ : Shape).Idx)
    (hw0 : w0 = W0) (hw1 : w1 = W1) (hw2 : w2 = W2) (hw3 : w3 = W3) (hw4 : w4 = W4) (hb : b = B)
    (hq : (j 1).val = (i 1).val)
    (hx0 : ∀ k : Fin K, x0 (ix2 (n0 := M') (j 0) k) = X0 (ix2 (n0 := M) (i 0) k))
    (hx1 : ∀ k : Fin K, x1 (ix2 (n0 := M') (j 0) k) = X1 (ix2 (n0 := M) (i 0) k))
    (hx2 : ∀ k : Fin K, x2 (ix2 (n0 := M') (j 0) k) = X2 (ix2 (n0 := M) (i 0) k))
    (hx3 : ∀ k : Fin K, x3 (ix2 (n0 := M') (j 0) k) = X3 (ix2 (n0 := M) (i 0) k))
    (hx4 : ∀ k : Fin K, x4 (ix2 (n0 := M') (j 0) k) = X4 (ix2 (n0 := M) (i 0) k)) :
    tanh (pre5 x0 x1 x2 x3 x4 w0 w1 w2 w3 w4 b) j = tanh (pre5 X0 X1 X2 X3 X4 W0 W1 W2 W3 W4 B) i := by
  show FloatOps.tanh (F := Ideal) (φ := .f32) (pre5 x0 x1 x2 x3 x4 w0 w1 w2 w3 w4 b j) = FloatOps.tanh (F := Ideal) (φ := .f32) (pre5 X0 X1 X2 X3 X4 W0 W1 W2 W3 W4 B i)
  rw [pre5_eq_of_row x0 x1 x2 x3 x4 w0 w1 w2 w3 w4 b X0 X1 X2 X3 X4 W0 W1 W2 W3 W4 B j i hw0 hw1 hw2 hw3 hw4 hb hq hx0 hx1 hx2 hx3 hx4]

/-! ## Region 4: rows of width 65 to rows of width 128, activation `logistic` -/

section Region4

variable (V : (c : Dev nD) → (b : Ref sig .tc) → Buf (Elt Ideal) ((c : Thread nD τ).loc b))

/-- The body's arithmetic on its loaded blocks: five products of the operands, the bias row, the activation. -/
theorem pay4_eq (x0 x1 x2 x3 x4 : Vec Ideal S4096x65 .f32) (w0 w1 w2 w3 w4 : Vec Ideal S65x128 .f32) (b : Vec Ideal S1x128 .f32) :
    k4_pay1 (k4_pay2 x0 w0 x1 w1 x2 w2 x3 w3) (k4_pay3 x4) w4 b = logistic (pre5 x0 x1 x2 x3 x4 w0 w1 w2 w3 w4 b) := by
  unfold k4_pay1 k4_pay2 k4_pay3
  dsimp only
  simp only [shapeCast_self, truncf_eq]
  rw [matmul_eq_mm dot_S4096x65_S65x128_S4096x128_1_0_0_1_n_n rfl x0 w0, matmul_eq_mm dot_S4096x65_S65x128_S4096x128_1_0_0_1_n_n rfl x1 w1, matmul_eq_mm dot_S4096x65_S65x128_S4096x128_1_0_0_1_n_n rfl x2 w2,
    matmul_eq_mm dot_S4096x65_S65x128_S4096x128_1_0_0_1_n_n rfl x3 w3, matmul_eq_mm dot_S4096x65_S65x128_S4096x128_1_0_0_1_n_n rfl x4 w4, broadcastTo_eq_rows b]
  rfl

/-- The printed index maps over the sixteen grid points: a left operand's and the output's block index is the point,
    a weight's and the bias's is zero. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = 0 ∧ win4_9.index t (1 : Fin 2) = 0
    ∧ win4_10.index t (0 : Fin 2) = 0 ∧ win4_10.index t (1 : Fin 2) = 0
    ∧ win4_11.index t (0 : Fin 2) = t.val ∧ win4_11.index t (1 : Fin 2) = 0 :=
  (by decide +kernel : ∀ t : Fin grid4.N, _)

/-- Every block row of the output is some point's. -/
theorem onto4 : ∀ q : Fin 16, ∃ t : Fin cfg4.N, win4_11.index t = ![q.val, 0] :=
  (by decide +kernel : ∀ q : Fin 16, ∃ t : Fin grid4.N, win4_11.index t = ![q.val, 0])

/-- Block `t` of left operand 0 is rows `4096 t … 4096 t + 4095` of its array. -/
theorem blkX4_0 (c : Dev nD) (t : Fin cfg4.N) (y : S4096x65.Idx) (i : S65536x65.Idx)
    (h0 : (i 0).val = t.val * 4096 + (y 0).val) (h1 : (i 1).val = (y 1).val) :
    (iblk4 V c 0 t : Vec Ideal S4096x65 .f32) y = (V c (Pipeline.arrRef spec4 0) : S65536x65.Idx → EReal) i := by
  have hidx := idx4 t
  show V c (Pipeline.arrRef spec4 0) (((cfg4.win 0).blk t).view.emb y) = V c (Pipeline.arrRef spec4 0) i
  congr 1
  funext a
  apply Fin.ext
  match a with
  | ⟨0, _⟩ => show win4_0.index t (0 : Fin 2) * 4096 + 1 * (y 0).val = (i 0).val; omega
  | ⟨1, _⟩ => show win4_0.index t (1 : Fin 2) * 65 + 1 * (y 1).val = (i 1).val; omega

/-- Block `t` of left operand 1 is rows `4096 t … 4096 t + 4095` of its array. -/
theorem blkX4_1 (c : Dev nD) (t : Fin cfg4.N) (y : S4096x65.Idx) (i : S65536x65.Idx)
    (h0 : (i 0).val = t.val * 4096 + (y 0).val) (h1 : (i 1).val = (y 1).val) :
    (iblk4 V c 1 t : Vec Ideal S4096x65 .f32) y = (V c (Pipeline.arrRef spec4 1) : S65536x65.Idx → EReal) i := by
  have hidx := idx4 t
  show V c (Pipeline.arrRef spec4 1) (((cfg4.win 1).blk t).view.emb y) = V c (Pipeline.arrRef spec4 1) i
  congr 1
  funext a
  apply Fin.ext
  match a with
  | ⟨0, _⟩ => show win4_1.index t (0 : Fin 2) * 4096 + 1 * (y 0).val = (i 0).val; omega
  | ⟨1, _⟩ => show win4_1.index t (1 : Fin 2) * 65 + 1 * (y 1).val = (i 1).val; omega

/-- Block `t` of left operand 2 is rows `4096 t … 4096 t + 4095` of its array. -/
theorem blkX4_2 (c : Dev nD) (t : Fin cfg4.N) (y : S4096x65.Idx) (i : S65536x65.Idx)
    (h0 : (i 0).val = t.val * 4096 + (y 0).val) (h1 : (i 1).val = (y 1).val) :
    (iblk4 V c 2 t : Vec Ideal S4096x65 .f32) y = (V c (Pipeline.arrRef spec4 2) : S65536x65.Idx → EReal) i := by
  have hidx := idx4 t
  show V c (Pipeline.arrRef spec4 2) (((cfg4.win 2).blk t).view.emb y) = V c (Pipeline.arrRef spec4 2) i
  congr 1
  funext a
  apply Fin.ext
  match a with
  | ⟨0, _⟩ => show win4_2.index t (0 : Fin 2) * 4096 + 1 * (y 0).val = (i 0).val; omega
  | ⟨1, _⟩ => show win4_2.index t (1 : Fin 2) * 65 + 1 * (y 1).val = (i 1).val; omega

/-- Block `t` of left operand 3 is rows `4096 t … 4096 t + 4095` of its array. -/
theorem blkX4_3 (c : Dev nD) (t : Fin cfg4.N) (y : S4096x65.Idx) (i : S65536x65.Idx)
    (h0 : (i 0).val = t.val * 4096 + (y 0).val) (h1 : (i 1).val = (y 1).val) :
    (iblk4 V c 3 t : Vec Ideal S4096x65 .f32) y = (V c (Pipeline.arrRef spec4 3) : S65536x65.Idx → EReal) i := by
  have hidx := idx4 t
  show V c (Pipeline.arrRef spec4 3) (((cfg4.win 3).blk t).view.emb y) = V c (Pipeline.arrRef spec4 3) i
  congr 1
  funext a
  apply Fin.ext
  match a with
  | ⟨0, _⟩ => show win4_3.index t (0 : Fin 2) * 4096 + 1 * (y 0).val = (i 0).val; omega
  | ⟨1, _⟩ => show win4_3.index t (1 : Fin 2) * 65 + 1 * (y 1).val = (i 1).val; omega

/-- Block `t` of left operand 4 is rows `4096 t … 4096 t + 4095` of its array. -/
theorem blkX4_4 (c : Dev nD) (t : Fin cfg4.N) (y : S4096x65.Idx) (i : S65536x65.Idx)
    (h0 : (i 0).val = t.val * 4096 + (y 0).val) (h1 : (i 1).val = (y 1).val) :
    (iblk4 V c 4 t : Vec Ideal S4096x65 .f32) y = (V c (Pipeline.arrRef spec4 4) : S65536x65.Idx → EReal) i := by
  have hidx := idx4 t
  show V c (Pipeline.arrRef spec4 4) (((cfg4.win 4).blk t).view.emb y) = V c (Pipeline.arrRef spec4 4) i
  congr 1
  funext a
  apply Fin.ext
  match a with
  | ⟨0, _⟩ => show win4_4.index t (0 : Fin 2) * 4096 + 1 * (y 0).val = (i 0).val; omega
  | ⟨1, _⟩ => show win4_4.index t (1 : Fin 2) * 65 + 1 * (y 1).val = (i 1).val; omega

/-- The one block of operand 5 is its whole array, at every point. -/
theorem blkW4_5 (c : Dev nD) (t : Fin cfg4.N) :
    (iblk4 V c 5 t : Vec Ideal S65x128 .f32) = (V c (Pipeline.arrRef spec4 5) : S65x128.Idx → EReal) := by
  have hidx := idx4 t
  funext y
  show V c (Pipeline.arrRef spec4 5) (((cfg4.win 5).blk t).view.emb y) = V c (Pipeline.arrRef spec4 5) y
  congr 1
  funext a
  apply Fin.ext
  match a with
  | ⟨0, _⟩ => show win4_5.index t (0 : Fin 2) * 65 + 1 * (y 0).val = (y 0).val; omega
  | ⟨1, _⟩ => show win4_5.index t (1 : Fin 2) * 128 + 1 * (y 1).val = (y 1).val; omega

/-- The one block of operand 6 is its whole array, at every point. -/
theorem blkW4_6 (c : Dev nD) (t : Fin cfg4.N) :
    (iblk4 V c 6 t : Vec Ideal S65x128 .f32) = (V c (Pipeline.arrRef spec4 6) : S65x128.Idx → EReal) := by
  have hidx := idx4 t
  funext y
  show V c (Pipeline.arrRef spec4 6) (((cfg4.win 6).blk t).view.emb y) = V c (Pipeline.arrRef spec4 6) y
  congr 1
  funext a
  apply Fin.ext
  match a with
  | ⟨0, _⟩ => show win4_6.index t (0 : Fin 2) * 65 + 1 * (y 0).val = (y 0).val; omega
  | ⟨1, _⟩ => show win4_6.index t (1 : Fin 2) * 128 + 1 * (y 1).val = (y 1).val; omega

/-- The one block of operand 7 is its whole array, at every point. -/
theorem blkW4_7 (c : Dev nD) (t : Fin cfg4.N) :
    (iblk4 V c 7 t : Vec Ideal S65x128 .f32) = (V c (Pipeline.arrRef spec4 7) : S65x128.Idx → EReal) := by
  have hidx := idx4 t
  funext y
  show V c (Pipeline.arrRef spec4 7) (((cfg4.win 7).blk t).view.emb y) = V c (Pipeline.arrRef spec4 7) y
  congr 1
  funext a
  apply Fin.ext
  match a with
  | ⟨0, _⟩ => show win4_7.index t (0 : Fin 2) * 65 + 1 * (y 0).val = (y 0).val; omega
  | ⟨1, _⟩ => show win4_7.index t (1 : Fin 2) * 128 + 1 * (y 1).val = (y 1).val; omega

/-- The one block of operand 8 is its whole array, at every point. -/
theorem blkW4_8 (c : Dev nD) (t : Fin cfg4.N) :
    (iblk4 V c 8 t : Vec Ideal S65x128 .f32) = (V c (Pipeline.arrRef spec4 8) : S65x128.Idx → EReal) := by
  have hidx := idx4 t
  funext y
  show V c (Pipeline.arrRef spec4 8) (((cfg4.win 8).blk t).view.emb y) = V c (Pipeline.arrRef spec4 8) y
  congr 1
  funext a
  apply Fin.ext
  match a with
  | ⟨0, _⟩ => show win4_8.index t (0 : Fin 2) * 65 + 1 * (y 0).val = (y 0).val; omega
  | ⟨1, _⟩ => show win4_8.index t (1 : Fin 2) * 128 + 1 * (y 1).val = (y 1).val; omega

/-- The one block of operand 9 is its whole array, at every point. -/
theorem blkW4_9 (c : Dev nD) (t : Fin cfg4.N) :
    (iblk4 V c 9 t : Vec Ideal S65x128 .f32) = (V c (Pipeline.arrRef spec4 9) : S65x128.Idx → EReal) := by
  have hidx := idx4 t
  funext y
  show V c (Pipeline.arrRef spec4 9) (((cfg4.win 9).blk t).view.emb y) = V c (Pipeline.arrRef spec4 9) y
  congr 1
  funext a
  apply Fin.ext
  match a with
  | ⟨0, _⟩ => show win4_9.index t (0 : Fin 2) * 65 + 1 * (y 0).val = (y 0).val; omega
  | ⟨1, _⟩ => show win4_9.index t (1 : Fin 2) * 128 + 1 * (y 1).val = (y 1).val; omega

/-- The one block of operand 10 is its whole array, at every point. -/
theorem blkW4_10 (c : Dev nD) (t : Fin cfg4.N) :
    (iblk4 V c 10 t : Vec Ideal S1x128 .f32) = (V c (Pipeline.arrRef spec4 10) : S1x128.Idx → EReal) := by
  have hidx := idx4 t
  funext y
  show V c (Pipeline.arrRef spec4 10) (((cfg4.win 10).blk t).view.emb y) = V c (Pipeline.arrRef spec4 10) y
  congr 1
  funext a
  apply Fin.ext
  match a with
  | ⟨0, _⟩ => show win4_10.index t (0 : Fin 2) * 1 + 1 * (y 0).val = (y 0).val; omega
  | ⟨1, _⟩ => show win4_10.index t (1 : Fin 2) * 128 + 1 * (y 1).val = (y 1).val; omega

set_option maxHeartbeats 1000000 in
/-- WHAT POINT `t` WRITES BACK is block `t` of the whole-array function of the arrays the region finds. -/
theorem flushed4 (c : Dev nD) (t : Fin cfg4.N) :
    (dat4 V c).flushed 11 t = ((cfg4.win 11).blk t).view.read (Elt Ideal)
      (logistic (pre5 (V c (Pipeline.arrRef spec4 0) : S65536x65.Idx → EReal) (V c (Pipeline.arrRef spec4 1) : S65536x65.Idx → EReal) (V c (Pipeline.arrRef spec4 2) : S65536x65.Idx → EReal) (V c (Pipeline.arrRef spec4 3) : S65536x65.Idx → EReal) (V c (Pipeline.arrRef spec4 4) : S65536x65.Idx → EReal)
        (V c (Pipeline.arrRef spec4 5) : S65x128.Idx → EReal) (V c (Pipeline.arrRef spec4 6) : S65x128.Idx → EReal) (V c (Pipeline.arrRef spec4 7) : S65x128.Idx → EReal) (V c (Pipeline.arrRef spec4 8) : S65x128.Idx → EReal) (V c (Pipeline.arrRef spec4 9) : S65x128.Idx → EReal)
        (V c (Pipeline.arrRef spec4 10) : S1x128.Idx → EReal))) := by
  show (cfg4.win 11).cut (grid4.coords t) ((dat4 V c).after 11 t) = _
  rw [after4_11]
  unfold out4_11
  rw [View.canon_unit_zero zero_offsets]
  simp only [View.ld_unit_zero (S := S4096x65) zero_offsets, View.ld_unit_zero (S := S65x128) zero_offsets, View.ld_unit_zero (S := S1x128) zero_offsets]
  rw [pay4_eq]
  have hidx := idx4 t
  refine funext fun (j : S4096x128.Idx) => ?_
  have e0 : ((((cfg4.win 11).blk t).view.emb j : S65536x128.Idx) 0).val = t.val * 4096 + (j 0).val := by
    show win4_11.index t (0 : Fin 2) * 4096 + 1 * (j 0).val = _; omega
  have e1 : ((((cfg4.win 11).blk t).view.emb j : S65536x128.Idx) 1).val = (j 1).val := by
    show win4_11.index t (1 : Fin 2) * 128 + 1 * (j 1).val = _; omega
  rw [View.read_apply]
  exact logistic_pre5_eq_of_row (M := 65536) (M' := 4096) (K := 65) (N := 128)
    (iblk4 V c 0 t) (iblk4 V c 1 t) (iblk4 V c 2 t) (iblk4 V c 3 t) (iblk4 V c 4 t)
    (iblk4 V c 5 t) (iblk4 V c 6 t) (iblk4 V c 7 t) (iblk4 V c 8 t) (iblk4 V c 9 t) (iblk4 V c 10 t)
    (V c (Pipeline.arrRef spec4 0)) (V c (Pipeline.arrRef spec4 1)) (V c (Pipeline.arrRef spec4 2)) (V c (Pipeline.arrRef spec4 3)) (V c (Pipeline.arrRef spec4 4))
    (V c (Pipeline.arrRef spec4 5)) (V c (Pipeline.arrRef spec4 6)) (V c (Pipeline.arrRef spec4 7)) (V c (Pipeline.arrRef spec4 8)) (V c (Pipeline.arrRef spec4 9))
    (V c (Pipeline.arrRef spec4 10)) j (((cfg4.win 11).blk t).view.emb j : S65536x128.Idx)
    (blkW4_5 V c t) (blkW4_6 V c t) (blkW4_7 V c t) (blkW4_8 V c t) (blkW4_9 V c t) (blkW4_10 V c t) e1.symm
    (fun k => blkX4_0 V c t (ix2 (j 0) k) (ix2 ((((cfg4.win 11).blk t).view.emb j : S65536x128.Idx) 0) k) e0 rfl)
    (fun k => blkX4_1 V c t (ix2 (j 0) k) (ix2 ((((cfg4.win 11).blk t).view.emb j : S65536x128.Idx) 0) k) e0 rfl)
    (fun k => blkX4_2 V c t (ix2 (j 0) k) (ix2 ((((cfg4.win 11).blk t).view.emb j : S65536x128.Idx) 0) k) e0 rfl)
    (fun k => blkX4_3 V c t (ix2 (j 0) k) (ix2 ((((cfg4.win 11).blk t).view.emb j : S65536x128.Idx) 0) k) e0 rfl)
    (fun k => blkX4_4 V c t (ix2 (j 0) k) (ix2 ((((cfg4.win 11).blk t).view.emb j : S65536x128.Idx) 0) k) e0 rfl)

/-- An index of the output array is in point `t`'s block iff each coordinate is in the block's range on its axis. -/
theorem mem_blk4 (t : Fin cfg4.N) (i : S65536x128.Idx) :
    i ∈ ((cfg4.win 11).blk t).view.set ↔ ∀ a : Fin 2, win4_11.index t a * S4096x128.size a ≤ (i a).val ∧ (i a).val < win4_11.index t a * S4096x128.size a + S4096x128.size a := by
  show i ∈ ((View.whole main_v47).slice (win4_11.rect t)).set ↔ _
  rw [View.set_slice_whole, Rect.mem_set_unit]
  exact Iff.rfl

/-- The sixteen blocks tile the output: row `r` lies in the block of point `r / 4096`. -/
theorem cover4 (i : S65536x128.Idx) : ∃ t : Fin cfg4.N, (cfg4.win 11).flush t = true ∧ i ∈ ((cfg4.win 11).blk t).view.set := by
  have hi0 : (i 0).val < 65536 := (i 0).isLt
  have hi1 : (i 1).val < 128 := (i 1).isLt
  obtain ⟨t, ht⟩ := onto4 ⟨(i 0).val / 4096, by omega⟩
  have q0 : win4_11.index t (0 : Fin 2) = (i 0).val / 4096 := congrFun ht 0
  have q1 : win4_11.index t (1 : Fin 2) = 0 := congrFun ht 1
  refine ⟨t, flush4_11 t, ?_⟩
  rw [mem_blk4]
  intro a
  match a with
  | ⟨0, _⟩ => show win4_11.index t (0 : Fin 2) * 4096 ≤ (i 0).val ∧ (i 0).val < win4_11.index t (0 : Fin 2) * 4096 + 4096; omega
  | ⟨1, _⟩ => show win4_11.index t (1 : Fin 2) * 128 ≤ (i 1).val ∧ (i 1).val < win4_11.index t (1 : Fin 2) * 128 + 128; omega

/-- THE OUTPUT ARRAY after region 4: the activation of the five products' sum and the bias row, of the arrays the region finds. -/
theorem region4_11 (c : Dev nD) :
    (dat4 V c).arrAt 11 cfg4.N
      = (logistic (addf (addf (addf (addf (addf
          (mm (V c (Pipeline.arrRef spec4 0) : S65536x65.Idx → EReal) (V c (Pipeline.arrRef spec4 5) : S65x128.Idx → EReal))
          (mm (V c (Pipeline.arrRef spec4 1) : S65536x65.Idx → EReal) (V c (Pipeline.arrRef spec4 6) : S65x128.Idx → EReal)))
          (mm (V c (Pipeline.arrRef spec4 2) : S65536x65.Idx → EReal) (V c (Pipeline.arrRef spec4 7) : S65x128.Idx → EReal)))
          (mm (V c (Pipeline.arrRef spec4 3) : S65536x65.Idx → EReal) (V c (Pipeline.arrRef spec4 8) : S65x128.Idx → EReal)))
          (mm (V c (Pipeline.arrRef spec4 4) : S65536x65.Idx → EReal) (V c (Pipeline.arrRef spec4 9) : S65x128.Idx → EReal)))
          (rows fun q => (V c (Pipeline.arrRef spec4 10) : S1x128.Idx → EReal) (ix2 (0 : Fin 1) q))) : FVec Ideal S65536x128 .f32) :=
  (dat4 V c).arrAt_eq_of_cover 11 _ (fun t _ => flushed4 V c t) (cover4)

end Region4

/-! ## Region 9: rows of width 65 to rows of width 64, activation `tanh` -/

section Region9

variable (V : (c : Dev nD) → (b : Ref sig .tc) → Buf (Elt Ideal) ((c : Thread nD τ).loc b))

/-- The body's arithmetic on its loaded blocks: five products of the operands, the bias row, the activation. -/
theorem pay9_eq (x0 x1 x2 x3 x4 : Vec Ideal S4096x65 .f32) (w0 w1 w2 w3 w4 : Vec Ideal S65x64 .f32) (b : Vec Ideal S1x64 .f32) :
    k9_pay1 (k9_pay2 x0 w0 x1 w1 x2 w2 x3 w3) (k9_pay3 x4) w4 b = tanh (pre5 x0 x1 x2 x3 x4 w0 w1 w2 w3 w4 b) := by
  unfold k9_pay1 k9_pay2 k9_pay3
  dsimp only
  simp only [shapeCast_self, truncf_eq]
  rw [matmul_eq_mm dot_S4096x65_S65x64_S4096x64_1_0_0_1_n_n rfl x0 w0, matmul_eq_mm dot_S4096x65_S65x64_S4096x64_1_0_0_1_n_n rfl x1 w1, matmul_eq_mm dot_S4096x65_S65x64_S4096x64_1_0_0_1_n_n rfl x2 w2,
    matmul_eq_mm dot_S4096x65_S65x64_S4096x64_1_0_0_1_n_n rfl x3 w3, matmul_eq_mm dot_S4096x65_S65x64_S4096x64_1_0_0_1_n_n rfl x4 w4, broadcastTo_eq_rows b]
  rfl

/-- The printed index maps over the sixteen grid points: a left operand's and the output's block index is the point,
    a weight's and the bias's is zero. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0
    ∧ win9_8.index t (0 : Fin 2) = 0 ∧ win9_8.index t (1 : Fin 2) = 0
    ∧ win9_9.index t (0 : Fin 2) = 0 ∧ win9_9.index t (1 : Fin 2) = 0
    ∧ win9_10.index t (0 : Fin 2) = 0 ∧ win9_10.index t (1 : Fin 2) = 0
    ∧ win9_11.index t (0 : Fin 2) = t.val ∧ win9_11.index t (1 : Fin 2) = 0 :=
  (by decide +kernel : ∀ t : Fin grid9.N, _)

/-- Every block row of the output is some point's. -/
theorem onto9 : ∀ q : Fin 16, ∃ t : Fin cfg9.N, win9_11.index t = ![q.val, 0] :=
  (by decide +kernel : ∀ q : Fin 16, ∃ t : Fin grid9.N, win9_11.index t = ![q.val, 0])

/-- Block `t` of left operand 0 is rows `4096 t … 4096 t + 4095` of its array. -/
theorem blkX9_0 (c : Dev nD) (t : Fin cfg9.N) (y : S4096x65.Idx) (i : S65536x65.Idx)
    (h0 : (i 0).val = t.val * 4096 + (y 0).val) (h1 : (i 1).val = (y 1).val) :
    (iblk9 V c 0 t : Vec Ideal S4096x65 .f32) y = (V c (Pipeline.arrRef spec9 0) : S65536x65.Idx → EReal) i := by
  have hidx := idx9 t
  show V c (Pipeline.arrRef spec9 0) (((cfg9.win 0).blk t).view.emb y) = V c (Pipeline.arrRef spec9 0) i
  congr 1
  funext a
  apply Fin.ext
  match a with
  | ⟨0, _⟩ => show win9_0.index t (0 : Fin 2) * 4096 + 1 * (y 0).val = (i 0).val; omega
  | ⟨1, _⟩ => show win9_0.index t (1 : Fin 2) * 65 + 1 * (y 1).val = (i 1).val; omega

/-- Block `t` of left operand 1 is rows `4096 t … 4096 t + 4095` of its array. -/
theorem blkX9_1 (c : Dev nD) (t : Fin cfg9.N) (y : S4096x65.Idx) (i : S65536x65.Idx)
    (h0 : (i 0).val = t.val * 4096 + (y 0).val) (h1 : (i 1).val = (y 1).val) :
    (iblk9 V c 1 t : Vec Ideal S4096x65 .f32) y = (V c (Pipeline.arrRef spec9 1) : S65536x65.Idx → EReal) i := by
  have hidx := idx9 t
  show V c (Pipeline.arrRef spec9 1) (((cfg9.win 1).blk t).view.emb y) = V c (Pipeline.arrRef spec9 1) i
  congr 1
  funext a
  apply Fin.ext
  match a with
  | ⟨0, _⟩ => show win9_1.index t (0 : Fin 2) * 4096 + 1 * (y 0).val = (i 0).val; omega
  | ⟨1, _⟩ => show win9_1.index t (1 : Fin 2) * 65 + 1 * (y 1).val = (i 1).val; omega

/-- Block `t` of left operand 2 is rows `4096 t … 4096 t + 4095` of its array. -/
theorem blkX9_2 (c : Dev nD) (t : Fin cfg9.N) (y : S4096x65.Idx) (i : S65536x65.Idx)
    (h0 : (i 0).val = t.val * 4096 + (y 0).val) (h1 : (i 1).val = (y 1).val) :
    (iblk9 V c 2 t : Vec Ideal S4096x65 .f32) y = (V c (Pipeline.arrRef spec9 2) : S65536x65.Idx → EReal) i := by
  have hidx := idx9 t
  show V c (Pipeline.arrRef spec9 2) (((cfg9.win 2).blk t).view.emb y) = V c (Pipeline.arrRef spec9 2) i
  congr 1
  funext a
  apply Fin.ext
  match a with
  | ⟨0, _⟩ => show win9_2.index t (0 : Fin 2) * 4096 + 1 * (y 0).val = (i 0).val; omega
  | ⟨1, _⟩ => show win9_2.index t (1 : Fin 2) * 65 + 1 * (y 1).val = (i 1).val; omega

/-- Block `t` of left operand 3 is rows `4096 t … 4096 t + 4095` of its array. -/
theorem blkX9_3 (c : Dev nD) (t : Fin cfg9.N) (y : S4096x65.Idx) (i : S65536x65.Idx)
    (h0 : (i 0).val = t.val * 4096 + (y 0).val) (h1 : (i 1).val = (y 1).val) :
    (iblk9 V c 3 t : Vec Ideal S4096x65 .f32) y = (V c (Pipeline.arrRef spec9 3) : S65536x65.Idx → EReal) i := by
  have hidx := idx9 t
  show V c (Pipeline.arrRef spec9 3) (((cfg9.win 3).blk t).view.emb y) = V c (Pipeline.arrRef spec9 3) i
  congr 1
  funext a
  apply Fin.ext
  match a with
  | ⟨0, _⟩ => show win9_3.index t (0 : Fin 2) * 4096 + 1 * (y 0).val = (i 0).val; omega
  | ⟨1, _⟩ => show win9_3.index t (1 : Fin 2) * 65 + 1 * (y 1).val = (i 1).val; omega

/-- Block `t` of left operand 4 is rows `4096 t … 4096 t + 4095` of its array. -/
theorem blkX9_4 (c : Dev nD) (t : Fin cfg9.N) (y : S4096x65.Idx) (i : S65536x65.Idx)
    (h0 : (i 0).val = t.val * 4096 + (y 0).val) (h1 : (i 1).val = (y 1).val) :
    (iblk9 V c 4 t : Vec Ideal S4096x65 .f32) y = (V c (Pipeline.arrRef spec9 4) : S65536x65.Idx → EReal) i := by
  have hidx := idx9 t
  show V c (Pipeline.arrRef spec9 4) (((cfg9.win 4).blk t).view.emb y) = V c (Pipeline.arrRef spec9 4) i
  congr 1
  funext a
  apply Fin.ext
  match a with
  | ⟨0, _⟩ => show win9_4.index t (0 : Fin 2) * 4096 + 1 * (y 0).val = (i 0).val; omega
  | ⟨1, _⟩ => show win9_4.index t (1 : Fin 2) * 65 + 1 * (y 1).val = (i 1).val; omega

/-- The one block of operand 5 is its whole array, at every point. -/
theorem blkW9_5 (c : Dev nD) (t : Fin cfg9.N) :
    (iblk9 V c 5 t : Vec Ideal S65x64 .f32) = (V c (Pipeline.arrRef spec9 5) : S65x64.Idx → EReal) := by
  have hidx := idx9 t
  funext y
  show V c (Pipeline.arrRef spec9 5) (((cfg9.win 5).blk t).view.emb y) = V c (Pipeline.arrRef spec9 5) y
  congr 1
  funext a
  apply Fin.ext
  match a with
  | ⟨0, _⟩ => show win9_5.index t (0 : Fin 2) * 65 + 1 * (y 0).val = (y 0).val; omega
  | ⟨1, _⟩ => show win9_5.index t (1 : Fin 2) * 64 + 1 * (y 1).val = (y 1).val; omega

/-- The one block of operand 6 is its whole array, at every point. -/
theorem blkW9_6 (c : Dev nD) (t : Fin cfg9.N) :
    (iblk9 V c 6 t : Vec Ideal S65x64 .f32) = (V c (Pipeline.arrRef spec9 6) : S65x64.Idx → EReal) := by
  have hidx := idx9 t
  funext y
  show V c (Pipeline.arrRef spec9 6) (((cfg9.win 6).blk t).view.emb y) = V c (Pipeline.arrRef spec9 6) y
  congr 1
  funext a
  apply Fin.ext
  match a with
  | ⟨0, _⟩ => show win9_6.index t (0 : Fin 2) * 65 + 1 * (y 0).val = (y 0).val; omega
  | ⟨1, _⟩ => show win9_6.index t (1 : Fin 2) * 64 + 1 * (y 1).val = (y 1).val; omega

/-- The one block of operand 7 is its whole array, at every point. -/
theorem blkW9_7 (c : Dev nD) (t : Fin cfg9.N) :
    (iblk9 V c 7 t : Vec Ideal S65x64 .f32) = (V c (Pipeline.arrRef spec9 7) : S65x64.Idx → EReal) := by
  have hidx := idx9 t
  funext y
  show V c (Pipeline.arrRef spec9 7) (((cfg9.win 7).blk t).view.emb y) = V c (Pipeline.arrRef spec9 7) y
  congr 1
  funext a
  apply Fin.ext
  match a with
  | ⟨0, _⟩ => show win9_7.index t (0 : Fin 2) * 65 + 1 * (y 0).val = (y 0).val; omega
  | ⟨1, _⟩ => show win9_7.index t (1 : Fin 2) * 64 + 1 * (y 1).val = (y 1).val; omega

/-- The one block of operand 8 is its whole array, at every point. -/
theorem blkW9_8 (c : Dev nD) (t : Fin cfg9.N) :
    (iblk9 V c 8 t : Vec Ideal S65x64 .f32) = (V c (Pipeline.arrRef spec9 8) : S65x64.Idx → EReal) := by
  have hidx := idx9 t
  funext y
  show V c (Pipeline.arrRef spec9 8) (((cfg9.win 8).blk t).view.emb y) = V c (Pipeline.arrRef spec9 8) y
  congr 1
  funext a
  apply Fin.ext
  match a with
  | ⟨0, _⟩ => show win9_8.index t (0 : Fin 2) * 65 + 1 * (y 0).val = (y 0).val; omega
  | ⟨1, _⟩ => show win9_8.index t (1 : Fin 2) * 64 + 1 * (y 1).val = (y 1).val; omega

/-- The one block of operand 9 is its whole array, at every point. -/
theorem blkW9_9 (c : Dev nD) (t : Fin cfg9.N) :
    (iblk9 V c 9 t : Vec Ideal S65x64 .f32) = (V c (Pipeline.arrRef spec9 9) : S65x64.Idx → EReal) := by
  have hidx := idx9 t
  funext y
  show V c (Pipeline.arrRef spec9 9) (((cfg9.win 9).blk t).view.emb y) = V c (Pipeline.arrRef spec9 9) y
  congr 1
  funext a
  apply Fin.ext
  match a with
  | ⟨0, _⟩ => show win9_9.index t (0 : Fin 2) * 65 + 1 * (y 0).val = (y 0).val; omega
  | ⟨1, _⟩ => show win9_9.index t (1 : Fin 2) * 64 + 1 * (y 1).val = (y 1).val; omega

/-- The one block of operand 10 is its whole array, at every point. -/
theorem blkW9_10 (c : Dev nD) (t : Fin cfg9.N) :
    (iblk9 V c 10 t : Vec Ideal S1x64 .f32) = (V c (Pipeline.arrRef spec9 10) : S1x64.Idx → EReal) := by
  have hidx := idx9 t
  funext y
  show V c (Pipeline.arrRef spec9 10) (((cfg9.win 10).blk t).view.emb y) = V c (Pipeline.arrRef spec9 10) y
  congr 1
  funext a
  apply Fin.ext
  match a with
  | ⟨0, _⟩ => show win9_10.index t (0 : Fin 2) * 1 + 1 * (y 0).val = (y 0).val; omega
  | ⟨1, _⟩ => show win9_10.index t (1 : Fin 2) * 64 + 1 * (y 1).val = (y 1).val; omega

set_option maxHeartbeats 1000000 in
/-- WHAT POINT `t` WRITES BACK is block `t` of the whole-array function of the arrays the region finds. -/
theorem flushed9 (c : Dev nD) (t : Fin cfg9.N) :
    (dat9 V c).flushed 11 t = ((cfg9.win 11).blk t).view.read (Elt Ideal)
      (tanh (pre5 (V c (Pipeline.arrRef spec9 0) : S65536x65.Idx → EReal) (V c (Pipeline.arrRef spec9 1) : S65536x65.Idx → EReal) (V c (Pipeline.arrRef spec9 2) : S65536x65.Idx → EReal) (V c (Pipeline.arrRef spec9 3) : S65536x65.Idx → EReal) (V c (Pipeline.arrRef spec9 4) : S65536x65.Idx → EReal)
        (V c (Pipeline.arrRef spec9 5) : S65x64.Idx → EReal) (V c (Pipeline.arrRef spec9 6) : S65x64.Idx → EReal) (V c (Pipeline.arrRef spec9 7) : S65x64.Idx → EReal) (V c (Pipeline.arrRef spec9 8) : S65x64.Idx → EReal) (V c (Pipeline.arrRef spec9 9) : S65x64.Idx → EReal)
        (V c (Pipeline.arrRef spec9 10) : S1x64.Idx → EReal))) := by
  show (cfg9.win 11).cut (grid9.coords t) ((dat9 V c).after 11 t) = _
  rw [after9_11]
  unfold out9_11
  rw [View.canon_unit_zero zero_offsets]
  simp only [View.ld_unit_zero (S := S4096x65) zero_offsets, View.ld_unit_zero (S := S65x64) zero_offsets, View.ld_unit_zero (S := S1x64) zero_offsets]
  rw [pay9_eq]
  have hidx := idx9 t
  refine funext fun (j : S4096x64.Idx) => ?_
  have e0 : ((((cfg9.win 11).blk t).view.emb j : S65536x64.Idx) 0).val = t.val * 4096 + (j 0).val := by
    show win9_11.index t (0 : Fin 2) * 4096 + 1 * (j 0).val = _; omega
  have e1 : ((((cfg9.win 11).blk t).view.emb j : S65536x64.Idx) 1).val = (j 1).val := by
    show win9_11.index t (1 : Fin 2) * 64 + 1 * (j 1).val = _; omega
  rw [View.read_apply]
  exact tanh_pre5_eq_of_row (M := 65536) (M' := 4096) (K := 65) (N := 64)
    (iblk9 V c 0 t) (iblk9 V c 1 t) (iblk9 V c 2 t) (iblk9 V c 3 t) (iblk9 V c 4 t)
    (iblk9 V c 5 t) (iblk9 V c 6 t) (iblk9 V c 7 t) (iblk9 V c 8 t) (iblk9 V c 9 t) (iblk9 V c 10 t)
    (V c (Pipeline.arrRef spec9 0)) (V c (Pipeline.arrRef spec9 1)) (V c (Pipeline.arrRef spec9 2)) (V c (Pipeline.arrRef spec9 3)) (V c (Pipeline.arrRef spec9 4))
    (V c (Pipeline.arrRef spec9 5)) (V c (Pipeline.arrRef spec9 6)) (V c (Pipeline.arrRef spec9 7)) (V c (Pipeline.arrRef spec9 8)) (V c (Pipeline.arrRef spec9 9))
    (V c (Pipeline.arrRef spec9 10)) j (((cfg9.win 11).blk t).view.emb j : S65536x64.Idx)
    (blkW9_5 V c t) (blkW9_6 V c t) (blkW9_7 V c t) (blkW9_8 V c t) (blkW9_9 V c t) (blkW9_10 V c t) e1.symm
    (fun k => blkX9_0 V c t (ix2 (j 0) k) (ix2 ((((cfg9.win 11).blk t).view.emb j : S65536x64.Idx) 0) k) e0 rfl)
    (fun k => blkX9_1 V c t (ix2 (j 0) k) (ix2 ((((cfg9.win 11).blk t).view.emb j : S65536x64.Idx) 0) k) e0 rfl)
    (fun k => blkX9_2 V c t (ix2 (j 0) k) (ix2 ((((cfg9.win 11).blk t).view.emb j : S65536x64.Idx) 0) k) e0 rfl)
    (fun k => blkX9_3 V c t (ix2 (j 0) k) (ix2 ((((cfg9.win 11).blk t).view.emb j : S65536x64.Idx) 0) k) e0 rfl)
    (fun k => blkX9_4 V c t (ix2 (j 0) k) (ix2 ((((cfg9.win 11).blk t).view.emb j : S65536x64.Idx) 0) k) e0 rfl)

/-- An index of the output array is in point `t`'s block iff each coordinate is in the block's range on its axis. -/
theorem mem_blk9 (t : Fin cfg9.N) (i : S65536x64.Idx) :
    i ∈ ((cfg9.win 11).blk t).view.set ↔ ∀ a : Fin 2, win9_11.index t a * S4096x64.size a ≤ (i a).val ∧ (i a).val < win9_11.index t a * S4096x64.size a + S4096x64.size a := by
  show i ∈ ((View.whole main_v76).slice (win9_11.rect t)).set ↔ _
  rw [View.set_slice_whole, Rect.mem_set_unit]
  exact Iff.rfl

/-- The sixteen blocks tile the output: row `r` lies in the block of point `r / 4096`. -/
theorem cover9 (i : S65536x64.Idx) : ∃ t : Fin cfg9.N, (cfg9.win 11).flush t = true ∧ i ∈ ((cfg9.win 11).blk t).view.set := by
  have hi0 : (i 0).val < 65536 := (i 0).isLt
  have hi1 : (i 1).val < 64 := (i 1).isLt
  obtain ⟨t, ht⟩ := onto9 ⟨(i 0).val / 4096, by omega⟩
  have q0 : win9_11.index t (0 : Fin 2) = (i 0).val / 4096 := congrFun ht 0
  have q1 : win9_11.index t (1 : Fin 2) = 0 := congrFun ht 1
  refine ⟨t, flush9_11 t, ?_⟩
  rw [mem_blk9]
  intro a
  match a with
  | ⟨0, _⟩ => show win9_11.index t (0 : Fin 2) * 4096 ≤ (i 0).val ∧ (i 0).val < win9_11.index t (0 : Fin 2) * 4096 + 4096; omega
  | ⟨1, _⟩ => show win9_11.index t (1 : Fin 2) * 64 ≤ (i 1).val ∧ (i 1).val < win9_11.index t (1 : Fin 2) * 64 + 64; omega

/-- THE OUTPUT ARRAY after region 9: the activation of the five products' sum and the bias row, of the arrays the region finds. -/
theorem region9_11 (c : Dev nD) :
    (dat9 V c).arrAt 11 cfg9.N
      = (tanh (addf (addf (addf (addf (addf
          (mm (V c (Pipeline.arrRef spec9 0) : S65536x65.Idx → EReal) (V c (Pipeline.arrRef spec9 5) : S65x64.Idx → EReal))
          (mm (V c (Pipeline.arrRef spec9 1) : S65536x65.Idx → EReal) (V c (Pipeline.arrRef spec9 6) : S65x64.Idx → EReal)))
          (mm (V c (Pipeline.arrRef spec9 2) : S65536x65.Idx → EReal) (V c (Pipeline.arrRef spec9 7) : S65x64.Idx → EReal)))
          (mm (V c (Pipeline.arrRef spec9 3) : S65536x65.Idx → EReal) (V c (Pipeline.arrRef spec9 8) : S65x64.Idx → EReal)))
          (mm (V c (Pipeline.arrRef spec9 4) : S65536x65.Idx → EReal) (V c (Pipeline.arrRef spec9 9) : S65x64.Idx → EReal)))
          (rows fun q => (V c (Pipeline.arrRef spec9 10) : S1x64.Idx → EReal) (ix2 (0 : Fin 1) q))) : FVec Ideal S65536x64 .f32) :=
  (dat9 V c).arrAt_eq_of_cover 11 _ (fun t _ => flushed9 V c t) (cover9)

end Region9

/-! ## Region 14: rows of width 128 to rows of width 128, activation `logistic` -/

section Region14

variable (V : (c : Dev nD) → (b : Ref sig .tc) → Buf (Elt Ideal) ((c : Thread nD τ).loc b))

/-- The body's arithmetic on its loaded blocks: five products of the operands, the bias row, the activation. -/
theorem pay14_eq (x0 x1 x2 x3 x4 : Vec Ideal S4096x128 .f32) (w0 w1 w2 w3 w4 : Vec Ideal S128x128 .f32) (b : Vec Ideal S1x128 .f32) :
    k14_pay1 (k14_pay2 x0 w0 x1 w1 x2 w2 x3 w3) (k14_pay3 x4) w4 b = logistic (pre5 x0 x1 x2 x3 x4 w0 w1 w2 w3 w4 b) := by
  unfold k14_pay1 k14_pay2 k14_pay3
  dsimp only
  simp only [shapeCast_self, truncf_eq]
  rw [matmul_eq_mm dot_S4096x128_S128x128_S4096x128_1_0_0_1_n_n rfl x0 w0, matmul_eq_mm dot_S4096x128_S128x128_S4096x128_1_0_0_1_n_n rfl x1 w1, matmul_eq_mm dot_S4096x128_S128x128_S4096x128_1_0_0_1_n_n rfl x2 w2,
    matmul_eq_mm dot_S4096x128_S128x128_S4096x128_1_0_0_1_n_n rfl x3 w3, matmul_eq_mm dot_S4096x128_S128x128_S4096x128_1_0_0_1_n_n rfl x4 w4, broadcastTo_eq_rows b]
  rfl

/-- The printed index maps over the sixteen grid points: a left operand's and the output's block index is the point,
    a weight's and the bias's is zero. -/
theorem idx14 : ∀ t : Fin cfg14.N, win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = t.val ∧ win14_3.index t (1 : Fin 2) = 0
    ∧ win14_4.index t (0 : Fin 2) = t.val ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0
    ∧ win14_7.index t (0 : Fin 2) = 0 ∧ win14_7.index t (1 : Fin 2) = 0
    ∧ win14_8.index t (0 : Fin 2) = 0 ∧ win14_8.index t (1 : Fin 2) = 0
    ∧ win14_9.index t (0 : Fin 2) = 0 ∧ win14_9.index t (1 : Fin 2) = 0
    ∧ win14_10.index t (0 : Fin 2) = 0 ∧ win14_10.index t (1 : Fin 2) = 0
    ∧ win14_11.index t (0 : Fin 2) = t.val ∧ win14_11.index t (1 : Fin 2) = 0 :=
  (by decide +kernel : ∀ t : Fin grid14.N, _)

/-- Every block row of the output is some point's. -/
theorem onto14 : ∀ q : Fin 16, ∃ t : Fin cfg14.N, win14_11.index t = ![q.val, 0] :=
  (by decide +kernel : ∀ q : Fin 16, ∃ t : Fin grid14.N, win14_11.index t = ![q.val, 0])

/-- Block `t` of left operand 0 is rows `4096 t … 4096 t + 4095` of its array. -/
theorem blkX14_0 (c : Dev nD) (t : Fin cfg14.N) (y : S4096x128.Idx) (i : S65536x128.Idx)
    (h0 : (i 0).val = t.val * 4096 + (y 0).val) (h1 : (i 1).val = (y 1).val) :
    (iblk14 V c 0 t : Vec Ideal S4096x128 .f32) y = (V c (Pipeline.arrRef spec14 0) : S65536x128.Idx → EReal) i := by
  have hidx := idx14 t
  show V c (Pipeline.arrRef spec14 0) (((cfg14.win 0).blk t).view.emb y) = V c (Pipeline.arrRef spec14 0) i
  congr 1
  funext a
  apply Fin.ext
  match a with
  | ⟨0, _⟩ => show win14_0.index t (0 : Fin 2) * 4096 + 1 * (y 0).val = (i 0).val; omega
  | ⟨1, _⟩ => show win14_0.index t (1 : Fin 2) * 128 + 1 * (y 1).val = (i 1).val; omega

/-- Block `t` of left operand 1 is rows `4096 t … 4096 t + 4095` of its array. -/
theorem blkX14_1 (c : Dev nD) (t : Fin cfg14.N) (y : S4096x128.Idx) (i : S65536x128.Idx)
    (h0 : (i 0).val = t.val * 4096 + (y 0).val) (h1 : (i 1).val = (y 1).val) :
    (iblk14 V c 1 t : Vec Ideal S4096x128 .f32) y = (V c (Pipeline.arrRef spec14 1) : S65536x128.Idx → EReal) i := by
  have hidx := idx14 t
  show V c (Pipeline.arrRef spec14 1) (((cfg14.win 1).blk t).view.emb y) = V c (Pipeline.arrRef spec14 1) i
  congr 1
  funext a
  apply Fin.ext
  match a with
  | ⟨0, _⟩ => show win14_1.index t (0 : Fin 2) * 4096 + 1 * (y 0).val = (i 0).val; omega
  | ⟨1, _⟩ => show win14_1.index t (1 : Fin 2) * 128 + 1 * (y 1).val = (i 1).val; omega

/-- Block `t` of left operand 2 is rows `4096 t … 4096 t + 4095` of its array. -/
theorem blkX14_2 (c : Dev nD) (t : Fin cfg14.N) (y : S4096x128.Idx) (i : S65536x128.Idx)
    (h0 : (i 0).val = t.val * 4096 + (y 0).val) (h1 : (i 1).val = (y 1).val) :
    (iblk14 V c 2 t : Vec Ideal S4096x128 .f32) y = (V c (Pipeline.arrRef spec14 2) : S65536x128.Idx → EReal) i := by
  have hidx := idx14 t
  show V c (Pipeline.arrRef spec14 2) (((cfg14.win 2).blk t).view.emb y) = V c (Pipeline.arrRef spec14 2) i
  congr 1
  funext a
  apply Fin.ext
  match a with
  | ⟨0, _⟩ => show win14_2.index t (0 : Fin 2) * 4096 + 1 * (y 0).val = (i 0).val; omega
  | ⟨1, _⟩ => show win14_2.index t (1 : Fin 2) * 128 + 1 * (y 1).val = (i 1).val; omega

/-- Block `t` of left operand 3 is rows `4096 t … 4096 t + 4095` of its array. -/
theorem blkX14_3 (c : Dev nD) (t : Fin cfg14.N) (y : S4096x128.Idx) (i : S65536x128.Idx)
    (h0 : (i 0).val = t.val * 4096 + (y 0).val) (h1 : (i 1).val = (y 1).val) :
    (iblk14 V c 3 t : Vec Ideal S4096x128 .f32) y = (V c (Pipeline.arrRef spec14 3) : S65536x128.Idx → EReal) i := by
  have hidx := idx14 t
  show V c (Pipeline.arrRef spec14 3) (((cfg14.win 3).blk t).view.emb y) = V c (Pipeline.arrRef spec14 3) i
  congr 1
  funext a
  apply Fin.ext
  match a with
  | ⟨0, _⟩ => show win14_3.index t (0 : Fin 2) * 4096 + 1 * (y 0).val = (i 0).val; omega
  | ⟨1, _⟩ => show win14_3.index t (1 : Fin 2) * 128 + 1 * (y 1).val = (i 1).val; omega

/-- Block `t` of left operand 4 is rows `4096 t … 4096 t + 4095` of its array. -/
theorem blkX14_4 (c : Dev nD) (t : Fin cfg14.N) (y : S4096x128.Idx) (i : S65536x128.Idx)
    (h0 : (i 0).val = t.val * 4096 + (y 0).val) (h1 : (i 1).val = (y 1).val) :
    (iblk14 V c 4 t : Vec Ideal S4096x128 .f32) y = (V c (Pipeline.arrRef spec14 4) : S65536x128.Idx → EReal) i := by
  have hidx := idx14 t
  show V c (Pipeline.arrRef spec14 4) (((cfg14.win 4).blk t).view.emb y) = V c (Pipeline.arrRef spec14 4) i
  congr 1
  funext a
  apply Fin.ext
  match a with
  | ⟨0, _⟩ => show win14_4.index t (0 : Fin 2) * 4096 + 1 * (y 0).val = (i 0).val; omega
  | ⟨1, _⟩ => show win14_4.index t (1 : Fin 2) * 128 + 1 * (y 1).val = (i 1).val; omega

/-- The one block of operand 5 is its whole array, at every point. -/
theorem blkW14_5 (c : Dev nD) (t : Fin cfg14.N) :
    (iblk14 V c 5 t : Vec Ideal S128x128 .f32) = (V c (Pipeline.arrRef spec14 5) : S128x128.Idx → EReal) := by
  have hidx := idx14 t
  funext y
  show V c (Pipeline.arrRef spec14 5) (((cfg14.win 5).blk t).view.emb y) = V c (Pipeline.arrRef spec14 5) y
  congr 1
  funext a
  apply Fin.ext
  match a with
  | ⟨0, _⟩ => show win14_5.index t (0 : Fin 2) * 128 + 1 * (y 0).val = (y 0).val; omega
  | ⟨1, _⟩ => show win14_5.index t (1 : Fin 2) * 128 + 1 * (y 1).val = (y 1).val; omega

/-- The one block of operand 6 is its whole array, at every point. -/
theorem blkW14_6 (c : Dev nD) (t : Fin cfg14.N) :
    (iblk14 V c 6 t : Vec Ideal S128x128 .f32) = (V c (Pipeline.arrRef spec14 6) : S128x128.Idx → EReal) := by
  have hidx := idx14 t
  funext y
  show V c (Pipeline.arrRef spec14 6) (((cfg14.win 6).blk t).view.emb y) = V c (Pipeline.arrRef spec14 6) y
  congr 1
  funext a
  apply Fin.ext
  match a with
  | ⟨0, _⟩ => show win14_6.index t (0 : Fin 2) * 128 + 1 * (y 0).val = (y 0).val; omega
  | ⟨1, _⟩ => show win14_6.index t (1 : Fin 2) * 128 + 1 * (y 1).val = (y 1).val; omega

/-- The one block of operand 7 is its whole array, at every point. -/
theorem blkW14_7 (c : Dev nD) (t : Fin cfg14.N) :
    (iblk14 V c 7 t : Vec Ideal S128x128 .f32) = (V c (Pipeline.arrRef spec14 7) : S128x128.Idx → EReal) := by
  have hidx := idx14 t
  funext y
  show V c (Pipeline.arrRef spec14 7) (((cfg14.win 7).blk t).view.emb y) = V c (Pipeline.arrRef spec14 7) y
  congr 1
  funext a
  apply Fin.ext
  match a with
  | ⟨0, _⟩ => show win14_7.index t (0 : Fin 2) * 128 + 1 * (y 0).val = (y 0).val; omega
  | ⟨1, _⟩ => show win14_7.index t (1 : Fin 2) * 128 + 1 * (y 1).val = (y 1).val; omega

/-- The one block of operand 8 is its whole array, at every point. -/
theorem blkW14_8 (c : Dev nD) (t : Fin cfg14.N) :
    (iblk14 V c 8 t : Vec Ideal S128x128 .f32) = (V c (Pipeline.arrRef spec14 8) : S128x128.Idx → EReal) := by
  have hidx := idx14 t
  funext y
  show V c (Pipeline.arrRef spec14 8) (((cfg14.win 8).blk t).view.emb y) = V c (Pipeline.arrRef spec14 8) y
  congr 1
  funext a
  apply Fin.ext
  match a with
  | ⟨0, _⟩ => show win14_8.index t (0 : Fin 2) * 128 + 1 * (y 0).val = (y 0).val; omega
  | ⟨1, _⟩ => show win14_8.index t (1 : Fin 2) * 128 + 1 * (y 1).val = (y 1).val; omega

/-- The one block of operand 9 is its whole array, at every point. -/
theorem blkW14_9 (c : Dev nD) (t : Fin cfg14.N) :
    (iblk14 V c 9 t : Vec Ideal S128x128 .f32) = (V c (Pipeline.arrRef spec14 9) : S128x128.Idx → EReal) := by
  have hidx := idx14 t
  funext y
  show V c (Pipeline.arrRef spec14 9) (((cfg14.win 9).blk t).view.emb y) = V c (Pipeline.arrRef spec14 9) y
  congr 1
  funext a
  apply Fin.ext
  match a with
  | ⟨0, _⟩ => show win14_9.index t (0 : Fin 2) * 128 + 1 * (y 0).val = (y 0).val; omega
  | ⟨1, _⟩ => show win14_9.index t (1 : Fin 2) * 128 + 1 * (y 1).val = (y 1).val; omega

/-- The one block of operand 10 is its whole array, at every point. -/
theorem blkW14_10 (c : Dev nD) (t : Fin cfg14.N) :
    (iblk14 V c 10 t : Vec Ideal S1x128 .f32) = (V c (Pipeline.arrRef spec14 10) : S1x128.Idx → EReal) := by
  have hidx := idx14 t
  funext y
  show V c (Pipeline.arrRef spec14 10) (((cfg14.win 10).blk t).view.emb y) = V c (Pipeline.arrRef spec14 10) y
  congr 1
  funext a
  apply Fin.ext
  match a with
  | ⟨0, _⟩ => show win14_10.index t (0 : Fin 2) * 1 + 1 * (y 0).val = (y 0).val; omega
  | ⟨1, _⟩ => show win14_10.index t (1 : Fin 2) * 128 + 1 * (y 1).val = (y 1).val; omega

set_option maxHeartbeats 1000000 in
/-- WHAT POINT `t` WRITES BACK is block `t` of the whole-array function of the arrays the region finds. -/
theorem flushed14 (c : Dev nD) (t : Fin cfg14.N) :
    (dat14 V c).flushed 11 t = ((cfg14.win 11).blk t).view.read (Elt Ideal)
      (logistic (pre5 (V c (Pipeline.arrRef spec14 0) : S65536x128.Idx → EReal) (V c (Pipeline.arrRef spec14 1) : S65536x128.Idx → EReal) (V c (Pipeline.arrRef spec14 2) : S65536x128.Idx → EReal) (V c (Pipeline.arrRef spec14 3) : S65536x128.Idx → EReal) (V c (Pipeline.arrRef spec14 4) : S65536x128.Idx → EReal)
        (V c (Pipeline.arrRef spec14 5) : S128x128.Idx → EReal) (V c (Pipeline.arrRef spec14 6) : S128x128.Idx → EReal) (V c (Pipeline.arrRef spec14 7) : S128x128.Idx → EReal) (V c (Pipeline.arrRef spec14 8) : S128x128.Idx → EReal) (V c (Pipeline.arrRef spec14 9) : S128x128.Idx → EReal)
        (V c (Pipeline.arrRef spec14 10) : S1x128.Idx → EReal))) := by
  show (cfg14.win 11).cut (grid14.coords t) ((dat14 V c).after 11 t) = _
  rw [after14_11]
  unfold out14_11
  rw [View.canon_unit_zero zero_offsets]
  simp only [View.ld_unit_zero (S := S4096x128) zero_offsets, View.ld_unit_zero (S := S128x128) zero_offsets, View.ld_unit_zero (S := S1x128) zero_offsets]
  rw [pay14_eq]
  have hidx := idx14 t
  refine funext fun (j : S4096x128.Idx) => ?_
  have e0 : ((((cfg14.win 11).blk t).view.emb j : S65536x128.Idx) 0).val = t.val * 4096 + (j 0).val := by
    show win14_11.index t (0 : Fin 2) * 4096 + 1 * (j 0).val = _; omega
  have e1 : ((((cfg14.win 11).blk t).view.emb j : S65536x128.Idx) 1).val = (j 1).val := by
    show win14_11.index t (1 : Fin 2) * 128 + 1 * (j 1).val = _; omega
  rw [View.read_apply]
  exact logistic_pre5_eq_of_row (M := 65536) (M' := 4096) (K := 128) (N := 128)
    (iblk14 V c 0 t) (iblk14 V c 1 t) (iblk14 V c 2 t) (iblk14 V c 3 t) (iblk14 V c 4 t)
    (iblk14 V c 5 t) (iblk14 V c 6 t) (iblk14 V c 7 t) (iblk14 V c 8 t) (iblk14 V c 9 t) (iblk14 V c 10 t)
    (V c (Pipeline.arrRef spec14 0)) (V c (Pipeline.arrRef spec14 1)) (V c (Pipeline.arrRef spec14 2)) (V c (Pipeline.arrRef spec14 3)) (V c (Pipeline.arrRef spec14 4))
    (V c (Pipeline.arrRef spec14 5)) (V c (Pipeline.arrRef spec14 6)) (V c (Pipeline.arrRef spec14 7)) (V c (Pipeline.arrRef spec14 8)) (V c (Pipeline.arrRef spec14 9))
    (V c (Pipeline.arrRef spec14 10)) j (((cfg14.win 11).blk t).view.emb j : S65536x128.Idx)
    (blkW14_5 V c t) (blkW14_6 V c t) (blkW14_7 V c t) (blkW14_8 V c t) (blkW14_9 V c t) (blkW14_10 V c t) e1.symm
    (fun k => blkX14_0 V c t (ix2 (j 0) k) (ix2 ((((cfg14.win 11).blk t).view.emb j : S65536x128.Idx) 0) k) e0 rfl)
    (fun k => blkX14_1 V c t (ix2 (j 0) k) (ix2 ((((cfg14.win 11).blk t).view.emb j : S65536x128.Idx) 0) k) e0 rfl)
    (fun k => blkX14_2 V c t (ix2 (j 0) k) (ix2 ((((cfg14.win 11).blk t).view.emb j : S65536x128.Idx) 0) k) e0 rfl)
    (fun k => blkX14_3 V c t (ix2 (j 0) k) (ix2 ((((cfg14.win 11).blk t).view.emb j : S65536x128.Idx) 0) k) e0 rfl)
    (fun k => blkX14_4 V c t (ix2 (j 0) k) (ix2 ((((cfg14.win 11).blk t).view.emb j : S65536x128.Idx) 0) k) e0 rfl)

/-- An index of the output array is in point `t`'s block iff each coordinate is in the block's range on its axis. -/
theorem mem_blk14 (t : Fin cfg14.N) (i : S65536x128.Idx) :
    i ∈ ((cfg14.win 11).blk t).view.set ↔ ∀ a : Fin 2, win14_11.index t a * S4096x128.size a ≤ (i a).val ∧ (i a).val < win14_11.index t a * S4096x128.size a + S4096x128.size a := by
  show i ∈ ((View.whole main_v111).slice (win14_11.rect t)).set ↔ _
  rw [View.set_slice_whole, Rect.mem_set_unit]
  exact Iff.rfl

/-- The sixteen blocks tile the output: row `r` lies in the block of point `r / 4096`. -/
theorem cover14 (i : S65536x128.Idx) : ∃ t : Fin cfg14.N, (cfg14.win 11).flush t = true ∧ i ∈ ((cfg14.win 11).blk t).view.set := by
  have hi0 : (i 0).val < 65536 := (i 0).isLt
  have hi1 : (i 1).val < 128 := (i 1).isLt
  obtain ⟨t, ht⟩ := onto14 ⟨(i 0).val / 4096, by omega⟩
  have q0 : win14_11.index t (0 : Fin 2) = (i 0).val / 4096 := congrFun ht 0
  have q1 : win14_11.index t (1 : Fin 2) = 0 := congrFun ht 1
  refine ⟨t, flush14_11 t, ?_⟩
  rw [mem_blk14]
  intro a
  match a with
  | ⟨0, _⟩ => show win14_11.index t (0 : Fin 2) * 4096 ≤ (i 0).val ∧ (i 0).val < win14_11.index t (0 : Fin 2) * 4096 + 4096; omega
  | ⟨1, _⟩ => show win14_11.index t (1 : Fin 2) * 128 ≤ (i 1).val ∧ (i 1).val < win14_11.index t (1 : Fin 2) * 128 + 128; omega

/-- THE OUTPUT ARRAY after region 14: the activation of the five products' sum and the bias row, of the arrays the region finds. -/
theorem region14_11 (c : Dev nD) :
    (dat14 V c).arrAt 11 cfg14.N
      = (logistic (addf (addf (addf (addf (addf
          (mm (V c (Pipeline.arrRef spec14 0) : S65536x128.Idx → EReal) (V c (Pipeline.arrRef spec14 5) : S128x128.Idx → EReal))
          (mm (V c (Pipeline.arrRef spec14 1) : S65536x128.Idx → EReal) (V c (Pipeline.arrRef spec14 6) : S128x128.Idx → EReal)))
          (mm (V c (Pipeline.arrRef spec14 2) : S65536x128.Idx → EReal) (V c (Pipeline.arrRef spec14 7) : S128x128.Idx → EReal)))
          (mm (V c (Pipeline.arrRef spec14 3) : S65536x128.Idx → EReal) (V c (Pipeline.arrRef spec14 8) : S128x128.Idx → EReal)))
          (mm (V c (Pipeline.arrRef spec14 4) : S65536x128.Idx → EReal) (V c (Pipeline.arrRef spec14 9) : S128x128.Idx → EReal)))
          (rows fun q => (V c (Pipeline.arrRef spec14 10) : S1x128.Idx → EReal) (ix2 (0 : Fin 1) q))) : FVec Ideal S65536x128 .f32) :=
  (dat14 V c).arrAt_eq_of_cover 11 _ (fun t _ => flushed14 V c t) (cover14)

end Region14

/-! ## Region 19: rows of width 128 to rows of width 64, activation `tanh` -/

section Region19

variable (V : (c : Dev nD) → (b : Ref sig .tc) → Buf (Elt Ideal) ((c : Thread nD τ).loc b))

/-- The body's arithmetic on its loaded blocks: five products of the operands, the bias row, the activation. -/
theorem pay19_eq (x0 x1 x2 x3 x4 : Vec Ideal S4096x128 .f32) (w0 w1 w2 w3 w4 : Vec Ideal S128x64 .f32) (b : Vec Ideal S1x64 .f32) :
    k19_pay1 (k19_pay2 x0 w0 x1 w1 x2 w2 x3 w3) (k19_pay3 x4) w4 b = tanh (pre5 x0 x1 x2 x3 x4 w0 w1 w2 w3 w4 b) := by
  unfold k19_pay1 k19_pay2 k19_pay3
  dsimp only
  simp only [shapeCast_self, truncf_eq]
  rw [matmul_eq_mm dot_S4096x128_S128x64_S4096x64_1_0_0_1_n_n rfl x0 w0, matmul_eq_mm dot_S4096x128_S128x64_S4096x64_1_0_0_1_n_n rfl x1 w1, matmul_eq_mm dot_S4096x128_S128x64_S4096x64_1_0_0_1_n_n rfl x2 w2,
    matmul_eq_mm dot_S4096x128_S128x64_S4096x64_1_0_0_1_n_n rfl x3 w3, matmul_eq_mm dot_S4096x128_S128x64_S4096x64_1_0_0_1_n_n rfl x4 w4, broadcastTo_eq_rows b]
  rfl

/-- The printed index maps over the sixteen grid points: a left operand's and the output's block index is the point,
    a weight's and the bias's is zero. -/
theorem idx19 : ∀ t : Fin cfg19.N, win19_0.index t (0 : Fin 2) = t.val ∧ win19_0.index t (1 : Fin 2) = 0
    ∧ win19_1.index t (0 : Fin 2) = t.val ∧ win19_1.index t (1 : Fin 2) = 0
    ∧ win19_2.index t (0 : Fin 2) = t.val ∧ win19_2.index t (1 : Fin 2) = 0
    ∧ win19_3.index t (0 : Fin 2) = t.val ∧ win19_3.index t (1 : Fin 2) = 0
    ∧ win19_4.index t (0 : Fin 2) = t.val ∧ win19_4.index t (1 : Fin 2) = 0
    ∧ win19_5.index t (0 : Fin 2) = 0 ∧ win19_5.index t (1 : Fin 2) = 0
    ∧ win19_6.index t (0 : Fin 2) = 0 ∧ win19_6.index t (1 : Fin 2) = 0
    ∧ win19_7.index t (0 : Fin 2) = 0 ∧ win19_7.index t (1 : Fin 2) = 0
    ∧ win19_8.index t (0 : Fin 2) = 0 ∧ win19_8.index t (1 : Fin 2) = 0
    ∧ win19_9.index t (0 : Fin 2) = 0 ∧ win19_9.index t (1 : Fin 2) = 0
    ∧ win19_10.index t (0 : Fin 2) = 0 ∧ win19_10.index t (1 : Fin 2) = 0
    ∧ win19_11.index t (0 : Fin 2) = t.val ∧ win19_11.index t (1 : Fin 2) = 0 :=
  (by decide +kernel : ∀ t : Fin grid19.N, _)

/-- Every block row of the output is some point's. -/
theorem onto19 : ∀ q : Fin 16, ∃ t : Fin cfg19.N, win19_11.index t = ![q.val, 0] :=
  (by decide +kernel : ∀ q : Fin 16, ∃ t : Fin grid19.N, win19_11.index t = ![q.val, 0])

/-- Block `t` of left operand 0 is rows `4096 t … 4096 t + 4095` of its array. -/
theorem blkX19_0 (c : Dev nD) (t : Fin cfg19.N) (y : S4096x128.Idx) (i : S65536x128.Idx)
    (h0 : (i 0).val = t.val * 4096 + (y 0).val) (h1 : (i 1).val = (y 1).val) :
    (iblk19 V c 0 t : Vec Ideal S4096x128 .f32) y = (V c (Pipeline.arrRef spec19 0) : S65536x128.Idx → EReal) i := by
  have hidx := idx19 t
  show V c (Pipeline.arrRef spec19 0) (((cfg19.win 0).blk t).view.emb y) = V c (Pipeline.arrRef spec19 0) i
  congr 1
  funext a
  apply Fin.ext
  match a with
  | ⟨0, _⟩ => show win19_0.index t (0 : Fin 2) * 4096 + 1 * (y 0).val = (i 0).val; omega
  | ⟨1, _⟩ => show win19_0.index t (1 : Fin 2) * 128 + 1 * (y 1).val = (i 1).val; omega

/-- Block `t` of left operand 1 is rows `4096 t … 4096 t + 4095` of its array. -/
theorem blkX19_1 (c : Dev nD) (t : Fin cfg19.N) (y : S4096x128.Idx) (i : S65536x128.Idx)
    (h0 : (i 0).val = t.val * 4096 + (y 0).val) (h1 : (i 1).val = (y 1).val) :
    (iblk19 V c 1 t : Vec Ideal S4096x128 .f32) y = (V c (Pipeline.arrRef spec19 1) : S65536x128.Idx → EReal) i := by
  have hidx := idx19 t
  show V c (Pipeline.arrRef spec19 1) (((cfg19.win 1).blk t).view.emb y) = V c (Pipeline.arrRef spec19 1) i
  congr 1
  funext a
  apply Fin.ext
  match a with
  | ⟨0, _⟩ => show win19_1.index t (0 : Fin 2) * 4096 + 1 * (y 0).val = (i 0).val; omega
  | ⟨1, _⟩ => show win19_1.index t (1 : Fin 2) * 128 + 1 * (y 1).val = (i 1).val; omega

/-- Block `t` of left operand 2 is rows `4096 t … 4096 t + 4095` of its array. -/
theorem blkX19_2 (c : Dev nD) (t : Fin cfg19.N) (y : S4096x128.Idx) (i : S65536x128.Idx)
    (h0 : (i 0).val = t.val * 4096 + (y 0).val) (h1 : (i 1).val = (y 1).val) :
    (iblk19 V c 2 t : Vec Ideal S4096x128 .f32) y = (V c (Pipeline.arrRef spec19 2) : S65536x128.Idx → EReal) i := by
  have hidx := idx19 t
  show V c (Pipeline.arrRef spec19 2) (((cfg19.win 2).blk t).view.emb y) = V c (Pipeline.arrRef spec19 2) i
  congr 1
  funext a
  apply Fin.ext
  match a with
  | ⟨0, _⟩ => show win19_2.index t (0 : Fin 2) * 4096 + 1 * (y 0).val = (i 0).val; omega
  | ⟨1, _⟩ => show win19_2.index t (1 : Fin 2) * 128 + 1 * (y 1).val = (i 1).val; omega

/-- Block `t` of left operand 3 is rows `4096 t … 4096 t + 4095` of its array. -/
theorem blkX19_3 (c : Dev nD) (t : Fin cfg19.N) (y : S4096x128.Idx) (i : S65536x128.Idx)
    (h0 : (i 0).val = t.val * 4096 + (y 0).val) (h1 : (i 1).val = (y 1).val) :
    (iblk19 V c 3 t : Vec Ideal S4096x128 .f32) y = (V c (Pipeline.arrRef spec19 3) : S65536x128.Idx → EReal) i := by
  have hidx := idx19 t
  show V c (Pipeline.arrRef spec19 3) (((cfg19.win 3).blk t).view.emb y) = V c (Pipeline.arrRef spec19 3) i
  congr 1
  funext a
  apply Fin.ext
  match a with
  | ⟨0, _⟩ => show win19_3.index t (0 : Fin 2) * 4096 + 1 * (y 0).val = (i 0).val; omega
  | ⟨1, _⟩ => show win19_3.index t (1 : Fin 2) * 128 + 1 * (y 1).val = (i 1).val; omega

/-- Block `t` of left operand 4 is rows `4096 t … 4096 t + 4095` of its array. -/
theorem blkX19_4 (c : Dev nD) (t : Fin cfg19.N) (y : S4096x128.Idx) (i : S65536x128.Idx)
    (h0 : (i 0).val = t.val * 4096 + (y 0).val) (h1 : (i 1).val = (y 1).val) :
    (iblk19 V c 4 t : Vec Ideal S4096x128 .f32) y = (V c (Pipeline.arrRef spec19 4) : S65536x128.Idx → EReal) i := by
  have hidx := idx19 t
  show V c (Pipeline.arrRef spec19 4) (((cfg19.win 4).blk t).view.emb y) = V c (Pipeline.arrRef spec19 4) i
  congr 1
  funext a
  apply Fin.ext
  match a with
  | ⟨0, _⟩ => show win19_4.index t (0 : Fin 2) * 4096 + 1 * (y 0).val = (i 0).val; omega
  | ⟨1, _⟩ => show win19_4.index t (1 : Fin 2) * 128 + 1 * (y 1).val = (i 1).val; omega

/-- The one block of operand 5 is its whole array, at every point. -/
theorem blkW19_5 (c : Dev nD) (t : Fin cfg19.N) :
    (iblk19 V c 5 t : Vec Ideal S128x64 .f32) = (V c (Pipeline.arrRef spec19 5) : S128x64.Idx → EReal) := by
  have hidx := idx19 t
  funext y
  show V c (Pipeline.arrRef spec19 5) (((cfg19.win 5).blk t).view.emb y) = V c (Pipeline.arrRef spec19 5) y
  congr 1
  funext a
  apply Fin.ext
  match a with
  | ⟨0, _⟩ => show win19_5.index t (0 : Fin 2) * 128 + 1 * (y 0).val = (y 0).val; omega
  | ⟨1, _⟩ => show win19_5.index t (1 : Fin 2) * 64 + 1 * (y 1).val = (y 1).val; omega

/-- The one block of operand 6 is its whole array, at every point. -/
theorem blkW19_6 (c : Dev nD) (t : Fin cfg19.N) :
    (iblk19 V c 6 t : Vec Ideal S128x64 .f32) = (V c (Pipeline.arrRef spec19 6) : S128x64.Idx → EReal) := by
  have hidx := idx19 t
  funext y
  show V c (Pipeline.arrRef spec19 6) (((cfg19.win 6).blk t).view.emb y) = V c (Pipeline.arrRef spec19 6) y
  congr 1
  funext a
  apply Fin.ext
  match a with
  | ⟨0, _⟩ => show win19_6.index t (0 : Fin 2) * 128 + 1 * (y 0).val = (y 0).val; omega
  | ⟨1, _⟩ => show win19_6.index t (1 : Fin 2) * 64 + 1 * (y 1).val = (y 1).val; omega

/-- The one block of operand 7 is its whole array, at every point. -/
theorem blkW19_7 (c : Dev nD) (t : Fin cfg19.N) :
    (iblk19 V c 7 t : Vec Ideal S128x64 .f32) = (V c (Pipeline.arrRef spec19 7) : S128x64.Idx → EReal) := by
  have hidx := idx19 t
  funext y
  show V c (Pipeline.arrRef spec19 7) (((cfg19.win 7).blk t).view.emb y) = V c (Pipeline.arrRef spec19 7) y
  congr 1
  funext a
  apply Fin.ext
  match a with
  | ⟨0, _⟩ => show win19_7.index t (0 : Fin 2) * 128 + 1 * (y 0).val = (y 0).val; omega
  | ⟨1, _⟩ => show win19_7.index t (1 : Fin 2) * 64 + 1 * (y 1).val = (y 1).val; omega

/-- The one block of operand 8 is its whole array, at every point. -/
theorem blkW19_8 (c : Dev nD) (t : Fin cfg19.N) :
    (iblk19 V c 8 t : Vec Ideal S128x64 .f32) = (V c (Pipeline.arrRef spec19 8) : S128x64.Idx → EReal) := by
  have hidx := idx19 t
  funext y
  show V c (Pipeline.arrRef spec19 8) (((cfg19.win 8).blk t).view.emb y) = V c (Pipeline.arrRef spec19 8) y
  congr 1
  funext a
  apply Fin.ext
  match a with
  | ⟨0, _⟩ => show win19_8.index t (0 : Fin 2) * 128 + 1 * (y 0).val = (y 0).val; omega
  | ⟨1, _⟩ => show win19_8.index t (1 : Fin 2) * 64 + 1 * (y 1).val = (y 1).val; omega

/-- The one block of operand 9 is its whole array, at every point. -/
theorem blkW19_9 (c : Dev nD) (t : Fin cfg19.N) :
    (iblk19 V c 9 t : Vec Ideal S128x64 .f32) = (V c (Pipeline.arrRef spec19 9) : S128x64.Idx → EReal) := by
  have hidx := idx19 t
  funext y
  show V c (Pipeline.arrRef spec19 9) (((cfg19.win 9).blk t).view.emb y) = V c (Pipeline.arrRef spec19 9) y
  congr 1
  funext a
  apply Fin.ext
  match a with
  | ⟨0, _⟩ => show win19_9.index t (0 : Fin 2) * 128 + 1 * (y 0).val = (y 0).val; omega
  | ⟨1, _⟩ => show win19_9.index t (1 : Fin 2) * 64 + 1 * (y 1).val = (y 1).val; omega

/-- The one block of operand 10 is its whole array, at every point. -/
theorem blkW19_10 (c : Dev nD) (t : Fin cfg19.N) :
    (iblk19 V c 10 t : Vec Ideal S1x64 .f32) = (V c (Pipeline.arrRef spec19 10) : S1x64.Idx → EReal) := by
  have hidx := idx19 t
  funext y
  show V c (Pipeline.arrRef spec19 10) (((cfg19.win 10).blk t).view.emb y) = V c (Pipeline.arrRef spec19 10) y
  congr 1
  funext a
  apply Fin.ext
  match a with
  | ⟨0, _⟩ => show win19_10.index t (0 : Fin 2) * 1 + 1 * (y 0).val = (y 0).val; omega
  | ⟨1, _⟩ => show win19_10.index t (1 : Fin 2) * 64 + 1 * (y 1).val = (y 1).val; omega

set_option maxHeartbeats 1000000 in
/-- WHAT POINT `t` WRITES BACK is block `t` of the whole-array function of the arrays the region finds. -/
theorem flushed19 (c : Dev nD) (t : Fin cfg19.N) :
    (dat19 V c).flushed 11 t = ((cfg19.win 11).blk t).view.read (Elt Ideal)
      (tanh (pre5 (V c (Pipeline.arrRef spec19 0) : S65536x128.Idx → EReal) (V c (Pipeline.arrRef spec19 1) : S65536x128.Idx → EReal) (V c (Pipeline.arrRef spec19 2) : S65536x128.Idx → EReal) (V c (Pipeline.arrRef spec19 3) : S65536x128.Idx → EReal) (V c (Pipeline.arrRef spec19 4) : S65536x128.Idx → EReal)
        (V c (Pipeline.arrRef spec19 5) : S128x64.Idx → EReal) (V c (Pipeline.arrRef spec19 6) : S128x64.Idx → EReal) (V c (Pipeline.arrRef spec19 7) : S128x64.Idx → EReal) (V c (Pipeline.arrRef spec19 8) : S128x64.Idx → EReal) (V c (Pipeline.arrRef spec19 9) : S128x64.Idx → EReal)
        (V c (Pipeline.arrRef spec19 10) : S1x64.Idx → EReal))) := by
  show (cfg19.win 11).cut (grid19.coords t) ((dat19 V c).after 11 t) = _
  rw [after19_11]
  unfold out19_11
  rw [View.canon_unit_zero zero_offsets]
  simp only [View.ld_unit_zero (S := S4096x128) zero_offsets, View.ld_unit_zero (S := S128x64) zero_offsets, View.ld_unit_zero (S := S1x64) zero_offsets]
  rw [pay19_eq]
  have hidx := idx19 t
  refine funext fun (j : S4096x64.Idx) => ?_
  have e0 : ((((cfg19.win 11).blk t).view.emb j : S65536x64.Idx) 0).val = t.val * 4096 + (j 0).val := by
    show win19_11.index t (0 : Fin 2) * 4096 + 1 * (j 0).val = _; omega
  have e1 : ((((cfg19.win 11).blk t).view.emb j : S65536x64.Idx) 1).val = (j 1).val := by
    show win19_11.index t (1 : Fin 2) * 64 + 1 * (j 1).val = _; omega
  rw [View.read_apply]
  exact tanh_pre5_eq_of_row (M := 65536) (M' := 4096) (K := 128) (N := 64)
    (iblk19 V c 0 t) (iblk19 V c 1 t) (iblk19 V c 2 t) (iblk19 V c 3 t) (iblk19 V c 4 t)
    (iblk19 V c 5 t) (iblk19 V c 6 t) (iblk19 V c 7 t) (iblk19 V c 8 t) (iblk19 V c 9 t) (iblk19 V c 10 t)
    (V c (Pipeline.arrRef spec19 0)) (V c (Pipeline.arrRef spec19 1)) (V c (Pipeline.arrRef spec19 2)) (V c (Pipeline.arrRef spec19 3)) (V c (Pipeline.arrRef spec19 4))
    (V c (Pipeline.arrRef spec19 5)) (V c (Pipeline.arrRef spec19 6)) (V c (Pipeline.arrRef spec19 7)) (V c (Pipeline.arrRef spec19 8)) (V c (Pipeline.arrRef spec19 9))
    (V c (Pipeline.arrRef spec19 10)) j (((cfg19.win 11).blk t).view.emb j : S65536x64.Idx)
    (blkW19_5 V c t) (blkW19_6 V c t) (blkW19_7 V c t) (blkW19_8 V c t) (blkW19_9 V c t) (blkW19_10 V c t) e1.symm
    (fun k => blkX19_0 V c t (ix2 (j 0) k) (ix2 ((((cfg19.win 11).blk t).view.emb j : S65536x64.Idx) 0) k) e0 rfl)
    (fun k => blkX19_1 V c t (ix2 (j 0) k) (ix2 ((((cfg19.win 11).blk t).view.emb j : S65536x64.Idx) 0) k) e0 rfl)
    (fun k => blkX19_2 V c t (ix2 (j 0) k) (ix2 ((((cfg19.win 11).blk t).view.emb j : S65536x64.Idx) 0) k) e0 rfl)
    (fun k => blkX19_3 V c t (ix2 (j 0) k) (ix2 ((((cfg19.win 11).blk t).view.emb j : S65536x64.Idx) 0) k) e0 rfl)
    (fun k => blkX19_4 V c t (ix2 (j 0) k) (ix2 ((((cfg19.win 11).blk t).view.emb j : S65536x64.Idx) 0) k) e0 rfl)

/-- An index of the output array is in point `t`'s block iff each coordinate is in the block's range on its axis. -/
theorem mem_blk19 (t : Fin cfg19.N) (i : S65536x64.Idx) :
    i ∈ ((cfg19.win 11).blk t).view.set ↔ ∀ a : Fin 2, win19_11.index t a * S4096x64.size a ≤ (i a).val ∧ (i a).val < win19_11.index t a * S4096x64.size a + S4096x64.size a := by
  show i ∈ ((View.whole main_v140).slice (win19_11.rect t)).set ↔ _
  rw [View.set_slice_whole, Rect.mem_set_unit]
  exact Iff.rfl

/-- The sixteen blocks tile the output: row `r` lies in the block of point `r / 4096`. -/
theorem cover19 (i : S65536x64.Idx) : ∃ t : Fin cfg19.N, (cfg19.win 11).flush t = true ∧ i ∈ ((cfg19.win 11).blk t).view.set := by
  have hi0 : (i 0).val < 65536 := (i 0).isLt
  have hi1 : (i 1).val < 64 := (i 1).isLt
  obtain ⟨t, ht⟩ := onto19 ⟨(i 0).val / 4096, by omega⟩
  have q0 : win19_11.index t (0 : Fin 2) = (i 0).val / 4096 := congrFun ht 0
  have q1 : win19_11.index t (1 : Fin 2) = 0 := congrFun ht 1
  refine ⟨t, flush19_11 t, ?_⟩
  rw [mem_blk19]
  intro a
  match a with
  | ⟨0, _⟩ => show win19_11.index t (0 : Fin 2) * 4096 ≤ (i 0).val ∧ (i 0).val < win19_11.index t (0 : Fin 2) * 4096 + 4096; omega
  | ⟨1, _⟩ => show win19_11.index t (1 : Fin 2) * 64 ≤ (i 1).val ∧ (i 1).val < win19_11.index t (1 : Fin 2) * 64 + 64; omega

/-- THE OUTPUT ARRAY after region 19: the activation of the five products' sum and the bias row, of the arrays the region finds. -/
theorem region19_11 (c : Dev nD) :
    (dat19 V c).arrAt 11 cfg19.N
      = (tanh (addf (addf (addf (addf (addf
          (mm (V c (Pipeline.arrRef spec19 0) : S65536x128.Idx → EReal) (V c (Pipeline.arrRef spec19 5) : S128x64.Idx → EReal))
          (mm (V c (Pipeline.arrRef spec19 1) : S65536x128.Idx → EReal) (V c (Pipeline.arrRef spec19 6) : S128x64.Idx → EReal)))
          (mm (V c (Pipeline.arrRef spec19 2) : S65536x128.Idx → EReal) (V c (Pipeline.arrRef spec19 7) : S128x64.Idx → EReal)))
          (mm (V c (Pipeline.arrRef spec19 3) : S65536x128.Idx → EReal) (V c (Pipeline.arrRef spec19 8) : S128x64.Idx → EReal)))
          (mm (V c (Pipeline.arrRef spec19 4) : S65536x128.Idx → EReal) (V c (Pipeline.arrRef spec19 9) : S128x64.Idx → EReal)))
          (rows fun q => (V c (Pipeline.arrRef spec19 10) : S1x64.Idx → EReal) (ix2 (0 : Fin 1) q))) : FVec Ideal S65536x64 .f32) :=
  (dat19 V c).arrAt_eq_of_cover 11 _ (fun t _ => flushed19 V c t) (cover19)

end Region19

end Cert.KernelIdeal.RegionValue

end
-- ==== Proof.BridgeGate0.lean ====
/-
  Layer 0's gate, kernel program against reference program. The kernel recasts each of the five members of the gate
  convolution from [2048, 2080] to one row per (node, batch) pair, [65536, 65], cuts the weight [325, 128] into its
  five slices (rows f·5 + m for member m), lays the bias as one row, and one launched region forms the squashed sum of
  the five products and the bias row. That result, read as [2048, 32, 128], is cut along the feature axis into the
  reset gate and the update gate; the reset gate times the state, joined to the input and flattened to columns, is
  the next convolution's input. The reference stacks its five members, permutes and flattens the stack, multiplies
  once by the whole weight, adds the bias and spells the squashing out as 1 / (1 + e^(-y)). When the members are related
  column by column (column b·65 + f against column f·32 + b), the two gates hold one tensor node-major and batch-major,
  so do their two halves, and the next convolution's inputs are related column by column again.
-/
import proofs.«132349_j60696477827149_2_alg».proof.Proof.Bridge1
import proofs.«132349_j60696477827149_2_alg».proof.Proof.KernelCarry
import proofs.«132349_j60696477827149_2_alg».proof.Proof.LibRelateActivation
import proofs.«132349_j60696477827149_2_alg».proof.Proof.LibProjection
import proofs.«132349_j60696477827149_2_alg».proof.Proof.RegionsProjection

set_option maxRecDepth 16384

noncomputable section

namespace Cert.Bridge

open Cert.KernelIdeal Cert.KernelIdeal.Gen Cert.KernelIdeal.Carry
open Idealize.ShloMosaic Idealize.ShloMosaic.TcCoe Idealize.SL.Sem Idealize.ShloMosaic.StableHlo
open Idealize.ShloMosaic.ValueIdx Cert.Relate Cert.DenseLib

variable (m : (ℓ : Loc nD τ sig) → Buf (Elt Ideal) ℓ) (ρ : Dev nD → PrngReg) (c : Dev nD)
variable (V0 : Valuation Cert.ReferenceIdeal.τ Cert.ReferenceIdeal.sig (Elt Ideal))

/-! ## The kernel's buffers -/

section Gate0
variable (h3 : V0 (Proc.devRef .tc Cert.ReferenceIdeal.main_arg3) = m ((c : Thread nD τ).loc main_arg3))
  (h4 : V0 (Proc.devRef .tc Cert.ReferenceIdeal.main_arg4) = m ((c : Thread nD τ).loc main_arg4))
  (hx0 : W1 m ρ c (Proc.devRef .tc main_v24) = x0K V0)
  (hx1 : W2 m ρ c (Proc.devRef .tc main_v26_0) = x1K V0)
  (hx2 : W3 m ρ c (Proc.devRef .tc main_v27) = x2K V0)
  (hx3 : W4 m ρ c (Proc.devRef .tc main_v28_0) = x3K V0)
  (hx4 : W5 m ρ c (Proc.devRef .tc main_v29) = x4K V0)
  (hinp : W1 m ρ c (Proc.devRef .tc main_v18) = inpK V0)
  (hhid : W1 m ρ c (Proc.devRef .tc main_v22) = hid0K V0)

include hx0 in
/-- Member 0 of the gate convolution, recast to one row per (node, batch) pair. -/
theorem g0_member0 : W6 m ρ c (Proc.devRef .tc main_v41) = shapeCast S65536x65 (x0K V0) shapeCasts_S2048x2080_S65536x65 := by
  show StableHlo.after hostOps4 (W5 m ρ c) (Proc.devRef .tc main_v41) = _
  after_results
  rw [carry_main_v24_5 m ρ c, hx0]
  rfl

include hx1 in
/-- Member 1 of the gate convolution, recast to one row per (node, batch) pair. -/
theorem g0_member1 : W6 m ρ c (Proc.devRef .tc main_v42) = shapeCast S65536x65 (x1K V0) shapeCasts_S2048x2080_S65536x65 := by
  show StableHlo.after hostOps4 (W5 m ρ c) (Proc.devRef .tc main_v42) = _
  after_results
  rw [carry_main_v26_0_5 m ρ c, hx1]
  rfl

include hx2 in
/-- Member 2 of the gate convolution, recast to one row per (node, batch) pair. -/
theorem g0_member2 : W6 m ρ c (Proc.devRef .tc main_v43) = shapeCast S65536x65 (x2K V0) shapeCasts_S2048x2080_S65536x65 := by
  show StableHlo.after hostOps4 (W5 m ρ c) (Proc.devRef .tc main_v43) = _
  after_results
  rw [carry_main_v27_5 m ρ c, hx2]
  rfl

include hx3 in
/-- Member 3 of the gate convolution, recast to one row per (node, batch) pair. -/
theorem g0_member3 : W6 m ρ c (Proc.devRef .tc main_v44) = shapeCast S65536x65 (x3K V0) shapeCasts_S2048x2080_S65536x65 := by
  show StableHlo.after hostOps4 (W5 m ρ c) (Proc.devRef .tc main_v44) = _
  after_results
  rw [carry_main_v28_0_5 m ρ c, hx3]
  rfl

include hx4 in
/-- Member 4 of the gate convolution, recast to one row per (node, batch) pair. -/
theorem g0_member4 : W6 m ρ c (Proc.devRef .tc main_v45) = shapeCast S65536x65 (x4K V0) shapeCasts_S2048x2080_S65536x65 := by
  show StableHlo.after hostOps4 (W5 m ρ c) (Proc.devRef .tc main_v45) = _
  after_results
  rw [hx4]
  rfl

include h3 in
/-- Slice 0 of the gate weight: rows f·5 + 0 of the argument. -/
theorem g0_weight0 : W6 m ρ c (Proc.devRef .tc main_v32) =
    shapeCast S65x128 (extractStridedSlice S65x1x128 ![0, 0, 0] (shapeCast S65x5x128 (a3 V0) shapeCasts_S325x128_S65x5x128) slices_S65x5x128_S65x1x128_0_0_0) shapeCasts_S65x1x128_S65x128 := by
  show StableHlo.after hostOps4 (W5 m ρ c) (Proc.devRef .tc main_v32) = _
  after_results
  rw [carry_main_arg3_5 m ρ c, ← h3]
  rfl

include h3 in
/-- Slice 1 of the gate weight: rows f·5 + 1 of the argument. -/
theorem g0_weight1 : W6 m ρ c (Proc.devRef .tc main_v34) =
    shapeCast S65x128 (extractStridedSlice S65x1x128 ![0, 1, 0] (shapeCast S65x5x128 (a3 V0) shapeCasts_S325x128_S65x5x128) slices_S65x5x128_S65x1x128_0_1_0) shapeCasts_S65x1x128_S65x128 := by
  show StableHlo.after hostOps4 (W5 m ρ c) (Proc.devRef .tc main_v34) = _
  after_results
  rw [carry_main_arg3_5 m ρ c, ← h3]
  rfl

include h3 in
/-- Slice 2 of the gate weight: rows f·5 + 2 of the argument. -/
theorem g0_weight2 : W6 m ρ c (Proc.devRef .tc main_v36) =
    shapeCast S65x128 (extractStridedSlice S65x1x128 ![0, 2, 0] (shapeCast S65x5x128 (a3 V0) shapeCasts_S325x128_S65x5x128) slices_S65x5x128_S65x1x128_0_2_0) shapeCasts_S65x1x128_S65x128 := by
  show StableHlo.after hostOps4 (W5 m ρ c) (Proc.devRef .tc main_v36) = _
  after_results
  rw [carry_main_arg3_5 m ρ c, ← h3]
  rfl

include h3 in
/-- Slice 3 of the gate weight: rows f·5 + 3 of the argument. -/
theorem g0_weight3 : W6 m ρ c (Proc.devRef .tc main_v38) =
    shapeCast S65x128 (extractStridedSlice S65x1x128 ![0, 3, 0] (shapeCast S65x5x128 (a3 V0) shapeCasts_S325x128_S65x5x128) slices_S65x5x128_S65x1x128_0_3_0) shapeCasts_S65x1x128_S65x128 := by
  show StableHlo.after hostOps4 (W5 m ρ c) (Proc.devRef .tc main_v38) = _
  after_results
  rw [carry_main_arg3_5 m ρ c, ← h3]
  rfl

include h3 in
/-- Slice 4 of the gate weight: rows f·5 + 4 of the argument. -/
theorem g0_weight4 : W6 m ρ c (Proc.devRef .tc main_v40) =
    shapeCast S65x128 (extractStridedSlice S65x1x128 ![0, 4, 0] (shapeCast S65x5x128 (a3 V0) shapeCasts_S325x128_S65x5x128) slices_S65x5x128_S65x1x128_0_4_0) shapeCasts_S65x1x128_S65x128 := by
  show StableHlo.after hostOps4 (W5 m ρ c) (Proc.devRef .tc main_v40) = _
  after_results
  rw [carry_main_arg3_5 m ρ c, ← h3]
  rfl

include h4 in
/-- The gate bias as one row. -/
theorem g0_bias : W6 m ρ c (Proc.devRef .tc main_v46) = shapeCast S1x128 (a4 V0) shapeCasts_S128_S1x128 := by
  show StableHlo.after hostOps4 (W5 m ρ c) (Proc.devRef .tc main_v46) = _
  after_results
  rw [carry_main_arg4_5 m ρ c, ← h4]
  rfl

set_option maxHeartbeats 1000000 in
include h3 h4 hx0 hx1 hx2 hx3 hx4 in
/-- The projection region leaves the gate: the squashed sum of the five products and the bias row. -/
theorem g0_gate : W7 m ρ c (Proc.devRef .tc main_v47) = gate0K V0 := by
  have e := W7_arr m ρ c 11
  rw [Cert.KernelIdeal.RegionValue.region4_11] at e
  have s0 : V6 m ρ c (Pipeline.arrRef spec4 0) = _ := g0_member0 m ρ c V0 hx0
  have s1 : V6 m ρ c (Pipeline.arrRef spec4 1) = _ := g0_member1 m ρ c V0 hx1
  have s2 : V6 m ρ c (Pipeline.arrRef spec4 2) = _ := g0_member2 m ρ c V0 hx2
  have s3 : V6 m ρ c (Pipeline.arrRef spec4 3) = _ := g0_member3 m ρ c V0 hx3
  have s4 : V6 m ρ c (Pipeline.arrRef spec4 4) = _ := g0_member4 m ρ c V0 hx4
  have s5 : V6 m ρ c (Pipeline.arrRef spec4 5) = _ := g0_weight0 m ρ c V0 h3
  have s6 : V6 m ρ c (Pipeline.arrRef spec4 6) = _ := g0_weight1 m ρ c V0 h3
  have s7 : V6 m ρ c (Pipeline.arrRef spec4 7) = _ := g0_weight2 m ρ c V0 h3
  have s8 : V6 m ρ c (Pipeline.arrRef spec4 8) = _ := g0_weight3 m ρ c V0 h3
  have s9 : V6 m ρ c (Pipeline.arrRef spec4 9) = _ := g0_weight4 m ρ c V0 h3
  have s10 : V6 m ρ c (Pipeline.arrRef spec4 10) = _ := g0_bias m ρ c V0 h4
  rw [s0, s1, s2, s3, s4, s5, s6, s7, s8, s9, s10] at e
  exact e

section AfterGate
variable (hg : W7 m ρ c (Proc.devRef .tc main_v47) = gate0K V0)

include hg in
/-- The gate as a node-major rank-three array. -/
theorem g0_g : W8 m ρ c (Proc.devRef .tc main_v48) = g0K V0 := by
  show StableHlo.after hostOps5 (W7 m ρ c) (Proc.devRef .tc main_v48) = _
  after_results
  rw [hg]
  rfl

include hg in
/-- Its second half along the feature axis: the update gate. -/
theorem g0_u : W8 m ρ c (Proc.devRef .tc main_v50) = u0K V0 := by
  show StableHlo.after hostOps5 (W7 m ρ c) (Proc.devRef .tc main_v50) = _
  after_results
  rw [hg]
  rfl

include hg hinp hhid in
/-- The candidate convolution's input: the layer's input joined with the reset state, flattened to columns. -/
theorem g0_y : W8 m ρ c (Proc.devRef .tc main_v53) = y0K V0 := by
  show StableHlo.after hostOps5 (W7 m ρ c) (Proc.devRef .tc main_v53) = _
  after_results
  rw [hg, carry_main_v18_7 m ρ c, hinp, carry_main_v22_7 m ρ c, hhid]
  rfl

include hg hinp hhid in
/-- The same in the narrower float format: over the extended reals the change of format is the identity. -/
theorem g0_yb : W8 m ρ c (Proc.devRef .tc main_v54) = truncf (F := Ideal) (s := S2048x2080) .bf16 (y0K V0) bitsLt_bf16_f32 := by
  show StableHlo.after hostOps5 (W7 m ρ c) (Proc.devRef .tc main_v54) = _
  after_results
  rw [hg, carry_main_v18_7 m ρ c, hinp, carry_main_v22_7 m ρ c, hhid]
  rfl

end AfterGate

end Gate0

/-! ## Against the reference's terms -/

open Cert.ReferenceIdeal.Value (res_main_v6 res_main_v14 res_main_v17 res_main_v18 res_main_v21 res_main_v22 res_main_v27 res_main_v51 res_main_v53 res_main_v57)

/-- The reference's third and fifth members of the gate convolution, spelled as it spells them. -/
abbrev gateX2R : Cert.ReferenceIdeal.S2048x2080.Idx → EReal :=
  subf (mulf (broadcastInDim Cert.ReferenceIdeal.S2048x2080 ![] Cert.ReferenceIdeal.Gen.bcast_S_S2048x2080
      (constant (F := Ideal) Cert.ReferenceIdeal.S_ .f32 0x40000000#32))
    (Host.dotGeneral (F := Ideal) (φ₁ := .f32) (φ₂ := .f32) Cert.ReferenceIdeal.dot_S2048x2048_S2048x2080_S2048x2080_1_0_0_1_n_n none (res_main_v6 V0) (res_main_v22 V0)))
    (res_main_v21 V0)
abbrev gateX4R : Cert.ReferenceIdeal.S2048x2080.Idx → EReal :=
  subf (mulf (broadcastInDim Cert.ReferenceIdeal.S2048x2080 ![] Cert.ReferenceIdeal.Gen.bcast_S_S2048x2080
      (constant (F := Ideal) Cert.ReferenceIdeal.S_ .f32 0x40000000#32))
    (Host.dotGeneral (F := Ideal) (φ₁ := .f32) (φ₂ := .f32) Cert.ReferenceIdeal.dot_S2048x2048_S2048x2080_S2048x2080_1_0_0_1_n_n none (res_main_v14 V0) (res_main_v27 V0)))
    (res_main_v22 V0)

section Relations
variable (r0 : Cols65 (x0K V0) (res_main_v21 V0)) (r1 : Cols65 (x1K V0) (res_main_v22 V0))
  (r2 : Cols65 (x2K V0) (gateX2R V0)) (r3 : Cols65 (x3K V0) (res_main_v27 V0)) (r4 : Cols65 (x4K V0) (gateX4R V0))
  (rinp : Swap3 (inpK V0) (res_main_v17 V0)) (rhid : Swap3 (hid0K V0) (res_main_v18 V0))

set_option maxHeartbeats 1000000 in
include r0 r1 r2 r3 r4 in
/-- The gate in the two layouts: the five products added from the left against the one product of the stacked members,
    squashed by either spelling, reshaped to node-major and to batch-major. -/
theorem g0_swap : Swap3 (g0K V0) (res_main_v51 V0) := by
  have hrows := proj65_rows (O := 128) (x0K V0) (x1K V0) (x2K V0) (x3K V0) (x4K V0)
    (res_main_v21 V0) (res_main_v22 V0) (gateX2R V0) (res_main_v27 V0) (gateX4R V0) (a3 V0) (a4 V0)
    r0 r1 r2 r3 r4 shapeCasts_S2048x2080_S65536x65 shapeCasts_S325x128_S65x5x128
    slices_S65x5x128_S65x1x128_0_0_0 slices_S65x5x128_S65x1x128_0_1_0 slices_S65x5x128_S65x1x128_0_2_0
    slices_S65x5x128_S65x1x128_0_3_0 slices_S65x5x128_S65x1x128_0_4_0 shapeCasts_S65x1x128_S65x128 shapeCasts_S128_S1x128
    Cert.ReferenceIdeal.Gen.bcast_S2048x2080_S1x2048x2080_1_2
    Cert.ReferenceIdeal.Gen.concatenates_S1x2048x2080_S1x2048x2080_S1x2048x2080_S1x2048x2080_S1x2048x2080_S5x2048x2080_d0
    Cert.ReferenceIdeal.Gen.shapeCasts_S5x2048x2080_S5x2048x65x32 Cert.ReferenceIdeal.Gen.transposes_S5x2048x65x32_S32x2048x65x5_3_1_2_0
    Cert.ReferenceIdeal.Gen.shapeCasts_S32x2048x65x5_S65536x325
    Cert.ReferenceIdeal.dot_S65536x325_S325x128_S65536x128_1_0_0_1_n_n rfl
    Cert.ReferenceIdeal.Gen.bcast_S128_S1x128_1 Cert.ReferenceIdeal.Gen.bcast_S1x128_S65536x128_0_1
  have hsw := swap3_gate _ _ Cert.ReferenceIdeal.Gen.bcast_S_S65536x128 shapeCasts_S65536x128_S2048x32x128
    Cert.ReferenceIdeal.Gen.shapeCasts_S65536x128_S32x2048x128 hrows
  unfold Cert.ReferenceIdeal.Value.res_main_v51
  exact hsw

include r0 r1 r2 r3 r4 in
/-- The update gate: the second half of the feature axis in both layouts. -/
theorem u0_swap : Swap3 (u0K V0) (res_main_v53 V0) := by
  unfold Cert.ReferenceIdeal.Value.res_main_v53
  exact swap3_slice 64 _ _ _ _ (g0_swap V0 r0 r1 r2 r3 r4)

include r0 r1 r2 r3 r4 in
/-- The reset gate: the first half of the feature axis in both layouts. -/
theorem r0_swap : Swap3 (r0K V0)
    (extractStridedSlice Cert.ReferenceIdeal.S32x2048x64 ![0, 0, 0] (res_main_v51 V0) Cert.ReferenceIdeal.Gen.slices_S32x2048x128_S32x2048x64_0_0_0) :=
  swap3_slice 0 _ _ _ _ (g0_swap V0 r0 r1 r2 r3 r4)

include r0 r1 r2 r3 r4 rinp rhid in
/-- The candidate convolution's input in the two column orders. -/
theorem y0_cols : Cols65 (y0K V0) (res_main_v57 V0) := by
  unfold Cert.ReferenceIdeal.Value.res_main_v57
  exact cols65_of_swap3 _ _ _ _ _ (swap3_concat _ _ _ _ _ _ rinp
    (swap3_mulf _ _ _ _ (r0_swap V0 r0 r1 r2 r3 r4) rhid))

end Relations

end Cert.Bridge
end
-- ==== Proof.BridgeY.lean ====
/-
  The first layer's candidate graph convolution: its five members, kernel against reference.
  From an input X (columns b·F + f in one program, f·32 + b in the other) both programs form X, S₀X, 2·S₀(S₀X) − X,
  S₁(S₀X) and 2·S₁(S₁S₀X) − S₀X with the same two supports: a product on the left acts on each column separately,
  and the combination is entrywise, so the relation between the two column orders is kept member by member. In the
  kernel each product is one launched region whose result array is the whole-array product of the arrays it was
  launched on; a buffer written once is still there when a later region reads it.
-/
import proofs.«132349_j60696477827149_2_alg».proof.Proof.Bridge1
import proofs.«132349_j60696477827149_2_alg».proof.Proof.RegionsDiffusion
import proofs.«132349_j60696477827149_2_alg».proof.Proof.KernelCarry

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate Cert.DenseLib
open Cert.ReferenceIdeal.Value (res_main_v6 res_main_v14 res_main_v57 res_main_v58 res_main_v63)

variable (m : (ℓ : Loc nD τ sig) → Buf (Elt Ideal) ℓ) (ρ : Dev nD → PrngReg) (c : Dev nD)
variable (V0 : Valuation Cert.ReferenceIdeal.τ Cert.ReferenceIdeal.sig (Elt Ideal))
variable (h2 : V0 (Proc.devRef .tc Cert.ReferenceIdeal.main_arg2) = m ((c : Thread nD τ).loc main_arg2))
  (hY0 : W8 m ρ c (Proc.devRef .tc main_v53) = y0K V0)
  (hY0b : W8 m ρ c (Proc.devRef .tc main_v54) = truncf (F := Ideal) (s := S2048x2080) .bf16 (y0K V0) bitsLt_bf16_f32)

/-! ## The kernel's four regions -/

include h2 hY0b in
theorem y1_eq : W9 m ρ c (Proc.devRef .tc main_v55_0) = y1K V0 := by
  have e := W9_arr m ρ c 2
  rw [Cert.KernelIdeal.RegionValue.region5_2] at e
  have s : V8 m ρ c (Pipeline.arrRef spec5 0) = res_main_v6 V0 := (Cert.KernelIdeal.Carry.carry_main_v15_8 m ρ c).trans (sup0_eq m ρ c V0 h2)
  have x : V8 m ρ c (Pipeline.arrRef spec5 1) = y0K V0 := hY0b
  rw [s, x] at e
  exact e

include h2 hY0b in
theorem y1b_eq : W9 m ρ c (Proc.devRef .tc main_v55_1) = y1K V0 := by
  have e := W9_arr m ρ c 3
  rw [Cert.KernelIdeal.RegionValue.region5_3] at e
  have s : V8 m ρ c (Pipeline.arrRef spec5 0) = res_main_v6 V0 := (Cert.KernelIdeal.Carry.carry_main_v15_8 m ρ c).trans (sup0_eq m ρ c V0 h2)
  have x : V8 m ρ c (Pipeline.arrRef spec5 1) = y0K V0 := hY0b
  rw [s, x] at e
  exact e

include h2 hY0 hY0b in
theorem y2_eq : W10 m ρ c (Proc.devRef .tc main_v56) = y2K V0 := by
  have e := W10_arr m ρ c 3
  rw [Cert.KernelIdeal.RegionValue.region6_3] at e
  have s : V9 m ρ c (Pipeline.arrRef spec6 0) = res_main_v6 V0 := (Cert.KernelIdeal.Carry.carry_main_v15_9 m ρ c).trans (sup0_eq m ρ c V0 h2)
  have x : V9 m ρ c (Pipeline.arrRef spec6 1) = y1K V0 := y1b_eq m ρ c V0 h2 hY0b
  have z : V9 m ρ c (Pipeline.arrRef spec6 2) = y0K V0 :=
    (Cert.KernelIdeal.Carry.carry_main_v53_9 m ρ c).trans hY0
  rw [s, x, z] at e
  exact e

include h2 hY0b in
theorem y3_eq : W11 m ρ c (Proc.devRef .tc main_v57_0) = y3K V0 := by
  have e := W11_arr m ρ c 2
  rw [Cert.KernelIdeal.RegionValue.region7_2] at e
  have s : V10 m ρ c (Pipeline.arrRef spec7 0) = res_main_v14 V0 := (Cert.KernelIdeal.Carry.carry_main_v16_10 m ρ c).trans (sup1_eq m ρ c V0 h2)
  have x : V10 m ρ c (Pipeline.arrRef spec7 1) = y1K V0 :=
    (Cert.KernelIdeal.Carry.carry_main_v55_1_10 m ρ c).trans (y1b_eq m ρ c V0 h2 hY0b)
  rw [s, x] at e
  exact e

include h2 hY0b in
theorem y3b_eq : W11 m ρ c (Proc.devRef .tc main_v57_1) = y3K V0 := by
  have e := W11_arr m ρ c 3
  rw [Cert.KernelIdeal.RegionValue.region7_3] at e
  have s : V10 m ρ c (Pipeline.arrRef spec7 0) = res_main_v14 V0 := (Cert.KernelIdeal.Carry.carry_main_v16_10 m ρ c).trans (sup1_eq m ρ c V0 h2)
  have x : V10 m ρ c (Pipeline.arrRef spec7 1) = y1K V0 :=
    (Cert.KernelIdeal.Carry.carry_main_v55_1_10 m ρ c).trans (y1b_eq m ρ c V0 h2 hY0b)
  rw [s, x] at e
  exact e

include h2 hY0b in
theorem y4_eq : W12 m ρ c (Proc.devRef .tc main_v58) = y4K V0 := by
  have e := W12_arr m ρ c 3
  rw [Cert.KernelIdeal.RegionValue.region8_3] at e
  have s : V11 m ρ c (Pipeline.arrRef spec8 0) = res_main_v14 V0 := (Cert.KernelIdeal.Carry.carry_main_v16_11 m ρ c).trans (sup1_eq m ρ c V0 h2)
  have x : V11 m ρ c (Pipeline.arrRef spec8 1) = y3K V0 := y3b_eq m ρ c V0 h2 hY0b
  have z : V11 m ρ c (Pipeline.arrRef spec8 2) = y1K V0 :=
    (Cert.KernelIdeal.Carry.carry_main_v55_0_11 m ρ c).trans (y1_eq m ρ c V0 h2 hY0b)
  rw [s, x, z] at e
  exact e

/-! ## Against the reference's members -/

/-- The reference's general dot with a support on the left is the plain product. -/
theorem dot_Y (S : Cert.ReferenceIdeal.S2048x2048.Idx → EReal) (X : Cert.ReferenceIdeal.S2048x2080.Idx → EReal) :
    Host.dotGeneral (F := Ideal) (φ₁ := .f32) (φ₂ := .f32) Cert.ReferenceIdeal.dot_S2048x2048_S2048x2080_S2048x2080_1_0_0_1_n_n none S X
      = mm (M := 2048) (K := 2048) (N := 2080) S X :=
  dotGeneral_eq_mm _ rfl _ _

/-- The reference's Chebyshev step, entry by entry. -/
theorem comb_Y (Y Z : Cert.ReferenceIdeal.S2048x2080.Idx → EReal) :
    subf (mulf (broadcastInDim Cert.ReferenceIdeal.S2048x2080 ![] Cert.ReferenceIdeal.Gen.bcast_S_S2048x2080
        (constant (F := Ideal) Cert.ReferenceIdeal.S_ .f32 0x40000000#32)) Y) Z
      = fun i => two * Y i - Z i := by
  funext i
  show broadcastInDim Cert.ReferenceIdeal.S2048x2080 ![] Cert.ReferenceIdeal.Gen.bcast_S_S2048x2080 (constant (F := Ideal) Cert.ReferenceIdeal.S_ .f32 0x40000000#32) i * Y i - Z i = _
  rw [Cert.LayoutLib.broadcastInDim_scalar_apply]
  rfl

/-- The reference's third and fifth members. -/
abbrev y2R : Cert.ReferenceIdeal.S2048x2080.Idx → EReal :=
  subf (mulf (broadcastInDim Cert.ReferenceIdeal.S2048x2080 ![] Cert.ReferenceIdeal.Gen.bcast_S_S2048x2080
      (constant (F := Ideal) Cert.ReferenceIdeal.S_ .f32 0x40000000#32))
    (Host.dotGeneral (F := Ideal) (φ₁ := .f32) (φ₂ := .f32) Cert.ReferenceIdeal.dot_S2048x2048_S2048x2080_S2048x2080_1_0_0_1_n_n none (res_main_v6 V0) (res_main_v58 V0)))
    (res_main_v57 V0)
abbrev y4R : Cert.ReferenceIdeal.S2048x2080.Idx → EReal :=
  subf (mulf (broadcastInDim Cert.ReferenceIdeal.S2048x2080 ![] Cert.ReferenceIdeal.Gen.bcast_S_S2048x2080
      (constant (F := Ideal) Cert.ReferenceIdeal.S_ .f32 0x40000000#32))
    (Host.dotGeneral (F := Ideal) (φ₁ := .f32) (φ₂ := .f32) Cert.ReferenceIdeal.dot_S2048x2048_S2048x2080_S2048x2080_1_0_0_1_n_n none (res_main_v14 V0) (res_main_v63 V0)))
    (res_main_v58 V0)

variable (hYc : Cols65 (y0K V0) (res_main_v57 V0))

include hYc in
theorem y1_cols : Cols65 (y1K V0) (res_main_v58 V0) := by
  unfold Cert.ReferenceIdeal.Value.res_main_v58
  rw [dot_Y]
  exact cols65_mm _ _ _ hYc

include hYc in
theorem y2_cols : Cols65 (y2K V0) (y2R V0) := by
  unfold y2R
  rw [comb_Y, dot_Y]
  exact cols65_comb _ _ _ _ _ (cols65_mm _ _ _ (y1_cols V0 hYc)) hYc

include hYc in
theorem y3_cols : Cols65 (y3K V0) (res_main_v63 V0) := by
  unfold Cert.ReferenceIdeal.Value.res_main_v63
  rw [dot_Y]
  exact cols65_mm _ _ _ (y1_cols V0 hYc)

include hYc in
theorem y4_cols : Cols65 (y4K V0) (y4R V0) := by
  unfold y4R
  rw [comb_Y, dot_Y]
  exact cols65_comb _ _ _ _ _ (cols65_mm _ _ _ (y3_cols V0 hYc)) (y1_cols V0 hYc)

end Cert.Bridge
end
-- ==== Proof.BridgeCand0.lean ====
/-
  Layer 0's candidate and recurrent update, kernel against reference. A host stretch of the kernel program lays the
  five members of the candidate convolution out as rows of 65 features, slices the weight into its five [65, 64]
  parts and makes the bias one row; a region forms the hyperbolic tangent of the five products' sum and the bias;
  the next host stretch forms the new state u·h + (1 − u)·c, brings layer 1's state to the node-major layout and
  joins the two along the feature axis for layer 1's first convolution. Against the reference: its candidate
  multiplies the stacked members once by the whole weight, row b·2048 + n against the kernel's row n·32 + b; with
  the members related column by column the two candidates are one tensor in two layouts, so is the new state, an
  entrywise combination of tensors related the same way, and so is the joined input of layer 1.
-/
import proofs.«132349_j60696477827149_2_alg».proof.Proof.Bridge1
import proofs.«132349_j60696477827149_2_alg».proof.Proof.RegionsProjection
import proofs.«132349_j60696477827149_2_alg».proof.Proof.LibRelateActivation
import proofs.«132349_j60696477827149_2_alg».proof.Proof.LibProjection
import proofs.«132349_j60696477827149_2_alg».proof.Proof.KernelCarry
import proofs.«132349_j60696477827149_2_alg».proof.Proof.BridgeY

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate Cert.DenseLib
open Cert.ReferenceIdeal.Value (res_main_v6 res_main_v14 res_main_v18 res_main_v53 res_main_v57 res_main_v58 res_main_v63 res_main_v88 res_main_v91 res_main_v92 res_main_v95)

variable (m : (ℓ : Loc nD τ sig) → Buf (Elt Ideal) ℓ) (ρ : Dev nD → PrngReg) (c : Dev nD)
variable (V0 : Valuation Cert.ReferenceIdeal.τ Cert.ReferenceIdeal.sig (Elt Ideal))

section Buffers0
/-! After the host stretch that prepares the candidate's operands (the five members as rows of 65 features, the five
    slices of the weight, the bias as one row), the projection region, and the host stretch that forms the new state. -/

variable (h1 : V0 (Proc.devRef .tc Cert.ReferenceIdeal.main_arg1) = m ((c : Thread nD τ).loc main_arg1))
  (h5 : V0 (Proc.devRef .tc Cert.ReferenceIdeal.main_arg5) = m ((c : Thread nD τ).loc main_arg5))
  (h6 : V0 (Proc.devRef .tc Cert.ReferenceIdeal.main_arg6) = m ((c : Thread nD τ).loc main_arg6))
  (e0 : W8 m ρ c (Proc.devRef .tc main_v53) = y0K V0) (e1 : W9 m ρ c (Proc.devRef .tc main_v55_0) = y1K V0)
  (e2 : W10 m ρ c (Proc.devRef .tc main_v56) = y2K V0) (e3 : W11 m ρ c (Proc.devRef .tc main_v57_0) = y3K V0)
  (e4 : W12 m ρ c (Proc.devRef .tc main_v58) = y4K V0)
  (eu : W8 m ρ c (Proc.devRef .tc main_v50) = u0K V0) (eh : W1 m ρ c (Proc.devRef .tc main_v22) = hid0K V0)

include e0 in
theorem v70_eq : W13 m ρ c (Proc.devRef .tc main_v70) = shapeCast S65536x65 (y0K V0) shapeCasts_S2048x2080_S65536x65 := by
  show StableHlo.after hostOps9 (W12 m ρ c) (Proc.devRef .tc main_v70) = _
  after_results
  rw [Cert.KernelIdeal.Carry.carry_main_v53_12, e0]
  rfl

include e1 in
theorem v71_eq : W13 m ρ c (Proc.devRef .tc main_v71) = shapeCast S65536x65 (y1K V0) shapeCasts_S2048x2080_S65536x65 := by
  show StableHlo.after hostOps9 (W12 m ρ c) (Proc.devRef .tc main_v71) = _
  after_results
  rw [Cert.KernelIdeal.Carry.carry_main_v55_0_12, e1]
  rfl

include e2 in
theorem v72_eq : W13 m ρ c (Proc.devRef .tc main_v72) = shapeCast S65536x65 (y2K V0) shapeCasts_S2048x2080_S65536x65 := by
  show StableHlo.after hostOps9 (W12 m ρ c) (Proc.devRef .tc main_v72) = _
  after_results
  rw [Cert.KernelIdeal.Carry.carry_main_v56_12, e2]
  rfl

include e3 in
theorem v73_eq : W13 m ρ c (Proc.devRef .tc main_v73) = shapeCast S65536x65 (y3K V0) shapeCasts_S2048x2080_S65536x65 := by
  show StableHlo.after hostOps9 (W12 m ρ c) (Proc.devRef .tc main_v73) = _
  after_results
  rw [Cert.KernelIdeal.Carry.carry_main_v57_0_12, e3]
  rfl

include e4 in
theorem v74_eq : W13 m ρ c (Proc.devRef .tc main_v74) = shapeCast S65536x65 (y4K V0) shapeCasts_S2048x2080_S65536x65 := by
  show StableHlo.after hostOps9 (W12 m ρ c) (Proc.devRef .tc main_v74) = _
  after_results
  rw [e4]
  rfl

include h5 in
theorem v61_eq : W13 m ρ c (Proc.devRef .tc main_v61)
    = shapeCast S65x64 (extractStridedSlice S65x1x64 ![0, 0, 0] (shapeCast S65x5x64 (a5 V0) shapeCasts_S325x64_S65x5x64) slices_S65x5x64_S65x1x64_0_0_0) shapeCasts_S65x1x64_S65x64 := by
  show StableHlo.after hostOps9 (W12 m ρ c) (Proc.devRef .tc main_v61) = _
  after_results
  rw [Cert.KernelIdeal.Carry.carry_main_arg5_12, ← h5]
  rfl

include h5 in
theorem v63_eq : W13 m ρ c (Proc.devRef .tc main_v63)
    = shapeCast S65x64 (extractStridedSlice S65x1x64 ![0, 1, 0] (shapeCast S65x5x64 (a5 V0) shapeCasts_S325x64_S65x5x64) slices_S65x5x64_S65x1x64_0_1_0) shapeCasts_S65x1x64_S65x64 := by
  show StableHlo.after hostOps9 (W12 m ρ c) (Proc.devRef .tc main_v63) = _
  after_results
  rw [Cert.KernelIdeal.Carry.carry_main_arg5_12, ← h5]
  rfl

include h5 in
theorem v65_eq : W13 m ρ c (Proc.devRef .tc main_v65)
    = shapeCast S65x64 (extractStridedSlice S65x1x64 ![0, 2, 0] (shapeCast S65x5x64 (a5 V0) shapeCasts_S325x64_S65x5x64) slices_S65x5x64_S65x1x64_0_2_0) shapeCasts_S65x1x64_S65x64 := by
  show StableHlo.after hostOps9 (W12 m ρ c) (Proc.devRef .tc main_v65) = _
  after_results
  rw [Cert.KernelIdeal.Carry.carry_main_arg5_12, ← h5]
  rfl

include h5 in
theorem v67_eq : W13 m ρ c (Proc.devRef .tc main_v67)
    = shapeCast S65x64 (extractStridedSlice S65x1x64 ![0, 3, 0] (shapeCast S65x5x64 (a5 V0) shapeCasts_S325x64_S65x5x64) slices_S65x5x64_S65x1x64_0_3_0) shapeCasts_S65x1x64_S65x64 := by
  show StableHlo.after hostOps9 (W12 m ρ c) (Proc.devRef .tc main_v67) = _
  after_results
  rw [Cert.KernelIdeal.Carry.carry_main_arg5_12, ← h5]
  rfl

include h5 in
theorem v69_eq : W13 m ρ c (Proc.devRef .tc main_v69)
    = shapeCast S65x64 (extractStridedSlice S65x1x64 ![0, 4, 0] (shapeCast S65x5x64 (a5 V0) shapeCasts_S325x64_S65x5x64) slices_S65x5x64_S65x1x64_0_4_0) shapeCasts_S65x1x64_S65x64 := by
  show StableHlo.after hostOps9 (W12 m ρ c) (Proc.devRef .tc main_v69) = _
  after_results
  rw [Cert.KernelIdeal.Carry.carry_main_arg5_12, ← h5]
  rfl

include h6 in
theorem v75_eq : W13 m ρ c (Proc.devRef .tc main_v75) = shapeCast S1x64 (a6 V0) shapeCasts_S64_S1x64 := by
  show StableHlo.after hostOps9 (W12 m ρ c) (Proc.devRef .tc main_v75) = _
  after_results
  rw [Cert.KernelIdeal.Carry.carry_main_arg6_12, ← h6]
  rfl

/-- The activation of five products and a bias row is determined by its eleven operands. -/
theorem tanh_proj5_congr {M K N : ℕ} (X0 X1 X2 X3 X4 X0' X1' X2' X3' X4' : (⟨2, ![M, K]⟩ : Shape).Idx → EReal)
    (W0 W1 W2 W3 W4 W0' W1' W2' W3' W4' : (⟨2, ![K, N]⟩ : Shape).Idx → EReal) (B B' : (⟨2, ![1, N]⟩ : Shape).Idx → EReal)
    (hx0 : X0 = X0') (hx1 : X1 = X1') (hx2 : X2 = X2') (hx3 : X3 = X3') (hx4 : X4 = X4')
    (hw0 : W0 = W0') (hw1 : W1 = W1') (hw2 : W2 = W2') (hw3 : W3 = W3') (hw4 : W4 = W4') (hb : B = B') :
    (tanh (addf (addf (addf (addf (addf (mm X0 W0) (mm X1 W1)) (mm X2 W2)) (mm X3 W3)) (mm X4 W4))
      (rows fun q => B (ix2 (0 : Fin 1) q))) : FVec Ideal ⟨2, ![M, N]⟩ .f32)
      = tanh (proj5 X0' X1' X2' X3' X4' W0' W1' W2' W3' W4' B') := by
  subst hx0 hx1 hx2 hx3 hx4 hw0 hw1 hw2 hw3 hw4 hb
  rfl

include h5 h6 e0 e1 e2 e3 e4 in
set_option maxHeartbeats 1000000 in
/-- The candidate of layer 0, after its region. -/
theorem cand0_eq : W14 m ρ c (Proc.devRef .tc main_v76) = cand0K V0 := by
  refine (W14_arr m ρ c 11).trans ((Cert.KernelIdeal.RegionValue.region9_11 (V13 m ρ) c).trans ?_)
  exact tanh_proj5_congr _ _ _ _ _ _ _ _ _ _ _ _ _ _ _ _ _ _ _ _ _ _
    (v70_eq m ρ c V0 e0) (v71_eq m ρ c V0 e1) (v72_eq m ρ c V0 e2) (v73_eq m ρ c V0 e3) (v74_eq m ρ c V0 e4)
    (v61_eq m ρ c V0 h5) (v63_eq m ρ c V0 h5) (v65_eq m ρ c V0 h5) (v67_eq m ρ c V0 h5) (v69_eq m ρ c V0 h5) (v75_eq m ρ c V0 h6)

include h5 h6 e0 e1 e2 e3 e4 eu eh in
/-- The new state of layer 0. -/
theorem hK0_eq : W15 m ρ c (Proc.devRef .tc main_v82) = hK0 V0 := by
  show StableHlo.after hostOps10 (W14 m ρ c) (Proc.devRef .tc main_v82) = _
  after_results
  rw [cand0_eq m ρ c V0 h5 h6 e0 e1 e2 e3 e4, Cert.KernelIdeal.Carry.carry_main_v50_14, eu, Cert.KernelIdeal.Carry.carry_main_v22_14, eh]
  rfl

include h1 in
/-- Layer 1's state, node-major. -/
theorem hid1_eq : W15 m ρ c (Proc.devRef .tc main_v86) = hid1K V0 := by
  show StableHlo.after hostOps10 (W14 m ρ c) (Proc.devRef .tc main_v86) = _
  after_results
  unfold hid1K Cert.ReferenceIdeal.Value.res_main_v92
  rw [Cert.KernelIdeal.Carry.carry_main_arg1_14, h1]
  rfl

include h1 h5 h6 e0 e1 e2 e3 e4 eu eh in
/-- Layer 1's gate convolution input. -/
theorem z0_eq : W15 m ρ c (Proc.devRef .tc main_v88) = z0K V0 := by
  show StableHlo.after hostOps10 (W14 m ρ c) (Proc.devRef .tc main_v88) = _
  after_results
  unfold z0K hid1K Cert.ReferenceIdeal.Value.res_main_v92
  rw [cand0_eq m ρ c V0 h5 h6 e0 e1 e2 e3 e4, Cert.KernelIdeal.Carry.carry_main_v50_14, eu, Cert.KernelIdeal.Carry.carry_main_v22_14, eh,
    Cert.KernelIdeal.Carry.carry_main_arg1_14, h1]
  rfl

include h1 h5 h6 e0 e1 e2 e3 e4 eu eh in
/-- The same, narrowed to sixteen bits: on the extended reals the same array. -/
theorem z0b_eq : W15 m ρ c (Proc.devRef .tc main_v89) = truncf (F := Ideal) (s := S2048x4096) .bf16 (z0K V0) bitsLt_bf16_f32 := by
  show StableHlo.after hostOps10 (W14 m ρ c) (Proc.devRef .tc main_v89) = _
  after_results
  unfold z0K hid1K Cert.ReferenceIdeal.Value.res_main_v92
  rw [cand0_eq m ρ c V0 h5 h6 e0 e1 e2 e3 e4, Cert.KernelIdeal.Carry.carry_main_v50_14, eu, Cert.KernelIdeal.Carry.carry_main_v22_14, eh,
    Cert.KernelIdeal.Carry.carry_main_arg1_14, h1]
  rfl

end Buffers0

/-! ## Against the reference -/

/-- The reference's general dot with a support on the left is the plain product. -/
theorem dotSup2080 (S : Cert.ReferenceIdeal.S2048x2048.Idx → EReal) (X : Cert.ReferenceIdeal.S2048x2080.Idx → EReal) :
    Host.dotGeneral (F := Ideal) (φ₁ := .f32) (φ₂ := .f32) Cert.ReferenceIdeal.dot_S2048x2048_S2048x2080_S2048x2080_1_0_0_1_n_n none S X
      = mm (M := 2048) (K := 2048) (N := 2080) S X :=
  dotGeneral_eq_mm _ rfl _ _

/-- The reference's candidate before its activation: the stacked members against the whole weight, plus the bias. -/
abbrev pre0R : Cert.ReferenceIdeal.S65536x64.Idx → EReal :=
  addf (F := Ideal) (φ := .f32) (Host.dotGeneral (φ₁ := .f32) (φ₂ := .f32) Cert.ReferenceIdeal.dot_S65536x325_S325x64_S65536x64_1_0_0_1_n_n none
    (shapeCast Cert.ReferenceIdeal.S65536x325 (transpose Cert.ReferenceIdeal.S32x2048x65x5 [3, 1, 2, 0] (shapeCast Cert.ReferenceIdeal.S5x2048x65x32
      (concatenate Cert.ReferenceIdeal.S5x2048x2080 0
        [⟨Cert.ReferenceIdeal.S1x2048x2080, broadcastInDim Cert.ReferenceIdeal.S1x2048x2080 ![1, 2] Cert.ReferenceIdeal.Gen.bcast_S2048x2080_S1x2048x2080_1_2 (res_main_v57 V0)⟩,
         ⟨Cert.ReferenceIdeal.S1x2048x2080, broadcastInDim Cert.ReferenceIdeal.S1x2048x2080 ![1, 2] Cert.ReferenceIdeal.Gen.bcast_S2048x2080_S1x2048x2080_1_2 (res_main_v58 V0)⟩,
         ⟨Cert.ReferenceIdeal.S1x2048x2080, broadcastInDim Cert.ReferenceIdeal.S1x2048x2080 ![1, 2] Cert.ReferenceIdeal.Gen.bcast_S2048x2080_S1x2048x2080_1_2 (y2R V0)⟩,
         ⟨Cert.ReferenceIdeal.S1x2048x2080, broadcastInDim Cert.ReferenceIdeal.S1x2048x2080 ![1, 2] Cert.ReferenceIdeal.Gen.bcast_S2048x2080_S1x2048x2080_1_2 (res_main_v63 V0)⟩,
         ⟨Cert.ReferenceIdeal.S1x2048x2080, broadcastInDim Cert.ReferenceIdeal.S1x2048x2080 ![1, 2] Cert.ReferenceIdeal.Gen.bcast_S2048x2080_S1x2048x2080_1_2 (y4R V0)⟩]
        Cert.ReferenceIdeal.Gen.concatenates_S1x2048x2080_S1x2048x2080_S1x2048x2080_S1x2048x2080_S1x2048x2080_S5x2048x2080_d0)
      Cert.ReferenceIdeal.Gen.shapeCasts_S5x2048x2080_S5x2048x65x32) Cert.ReferenceIdeal.Gen.transposes_S5x2048x65x32_S32x2048x65x5_3_1_2_0)
      Cert.ReferenceIdeal.Gen.shapeCasts_S32x2048x65x5_S65536x325) (a5 V0))
    (broadcastInDim Cert.ReferenceIdeal.S65536x64 ![0, 1] Cert.ReferenceIdeal.Gen.bcast_S1x64_S65536x64_0_1
      (broadcastInDim Cert.ReferenceIdeal.S1x64 ![1] Cert.ReferenceIdeal.Gen.bcast_S64_S1x64_1 (a6 V0)))

/-- The reference's new state of layer 0, batch-major: u'·h' + (1 − u')·tanh(candidate). -/
abbrev X0' : Cert.ReferenceIdeal.S32x2048x64.Idx → EReal :=
  addf (F := Ideal) (φ := .f32) (mulf (res_main_v53 V0) (res_main_v18 V0))
    (mulf (subf (broadcastInDim Cert.ReferenceIdeal.S32x2048x64 ![] Cert.ReferenceIdeal.Gen.bcast_S_S32x2048x64
        (constant (F := Ideal) Cert.ReferenceIdeal.S_ .f32 0x3F800000#32)) (res_main_v53 V0))
      (Host.tanh (F := Ideal) (φ := .f32) (shapeCast Cert.ReferenceIdeal.S32x2048x64 (pre0R V0) Cert.ReferenceIdeal.Gen.shapeCasts_S65536x64_S32x2048x64)))

/-- The reference's named term for the new state is that array, flattened to [32, 131072]. -/
theorem res88_eq : res_main_v88 V0 = shapeCast Cert.ReferenceIdeal.S32x131072 (X0' V0) Cert.ReferenceIdeal.Gen.shapeCasts_S32x2048x64_S32x131072 := by
  unfold Cert.ReferenceIdeal.Value.res_main_v88
  rfl

/-- Reshaped back to [32, 2048, 64] it is that array again. -/
theorem res91_eq : res_main_v91 V0 = X0' V0 := by
  unfold Cert.ReferenceIdeal.Value.res_main_v91
  rw [res88_eq]
  exact shapeCast_shapeCast _ _ _

section Relations0
variable (c0 : Cols65 (y0K V0) (res_main_v57 V0)) (c1 : Cols65 (y1K V0) (res_main_v58 V0)) (c2 : Cols65 (y2K V0) (y2R V0))
  (c3 : Cols65 (y3K V0) (res_main_v63 V0)) (c4 : Cols65 (y4K V0) (y4R V0))
  (hu : Swap3 (u0K V0) (res_main_v53 V0))

include c0 c1 c2 c3 c4 in
/-- The two candidates before their activations, row n·32 + b against row b·2048 + n. -/
theorem pre0_rows : Rows (proj5 (M := 65536) (K := 65) (N := 64)
    (shapeCast S65536x65 (y0K V0) shapeCasts_S2048x2080_S65536x65) (shapeCast S65536x65 (y1K V0) shapeCasts_S2048x2080_S65536x65)
    (shapeCast S65536x65 (y2K V0) shapeCasts_S2048x2080_S65536x65) (shapeCast S65536x65 (y3K V0) shapeCasts_S2048x2080_S65536x65)
    (shapeCast S65536x65 (y4K V0) shapeCasts_S2048x2080_S65536x65)
    (shapeCast S65x64 (extractStridedSlice S65x1x64 ![0, 0, 0] (shapeCast S65x5x64 (a5 V0) shapeCasts_S325x64_S65x5x64) slices_S65x5x64_S65x1x64_0_0_0) shapeCasts_S65x1x64_S65x64)
    (shapeCast S65x64 (extractStridedSlice S65x1x64 ![0, 1, 0] (shapeCast S65x5x64 (a5 V0) shapeCasts_S325x64_S65x5x64) slices_S65x5x64_S65x1x64_0_1_0) shapeCasts_S65x1x64_S65x64)
    (shapeCast S65x64 (extractStridedSlice S65x1x64 ![0, 2, 0] (shapeCast S65x5x64 (a5 V0) shapeCasts_S325x64_S65x5x64) slices_S65x5x64_S65x1x64_0_2_0) shapeCasts_S65x1x64_S65x64)
    (shapeCast S65x64 (extractStridedSlice S65x1x64 ![0, 3, 0] (shapeCast S65x5x64 (a5 V0) shapeCasts_S325x64_S65x5x64) slices_S65x5x64_S65x1x64_0_3_0) shapeCasts_S65x1x64_S65x64)
    (shapeCast S65x64 (extractStridedSlice S65x1x64 ![0, 4, 0] (shapeCast S65x5x64 (a5 V0) shapeCasts_S325x64_S65x5x64) slices_S65x5x64_S65x1x64_0_4_0) shapeCasts_S65x1x64_S65x64)
    (shapeCast S1x64 (a6 V0) shapeCasts_S64_S1x64)) (pre0R V0) :=
  proj65_rows (O := 64) (y0K V0) (y1K V0) (y2K V0) (y3K V0) (y4K V0) (res_main_v57 V0) (res_main_v58 V0) (y2R V0) (res_main_v63 V0) (y4R V0)
    (a5 V0) (a6 V0) c0 c1 c2 c3 c4 _ _ _ _ _ _ _ _ _ _ _ _ _ _ _ rfl _ _

include c0 c1 c2 c3 c4 in
/-- The two candidates, node-major against batch-major. -/
theorem cand0_swap : Swap3 (c0K V0)
    (Host.tanh (F := Ideal) (φ := .f32) (shapeCast Cert.ReferenceIdeal.S32x2048x64 (pre0R V0) Cert.ReferenceIdeal.Gen.shapeCasts_S65536x64_S32x2048x64)) :=
  swap3_tanh _ _ _ _ (pre0_rows V0 c0 c1 c2 c3 c4)

include c0 c1 c2 c3 c4 hu in
/-- The new state of layer 0, node-major against batch-major. -/
theorem hK0_swap : Swap3 (hK0 V0) (X0' V0) :=
  swap3_addf _ _ _ _ (swap3_mulf _ _ _ _ hu (hid0_swap V0))
    (swap3_mulf _ _ _ _ (swap3_subf _ _ _ _ (swap3_const .f32 _ _ _) hu) (cand0_swap V0 c0 c1 c2 c3 c4))

include c0 c1 c2 c3 c4 hu in
theorem hK0_swap91 : Swap3 (hK0 V0) (res_main_v91 V0) := by
  rw [res91_eq]
  exact hK0_swap V0 c0 c1 c2 c3 c4 hu

/-- Layer 1's state, node-major against batch-major. -/
theorem hid1_swap : Swap3 (hid1K V0) (res_main_v92 V0) := swap3_transpose _ _

include c0 c1 c2 c3 c4 hu in
/-- Layer 1's gate convolution input: column b·128 + f against column f·32 + b. -/
theorem z0_cols : Cols128 (z0K V0) (res_main_v95 V0) := by
  unfold Cert.ReferenceIdeal.Value.res_main_v95
  exact cols128_of_swap3 _ _ _ _ _ (swap3_concat _ _ _ _ _ _ (hK0_swap91 V0 c0 c1 c2 c3 c4 hu) (hid1_swap V0))

end Relations0

end Cert.Bridge
end
-- ==== Proof.BridgeZ.lean ====
/-
  The second layer's gate graph convolution: its five members, kernel against reference.
  From an input X (columns b·F + f in one program, f·32 + b in the other) both programs form X, S₀X, 2·S₀(S₀X) − X,
  S₁(S₀X) and 2·S₁(S₁S₀X) − S₀X with the same two supports: a product on the left acts on each column separately,
  and the combination is entrywise, so the relation between the two column orders is kept member by member. In the
  kernel each product is one launched region whose result array is the whole-array product of the arrays it was
  launched on; a buffer written once is still there when a later region reads it.
-/
import proofs.«132349_j60696477827149_2_alg».proof.Proof.Bridge1
import proofs.«132349_j60696477827149_2_alg».proof.Proof.RegionsDiffusion
import proofs.«132349_j60696477827149_2_alg».proof.Proof.KernelCarry

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate Cert.DenseLib
open Cert.ReferenceIdeal.Value (res_main_v6 res_main_v14 res_main_v95 res_main_v96 res_main_v101)

variable (m : (ℓ : Loc nD τ sig) → Buf (Elt Ideal) ℓ) (ρ : Dev nD → PrngReg) (c : Dev nD)
variable (V0 : Valuation Cert.ReferenceIdeal.τ Cert.ReferenceIdeal.sig (Elt Ideal))
variable (h2 : V0 (Proc.devRef .tc Cert.ReferenceIdeal.main_arg2) = m ((c : Thread nD τ).loc main_arg2))
  (hZ0 : W15 m ρ c (Proc.devRef .tc main_v88) = z0K V0)
  (hZ0b : W15 m ρ c (Proc.devRef .tc main_v89) = truncf (F := Ideal) (s := S2048x4096) .bf16 (z0K V0) bitsLt_bf16_f32)

/-! ## The kernel's four regions -/

include h2 hZ0b in
theorem z1_eq : W16 m ρ c (Proc.devRef .tc main_v90_0) = z1K V0 := by
  have e := W16_arr m ρ c 2
  rw [Cert.KernelIdeal.RegionValue.region10_2] at e
  have s : V15 m ρ c (Pipeline.arrRef spec10 0) = res_main_v6 V0 := (Cert.KernelIdeal.Carry.carry_main_v15_15 m ρ c).trans (sup0_eq m ρ c V0 h2)
  have x : V15 m ρ c (Pipeline.arrRef spec10 1) = z0K V0 := hZ0b
  rw [s, x] at e
  exact e

include h2 hZ0b in
theorem z1b_eq : W16 m ρ c (Proc.devRef .tc main_v90_1) = z1K V0 := by
  have e := W16_arr m ρ c 3
  rw [Cert.KernelIdeal.RegionValue.region10_3] at e
  have s : V15 m ρ c (Pipeline.arrRef spec10 0) = res_main_v6 V0 := (Cert.KernelIdeal.Carry.carry_main_v15_15 m ρ c).trans (sup0_eq m ρ c V0 h2)
  have x : V15 m ρ c (Pipeline.arrRef spec10 1) = z0K V0 := hZ0b
  rw [s, x] at e
  exact e

include h2 hZ0 hZ0b in
theorem z2_eq : W17 m ρ c (Proc.devRef .tc main_v91) = z2K V0 := by
  have e := W17_arr m ρ c 3
  rw [Cert.KernelIdeal.RegionValue.region11_3] at e
  have s : V16 m ρ c (Pipeline.arrRef spec11 0) = res_main_v6 V0 := (Cert.KernelIdeal.Carry.carry_main_v15_16 m ρ c).trans (sup0_eq m ρ c V0 h2)
  have x : V16 m ρ c (Pipeline.arrRef spec11 1) = z1K V0 := z1b_eq m ρ c V0 h2 hZ0b
  have z : V16 m ρ c (Pipeline.arrRef spec11 2) = z0K V0 :=
    (Cert.KernelIdeal.Carry.carry_main_v88_16 m ρ c).trans hZ0
  rw [s, x, z] at e
  exact e

include h2 hZ0b in
theorem z3_eq : W18 m ρ c (Proc.devRef .tc main_v92_0) = z3K V0 := by
  have e := W18_arr m ρ c 2
  rw [Cert.KernelIdeal.RegionValue.region12_2] at e
  have s : V17 m ρ c (Pipeline.arrRef spec12 0) = res_main_v14 V0 := (Cert.KernelIdeal.Carry.carry_main_v16_17 m ρ c).trans (sup1_eq m ρ c V0 h2)
  have x : V17 m ρ c (Pipeline.arrRef spec12 1) = z1K V0 :=
    (Cert.KernelIdeal.Carry.carry_main_v90_1_17 m ρ c).trans (z1b_eq m ρ c V0 h2 hZ0b)
  rw [s, x] at e
  exact e

include h2 hZ0b in
theorem z3b_eq : W18 m ρ c (Proc.devRef .tc main_v92_1) = z3K V0 := by
  have e := W18_arr m ρ c 3
  rw [Cert.KernelIdeal.RegionValue.region12_3] at e
  have s : V17 m ρ c (Pipeline.arrRef spec12 0) = res_main_v14 V0 := (Cert.KernelIdeal.Carry.carry_main_v16_17 m ρ c).trans (sup1_eq m ρ c V0 h2)
  have x : V17 m ρ c (Pipeline.arrRef spec12 1) = z1K V0 :=
    (Cert.KernelIdeal.Carry.carry_main_v90_1_17 m ρ c).trans (z1b_eq m ρ c V0 h2 hZ0b)
  rw [s, x] at e
  exact e

include h2 hZ0b in
theorem z4_eq : W19 m ρ c (Proc.devRef .tc main_v93) = z4K V0 := by
  have e := W19_arr m ρ c 3
  rw [Cert.KernelIdeal.RegionValue.region13_3] at e
  have s : V18 m ρ c (Pipeline.arrRef spec13 0) = res_main_v14 V0 := (Cert.KernelIdeal.Carry.carry_main_v16_18 m ρ c).trans (sup1_eq m ρ c V0 h2)
  have x : V18 m ρ c (Pipeline.arrRef spec13 1) = z3K V0 := z3b_eq m ρ c V0 h2 hZ0b
  have z : V18 m ρ c (Pipeline.arrRef spec13 2) = z1K V0 :=
    (Cert.KernelIdeal.Carry.carry_main_v90_0_18 m ρ c).trans (z1_eq m ρ c V0 h2 hZ0b)
  rw [s, x, z] at e
  exact e

/-! ## Against the reference's members -/

/-- The reference's general dot with a support on the left is the plain product. -/
theorem dot_Z (S : Cert.ReferenceIdeal.S2048x2048.Idx → EReal) (X : Cert.ReferenceIdeal.S2048x4096.Idx → EReal) :
    Host.dotGeneral (F := Ideal) (φ₁ := .f32) (φ₂ := .f32) Cert.ReferenceIdeal.dot_S2048x2048_S2048x4096_S2048x4096_1_0_0_1_n_n none S X
      = mm (M := 2048) (K := 2048) (N := 4096) S X :=
  dotGeneral_eq_mm _ rfl _ _

/-- The reference's Chebyshev step, entry by entry. -/
theorem comb_Z (Y Z : Cert.ReferenceIdeal.S2048x4096.Idx → EReal) :
    subf (mulf (broadcastInDim Cert.ReferenceIdeal.S2048x4096 ![] Cert.ReferenceIdeal.Gen.bcast_S_S2048x4096
        (constant (F := Ideal) Cert.ReferenceIdeal.S_ .f32 0x40000000#32)) Y) Z
      = fun i => two * Y i - Z i := by
  funext i
  show broadcastInDim Cert.ReferenceIdeal.S2048x4096 ![] Cert.ReferenceIdeal.Gen.bcast_S_S2048x4096 (constant (F := Ideal) Cert.ReferenceIdeal.S_ .f32 0x40000000#32) i * Y i - Z i = _
  rw [Cert.LayoutLib.broadcastInDim_scalar_apply]
  rfl

/-- The reference's third and fifth members. -/
abbrev z2R : Cert.ReferenceIdeal.S2048x4096.Idx → EReal :=
  subf (mulf (broadcastInDim Cert.ReferenceIdeal.S2048x4096 ![] Cert.ReferenceIdeal.Gen.bcast_S_S2048x4096
      (constant (F := Ideal) Cert.ReferenceIdeal.S_ .f32 0x40000000#32))
    (Host.dotGeneral (F := Ideal) (φ₁ := .f32) (φ₂ := .f32) Cert.ReferenceIdeal.dot_S2048x2048_S2048x4096_S2048x4096_1_0_0_1_n_n none (res_main_v6 V0) (res_main_v96 V0)))
    (res_main_v95 V0)
abbrev z4R : Cert.ReferenceIdeal.S2048x4096.Idx → EReal :=
  subf (mulf (broadcastInDim Cert.ReferenceIdeal.S2048x4096 ![] Cert.ReferenceIdeal.Gen.bcast_S_S2048x4096
      (constant (F := Ideal) Cert.ReferenceIdeal.S_ .f32 0x40000000#32))
    (Host.dotGeneral (F := Ideal) (φ₁ := .f32) (φ₂ := .f32) Cert.ReferenceIdeal.dot_S2048x2048_S2048x4096_S2048x4096_1_0_0_1_n_n none (res_main_v14 V0) (res_main_v101 V0)))
    (res_main_v96 V0)

variable (hZc : Cols128 (z0K V0) (res_main_v95 V0))

include hZc in
theorem z1_cols : Cols128 (z1K V0) (res_main_v96 V0) := by
  unfold Cert.ReferenceIdeal.Value.res_main_v96
  rw [dot_Z]
  exact cols128_mm _ _ _ hZc

include hZc in
theorem z2_cols : Cols128 (z2K V0) (z2R V0) := by
  unfold z2R
  rw [comb_Z, dot_Z]
  exact cols128_comb _ _ _ _ _ (cols128_mm _ _ _ (z1_cols V0 hZc)) hZc

include hZc in
theorem z3_cols : Cols128 (z3K V0) (res_main_v101 V0) := by
  unfold Cert.ReferenceIdeal.Value.res_main_v101
  rw [dot_Z]
  exact cols128_mm _ _ _ (z1_cols V0 hZc)

include hZc in
theorem z4_cols : Cols128 (z4K V0) (z4R V0) := by
  unfold z4R
  rw [comb_Z, dot_Z]
  exact cols128_comb _ _ _ _ _ (cols128_mm _ _ _ (z3_cols V0 hZc)) (z1_cols V0 hZc)

end Cert.Bridge
end
-- ==== Proof.BridgeGate1.lean ====
/-
  The second layer's gate. Its five graph-convolution members, each flattened to rows n·32 + b, are multiplied by
  the five [128, 128] slices of the gate's weight, the products added from the left, the bias row added and the
  logistic function applied; the reference stacks its five members into one [32·2048, 640] array, multiplies once by
  the whole weight, adds the bias and spells the same function out. Reshaped to [2048, 32, 128] against
  [32, 2048, 128] the two gates hold one tensor in node-major and batch-major layout; so do their update halves, and
  the next convolution's input — the first layer's new state joined with the reset half times the second layer's
  state, flattened — holds in column b·128 + f what the reference's holds in column f·32 + b.
-/
import proofs.«132349_j60696477827149_2_alg».proof.Proof.Bridge1
import proofs.«132349_j60696477827149_2_alg».proof.Proof.RegionsProjection
import proofs.«132349_j60696477827149_2_alg».proof.Proof.KernelCarry
import proofs.«132349_j60696477827149_2_alg».proof.Proof.LibRelateActivation
import proofs.«132349_j60696477827149_2_alg».proof.Proof.LibProjection
import proofs.«132349_j60696477827149_2_alg».proof.Proof.BridgeZ

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate Cert.DenseLib
open Cert.ReferenceIdeal.Value (res_main_v6 res_main_v14 res_main_v91 res_main_v92 res_main_v95 res_main_v96 res_main_v101 res_main_v125 res_main_v127 res_main_v131)

variable (m : (ℓ : Loc nD τ sig) → Buf (Elt Ideal) ℓ) (ρ : Dev nD → PrngReg) (c : Dev nD)
variable (V0 : Valuation Cert.ReferenceIdeal.τ Cert.ReferenceIdeal.sig (Elt Ideal))
variable (h7 : V0 (Proc.devRef .tc Cert.ReferenceIdeal.main_arg7) = m ((c : Thread nD τ).loc main_arg7))
  (h8 : V0 (Proc.devRef .tc Cert.ReferenceIdeal.main_arg8) = m ((c : Thread nD τ).loc main_arg8))
  (hz0 : W15 m ρ c (Proc.devRef .tc main_v88) = z0K V0)
  (hz1 : W16 m ρ c (Proc.devRef .tc main_v90_0) = z1K V0)
  (hz2 : W17 m ρ c (Proc.devRef .tc main_v91) = z2K V0)
  (hz3 : W18 m ρ c (Proc.devRef .tc main_v92_0) = z3K V0)
  (hz4 : W19 m ρ c (Proc.devRef .tc main_v93) = z4K V0)
  (hh0 : W15 m ρ c (Proc.devRef .tc main_v82) = hK0 V0)
  (hhid1 : W15 m ρ c (Proc.devRef .tc main_v86) = hid1K V0)

/-! ## The operands of the projection, after the host stretch that prepares them -/

include hz0 in
/-- Operand 0 of the projection as the region finds it: member 0 flattened to rows. -/
theorem gate1_op0 : V20 m ρ c (Pipeline.arrRef spec14 0) = shapeCast S65536x128 (z0K V0) shapeCasts_S2048x4096_S65536x128 := by
  show StableHlo.after hostOps14 (W19 m ρ c) (Proc.devRef .tc main_v105) = _
  after_results
  rw [Cert.KernelIdeal.Carry.carry_main_v88_19 m ρ c, hz0]
  rfl

include hz1 in
/-- Operand 1 of the projection as the region finds it: member 1 flattened to rows. -/
theorem gate1_op1 : V20 m ρ c (Pipeline.arrRef spec14 1) = shapeCast S65536x128 (z1K V0) shapeCasts_S2048x4096_S65536x128 := by
  show StableHlo.after hostOps14 (W19 m ρ c) (Proc.devRef .tc main_v106) = _
  after_results
  rw [Cert.KernelIdeal.Carry.carry_main_v90_0_19 m ρ c, hz1]
  rfl

include hz2 in
/-- Operand 2 of the projection as the region finds it: member 2 flattened to rows. -/
theorem gate1_op2 : V20 m ρ c (Pipeline.arrRef spec14 2) = shapeCast S65536x128 (z2K V0) shapeCasts_S2048x4096_S65536x128 := by
  show StableHlo.after hostOps14 (W19 m ρ c) (Proc.devRef .tc main_v107) = _
  after_results
  rw [Cert.KernelIdeal.Carry.carry_main_v91_19 m ρ c, hz2]
  rfl

include hz3 in
/-- Operand 3 of the projection as the region finds it: member 3 flattened to rows. -/
theorem gate1_op3 : V20 m ρ c (Pipeline.arrRef spec14 3) = shapeCast S65536x128 (z3K V0) shapeCasts_S2048x4096_S65536x128 := by
  show StableHlo.after hostOps14 (W19 m ρ c) (Proc.devRef .tc main_v108) = _
  after_results
  rw [Cert.KernelIdeal.Carry.carry_main_v92_0_19 m ρ c, hz3]
  rfl

include hz4 in
/-- Operand 4 of the projection as the region finds it: member 4 flattened to rows. -/
theorem gate1_op4 : V20 m ρ c (Pipeline.arrRef spec14 4) = shapeCast S65536x128 (z4K V0) shapeCasts_S2048x4096_S65536x128 := by
  show StableHlo.after hostOps14 (W19 m ρ c) (Proc.devRef .tc main_v109) = _
  after_results
  rw [hz4]
  rfl

include h7 in
/-- Operand 5: slice 0 of the weight. -/
theorem gate1_op5 : V20 m ρ c (Pipeline.arrRef spec14 5)
    = shapeCast S128x128 (extractStridedSlice S128x1x128 ![0, 0, 0] (shapeCast S128x5x128 (a7 V0) shapeCasts_S640x128_S128x5x128) slices_S128x5x128_S128x1x128_0_0_0) shapeCasts_S128x1x128_S128x128 := by
  show StableHlo.after hostOps14 (W19 m ρ c) (Proc.devRef .tc main_v96) = _
  after_results
  rw [Cert.KernelIdeal.Carry.carry_main_arg7_19 m ρ c, ← h7]
  rfl

include h7 in
/-- Operand 6: slice 1 of the weight. -/
theorem gate1_op6 : V20 m ρ c (Pipeline.arrRef spec14 6)
    = shapeCast S128x128 (extractStridedSlice S128x1x128 ![0, 1, 0] (shapeCast S128x5x128 (a7 V0) shapeCasts_S640x128_S128x5x128) slices_S128x5x128_S128x1x128_0_1_0) shapeCasts_S128x1x128_S128x128 := by
  show StableHlo.after hostOps14 (W19 m ρ c) (Proc.devRef .tc main_v98) = _
  after_results
  rw [Cert.KernelIdeal.Carry.carry_main_arg7_19 m ρ c, ← h7]
  rfl

include h7 in
/-- Operand 7: slice 2 of the weight. -/
theorem gate1_op7 : V20 m ρ c (Pipeline.arrRef spec14 7)
    = shapeCast S128x128 (extractStridedSlice S128x1x128 ![0, 2, 0] (shapeCast S128x5x128 (a7 V0) shapeCasts_S640x128_S128x5x128) slices_S128x5x128_S128x1x128_0_2_0) shapeCasts_S128x1x128_S128x128 := by
  show StableHlo.after hostOps14 (W19 m ρ c) (Proc.devRef .tc main_v100) = _
  after_results
  rw [Cert.KernelIdeal.Carry.carry_main_arg7_19 m ρ c, ← h7]
  rfl

include h7 in
/-- Operand 8: slice 3 of the weight. -/
theorem gate1_op8 : V20 m ρ c (Pipeline.arrRef spec14 8)
    = shapeCast S128x128 (extractStridedSlice S128x1x128 ![0, 3, 0] (shapeCast S128x5x128 (a7 V0) shapeCasts_S640x128_S128x5x128) slices_S128x5x128_S128x1x128_0_3_0) shapeCasts_S128x1x128_S128x128 := by
  show StableHlo.after hostOps14 (W19 m ρ c) (Proc.devRef .tc main_v102) = _
  after_results
  rw [Cert.KernelIdeal.Carry.carry_main_arg7_19 m ρ c, ← h7]
  rfl

include h7 in
/-- Operand 9: slice 4 of the weight. -/
theorem gate1_op9 : V20 m ρ c (Pipeline.arrRef spec14 9)
    = shapeCast S128x128 (extractStridedSlice S128x1x128 ![0, 4, 0] (shapeCast S128x5x128 (a7 V0) shapeCasts_S640x128_S128x5x128) slices_S128x5x128_S128x1x128_0_4_0) shapeCasts_S128x1x128_S128x128 := by
  show StableHlo.after hostOps14 (W19 m ρ c) (Proc.devRef .tc main_v104) = _
  after_results
  rw [Cert.KernelIdeal.Carry.carry_main_arg7_19 m ρ c, ← h7]
  rfl

include h8 in
/-- Operand 10: the bias as one row. -/
theorem gate1_op10 : V20 m ρ c (Pipeline.arrRef spec14 10) = shapeCast S1x128 (a8 V0) shapeCasts_S128_S1x128 := by
  show StableHlo.after hostOps14 (W19 m ρ c) (Proc.devRef .tc main_v110) = _
  after_results
  rw [Cert.KernelIdeal.Carry.carry_main_arg8_19 m ρ c, ← h8]
  rfl

/-! ## The region, and the host stretch after it -/

set_option maxHeartbeats 1000000 in
include h7 h8 hz0 hz1 hz2 hz3 hz4 in
theorem gate1_eq : W21 m ρ c (Proc.devRef .tc main_v111) = gate1K V0 := by
  have e := W21_arr m ρ c 11
  rw [Cert.KernelIdeal.RegionValue.region14_11] at e
  rw [gate1_op0 m ρ c V0 hz0, gate1_op1 m ρ c V0 hz1, gate1_op2 m ρ c V0 hz2, gate1_op3 m ρ c V0 hz3, gate1_op4 m ρ c V0 hz4,
    gate1_op5 m ρ c V0 h7, gate1_op6 m ρ c V0 h7, gate1_op7 m ρ c V0 h7, gate1_op8 m ρ c V0 h7, gate1_op9 m ρ c V0 h7,
    gate1_op10 m ρ c V0 h8] at e
  exact e

include h7 h8 hz0 hz1 hz2 hz3 hz4 in
theorem g1_eq : W22 m ρ c (Proc.devRef .tc main_v112) = g1K V0 := by
  show StableHlo.after hostOps15 (W21 m ρ c) (Proc.devRef .tc main_v112) = _
  after_results
  rw [gate1_eq m ρ c V0 h7 h8 hz0 hz1 hz2 hz3 hz4]
  rfl

include h7 h8 hz0 hz1 hz2 hz3 hz4 in
theorem u1_eq : W22 m ρ c (Proc.devRef .tc main_v114) = u1K V0 := by
  show StableHlo.after hostOps15 (W21 m ρ c) (Proc.devRef .tc main_v114) = _
  after_results
  rw [gate1_eq m ρ c V0 h7 h8 hz0 hz1 hz2 hz3 hz4]
  rfl

include h7 h8 hz0 hz1 hz2 hz3 hz4 hh0 hhid1 in
theorem q0_eq : W22 m ρ c (Proc.devRef .tc main_v117) = q0K V0 := by
  show StableHlo.after hostOps15 (W21 m ρ c) (Proc.devRef .tc main_v117) = _
  after_results
  rw [gate1_eq m ρ c V0 h7 h8 hz0 hz1 hz2 hz3 hz4, Cert.KernelIdeal.Carry.carry_main_v82_21 m ρ c, Cert.KernelIdeal.Carry.carry_main_v86_21 m ρ c, hh0, hhid1]
  rfl

include h7 h8 hz0 hz1 hz2 hz3 hz4 hh0 hhid1 in
theorem q0b_eq : W22 m ρ c (Proc.devRef .tc main_v118) = truncf (F := Ideal) (s := S2048x4096) .bf16 (q0K V0) bitsLt_bf16_f32 := by
  show StableHlo.after hostOps15 (W21 m ρ c) (Proc.devRef .tc main_v118) = _
  after_results
  rw [gate1_eq m ρ c V0 h7 h8 hz0 hz1 hz2 hz3 hz4, Cert.KernelIdeal.Carry.carry_main_v82_21 m ρ c, Cert.KernelIdeal.Carry.carry_main_v86_21 m ρ c, hh0, hhid1]
  rfl

/-! ## Against the reference -/

variable (rz0 : Cols128 (z0K V0) (res_main_v95 V0)) (rz1 : Cols128 (z1K V0) (res_main_v96 V0))
  (rz2 : Cols128 (z2K V0) (z2R V0)) (rz3 : Cols128 (z3K V0) (res_main_v101 V0)) (rz4 : Cols128 (z4K V0) (z4R V0))
  (sh0 : Swap3 (hK0 V0) (res_main_v91 V0)) (shid1 : Swap3 (hid1K V0) (res_main_v92 V0))

set_option maxHeartbeats 1000000 in
include rz0 rz1 rz2 rz3 rz4 in
/-- The two gates, reshaped, are one tensor in node-major and batch-major layout. -/
theorem g1_swap : Swap3 (g1K V0) (res_main_v125 V0) := by
  unfold Cert.ReferenceIdeal.Value.res_main_v125
  exact swap3_gate _ _ _ _ _ (proj128_rows (O := 128) (z0K V0) (z1K V0) (z2K V0) (z3K V0) (z4K V0)
    (res_main_v95 V0) (res_main_v96 V0) (z2R V0) (res_main_v101 V0) (z4R V0) (a7 V0) (a8 V0) rz0 rz1 rz2 rz3 rz4
    _ _ _ _ _ _ _ _ _ _ _ _ _ _ _ rfl _ _)

include rz0 rz1 rz2 rz3 rz4 in
/-- So are their update halves. -/
theorem u1_swap : Swap3 (u1K V0) (res_main_v127 V0) := by
  unfold Cert.ReferenceIdeal.Value.res_main_v127
  exact swap3_slice 64 _ _ _ _ (g1_swap V0 rz0 rz1 rz2 rz3 rz4)

include rz0 rz1 rz2 rz3 rz4 sh0 shid1 in
/-- The candidate convolution's input: the first layer's new state joined with the reset state, flattened to columns. -/
theorem q0_cols : Cols128 (q0K V0) (res_main_v131 V0) := by
  unfold Cert.ReferenceIdeal.Value.res_main_v131
  exact cols128_of_swap3 _ _ _ _ _ (swap3_concat _ _ _ _ _ _ sh0
    (swap3_mulf _ _ _ _ (swap3_slice 0 _ _ _ _ (g1_swap V0 rz0 rz1 rz2 rz3 rz4)) shid1))

end Cert.Bridge
end
-- ==== Proof.BridgeQ.lean ====
/-
  The second layer's candidate graph convolution: its five members, kernel against reference.
  From an input X (columns b·F + f in one program, f·32 + b in the other) both programs form X, S₀X, 2·S₀(S₀X) − X,
  S₁(S₀X) and 2·S₁(S₁S₀X) − S₀X with the same two supports: a product on the left acts on each column separately,
  and the combination is entrywise, so the relation between the two column orders is kept member by member. In the
  kernel each product is one launched region whose result array is the whole-array product of the arrays it was
  launched on; a buffer written once is still there when a later region reads it.
-/
import proofs.«132349_j60696477827149_2_alg».proof.Proof.Bridge1
import proofs.«132349_j60696477827149_2_alg».proof.Proof.RegionsDiffusion
import proofs.«132349_j60696477827149_2_alg».proof.Proof.KernelCarry

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate Cert.DenseLib
open Cert.ReferenceIdeal.Value (res_main_v6 res_main_v14 res_main_v131 res_main_v132 res_main_v137)

variable (m : (ℓ : Loc nD τ sig) → Buf (Elt Ideal) ℓ) (ρ : Dev nD → PrngReg) (c : Dev nD)
variable (V0 : Valuation Cert.ReferenceIdeal.τ Cert.ReferenceIdeal.sig (Elt Ideal))
variable (h2 : V0 (Proc.devRef .tc Cert.ReferenceIdeal.main_arg2) = m ((c : Thread nD τ).loc main_arg2))
  (hQ0 : W22 m ρ c (Proc.devRef .tc main_v117) = q0K V0)
  (hQ0b : W22 m ρ c (Proc.devRef .tc main_v118) = truncf (F := Ideal) (s := S2048x4096) .bf16 (q0K V0) bitsLt_bf16_f32)

/-! ## The kernel's four regions -/

include h2 hQ0b in
theorem q1_eq : W23 m ρ c (Proc.devRef .tc main_v119_0) = q1K V0 := by
  have e := W23_arr m ρ c 2
  rw [Cert.KernelIdeal.RegionValue.region15_2] at e
  have s : V22 m ρ c (Pipeline.arrRef spec15 0) = res_main_v6 V0 := (Cert.KernelIdeal.Carry.carry_main_v15_22 m ρ c).trans (sup0_eq m ρ c V0 h2)
  have x : V22 m ρ c (Pipeline.arrRef spec15 1) = q0K V0 := hQ0b
  rw [s, x] at e
  exact e

include h2 hQ0b in
theorem q1b_eq : W23 m ρ c (Proc.devRef .tc main_v119_1) = q1K V0 := by
  have e := W23_arr m ρ c 3
  rw [Cert.KernelIdeal.RegionValue.region15_3] at e
  have s : V22 m ρ c (Pipeline.arrRef spec15 0) = res_main_v6 V0 := (Cert.KernelIdeal.Carry.carry_main_v15_22 m ρ c).trans (sup0_eq m ρ c V0 h2)
  have x : V22 m ρ c (Pipeline.arrRef spec15 1) = q0K V0 := hQ0b
  rw [s, x] at e
  exact e

include h2 hQ0 hQ0b in
theorem q2_eq : W24 m ρ c (Proc.devRef .tc main_v120) = q2K V0 := by
  have e := W24_arr m ρ c 3
  rw [Cert.KernelIdeal.RegionValue.region16_3] at e
  have s : V23 m ρ c (Pipeline.arrRef spec16 0) = res_main_v6 V0 := (Cert.KernelIdeal.Carry.carry_main_v15_23 m ρ c).trans (sup0_eq m ρ c V0 h2)
  have x : V23 m ρ c (Pipeline.arrRef spec16 1) = q1K V0 := q1b_eq m ρ c V0 h2 hQ0b
  have z : V23 m ρ c (Pipeline.arrRef spec16 2) = q0K V0 :=
    (Cert.KernelIdeal.Carry.carry_main_v117_23 m ρ c).trans hQ0
  rw [s, x, z] at e
  exact e

include h2 hQ0b in
theorem q3_eq : W25 m ρ c (Proc.devRef .tc main_v121_0) = q3K V0 := by
  have e := W25_arr m ρ c 2
  rw [Cert.KernelIdeal.RegionValue.region17_2] at e
  have s : V24 m ρ c (Pipeline.arrRef spec17 0) = res_main_v14 V0 := (Cert.KernelIdeal.Carry.carry_main_v16_24 m ρ c).trans (sup1_eq m ρ c V0 h2)
  have x : V24 m ρ c (Pipeline.arrRef spec17 1) = q1K V0 :=
    (Cert.KernelIdeal.Carry.carry_main_v119_1_24 m ρ c).trans (q1b_eq m ρ c V0 h2 hQ0b)
  rw [s, x] at e
  exact e

include h2 hQ0b in
theorem q3b_eq : W25 m ρ c (Proc.devRef .tc main_v121_1) = q3K V0 := by
  have e := W25_arr m ρ c 3
  rw [Cert.KernelIdeal.RegionValue.region17_3] at e
  have s : V24 m ρ c (Pipeline.arrRef spec17 0) = res_main_v14 V0 := (Cert.KernelIdeal.Carry.carry_main_v16_24 m ρ c).trans (sup1_eq m ρ c V0 h2)
  have x : V24 m ρ c (Pipeline.arrRef spec17 1) = q1K V0 :=
    (Cert.KernelIdeal.Carry.carry_main_v119_1_24 m ρ c).trans (q1b_eq m ρ c V0 h2 hQ0b)
  rw [s, x] at e
  exact e

include h2 hQ0b in
theorem q4_eq : W26 m ρ c (Proc.devRef .tc main_v122) = q4K V0 := by
  have e := W26_arr m ρ c 3
  rw [Cert.KernelIdeal.RegionValue.region18_3] at e
  have s : V25 m ρ c (Pipeline.arrRef spec18 0) = res_main_v14 V0 := (Cert.KernelIdeal.Carry.carry_main_v16_25 m ρ c).trans (sup1_eq m ρ c V0 h2)
  have x : V25 m ρ c (Pipeline.arrRef spec18 1) = q3K V0 := q3b_eq m ρ c V0 h2 hQ0b
  have z : V25 m ρ c (Pipeline.arrRef spec18 2) = q1K V0 :=
    (Cert.KernelIdeal.Carry.carry_main_v119_0_25 m ρ c).trans (q1_eq m ρ c V0 h2 hQ0b)
  rw [s, x, z] at e
  exact e

/-! ## Against the reference's members -/

/-- The reference's general dot with a support on the left is the plain product. -/
theorem dot_Q (S : Cert.ReferenceIdeal.S2048x2048.Idx → EReal) (X : Cert.ReferenceIdeal.S2048x4096.Idx → EReal) :
    Host.dotGeneral (F := Ideal) (φ₁ := .f32) (φ₂ := .f32) Cert.ReferenceIdeal.dot_S2048x2048_S2048x4096_S2048x4096_1_0_0_1_n_n none S X
      = mm (M := 2048) (K := 2048) (N := 4096) S X :=
  dotGeneral_eq_mm _ rfl _ _

/-- The reference's Chebyshev step, entry by entry. -/
theorem comb_Q (Y Z : Cert.ReferenceIdeal.S2048x4096.Idx → EReal) :
    subf (mulf (broadcastInDim Cert.ReferenceIdeal.S2048x4096 ![] Cert.ReferenceIdeal.Gen.bcast_S_S2048x4096
        (constant (F := Ideal) Cert.ReferenceIdeal.S_ .f32 0x40000000#32)) Y) Z
      = fun i => two * Y i - Z i := by
  funext i
  show broadcastInDim Cert.ReferenceIdeal.S2048x4096 ![] Cert.ReferenceIdeal.Gen.bcast_S_S2048x4096 (constant (F := Ideal) Cert.ReferenceIdeal.S_ .f32 0x40000000#32) i * Y i - Z i = _
  rw [Cert.LayoutLib.broadcastInDim_scalar_apply]
  rfl

/-- The reference's third and fifth members. -/
abbrev q2R : Cert.ReferenceIdeal.S2048x4096.Idx → EReal :=
  subf (mulf (broadcastInDim Cert.ReferenceIdeal.S2048x4096 ![] Cert.ReferenceIdeal.Gen.bcast_S_S2048x4096
      (constant (F := Ideal) Cert.ReferenceIdeal.S_ .f32 0x40000000#32))
    (Host.dotGeneral (F := Ideal) (φ₁ := .f32) (φ₂ := .f32) Cert.ReferenceIdeal.dot_S2048x2048_S2048x4096_S2048x4096_1_0_0_1_n_n none (res_main_v6 V0) (res_main_v132 V0)))
    (res_main_v131 V0)
abbrev q4R : Cert.ReferenceIdeal.S2048x4096.Idx → EReal :=
  subf (mulf (broadcastInDim Cert.ReferenceIdeal.S2048x4096 ![] Cert.ReferenceIdeal.Gen.bcast_S_S2048x4096
      (constant (F := Ideal) Cert.ReferenceIdeal.S_ .f32 0x40000000#32))
    (Host.dotGeneral (F := Ideal) (φ₁ := .f32) (φ₂ := .f32) Cert.ReferenceIdeal.dot_S2048x2048_S2048x4096_S2048x4096_1_0_0_1_n_n none (res_main_v14 V0) (res_main_v137 V0)))
    (res_main_v132 V0)

variable (hQc : Cols128 (q0K V0) (res_main_v131 V0))

include hQc in
theorem q1_cols : Cols128 (q1K V0) (res_main_v132 V0) := by
  unfold Cert.ReferenceIdeal.Value.res_main_v132
  rw [dot_Q]
  exact cols128_mm _ _ _ hQc

include hQc in
theorem q2_cols : Cols128 (q2K V0) (q2R V0) := by
  unfold q2R
  rw [comb_Q, dot_Q]
  exact cols128_comb _ _ _ _ _ (cols128_mm _ _ _ (q1_cols V0 hQc)) hQc

include hQc in
theorem q3_cols : Cols128 (q3K V0) (res_main_v137 V0) := by
  unfold Cert.ReferenceIdeal.Value.res_main_v137
  rw [dot_Q]
  exact cols128_mm _ _ _ (q1_cols V0 hQc)

include hQc in
theorem q4_cols : Cols128 (q4K V0) (q4R V0) := by
  unfold q4R
  rw [comb_Q, dot_Q]
  exact cols128_comb _ _ _ _ _ (cols128_mm _ _ _ (q3_cols V0 hQc)) (q1_cols V0 hQc)

end Cert.Bridge
end
-- ==== Proof.BridgeCand1Buf.lean ====
/-
  The last stage of the kernel program, buffer by buffer: the second layer's candidate convolution is projected (the
  weight cut into its five members' slices, the five members flattened to rows, the bias as one row; then the
  launched projection, whose output is the activation of the five products' sum and the bias row), and the last host
  stretch forms the new state u·h + (1 − u)·c, projects it to the output, and stacks the two new states. Each buffer is
  shown to hold the corresponding whole-array term over the reference's arguments, given what the earlier boundaries
  hold and that the argument arrays agree.
-/
import proofs.«132349_j60696477827149_2_alg».proof.Proof.Bridge1
import proofs.«132349_j60696477827149_2_alg».proof.Proof.RegionsProjection
import proofs.«132349_j60696477827149_2_alg».proof.Proof.KernelCarry

set_option maxRecDepth 16384

noncomputable section

namespace Cert.Bridge

open Cert.KernelIdeal Cert.KernelIdeal.Gen Cert.KernelIdeal.Carry
open Idealize.ShloMosaic Idealize.ShloMosaic.TcCoe Idealize.SL.Sem Idealize.ShloMosaic.StableHlo
open Idealize.ShloMosaic.ValueIdx Cert.Relate Cert.DenseLib

variable (m : (ℓ : Loc nD τ sig) → Buf (Elt Ideal) ℓ) (ρ : Dev nD → PrngReg) (c : Dev nD)
variable (V0 : Valuation Cert.ReferenceIdeal.τ Cert.ReferenceIdeal.sig (Elt Ideal))

/-! ## The projection's operands after the stretch that prepares them -/

/-- Member 0 of the convolution, flattened to rows. -/
theorem w27_main_v134 (hq0 : W22 m ρ c (Proc.devRef .tc main_v117) = q0K V0) :
    W27 m ρ c (Proc.devRef .tc main_v134) = shapeCast S65536x128 (q0K V0) shapeCasts_S2048x4096_S65536x128 := by
  show StableHlo.after hostOps19 (W26 m ρ c) (Proc.devRef .tc main_v134) = _
  after_results
  rw [carry_main_v117_26 m ρ c, hq0]
  rfl

/-- Member 1 of the convolution, flattened to rows. -/
theorem w27_main_v135 (hq1 : W23 m ρ c (Proc.devRef .tc main_v119_0) = q1K V0) :
    W27 m ρ c (Proc.devRef .tc main_v135) = shapeCast S65536x128 (q1K V0) shapeCasts_S2048x4096_S65536x128 := by
  show StableHlo.after hostOps19 (W26 m ρ c) (Proc.devRef .tc main_v135) = _
  after_results
  rw [carry_main_v119_0_26 m ρ c, hq1]
  rfl

/-- Member 2 of the convolution, flattened to rows. -/
theorem w27_main_v136 (hq2 : W24 m ρ c (Proc.devRef .tc main_v120) = q2K V0) :
    W27 m ρ c (Proc.devRef .tc main_v136) = shapeCast S65536x128 (q2K V0) shapeCasts_S2048x4096_S65536x128 := by
  show StableHlo.after hostOps19 (W26 m ρ c) (Proc.devRef .tc main_v136) = _
  after_results
  rw [carry_main_v120_26 m ρ c, hq2]
  rfl

/-- Member 3 of the convolution, flattened to rows. -/
theorem w27_main_v137 (hq3 : W25 m ρ c (Proc.devRef .tc main_v121_0) = q3K V0) :
    W27 m ρ c (Proc.devRef .tc main_v137) = shapeCast S65536x128 (q3K V0) shapeCasts_S2048x4096_S65536x128 := by
  show StableHlo.after hostOps19 (W26 m ρ c) (Proc.devRef .tc main_v137) = _
  after_results
  rw [carry_main_v121_0_26 m ρ c, hq3]
  rfl

/-- Member 4 of the convolution, flattened to rows. -/
theorem w27_main_v138 (hq4 : W26 m ρ c (Proc.devRef .tc main_v122) = q4K V0) :
    W27 m ρ c (Proc.devRef .tc main_v138) = shapeCast S65536x128 (q4K V0) shapeCasts_S2048x4096_S65536x128 := by
  show StableHlo.after hostOps19 (W26 m ρ c) (Proc.devRef .tc main_v138) = _
  after_results
  rw [hq4]
  rfl

/-- Slice 0 of the weight: the rows that multiply member 0. -/
theorem w27_main_v125 (h9 : V0 (Proc.devRef .tc Cert.ReferenceIdeal.main_arg9) = m ((c : Thread nD τ).loc main_arg9)) :
    W27 m ρ c (Proc.devRef .tc main_v125) = shapeCast S128x64 (extractStridedSlice S128x1x64 ![0, 0, 0] (shapeCast S128x5x64 (a9 V0) shapeCasts_S640x64_S128x5x64) slices_S128x5x64_S128x1x64_0_0_0) shapeCasts_S128x1x64_S128x64 := by
  show StableHlo.after hostOps19 (W26 m ρ c) (Proc.devRef .tc main_v125) = _
  after_results
  rw [carry_main_arg9_26 m ρ c, ← h9]
  rfl

/-- Slice 1 of the weight: the rows that multiply member 1. -/
theorem w27_main_v127 (h9 : V0 (Proc.devRef .tc Cert.ReferenceIdeal.main_arg9) = m ((c : Thread nD τ).loc main_arg9)) :
    W27 m ρ c (Proc.devRef .tc main_v127) = shapeCast S128x64 (extractStridedSlice S128x1x64 ![0, 1, 0] (shapeCast S128x5x64 (a9 V0) shapeCasts_S640x64_S128x5x64) slices_S128x5x64_S128x1x64_0_1_0) shapeCasts_S128x1x64_S128x64 := by
  show StableHlo.after hostOps19 (W26 m ρ c) (Proc.devRef .tc main_v127) = _
  after_results
  rw [carry_main_arg9_26 m ρ c, ← h9]
  rfl

/-- Slice 2 of the weight: the rows that multiply member 2. -/
theorem w27_main_v129 (h9 : V0 (Proc.devRef .tc Cert.ReferenceIdeal.main_arg9) = m ((c : Thread nD τ).loc main_arg9)) :
    W27 m ρ c (Proc.devRef .tc main_v129) = shapeCast S128x64 (extractStridedSlice S128x1x64 ![0, 2, 0] (shapeCast S128x5x64 (a9 V0) shapeCasts_S640x64_S128x5x64) slices_S128x5x64_S128x1x64_0_2_0) shapeCasts_S128x1x64_S128x64 := by
  show StableHlo.after hostOps19 (W26 m ρ c) (Proc.devRef .tc main_v129) = _
  after_results
  rw [carry_main_arg9_26 m ρ c, ← h9]
  rfl

/-- Slice 3 of the weight: the rows that multiply member 3. -/
theorem w27_main_v131 (h9 : V0 (Proc.devRef .tc Cert.ReferenceIdeal.main_arg9) = m ((c : Thread nD τ).loc main_arg9)) :
    W27 m ρ c (Proc.devRef .tc main_v131) = shapeCast S128x64 (extractStridedSlice S128x1x64 ![0, 3, 0] (shapeCast S128x5x64 (a9 V0) shapeCasts_S640x64_S128x5x64) slices_S128x5x64_S128x1x64_0_3_0) shapeCasts_S128x1x64_S128x64 := by
  show StableHlo.after hostOps19 (W26 m ρ c) (Proc.devRef .tc main_v131) = _
  after_results
  rw [carry_main_arg9_26 m ρ c, ← h9]
  rfl

/-- Slice 4 of the weight: the rows that multiply member 4. -/
theorem w27_main_v133 (h9 : V0 (Proc.devRef .tc Cert.ReferenceIdeal.main_arg9) = m ((c : Thread nD τ).loc main_arg9)) :
    W27 m ρ c (Proc.devRef .tc main_v133) = shapeCast S128x64 (extractStridedSlice S128x1x64 ![0, 4, 0] (shapeCast S128x5x64 (a9 V0) shapeCasts_S640x64_S128x5x64) slices_S128x5x64_S128x1x64_0_4_0) shapeCasts_S128x1x64_S128x64 := by
  show StableHlo.after hostOps19 (W26 m ρ c) (Proc.devRef .tc main_v133) = _
  after_results
  rw [carry_main_arg9_26 m ρ c, ← h9]
  rfl

/-- The bias as one row. -/
theorem w27_main_v139 (h10 : V0 (Proc.devRef .tc Cert.ReferenceIdeal.main_arg10) = m ((c : Thread nD τ).loc main_arg10)) :
    W27 m ρ c (Proc.devRef .tc main_v139) = shapeCast S1x64 (a10 V0) shapeCasts_S64_S1x64 := by
  show StableHlo.after hostOps19 (W26 m ρ c) (Proc.devRef .tc main_v139) = _
  after_results
  rw [carry_main_arg10_26 m ρ c, ← h10]
  rfl

/-! ## The launched projection -/

set_option maxHeartbeats 1000000 in
/-- The candidate of the second layer, before its reshape: the activation of the five products' sum and the bias row. -/
theorem cand1_buf (h9 : V0 (Proc.devRef .tc Cert.ReferenceIdeal.main_arg9) = m ((c : Thread nD τ).loc main_arg9)) (h10 : V0 (Proc.devRef .tc Cert.ReferenceIdeal.main_arg10) = m ((c : Thread nD τ).loc main_arg10))
    (hq0 : W22 m ρ c (Proc.devRef .tc main_v117) = q0K V0)
    (hq1 : W23 m ρ c (Proc.devRef .tc main_v119_0) = q1K V0)
    (hq2 : W24 m ρ c (Proc.devRef .tc main_v120) = q2K V0)
    (hq3 : W25 m ρ c (Proc.devRef .tc main_v121_0) = q3K V0)
    (hq4 : W26 m ρ c (Proc.devRef .tc main_v122) = q4K V0) :
    W28 m ρ c (Proc.devRef .tc main_v140) = cand1K V0 := by
  have e := W28_arr m ρ c 11
  rw [Cert.KernelIdeal.RegionValue.region19_11] at e
  have s0 : V27 m ρ c (Pipeline.arrRef spec19 0) = _ := w27_main_v134 m ρ c V0 hq0
  have s1 : V27 m ρ c (Pipeline.arrRef spec19 1) = _ := w27_main_v135 m ρ c V0 hq1
  have s2 : V27 m ρ c (Pipeline.arrRef spec19 2) = _ := w27_main_v136 m ρ c V0 hq2
  have s3 : V27 m ρ c (Pipeline.arrRef spec19 3) = _ := w27_main_v137 m ρ c V0 hq3
  have s4 : V27 m ρ c (Pipeline.arrRef spec19 4) = _ := w27_main_v138 m ρ c V0 hq4
  have s5 : V27 m ρ c (Pipeline.arrRef spec19 5) = _ := w27_main_v125 m ρ c V0 h9
  have s6 : V27 m ρ c (Pipeline.arrRef spec19 6) = _ := w27_main_v127 m ρ c V0 h9
  have s7 : V27 m ρ c (Pipeline.arrRef spec19 7) = _ := w27_main_v129 m ρ c V0 h9
  have s8 : V27 m ρ c (Pipeline.arrRef spec19 8) = _ := w27_main_v131 m ρ c V0 h9
  have s9 : V27 m ρ c (Pipeline.arrRef spec19 9) = _ := w27_main_v133 m ρ c V0 h9
  have s10 : V27 m ρ c (Pipeline.arrRef spec19 10) = _ := w27_main_v139 m ρ c V0 h10
  rw [s0, s1, s2, s3, s4, s5, s6, s7, s8, s9, s10] at e
  exact e

/-! ## The last host stretch -/

set_option maxHeartbeats 1000000 in
/-- The new state of the second layer: u·h + (1 − u)·c. -/
theorem hK1_buf (h9 : V0 (Proc.devRef .tc Cert.ReferenceIdeal.main_arg9) = m ((c : Thread nD τ).loc main_arg9)) (h10 : V0 (Proc.devRef .tc Cert.ReferenceIdeal.main_arg10) = m ((c : Thread nD τ).loc main_arg10))
    (hq0 : W22 m ρ c (Proc.devRef .tc main_v117) = q0K V0)
    (hq1 : W23 m ρ c (Proc.devRef .tc main_v119_0) = q1K V0)
    (hq2 : W24 m ρ c (Proc.devRef .tc main_v120) = q2K V0)
    (hq3 : W25 m ρ c (Proc.devRef .tc main_v121_0) = q3K V0)
    (hq4 : W26 m ρ c (Proc.devRef .tc main_v122) = q4K V0)
    (hu1 : W22 m ρ c (Proc.devRef .tc main_v114) = u1K V0) (hh1 : W15 m ρ c (Proc.devRef .tc main_v86) = hid1K V0) :
    W29 m ρ c (Proc.devRef .tc main_v146) = hK1 V0 := by
  show StableHlo.after hostOps20 (W28 m ρ c) (Proc.devRef .tc main_v146) = _
  after_results
  rw [cand1_buf m ρ c V0 h9 h10 hq0 hq1 hq2 hq3 hq4, carry_main_v114_28 m ρ c, hu1, carry_main_v86_28 m ρ c, hh1]
  rfl

set_option maxHeartbeats 2000000 in
/-- The first result: the new state projected with the [64, 1] weight and the bias, as a [32, 2048] matrix. -/
theorem outK_buf (h9 : V0 (Proc.devRef .tc Cert.ReferenceIdeal.main_arg9) = m ((c : Thread nD τ).loc main_arg9)) (h10 : V0 (Proc.devRef .tc Cert.ReferenceIdeal.main_arg10) = m ((c : Thread nD τ).loc main_arg10))
    (hq0 : W22 m ρ c (Proc.devRef .tc main_v117) = q0K V0)
    (hq1 : W23 m ρ c (Proc.devRef .tc main_v119_0) = q1K V0)
    (hq2 : W24 m ρ c (Proc.devRef .tc main_v120) = q2K V0)
    (hq3 : W25 m ρ c (Proc.devRef .tc main_v121_0) = q3K V0)
    (hq4 : W26 m ρ c (Proc.devRef .tc main_v122) = q4K V0)
    (hu1 : W22 m ρ c (Proc.devRef .tc main_v114) = u1K V0) (hh1 : W15 m ρ c (Proc.devRef .tc main_v86) = hid1K V0)
    (h11 : V0 (Proc.devRef .tc Cert.ReferenceIdeal.main_arg11) = m ((c : Thread nD τ).loc main_arg11)) (h12 : V0 (Proc.devRef .tc Cert.ReferenceIdeal.main_arg12) = m ((c : Thread nD τ).loc main_arg12)) :
    W29 m ρ c (Proc.devRef .tc main_v154) = outK V0 := by
  show StableHlo.after hostOps20 (W28 m ρ c) (Proc.devRef .tc main_v154) = _
  after_results
  rw [cand1_buf m ρ c V0 h9 h10 hq0 hq1 hq2 hq3 hq4, carry_main_v114_28 m ρ c, hu1, carry_main_v86_28 m ρ c, hh1,
    carry_main_arg11_28 m ρ c, ← h11, carry_main_arg12_28 m ρ c, ← h12]
  rfl

set_option maxHeartbeats 2000000 in
/-- The second result: the two layers' new states, batch-major and flattened, stacked. -/
theorem hidK_buf (h9 : V0 (Proc.devRef .tc Cert.ReferenceIdeal.main_arg9) = m ((c : Thread nD τ).loc main_arg9)) (h10 : V0 (Proc.devRef .tc Cert.ReferenceIdeal.main_arg10) = m ((c : Thread nD τ).loc main_arg10))
    (hq0 : W22 m ρ c (Proc.devRef .tc main_v117) = q0K V0)
    (hq1 : W23 m ρ c (Proc.devRef .tc main_v119_0) = q1K V0)
    (hq2 : W24 m ρ c (Proc.devRef .tc main_v120) = q2K V0)
    (hq3 : W25 m ρ c (Proc.devRef .tc main_v121_0) = q3K V0)
    (hq4 : W26 m ρ c (Proc.devRef .tc main_v122) = q4K V0)
    (hu1 : W22 m ρ c (Proc.devRef .tc main_v114) = u1K V0) (hh1 : W15 m ρ c (Proc.devRef .tc main_v86) = hid1K V0)
    (hh0 : W15 m ρ c (Proc.devRef .tc main_v82) = hK0 V0) :
    W29 m ρ c (Proc.devRef .tc main_v161) = hidK V0 := by
  show StableHlo.after hostOps20 (W28 m ρ c) (Proc.devRef .tc main_v161) = _
  after_results
  rw [cand1_buf m ρ c V0 h9 h10 hq0 hq1 hq2 hq3 hq4, carry_main_v114_28 m ρ c, hu1, carry_main_v86_28 m ρ c, hh1,
    carry_main_v82_28 m ρ c, hh0]
  rfl

end Cert.Bridge

end
-- ==== Proof.BridgeCand1Rel.lean ====
/-
  The second layer's new state in the two layouts. The reference's second result is a [32, 2048, 64] array flattened
  to [32, 131072]; reshaped back it is that array: u'·h' + (1 − u')·tanh(pre'), where pre' is the one product of the
  stacked five members with the whole weight plus the bias, reshaped to [32, 2048, 64]. The kernel program's new
  state is u·h + (1 − u)·c with c the activation of the five products' sum, reshaped to [2048, 32, 64]. When the
  five members hold the same tensors in the two column layouts and the update gate and the old state are related,
  the two new states are the node-major and batch-major layouts of one tensor: the projection acts row by row, the
  activation entry by entry, and so do the products, the difference and the sum.
-/
import proofs.«132349_j60696477827149_2_alg».proof.Proof.BridgeTerms
import proofs.«132349_j60696477827149_2_alg».proof.Proof.LibRelateLayout
import proofs.«132349_j60696477827149_2_alg».proof.Proof.LibRelateActivation
import proofs.«132349_j60696477827149_2_alg».proof.Proof.LibProjection
import proofs.«132349_j60696477827149_2_alg».proof.Proof.BridgeQ

set_option maxRecDepth 16384

noncomputable section

namespace Cert.Bridge

open Cert.KernelIdeal Cert.KernelIdeal.Gen
open Idealize.ShloMosaic Idealize.ShloMosaic.TcCoe Idealize.ShloMosaic.ValueIdx Cert.DenseLib Cert.Relate

variable (V0 : Valuation Cert.ReferenceIdeal.τ Cert.ReferenceIdeal.sig (Elt Ideal))

/-- The reference's second new state as a [32, 2048, 64] array: its flattened result reshaped back. -/
abbrev X1R : Cert.ReferenceIdeal.S32x2048x64.Idx → EReal :=
  shapeCast Cert.ReferenceIdeal.S32x2048x64 (Cert.ReferenceIdeal.Value.res_main_v162 V0)
    Cert.ReferenceIdeal.Gen.shapeCasts_S32x131072_S32x2048x64

/-- Flattened again it is the reference's result term: a reshape there and back is the identity. -/
theorem res_main_v162_eq :
    Cert.ReferenceIdeal.Value.res_main_v162 V0
      = shapeCast _ (X1R V0) Cert.ReferenceIdeal.Gen.shapeCasts_S32x2048x64_S32x131072 :=
  (shapeCast_shapeCast _ _ _).symm

set_option maxHeartbeats 1000000 in
/-- The kernel program's second new state is the reference's, with the node and batch axes swapped. -/
theorem hK1_X1R_swap
    (hq0 : Cols128 (q0K V0) (Cert.ReferenceIdeal.Value.res_main_v131 V0))
    (hq1 : Cols128 (q1K V0) (Cert.ReferenceIdeal.Value.res_main_v132 V0))
    (hq2 : Cols128 (q2K V0) (q2R V0))
    (hq3 : Cols128 (q3K V0) (Cert.ReferenceIdeal.Value.res_main_v137 V0))
    (hq4 : Cols128 (q4K V0) (q4R V0))
    (hu : Swap3 (u1K V0) (Cert.ReferenceIdeal.Value.res_main_v127 V0))
    (hh : Swap3 (hid1K V0) (Cert.ReferenceIdeal.Value.res_main_v92 V0)) :
    Swap3 (hK1 V0) (X1R V0) := by
  -- the array inside the reference's flattened result
  unfold X1R Cert.ReferenceIdeal.Value.res_main_v162
  rw [shapeCast_shapeCast]
  -- u·h + (1 − u)·c, entry by entry
  refine swap3_addf _ _ _ _ (swap3_mulf _ _ _ _ hu hh)
    (swap3_mulf _ _ _ _ (swap3_subf _ _ _ _ (swap3_const _ _ _ _) hu) ?_)
  -- the activation before the reshape on one side, after it on the other
  refine swap3_tanh _ _ _ _ ?_
  -- the five products against the one
  exact proj128_rows _ _ _ _ _ _ _ _ _ _ _ _ hq0 hq1 hq2 hq3 hq4 _ _ _ _ _ _ _ _ _ _ _ _ _ _ _ rfl _ _

end Cert.Bridge

end
-- ==== Proof.BridgeResults.lean ====
/-
  The kernel program's two results against the reference's two result terms, as whole arrays, given that the new
  states of the two layers are the same tensors in the node-major and the batch-major layouts: the projected output
  (a product with a [64, 1] weight and a bias, acting row by row, then read as a [32, 2048] matrix) and the two new
  states stacked. Also the reshape pair that the reference applies to its first new state cancels.
-/
import proofs.«132349_j60696477827149_2_alg».proof.Proof.BridgeTerms
import proofs.«132349_j60696477827149_2_alg».proof.Proof.LibRelateLayout

set_option maxRecDepth 16384

noncomputable section

namespace Cert.Relate

open Idealize.ShloMosaic Idealize.ShloMosaic.ValueIdx Cert.DenseLib

/-- The host's projection with a bias, spelt with the same operations on both sides, keeps the row relation: the general
    dot with one contracted axis is the product, which acts row by row, and the bias vector broadcast in two steps lays
    one row along all rows. -/
theorem rows_dot_bias {K O : ℕ} (D : DotDims ⟨2, ![65536, K]⟩ ⟨2, ![K, O]⟩ ⟨2, ![65536, O]⟩) (hD : D = DotDims.plain 65536 K O)
    (X X' : FVec Ideal ⟨2, ![65536, K]⟩ .f32) (w : FVec Ideal ⟨2, ![K, O]⟩ .f32) (β : FVec Ideal ⟨1, ![O]⟩ .f32)
    (h1 : (⟨1, ![O]⟩ : Shape).BroadcastsInDim ⟨2, ![1, O]⟩ (![1] : Fin 1 → Fin 2))
    (h2 : (⟨2, ![1, O]⟩ : Shape).BroadcastsInDim ⟨2, ![65536, O]⟩ (![0, 1] : Fin 2 → Fin 2))
    (hX : Rows X X') :
    Rows (addf (Host.dotGeneral D none X w) (broadcastInDim ⟨2, ![65536, O]⟩ ![0, 1] h2 (broadcastInDim ⟨2, ![1, O]⟩ ![1] h1 β)))
      (addf (Host.dotGeneral D none X' w) (broadcastInDim ⟨2, ![65536, O]⟩ ![0, 1] h2 (broadcastInDim ⟨2, ![1, O]⟩ ![1] h1 β))) := by
  rw [dotGeneral_eq_mm D hD, dotGeneral_eq_mm D hD, broadcastInDim_eq_rows β h1 h2]
  exact rows_mm_add X X' w _ _ hX (rows_rows _)

end Cert.Relate

namespace Cert.Bridge

open Cert.KernelIdeal Cert.KernelIdeal.Gen
open Idealize.ShloMosaic Idealize.ShloMosaic.TcCoe Idealize.ShloMosaic.ValueIdx Cert.DenseLib Cert.Relate

variable (V0 : Valuation Cert.ReferenceIdeal.τ Cert.ReferenceIdeal.sig (Elt Ideal))

/-- A reshape to [32, 131072] and back to [32, 2048, 64] is the identity. -/
theorem shapeCast_back (X : Cert.ReferenceIdeal.S32x2048x64.Idx → EReal) :
    shapeCast _ (shapeCast _ X Cert.ReferenceIdeal.Gen.shapeCasts_S32x2048x64_S32x131072) Cert.ReferenceIdeal.Gen.shapeCasts_S32x131072_S32x2048x64 = X :=
  shapeCast_shapeCast X _ _

/-- The reference's first new state, reshaped back, is the rank-three array it was flattened from. -/
theorem res_main_v91_eq (X0' : Cert.ReferenceIdeal.S32x2048x64.Idx → EReal)
    (hX0 : Cert.ReferenceIdeal.Value.res_main_v88 V0 = shapeCast _ X0' Cert.ReferenceIdeal.Gen.shapeCasts_S32x2048x64_S32x131072) :
    Cert.ReferenceIdeal.Value.res_main_v91 V0 = X0' := by
  unfold Cert.ReferenceIdeal.Value.res_main_v91
  rw [hX0]
  exact shapeCast_back X0'

/-- So a relation to that array is a relation to the reference's reshaped term. -/
theorem swap3_res_main_v91 (X0' : Cert.ReferenceIdeal.S32x2048x64.Idx → EReal)
    (hX0 : Cert.ReferenceIdeal.Value.res_main_v88 V0 = shapeCast _ X0' Cert.ReferenceIdeal.Gen.shapeCasts_S32x2048x64_S32x131072)
    (hS : Swap3 (hK0 V0) X0') : Swap3 (hK0 V0) (Cert.ReferenceIdeal.Value.res_main_v91 V0) := by
  rw [res_main_v91_eq V0 X0' hX0]
  exact hS

/-- The first result: the projected output as a [32, 2048] matrix. -/
theorem outK_eq (X1' : Cert.ReferenceIdeal.S32x2048x64.Idx → EReal)
    (hX : Cert.ReferenceIdeal.Value.res_main_v162 V0 = shapeCast _ X1' Cert.ReferenceIdeal.Gen.shapeCasts_S32x2048x64_S32x131072)
    (hS : Swap3 (hK1 V0) X1') :
    outK V0 = shapeCast _ (addf (F := Ideal) (φ := .f32) (Host.dotGeneral (φ₁ := .f32) (φ₂ := .f32) Cert.ReferenceIdeal.dot_S65536x64_S64x1_S65536x1_1_0_0_1_n_n none (shapeCast _ (Cert.ReferenceIdeal.Value.res_main_v162 V0) Cert.ReferenceIdeal.Gen.shapeCasts_S32x131072_S65536x64) (a11 V0)) (broadcastInDim Cert.ReferenceIdeal.S65536x1 ![0, 1] Cert.ReferenceIdeal.Gen.bcast_S1x1_S65536x1_0_1 (broadcastInDim Cert.ReferenceIdeal.S1x1 ![1] Cert.ReferenceIdeal.Gen.bcast_S1_S1x1_1 (a12 V0)))) Cert.ReferenceIdeal.Gen.shapeCasts_S65536x1_S32x2048 := by
  rw [hX]
  refine transpose_eq_of_rows _ _ _ _ _ _ ?_
  refine rows_dot_bias _ rfl _ _ _ _ _ _ ?_
  exact rows_of_swap3 (hK1 V0) X1' _ _ _ hS

/-- The second result: the two new states, each transposed to batch-major and flattened, stacked. -/
theorem hidK_eq (X0' X1' : Cert.ReferenceIdeal.S32x2048x64.Idx → EReal)
    (hX0 : Cert.ReferenceIdeal.Value.res_main_v88 V0 = shapeCast _ X0' Cert.ReferenceIdeal.Gen.shapeCasts_S32x2048x64_S32x131072)
    (hX1 : Cert.ReferenceIdeal.Value.res_main_v162 V0 = shapeCast _ X1' Cert.ReferenceIdeal.Gen.shapeCasts_S32x2048x64_S32x131072)
    (hS0 : Swap3 (hK0 V0) X0') (hS1 : Swap3 (hK1 V0) X1') :
    hidK V0 = concatenate Cert.ReferenceIdeal.S2x32x131072 0 [⟨Cert.ReferenceIdeal.S1x32x131072, broadcastInDim Cert.ReferenceIdeal.S1x32x131072 ![1, 2] Cert.ReferenceIdeal.Gen.bcast_S32x131072_S1x32x131072_1_2 (Cert.ReferenceIdeal.Value.res_main_v88 V0)⟩, ⟨Cert.ReferenceIdeal.S1x32x131072, broadcastInDim Cert.ReferenceIdeal.S1x32x131072 ![1, 2] Cert.ReferenceIdeal.Gen.bcast_S32x131072_S1x32x131072_1_2 (Cert.ReferenceIdeal.Value.res_main_v162 V0)⟩] Cert.ReferenceIdeal.Gen.concatenates_S1x32x131072_S1x32x131072_S2x32x131072_d0 := by
  have e0 := shapeCast_transpose_eq_of_swap3 (hK0 V0) X0' transposes_S2048x32x64_S32x2048x64_1_0_2 shapeCasts_S32x2048x64_S32x131072 hS0
  have e1 := shapeCast_transpose_eq_of_swap3 (hK1 V0) X1' transposes_S2048x32x64_S32x2048x64_1_0_2 shapeCasts_S32x2048x64_S32x131072 hS1
  rw [hX0, hX1]
  unfold hidK
  rw [e0, e1]

end Cert.Bridge

end
-- ==== Proof.BridgeAll.lean ====
/-
  The chain composed. Walking the kernel program's segments in order, each buffer that a later segment reads is
  identified with its stage array, and each stage array is related to the reference's term of the same stage:
  the layer-0 gate's five members, its projection and the gate's halves; the candidate's five members, its
  projection and the updated state; the same for layer 1 on the updated state; then the final projection and the
  stacked states. The last boundary's contents of the two result buffers are the reference's two result terms.
-/
import proofs.«132349_j60696477827149_2_alg».proof.Proof.BridgeX
import proofs.«132349_j60696477827149_2_alg».proof.Proof.BridgeGate0
import proofs.«132349_j60696477827149_2_alg».proof.Proof.BridgeY
import proofs.«132349_j60696477827149_2_alg».proof.Proof.BridgeCand0
import proofs.«132349_j60696477827149_2_alg».proof.Proof.BridgeZ
import proofs.«132349_j60696477827149_2_alg».proof.Proof.BridgeGate1
import proofs.«132349_j60696477827149_2_alg».proof.Proof.BridgeQ
import proofs.«132349_j60696477827149_2_alg».proof.Proof.BridgeCand1Buf
import proofs.«132349_j60696477827149_2_alg».proof.Proof.BridgeCand1Rel
import proofs.«132349_j60696477827149_2_alg».proof.Proof.BridgeResults

set_option maxRecDepth 16384

noncomputable section

namespace Cert.Bridge

open Cert.KernelIdeal Cert.KernelIdeal.Gen
open Idealize.ShloMosaic Idealize.ShloMosaic.TcCoe Idealize.SL.Sem Idealize.ShloMosaic.StableHlo
open Idealize.ShloMosaic.ValueIdx Cert.Relate Cert.DenseLib

variable (m : (ℓ : Loc nD τ sig) → Buf (Elt Ideal) ℓ) (ρ : Dev nD → PrngReg) (c : Dev nD)
variable (V0 : Valuation Cert.ReferenceIdeal.τ Cert.ReferenceIdeal.sig (Elt Ideal))
variable (h0 : V0 (Proc.devRef .tc Cert.ReferenceIdeal.main_arg0) = m ((c : Thread nD τ).loc main_arg0))
  (h1 : V0 (Proc.devRef .tc Cert.ReferenceIdeal.main_arg1) = m ((c : Thread nD τ).loc main_arg1))
  (h2 : V0 (Proc.devRef .tc Cert.ReferenceIdeal.main_arg2) = m ((c : Thread nD τ).loc main_arg2))
  (h3 : V0 (Proc.devRef .tc Cert.ReferenceIdeal.main_arg3) = m ((c : Thread nD τ).loc main_arg3))
  (h4 : V0 (Proc.devRef .tc Cert.ReferenceIdeal.main_arg4) = m ((c : Thread nD τ).loc main_arg4))
  (h5 : V0 (Proc.devRef .tc Cert.ReferenceIdeal.main_arg5) = m ((c : Thread nD τ).loc main_arg5))
  (h6 : V0 (Proc.devRef .tc Cert.ReferenceIdeal.main_arg6) = m ((c : Thread nD τ).loc main_arg6))
  (h7 : V0 (Proc.devRef .tc Cert.ReferenceIdeal.main_arg7) = m ((c : Thread nD τ).loc main_arg7))
  (h8 : V0 (Proc.devRef .tc Cert.ReferenceIdeal.main_arg8) = m ((c : Thread nD τ).loc main_arg8))
  (h9 : V0 (Proc.devRef .tc Cert.ReferenceIdeal.main_arg9) = m ((c : Thread nD τ).loc main_arg9))
  (h10 : V0 (Proc.devRef .tc Cert.ReferenceIdeal.main_arg10) = m ((c : Thread nD τ).loc main_arg10))
  (h11 : V0 (Proc.devRef .tc Cert.ReferenceIdeal.main_arg11) = m ((c : Thread nD τ).loc main_arg11))
  (h12 : V0 (Proc.devRef .tc Cert.ReferenceIdeal.main_arg12) = m ((c : Thread nD τ).loc main_arg12))

include h0 h1 h2 h3 h4 h5 h6 h7 h8 h9 h10 h11 h12 in
set_option maxHeartbeats 2000000 in
/-- The two result buffers at the last boundary are the reference's two result terms of the agreeing arguments. -/
theorem kernel_results :
    W29 m ρ c (Proc.devRef .tc main_v154) = shapeCast _ (addf (F := Ideal) (φ := .f32) (Host.dotGeneral (φ₁ := .f32) (φ₂ := .f32) Cert.ReferenceIdeal.dot_S65536x64_S64x1_S65536x1_1_0_0_1_n_n none (shapeCast _ (Cert.ReferenceIdeal.Value.res_main_v162 V0) Cert.ReferenceIdeal.Gen.shapeCasts_S32x131072_S65536x64) (a11 V0)) (broadcastInDim Cert.ReferenceIdeal.S65536x1 ![0, 1] Cert.ReferenceIdeal.Gen.bcast_S1x1_S65536x1_0_1 (broadcastInDim Cert.ReferenceIdeal.S1x1 ![1] Cert.ReferenceIdeal.Gen.bcast_S1_S1x1_1 (a12 V0)))) Cert.ReferenceIdeal.Gen.shapeCasts_S65536x1_S32x2048
    ∧ W29 m ρ c (Proc.devRef .tc main_v161) = concatenate Cert.ReferenceIdeal.S2x32x131072 0 [⟨Cert.ReferenceIdeal.S1x32x131072, broadcastInDim Cert.ReferenceIdeal.S1x32x131072 ![1, 2] Cert.ReferenceIdeal.Gen.bcast_S32x131072_S1x32x131072_1_2 (Cert.ReferenceIdeal.Value.res_main_v88 V0)⟩, ⟨Cert.ReferenceIdeal.S1x32x131072, broadcastInDim Cert.ReferenceIdeal.S1x32x131072 ![1, 2] Cert.ReferenceIdeal.Gen.bcast_S32x131072_S1x32x131072_1_2 (Cert.ReferenceIdeal.Value.res_main_v162 V0)⟩] Cert.ReferenceIdeal.Gen.concatenates_S1x32x131072_S1x32x131072_S2x32x131072_d0 := by
  -- the input, the first state and the gate convolution's members of layer 0
  have eI := inp_eq m ρ c V0 h0
  have eH := hid0_eq m ρ c V0 h1
  have eX0 := x0_eq m ρ c V0 h0 h1
  have eX1 := x1_eq m ρ c V0 h0 h1 h2
  have eX2 := x2_eq m ρ c V0 h0 h1 h2
  have eX3 := x3_eq m ρ c V0 h0 h1 h2
  have eX4 := x4_eq m ρ c V0 h0 h1 h2
  have rI := inp_swap V0
  have rH := hid0_swap V0
  have rX0 := x0_cols V0
  have rX1 := x1_cols V0
  have rX2 := x2_cols V0
  have rX3 := x3_cols V0
  have rX4 := x4_cols V0
  -- the gate of layer 0 and the candidate convolution's input
  have eG0 := g0_gate m ρ c V0 h3 h4 eX0 eX1 eX2 eX3 eX4
  have eU0 := g0_u m ρ c V0 eG0
  have eY0 := g0_y m ρ c V0 eI eH eG0
  have eY0b := g0_yb m ρ c V0 eI eH eG0
  have rU0 := u0_swap V0 rX0 rX1 rX2 rX3 rX4
  have rY0 := y0_cols V0 rX0 rX1 rX2 rX3 rX4 rI rH
  -- the candidate convolution's members of layer 0
  have eY1 := y1_eq m ρ c V0 h2 eY0b
  have eY2 := y2_eq m ρ c V0 h2 eY0 eY0b
  have eY3 := y3_eq m ρ c V0 h2 eY0b
  have eY4 := y4_eq m ρ c V0 h2 eY0b
  have rY1 := y1_cols V0 rY0
  have rY2 := y2_cols V0 rY0
  have rY3 := y3_cols V0 rY0
  have rY4 := y4_cols V0 rY0
  -- the candidate, the updated state of layer 0, and layer 1's gate input
  have eHK0 := hK0_eq m ρ c V0 h5 h6 eY0 eY1 eY2 eY3 eY4 eU0 eH
  have eHid1 := hid1_eq m ρ c V0 h1
  have eZ0 := z0_eq m ρ c V0 h1 h5 h6 eY0 eY1 eY2 eY3 eY4 eU0 eH
  have eZ0b := z0b_eq m ρ c V0 h1 h5 h6 eY0 eY1 eY2 eY3 eY4 eU0 eH
  have rHK0X := hK0_swap V0 rY0 rY1 rY2 rY3 rY4 rU0
  have rHK0 := hK0_swap91 V0 rY0 rY1 rY2 rY3 rY4 rU0
  have hX0 := res88_eq V0
  have rHid1 := hid1_swap V0
  have rZ0 := z0_cols V0 rY0 rY1 rY2 rY3 rY4 rU0
  -- the gate convolution's members of layer 1
  have eZ1 := z1_eq m ρ c V0 h2 eZ0b
  have eZ2 := z2_eq m ρ c V0 h2 eZ0 eZ0b
  have eZ3 := z3_eq m ρ c V0 h2 eZ0b
  have eZ4 := z4_eq m ρ c V0 h2 eZ0b
  have rZ1 := z1_cols V0 rZ0
  have rZ2 := z2_cols V0 rZ0
  have rZ3 := z3_cols V0 rZ0
  have rZ4 := z4_cols V0 rZ0
  -- the gate of layer 1 and the candidate convolution's input
  have eU1 := u1_eq m ρ c V0 h7 h8 eZ0 eZ1 eZ2 eZ3 eZ4
  have eQ0 := q0_eq m ρ c V0 h7 h8 eZ0 eZ1 eZ2 eZ3 eZ4 eHK0 eHid1
  have eQ0b := q0b_eq m ρ c V0 h7 h8 eZ0 eZ1 eZ2 eZ3 eZ4 eHK0 eHid1
  have rU1 := u1_swap V0 rZ0 rZ1 rZ2 rZ3 rZ4
  have rQ0 := q0_cols V0 rZ0 rZ1 rZ2 rZ3 rZ4 rHK0 rHid1
  -- the candidate convolution's members of layer 1
  have eQ1 := q1_eq m ρ c V0 h2 eQ0b
  have eQ2 := q2_eq m ρ c V0 h2 eQ0 eQ0b
  have eQ3 := q3_eq m ρ c V0 h2 eQ0b
  have eQ4 := q4_eq m ρ c V0 h2 eQ0b
  have rQ1 := q1_cols V0 rQ0
  have rQ2 := q2_cols V0 rQ0
  have rQ3 := q3_cols V0 rQ0
  have rQ4 := q4_cols V0 rQ0
  -- the candidate and the updated state of layer 1, the final projection and the stacked states
  have eOut := outK_buf m ρ c V0 h9 h10 eQ0 eQ1 eQ2 eQ3 eQ4 eU1 eHid1 h11 h12
  have eHid := hidK_buf m ρ c V0 h9 h10 eQ0 eQ1 eQ2 eQ3 eQ4 eU1 eHid1 eHK0
  have rHK1 := hK1_X1R_swap V0 rQ0 rQ1 rQ2 rQ3 rQ4 rU1 rHid1
  exact ⟨eOut.trans (outK_eq V0 (X1R V0) (res_main_v162_eq V0) rHK1),
    eHid.trans (hidK_eq V0 _ (X1R V0) hX0 (res_main_v162_eq V0) rHK0X rHK1)⟩

include h0 h1 h2 h3 h4 h5 h6 h7 h8 h9 h10 h11 h12 in
theorem kernel_out : W29 m ρ c (Proc.devRef .tc main_v154) = shapeCast _ (addf (F := Ideal) (φ := .f32) (Host.dotGeneral (φ₁ := .f32) (φ₂ := .f32) Cert.ReferenceIdeal.dot_S65536x64_S64x1_S65536x1_1_0_0_1_n_n none (shapeCast _ (Cert.ReferenceIdeal.Value.res_main_v162 V0) Cert.ReferenceIdeal.Gen.shapeCasts_S32x131072_S65536x64) (a11 V0)) (broadcastInDim Cert.ReferenceIdeal.S65536x1 ![0, 1] Cert.ReferenceIdeal.Gen.bcast_S1x1_S65536x1_0_1 (broadcastInDim Cert.ReferenceIdeal.S1x1 ![1] Cert.ReferenceIdeal.Gen.bcast_S1_S1x1_1 (a12 V0)))) Cert.ReferenceIdeal.Gen.shapeCasts_S65536x1_S32x2048 :=
  (kernel_results m ρ c V0 h0 h1 h2 h3 h4 h5 h6 h7 h8 h9 h10 h11 h12).1

include h0 h1 h2 h3 h4 h5 h6 h7 h8 h9 h10 h11 h12 in
theorem kernel_hid : W29 m ρ c (Proc.devRef .tc main_v161) = concatenate Cert.ReferenceIdeal.S2x32x131072 0 [⟨Cert.ReferenceIdeal.S1x32x131072, broadcastInDim Cert.ReferenceIdeal.S1x32x131072 ![1, 2] Cert.ReferenceIdeal.Gen.bcast_S32x131072_S1x32x131072_1_2 (Cert.ReferenceIdeal.Value.res_main_v88 V0)⟩, ⟨Cert.ReferenceIdeal.S1x32x131072, broadcastInDim Cert.ReferenceIdeal.S1x32x131072 ![1, 2] Cert.ReferenceIdeal.Gen.bcast_S32x131072_S1x32x131072_1_2 (Cert.ReferenceIdeal.Value.res_main_v162 V0)⟩] Cert.ReferenceIdeal.Gen.concatenates_S1x32x131072_S1x32x131072_S2x32x131072_d0 :=
  (kernel_results m ρ c V0 h0 h1 h2 h3 h4 h5 h6 h7 h8 h9 h10 h11 h12).2

end Cert.Bridge

end
-- ==== Proof.lean ====
/-
  The certificate of a two-layer diffusion-convolution recurrent cell. The kernel program launches twenty
  regions — for each of the four graph convolutions (a gate and a candidate per layer) four products with the two
  random-walk supports, forming the members X, S₀X, 2·S₀(S₀X) − X, S₁(S₀X), 2·S₁(S₁S₀X) − S₀X, and one projection
  that sums the five members' products with five slices of the weight, adds the bias and applies the activation —
  among host stretches that reshape, slice, join and combine. It keeps every tensor node-major, [2048, 32, F]. The
  reference keeps them batch-major, [32, 2048, F], flattens through a transpose, and contracts the five members
  stacked along a last axis with the whole weight in one product.
  At the ideal instance a change of float format is the identity and every operation is exact, so the two
  programs differ only in layout and in the grouping of one finite sum: a product on the left acts on each column
  separately, entrywise operations act on each entry, and the sum over the 5·F stacked positions regroups as five
  sums over F — commutativity and associativity of addition on the extended reals, with no finiteness needed. The
  two supports are computed by the same operations on both sides, and the sigmoid is one function however spelled.
  The three frames are the generated ones (the reference's from its run); the ideal pass rewrote nothing.
-/
import proofs.«132349_j60696477827149_2_alg».proof.Defs
import proofs.«132349_j60696477827149_2_alg».proof.Proof.Gen.Kernel
import proofs.«132349_j60696477827149_2_alg».proof.Proof.Gen.Kernel.Skeleton
import proofs.«132349_j60696477827149_2_alg».proof.Proof.Gen.Kernel.Launch
import proofs.«132349_j60696477827149_2_alg».proof.Proof.Gen.Kernel.Points
import proofs.«132349_j60696477827149_2_alg».proof.Proof.Gen.Kernel.Frame
import proofs.«132349_j60696477827149_2_alg».proof.Proof.Gen.KernelIdeal
import proofs.«132349_j60696477827149_2_alg».proof.Proof.Gen.KernelIdeal.Skeleton
import proofs.«132349_j60696477827149_2_alg».proof.Proof.Gen.KernelIdeal.Launch
import proofs.«132349_j60696477827149_2_alg».proof.Proof.Gen.KernelIdeal.Points
import proofs.«132349_j60696477827149_2_alg».proof.Proof.Gen.KernelIdeal.Frame
import proofs.«132349_j60696477827149_2_alg».proof.Proof.Gen.ReferenceIdeal
import proofs.«132349_j60696477827149_2_alg».proof.Proof.Gen.ReferenceIdeal.Run
import proofs.«132349_j60696477827149_2_alg».proof.Proof.Gen.Pre_finite_inputs
import proofs.«132349_j60696477827149_2_alg».proof.Proof.KernelRun
import proofs.«132349_j60696477827149_2_alg».proof.Proof.BridgeAll
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launched region: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both programs run; the kernel's two result buffers end at the last boundary's contents, which the chain
    through its segments identifies with the reference's two result terms of agreeing arguments. -/
theorem algebraic : Cert.algebraic_KernelIdeal_ReferenceIdeal := by
  intro m ρ m' ρ' _ hagree
  refine ⟨fun c => Cert.KernelIdeal.Gen.W29 m ρ c (Proc.devRef .tc Cert.KernelIdeal.main_v154),
    fun c => Cert.KernelIdeal.Gen.W29 m ρ c (Proc.devRef .tc Cert.KernelIdeal.main_v161),
    Cert.KernelIdeal.RunValue.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact (Cert.Bridge.kernel_out m ρ c (StableHlo.launchContents m' c)
      (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2).symm
  · exact (Cert.Bridge.kernel_hid m ρ c (StableHlo.launchContents m' c)
      (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
